-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v72)) (v1 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_v79) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_v85) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048 : Shape := ⟨2, ![8, 2048]⟩
abbrev S8x2048x1024 : Shape := ⟨3, ![8, 2048, 1024]⟩
abbrev S101x1024 : Shape := ⟨2, ![101, 1024]⟩
abbrev S64x1024 : Shape := ⟨2, ![64, 1024]⟩
abbrev S64 : Shape := ⟨1, ![64]⟩
abbrev S32x1024 : Shape := ⟨2, ![32, 1024]⟩
abbrev S32 : Shape := ⟨1, ![32]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S101x1024 : S_.BroadcastsInDim S101x1024 (![] : Fin 0 → Fin S101x1024.rank)
  reducesTo_S101x1024_S_d0_1 : S101x1024.ReducesTo [0, 1] S_
  bcast_S_S64x1024 : S_.BroadcastsInDim S64x1024 (![] : Fin 0 → Fin S64x1024.rank)
  reducesTo_S64x1024_S_d0_1 : S64x1024.ReducesTo [0, 1] S_
  bcast_S_S64 : S_.BroadcastsInDim S64 (![] : Fin 0 → Fin S64.rank)
  reducesTo_S64_S_d0 : S64.ReducesTo [0] S_
  bcast_S_S32x1024 : S_.BroadcastsInDim S32x1024 (![] : Fin 0 → Fin S32x1024.rank)
  reducesTo_S32x1024_S_d0_1 : S32x1024.ReducesTo [0, 1] S_
  bcast_S_S32 : S_.BroadcastsInDim S32 (![] : Fin 0 → Fin S32.rank)
  reducesTo_S32_S_d0 : S32.ReducesTo [0] S_
  reducesTo_S_S_d : S_.ReducesTo [] S_

variable [Facts]

def fn_part3 {F : FTy → Type} [FloatOps F] (main_v48 : IVec S_ 1) (main_v49 : FVec F S_ .f32) : IVec S_ 1 :=
  let main_cst_20 : FVec F S_ .f32 := constant S_ .f32 0x7F800000#32
  let main_v50 : IVec S_ 1 := cmpf .olt main_v49 main_cst_20
  let main_c_21 : IVec S_ 1 := constantI S_ 1 1#1
  let main_v51 : IVec S_ 1 := (fun x v => Host.reduce IntOp.andi x v reducesTo_S_S_d h_S_) main_v50 main_c_21
  let main_v52 : IVec S_ 1 := andi main_v48 main_v51
  main_v52

def fn_part2 {F : FTy → Type} [FloatOps F] (main_arg9 : FVec F S_ .f32) (main_arg10 : FVec F S_ .f32) (main_arg11 : FVec F S_ .f32) (main_arg12 : FVec F S_ .f32) (main_v32 : IVec S_ 1) (main_v33 : FVec F S_ .f32) : IVec S_ 1 :=
  let main_cst_12 : FVec F S_ .f32 := constant S_ .f32 0x7F800000#32
  let main_v34 : IVec S_ 1 := cmpf .olt main_v33 main_cst_12
  let main_c_13 : IVec S_ 1 := constantI S_ 1 1#1
  let main_v35 : IVec S_ 1 := (fun x v => Host.reduce IntOp.andi x v reducesTo_S_S_d h_S_) main_v34 main_c_13
  let main_v36 : IVec S_ 1 := andi main_v32 main_v35
  let main_v37 : FVec F S_ .f32 := Host.absf main_arg9
  let main_cst_14 : FVec F S_ .f32 := constant S_ .f32 0x7F800000#32
  let main_v38 : IVec S_ 1 := cmpf .olt main_v37 main_cst_14
  let main_c_15 : IVec S_ 1 := constantI S_ 1 1#1
  let main_v39 : IVec S_ 1 := (fun x v => Host.reduce IntOp.andi x v reducesTo_S_S_d h_S_) main_v38 main_c_15
  let main_v40 : IVec S_ 1 := andi main_v36 main_v39
  let main_v41 : FVec F S_ .f32 := Host.absf main_arg10
  let main_cst_16 : FVec F S_ .f32 := constant S_ .f32 0x7F800000#32
  let main_v42 : IVec S_ 1 := cmpf .olt main_v41 main_cst_16
  let main_c_17 : IVec S_ 1 := constantI S_ 1 1#1
  let main_v43 : IVec S_ 1 := (fun x v => Host.reduce IntOp.andi x v reducesTo_S_S_d h_S_) main_v42 main_c_17
  let main_v44 : IVec S_ 1 := andi main_v40 main_v43
  let main_v45 : FVec F S_ .f32 := Host.absf main_arg11
  let main_cst_18 : FVec F S_ .f32 := constant S_ .f32 0x7F800000#32
  let main_v46 : IVec S_ 1 := cmpf .olt main_v45 main_cst_18
  let main_c_19 : IVec S_ 1 := constantI S_ 1 1#1
  let main_v47 : IVec S_ 1 := (fun x v => Host.reduce IntOp.andi x v reducesTo_S_S_d h_S_) main_v46 main_c_19
  let main_v48 : IVec S_ 1 := andi main_v44 main_v47
  let main_v49 : FVec F S_ .f32 := Host.absf main_arg12
  fn_part3 (F := F) main_v48 main_v49

def fn_part1 {F : FTy → Type} [FloatOps F] (main_arg5 : FVec F S32x1024 .f32) (main_arg6 : FVec F S32 .f32) (main_arg7 : FVec F S_ .f32) (main_arg8 : FVec F S_ .f32) (main_arg9 : FVec F S_ .f32) (main_arg10 : FVec F S_ .f32) (main_arg11 : FVec F S_ .f32) (main_arg12 : FVec F S_ .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S32x1024 .f32 := Host.absf main_arg5
  let main_cst_6 : FVec F S_ .f32 := constant S_ .f32 0x7F800000#32
  let main_v20 : FVec F S32x1024 .f32 := broadcastInDim S32x1024 ![] bcast_S_S32x1024 main_cst_6
  let main_v21 : IVec S32x1024 1 := cmpf .olt main_v19 main_v20
  let main_c_7 : IVec S_ 1 := constantI S_ 1 1#1
  let main_v22 : IVec S_ 1 := (fun x v => Host.reduce IntOp.andi x v reducesTo_S32x1024_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S_ .f32 := Host.absf main_arg7
  let main_cst_10 : FVec F S_ .f32 := constant S_ .f32 0x7F800000#32
  let main_v30 : IVec S_ 1 := cmpf .olt main_v29 main_cst_10
  let main_c_11 : IVec S_ 1 := constantI S_ 1 1#1
  let main_v31 : IVec S_ 1 := (fun x v => Host.reduce IntOp.andi x v reducesTo_S_S_d h_S_) main_v30 main_c_11
  let main_v32 : IVec S_ 1 := andi main_v28 main_v31
  let main_v33 : FVec F S_ .f32 := Host.absf main_arg8
  fn_part2 (F := F) main_arg9 main_arg10 main_arg11 main_arg12 main_v32 main_v33

def fn {F : FTy → Type} [FloatOps F] (main_arg0 : IVec S8x2048 32) (main_arg1 : FVec F S8x2048x1024 .f32) (main_arg2 : FVec F S101x1024 .f32) (main_arg3 : FVec F S64x1024 .f32) (main_arg4 : FVec F S64 .f32) (main_arg5 : FVec F S32x1024 .f32) (main_arg6 : FVec F S32 .f32) (main_arg7 : FVec F S_ .f32) (main_arg8 : FVec F S_ .f32) (main_arg9 : FVec F S_ .f32) (main_arg10 : FVec F S_ .f32) (main_arg11 : FVec F S_ .f32) (main_arg12 : FVec F S_ .f32) : IVec S_ 1 :=
  let main_v0 : FVec F S8x2048x1024 .f32 := Host.absf main_arg1
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S101x1024 .f32 := Host.absf main_arg2
  let main_cst_0 : FVec F S_ .f32 := constant S_ .f32 0x7F800000#32
  let main_v5 : FVec F S101x1024 .f32 := broadcastInDim S101x1024 ![] bcast_S_S101x1024 main_cst_0
  let main_v6 : IVec S101x1024 1 := cmpf .olt main_v4 main_v5
  let main_c_1 : IVec S_ 1 := constantI S_ 1 1#1
  let main_v7 : IVec S_ 1 := (fun x v => Host.reduce IntOp.andi x v reducesTo_S101x1024_S_d0_1 h_S_) main_v6 main_c_1
  let main_v8 : IVec S_ 1 := andi main_v3 main_v7
  let main_v9 : FVec F S64x1024 .f32 := Host.absf main_arg3
  let main_cst_2 : FVec F S_ .f32 := constant S_ .f32 0x7F800000#32
  let main_v10 : FVec F S64x1024 .f32 := broadcastInDim S64x1024 ![] bcast_S_S64x1024 main_cst_2
  let main_v11 : IVec S64x1024 1 := cmpf .olt main_v9 main_v10
  let main_c_3 : IVec S_ 1 := constantI S_ 1 1#1
  let main_v12 : IVec S_ 1 := (fun x v => Host.reduce IntOp.andi x v reducesTo_S64x1024_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_v13 main_v16
-- ==== Kernel.lean ====
abbrev S8x2048 : Shape := ⟨2, ![8, 2048]⟩
abbrev S8x2048x1024 : Shape := ⟨3, ![8, 2048, 1024]⟩
abbrev S101x1024 : Shape := ⟨2, ![101, 1024]⟩
abbrev S64x1024 : Shape := ⟨2, ![64, 1024]⟩
abbrev S64 : Shape := ⟨1, ![64]⟩
abbrev S32x1024 : Shape := ⟨2, ![32, 1024]⟩
abbrev S32 : Shape := ⟨1, ![32]⟩
abbrev S_ : Shape := ⟨0, ![]⟩
abbrev S192x1024 : Shape := ⟨2, ![192, 1024]⟩
abbrev S256x1024 : Shape := ⟨2, ![256, 1024]⟩
abbrev S96 : Shape := ⟨1, ![96]⟩
abbrev S192 : Shape := ⟨1, ![192]⟩
abbrev S256 : Shape := ⟨1, ![256]⟩
abbrev S1x256 : Shape := ⟨2, ![1, 256]⟩
abbrev S8x2048x256 : Shape := ⟨3, ![8, 2048, 256]⟩
abbrev S1x512x1024 : Shape := ⟨3, ![1, 512, 1024]⟩
abbrev S1x512x256 : Shape := ⟨3, ![1, 512, 256]⟩
abbrev S512x1024 : Shape := ⟨2, ![512, 1024]⟩
abbrev S1024x256 : Shape := ⟨2, ![1024, 256]⟩
abbrev S512x256 : Shape := ⟨2, ![512, 256]⟩
abbrev S8x2048x64 : Shape := ⟨3, ![8, 2048, 64]⟩
abbrev S8x2048x32 : Shape := ⟨3, ![8, 2048, 32]⟩
abbrev S8x2047 : Shape := ⟨2, ![8, 2047]⟩
abbrev S8x2048x1 : Shape := ⟨3, ![8, 2048, 1]⟩
abbrev S1x1x64 : Shape := ⟨3, ![1, 1, 64]⟩
abbrev S1x1x32 : Shape := ⟨3, ![1, 1, 32]⟩
abbrev S8x2048x96 : Shape := ⟨3, ![8, 2048, 96]⟩
abbrev S8x2048x128 : Shape := ⟨3, ![8, 2048, 128]⟩
abbrev S1x512x128 : Shape := ⟨3, ![1, 512, 128]⟩
abbrev S1x512x1 : Shape := ⟨3, ![1, 512, 1]⟩
abbrev S512x128 : Shape := ⟨2, ![512, 128]⟩
abbrev S512x1 : Shape := ⟨2, ![512, 1]⟩
abbrev S1024x512 : Shape := ⟨2, ![1024, 512]⟩
abbrev S512x512 : Shape := ⟨2, ![512, 512]⟩

abbrev nBuf : Space → Nat
  | .hbm => 201
  | .vmem => 17
  | .smem => 0
  | _ => 0

abbrev hbmTy0_0 (i : Nat) : BufTy := match i % 128 with
  | 0 => ⟨S8x2048, .i32⟩
  | 1 => ⟨S8x2048x1024, .f32⟩
  | 2 => ⟨S101x1024, .f32⟩
  | 3 => ⟨S64x1024, .f32⟩
  | 4 => ⟨S64, .f32⟩
  | 5 => ⟨S32x1024, .f32⟩
  | 6 => ⟨S32, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S64x1024, .f32⟩
  | 14 => ⟨S32x1024, .f32⟩
  | 15 => ⟨S192x1024, .f32⟩
  | 16 => ⟨S_, .i32⟩
  | 17 => ⟨S_, .f32⟩
  | 18 => ⟨S256x1024, .f32⟩
  | 19 => ⟨S256x1024, .bf16⟩
  | 20 => ⟨S_, .f32⟩
  | 21 => ⟨S96, .f32⟩
  | 22 => ⟨S192, .f32⟩
  | 23 => ⟨S_, .i32⟩
  | 24 => ⟨S_, .f32⟩
  | 25 => ⟨S256, .f32⟩
  | 26 => ⟨S1x256, .f32⟩
  | 27 => ⟨S8x2048x256, .f32⟩
  | 28 => ⟨S8x2048x64, .f32⟩
  | 29 => ⟨S8x2048x32, .f32⟩
  | 30 => ⟨S8x2048x64, .f32⟩
  | 31 => ⟨S8x2048x32, .f32⟩
  | 32 => ⟨S_, .i32⟩
  | 33 => ⟨S8x2048, .i32⟩
  | 34 => ⟨S8x2048, .i1⟩
  | 35 => ⟨S8x2047, .i1⟩
  | 36 => ⟨S_, .i32⟩
  | 37 => ⟨S_, .i32⟩
  | 38 => ⟨S_, .i32⟩
  | 39 => ⟨S_, .i1⟩
  | 40 => ⟨S_, .i1⟩
  | 41 => ⟨S8x2048, .i1⟩
  | 42 => ⟨S_, .i32⟩
  | 43 => ⟨S8x2048, .i32⟩
  | 44 => ⟨S8x2048, .i1⟩
  | 45 => ⟨S8x2048, .i1⟩
  | 46 => ⟨S_, .i32⟩
  | 47 => ⟨S8x2048, .i32⟩
  | 48 => ⟨S8x2048, .i1⟩
  | 49 => ⟨S8x2048, .i1⟩
  | 50 => ⟨S_, .i32⟩
  | 51 => ⟨S8x2048, .i32⟩
  | 52 => ⟨S8x2048, .i1⟩
  | 53 => ⟨S8x2048, .i1⟩
  | 54 => ⟨S_, .i32⟩
  | 55 => ⟨S8x2048, .i32⟩
  | 56 => ⟨S8x2048, .i1⟩
  | 57 => ⟨S8x2048, .i1⟩
  | 58 => ⟨S_, .i32⟩
  | 59 => ⟨S8x2048, .i32⟩
  | 60 => ⟨S8x2048, .i32⟩
  | 61 => ⟨S_, .i32⟩
  | 62 => ⟨S_, .i32⟩
  | 63 => ⟨S_, .i32⟩
  | 64 => ⟨S8x2048, .i32⟩
  | 65 => ⟨S8x2048, .i32⟩
  | 66 => ⟨S_, .i32⟩
  | 67 => ⟨S8x2048, .i32⟩
  | 68 => ⟨S8x2048, .i32⟩
  | 69 => ⟨S_, .i32⟩
  | 70 => ⟨S8x2048, .i32⟩
  | 71 => ⟨S8x2048, .i32⟩
  | 72 => ⟨S_, .i32⟩
  | 73 => ⟨S_, .i32⟩
  | 74 => ⟨S_, .i32⟩
  | 75 => ⟨S8x2048, .i32⟩
  | 76 => ⟨S8x2048, .i32⟩
  | 77 => ⟨S_, .i32⟩
  | 78 => ⟨S8x2048, .i32⟩
  | 79 => ⟨S8x2048, .i32⟩
  | 80 => ⟨S8x2048x1, .i32⟩
  | 81 => ⟨S1x1x64, .i32⟩
  | 82 => ⟨S8x2048x64, .i32⟩
  | 83 => ⟨S8x2048x64, .i32⟩
  | 84 => ⟨S8x2048x64, .i1⟩
  | 85 => ⟨S8x2048x64, .f32⟩
  | 86 => ⟨S8x2048x1, .i32⟩
  | 87 => ⟨S1x1x32, .i32⟩
  | 88 => ⟨S8x2048x32, .i32⟩
  | 89 => ⟨S8x2048x32, .i32⟩
  | 90 => ⟨S8x2048x32, .i1⟩
  | 91 => ⟨S8x2048x32, .f32⟩
  | 92 => ⟨S8x2048x1, .i1⟩
  | 93 => ⟨S8x2048x1, .f32⟩
  | 94 => ⟨S8x2048x64, .f32⟩
  | 95 => ⟨S8x2048x64, .f32⟩
  | 96 => ⟨S8x2048x1, .i1⟩
  | 97 => ⟨S8x2048x1, .f32⟩
  | 98 => ⟨S8x2048x32, .f32⟩
  | 99 => ⟨S8x2048x32, .f32⟩
  | 100 => ⟨S8x2048x96, .f32⟩
  | 101 => ⟨S_, .i32⟩
  | 102 => ⟨S_, .f32⟩
  | 103 => ⟨S8x2048x128, .f32⟩
  | 104 => ⟨S8x2048x128, .bf16⟩
  | 105 => ⟨S8x2048, .bf16⟩
  | 106 => ⟨S8x2048x1, .bf16⟩
  | 107 => ⟨S8x2048x1024, .f32⟩
  | 108 => ⟨S_, .f32⟩
  | 109 => ⟨S8x2048, .f32⟩
  | 110 => ⟨S8x2048x1, .f32⟩
  | 111 => ⟨S8x2048x1, .f32⟩
  | 112 => ⟨S_, .f32⟩
  | 113 => ⟨S8x2048x1, .f32⟩
  | 114 => ⟨S8x2048x1, .f32⟩
  | 115 => ⟨S8x2048x1024, .f32⟩
  | 116 => ⟨S8x2048x1024, .f32⟩
  | 117 => ⟨S8x2048x1024, .bf16⟩
  | 118 => ⟨S8x2048x128, .f32⟩
  | 119 => ⟨S8x2048x64, .f32⟩
  | 120 => ⟨S8x2048x32, .f32⟩
  | 121 => ⟨S_, .f32⟩
  | 122 => ⟨S_, .f32⟩
  | 123 => ⟨S_, .f32⟩
  | 124 => ⟨S_, .i1⟩
  | 125 => ⟨S_, .f32⟩
  | 126 => ⟨S_, .f32⟩
  | 127 => ⟨S_, .f32⟩
  | _ => ⟨S8x2048, .i32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .i1⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .i1⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S_, .i1⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .i1⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S8x2048x64, .f32⟩
  | 51 => ⟨S8x2048x64, .f32⟩
  | 52 => ⟨S8x2048x64, .f32⟩
  | 53 => ⟨S8x2048x64, .f32⟩
  | 54 => ⟨S8x2048x64, .f32⟩
  | 55 => ⟨S8x2048x64, .f32⟩
  | 56 => ⟨S_, .f32⟩
  | 57 => ⟨S_, .f32⟩
  | 58 => ⟨S_, .f32⟩
  | 59 => ⟨S_, .i1⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S8x2048x32, .f32⟩
  | 68 => ⟨S8x2048x32, .f32⟩
  | 69 => ⟨S8x2048x32, .f32⟩
  | 70 => ⟨S8x2048x32, .f32⟩
  | 71 => ⟨S8x2048x32, .f32⟩
  | 72 => ⟨S8x2048x32, .f32⟩
  | _ => ⟨S8x2048, .i32⟩

abbrev hbmTy (i : Nat) : BufTy := match i / 128 with
  | 0 => hbmTy0_0 i
  | 1 => hbmTy0_1 i
  | _ => ⟨S8x2048, .i32⟩

abbrev bufTy : (tb : Table) → Fin (tcTables nBuf tb) → BufTy
  | .hbm, ⟨i, _⟩ => hbmTy i
  | .local _ .vmem, ⟨0, _⟩ => ⟨S1x512x1024, .f32⟩
  | .local _ .vmem, ⟨1, _⟩ => ⟨S1x512x1024, .f32⟩
  | .local _ .vmem, ⟨2, _⟩ => ⟨S256x1024, .bf16⟩
  | .local _ .vmem, ⟨3, _⟩ => ⟨S1x256, .f32⟩
  | .local _ .vmem, ⟨4, _⟩ => ⟨S1x512x256, .f32⟩
  | .local _ .vmem, ⟨5, _⟩ => ⟨S1x512x256, .f32⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x512x128, .bf16⟩
  | .local _ .vmem, ⟨11, _⟩ => ⟨S1x512x128, .bf16⟩
  | .local _ .vmem, ⟨12, _⟩ => ⟨S1x512x1, .bf16⟩
  | .local _ .vmem, ⟨13, _⟩ => ⟨S1x512x1, .bf16⟩
  | .local _ .vmem, ⟨14, _⟩ => ⟨S1x512x128, .f32⟩
  | .local _ .vmem, ⟨15, _⟩ => ⟨S1x512x128, .f32⟩
  | .local _ .vmem, ⟨16, _⟩ => ⟨S512x128, .f32⟩
  | _, _ => ⟨S8x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_c : Ref sig .tc := ⟨.hbm, 16, rfl⟩
abbrev main_call0_v0 : Ref sig .tc := ⟨.hbm, 17, rfl⟩
abbrev main_v3 : Ref sig .tc := ⟨.hbm, 18, rfl⟩
abbrev main_v4 : Ref sig .tc := ⟨.hbm, 19, rfl⟩
abbrev main_cst : Ref sig .tc := ⟨.hbm, 20, rfl⟩
abbrev main_v5 : Ref sig .tc := ⟨.hbm, 21, rfl⟩
abbrev main_v6 : Ref sig .tc := ⟨.hbm, 22, rfl⟩
abbrev main_c_0 : Ref sig .tc := ⟨.hbm, 23, rfl⟩
abbrev main_call1_v0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c_1 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_c_2 : Ref sig .tc := ⟨.hbm, 36, rfl⟩
abbrev main_call2_c : Ref sig .tc := ⟨.hbm, 37, rfl⟩
abbrev main_call2_v0 : Ref sig .tc := ⟨.hbm, 38, rfl⟩
abbrev main_call2_v1 : Ref sig .tc := ⟨.hbm, 39, rfl⟩
abbrev main_call2_v2 : Ref sig .tc := ⟨.hbm, 40, rfl⟩
abbrev main_v17 : Ref sig .tc := ⟨.hbm, 41, rfl⟩
abbrev main_c_3 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_c_4 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_c_5 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_c_6 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_c_7 : Ref sig .tc := ⟨.hbm, 58, rfl⟩
abbrev main_v30 : Ref sig .tc := ⟨.hbm, 59, rfl⟩
abbrev main_v31 : Ref sig .tc := ⟨.hbm, 60, rfl⟩
abbrev main_c_8 : Ref sig .tc := ⟨.hbm, 61, rfl⟩
abbrev main_c_9 : Ref sig .tc := ⟨.hbm, 62, rfl⟩
abbrev main_call3_v0 : Ref sig .tc := ⟨.hbm, 63, rfl⟩
abbrev main_call3_v1 : Ref sig .tc := ⟨.hbm, 64, rfl⟩
abbrev main_call3_v2 : Ref sig .tc := ⟨.hbm, 65, rfl⟩
abbrev main_call3_v3 : Ref sig .tc := ⟨.hbm, 66, rfl⟩
abbrev main_call3_v4 : Ref sig .tc := ⟨.hbm, 67, rfl⟩
abbrev main_v32 : Ref sig .tc := ⟨.hbm, 68, rfl⟩
abbrev main_c_10 : Ref sig .tc := ⟨.hbm, 69, rfl⟩
abbrev main_v33 : Ref sig .tc := ⟨.hbm, 70, rfl⟩
abbrev main_v34 : Ref sig .tc := ⟨.hbm, 71, rfl⟩
abbrev main_c_11 : Ref sig .tc := ⟨.hbm, 72, rfl⟩
abbrev main_c_12 : Ref sig .tc := ⟨.hbm, 73, rfl⟩
abbrev main_call4_v0 : Ref sig .tc := ⟨.hbm, 74, rfl⟩
abbrev main_call4_v1 : Ref sig .tc := ⟨.hbm, 75, rfl⟩
abbrev main_call4_v2 : Ref sig .tc := ⟨.hbm, 76, rfl⟩
abbrev main_call4_v3 : Ref sig .tc := ⟨.hbm, 77, rfl⟩
abbrev main_call4_v4 : Ref sig .tc := ⟨.hbm, 78, rfl⟩
abbrev main_v35 : Ref sig .tc := ⟨.hbm, 79, rfl⟩
abbrev main_call5_v0 : Ref sig .tc := ⟨.hbm, 80, rfl⟩
abbrev main_call5_v1 : Ref sig .tc := ⟨.hbm, 81, rfl⟩
abbrev main_call5_v2 : Ref sig .tc := ⟨.hbm, 82, rfl⟩
abbrev main_call5_v3 : Ref sig .tc := ⟨.hbm, 83, rfl⟩
abbrev main_call5_v4 : Ref sig .tc := ⟨.hbm, 84, rfl⟩
abbrev main_v36 : Ref sig .tc := ⟨.hbm, 85, rfl⟩
abbrev main_call6_v0 : Ref sig .tc := ⟨.hbm, 86, rfl⟩
abbrev main_call6_v1 : Ref sig .tc := ⟨.hbm, 87, rfl⟩
abbrev main_call6_v2 : Ref sig .tc := ⟨.hbm, 88, rfl⟩
abbrev main_call6_v3 : Ref sig .tc := ⟨.hbm, 89, rfl⟩
abbrev main_call6_v4 : Ref sig .tc := ⟨.hbm, 90, rfl⟩
abbrev main_v37 : Ref sig .tc := ⟨.hbm, 91, rfl⟩
abbrev main_v38 : Ref sig .tc := ⟨.hbm, 92, rfl⟩
abbrev main_v39 : Ref sig .tc := ⟨.hbm, 93, rfl⟩
abbrev main_v40 : Ref sig .tc := ⟨.hbm, 94, rfl⟩
abbrev main_v41 : Ref sig .tc := ⟨.hbm, 95, rfl⟩
abbrev main_v42 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_v46 : Ref sig .tc := ⟨.hbm, 100, rfl⟩
abbrev main_c_13 : Ref sig .tc := ⟨.hbm, 101, rfl⟩
abbrev main_call7_v0 : Ref sig .tc := ⟨.hbm, 102, rfl⟩
abbrev main_v47 : Ref sig .tc := ⟨.hbm, 103, rfl⟩
abbrev main_v48 : Ref sig .tc := ⟨.hbm, 104, rfl⟩
abbrev main_v49 : Ref sig .tc := ⟨.hbm, 105, rfl⟩
abbrev main_v50 : Ref sig .tc := ⟨.hbm, 106, rfl⟩
abbrev main_call8_v0 : Ref sig .tc := ⟨.hbm, 107, rfl⟩
abbrev main_call8_cst : Ref sig .tc := ⟨.hbm, 108, rfl⟩
abbrev main_call8_v1 : Ref sig .tc := ⟨.hbm, 109, rfl⟩
abbrev main_call8_v2 : Ref sig .tc := ⟨.hbm, 110, rfl⟩
abbrev main_v51 : Ref sig .tc := ⟨.hbm, 111, rfl⟩
abbrev main_cst_14 : Ref sig .tc := ⟨.hbm, 112, rfl⟩
abbrev main_v52 : Ref sig .tc := ⟨.hbm, 113, rfl⟩
abbrev main_v53 : Ref sig .tc := ⟨.hbm, 114, rfl⟩
abbrev main_v54 : Ref sig .tc := ⟨.hbm, 115, rfl⟩
abbrev main_v55 : Ref sig .tc := ⟨.hbm, 116, rfl⟩
abbrev main_v56 : Ref sig .tc := ⟨.hbm, 117, rfl⟩
abbrev main_v57 : Ref sig .tc := ⟨.hbm, 118, rfl⟩
abbrev main_v58 : Ref sig .tc := ⟨.hbm, 119, rfl⟩
abbrev main_v59 : Ref sig .tc := ⟨.hbm, 120, rfl⟩
abbrev main_call9_cst : Ref sig .tc := ⟨.hbm, 121, rfl⟩
abbrev main_call9_v0 : Ref sig .tc := ⟨.hbm, 122, rfl⟩
abbrev main_call9_v1 : Ref sig .tc := ⟨.hbm, 123, rfl⟩
abbrev main_call9_v2 : Ref sig .tc := ⟨.hbm, 124, rfl⟩
abbrev main_call9_v3 : Ref sig .tc := ⟨.hbm, 125, rfl⟩
abbrev main_call9_v4 : Ref sig .tc := ⟨.hbm, 126, rfl⟩
abbrev main_call9_v5 : Ref sig .tc := ⟨.hbm, 127, rfl⟩
abbrev main_call9_v6 : Ref sig .tc := ⟨.hbm, 128, rfl⟩
abbrev main_call9_v7 : Ref sig .tc := ⟨.hbm, 129, rfl⟩
abbrev main_call9_v8 : Ref sig .tc := ⟨.hbm, 130, rfl⟩
abbrev main_v60 : Ref sig .tc := ⟨.hbm, 131, rfl⟩
abbrev main_call10_cst : Ref sig .tc := ⟨.hbm, 132, rfl⟩
abbrev main_call10_v0 : Ref sig .tc := ⟨.hbm, 133, rfl⟩
abbrev main_call10_v1 : Ref sig .tc := ⟨.hbm, 134, rfl⟩
abbrev main_call10_v2 : Ref sig .tc := ⟨.hbm, 135, rfl⟩
abbrev main_call10_v3 : Ref sig .tc := ⟨.hbm, 136, rfl⟩
abbrev main_call10_v4 : Ref sig .tc := ⟨.hbm, 137, rfl⟩
abbrev main_call10_v5 : Ref sig .tc := ⟨.hbm, 138, rfl⟩
abbrev main_call10_v6 : Ref sig .tc := ⟨.hbm, 139, rfl⟩
abbrev main_call10_v7 : Ref sig .tc := ⟨.hbm, 140, rfl⟩
abbrev main_call10_v8 : Ref sig .tc := ⟨.hbm, 141, rfl⟩
abbrev main_v61 : Ref sig .tc := ⟨.hbm, 142, rfl⟩
abbrev main_v62 : Ref sig .tc := ⟨.hbm, 143, rfl⟩
abbrev main_call11_cst : Ref sig .tc := ⟨.hbm, 144, rfl⟩
abbrev main_call11_v0 : Ref sig .tc := ⟨.hbm, 145, rfl⟩
abbrev main_call11_v1 : Ref sig .tc := ⟨.hbm, 146, rfl⟩
abbrev main_call11_v2 : Ref sig .tc := ⟨.hbm, 147, rfl⟩
abbrev main_call11_v3 : Ref sig .tc := ⟨.hbm, 148, rfl⟩
abbrev main_call11_v4 : Ref sig .tc := ⟨.hbm, 149, rfl⟩
abbrev main_call11_v5 : Ref sig .tc := ⟨.hbm, 150, rfl⟩
abbrev main_call11_v6 : Ref sig .tc := ⟨.hbm, 151, rfl⟩
abbrev main_call11_v7 : Ref sig .tc := ⟨.hbm, 152, rfl⟩
abbrev main_call11_v8 : Ref sig .tc := ⟨.hbm, 153, rfl⟩
abbrev main_v63 : Ref sig .tc := ⟨.hbm, 154, rfl⟩
abbrev main_call12_cst : Ref sig .tc := ⟨.hbm, 155, rfl⟩
abbrev main_call12_v0 : Ref sig .tc := ⟨.hbm, 156, rfl⟩
abbrev main_call12_v1 : Ref sig .tc := ⟨.hbm, 157, rfl⟩
abbrev main_call12_v2 : Ref sig .tc := ⟨.hbm, 158, rfl⟩
abbrev main_call12_v3 : Ref sig .tc := ⟨.hbm, 159, rfl⟩
abbrev main_call12_v4 : Ref sig .tc := ⟨.hbm, 160, rfl⟩
abbrev main_call12_v5 : Ref sig .tc := ⟨.hbm, 161, rfl⟩
abbrev main_call12_v6 : Ref sig .tc := ⟨.hbm, 162, rfl⟩
abbrev main_call12_v7 : Ref sig .tc := ⟨.hbm, 163, rfl⟩
abbrev main_call12_v8 : Ref sig .tc := ⟨.hbm, 164, rfl⟩
abbrev main_v64 : Ref sig .tc := ⟨.hbm, 165, rfl⟩
abbrev main_v65 : Ref sig .tc := ⟨.hbm, 166, rfl⟩
abbrev main_call13_cst : Ref sig .tc := ⟨.hbm, 167, rfl⟩
abbrev main_call13_v0 : Ref sig .tc := ⟨.hbm, 168, rfl⟩
abbrev main_call13_v1 : Ref sig .tc := ⟨.hbm, 169, rfl⟩
abbrev main_call13_v2 : Ref sig .tc := ⟨.hbm, 170, rfl⟩
abbrev main_call13_v3 : Ref sig .tc := ⟨.hbm, 171, rfl⟩
abbrev main_call13_v4 : Ref sig .tc := ⟨.hbm, 172, rfl⟩
abbrev main_call13_v5 : Ref sig .tc := ⟨.hbm, 173, rfl⟩
abbrev main_call13_v6 : Ref sig .tc := ⟨.hbm, 174, rfl⟩
abbrev main_call13_v7 : Ref sig .tc := ⟨.hbm, 175, rfl⟩
abbrev main_call13_v8 : Ref sig .tc := ⟨.hbm, 176, rfl⟩
abbrev main_v66 : Ref sig .tc := ⟨.hbm, 177, rfl⟩
abbrev main_v67 : Ref sig .tc := ⟨.hbm, 178, rfl⟩
abbrev main_v68 : Ref sig .tc := ⟨.hbm, 179, rfl⟩
abbrev main_v69 : Ref sig .tc := ⟨.hbm, 180, rfl⟩
abbrev main_v70 : Ref sig .tc := ⟨.hbm, 181, rfl⟩
abbrev main_v71 : Ref sig .tc := ⟨.hbm, 182, rfl⟩
abbrev main_v72 : Ref sig .tc := ⟨.hbm, 183, rfl⟩
abbrev main_call14_cst : Ref sig .tc := ⟨.hbm, 184, rfl⟩
abbrev main_call14_v0 : Ref sig .tc := ⟨.hbm, 185, rfl⟩
abbrev main_call14_v1 : Ref sig .tc := ⟨.hbm, 186, rfl⟩
abbrev main_call14_v2 : Ref sig .tc := ⟨.hbm, 187, rfl⟩
abbrev main_call14_v3 : Ref sig .tc := ⟨.hbm, 188, rfl⟩
abbrev main_call14_v4 : Ref sig .tc := ⟨.hbm, 189, rfl⟩
abbrev main_call14_v5 : Ref sig .tc := ⟨.hbm, 190, rfl⟩
abbrev main_call14_v6 : Ref sig .tc := ⟨.hbm, 191, rfl⟩
abbrev main_call14_v7 : Ref sig .tc := ⟨.hbm, 192, rfl⟩
abbrev main_call14_v8 : Ref sig .tc := ⟨.hbm, 193, rfl⟩
abbrev main_v73 : Ref sig .tc := ⟨.hbm, 194, rfl⟩
abbrev main_v74 : Ref sig .tc := ⟨.hbm, 195, rfl⟩
abbrev main_v75 : Ref sig .tc := ⟨.hbm, 196, rfl⟩
abbrev main_v76 : Ref sig .tc := ⟨.hbm, 197, rfl⟩
abbrev main_v77 : Ref sig .tc := ⟨.hbm, 198, rfl⟩
abbrev main_v78 : Ref sig .tc := ⟨.hbm, 199, rfl⟩
abbrev main_v79 : Ref sig .tc := ⟨.hbm, 200, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨3, ![8, 4, 4], ![false, false, false]⟩

def k1_cond3 (i : grid1.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_2 : BitVec 32 := 0#32
  let v8 : BitVec 1 := Scalar.cmpi .ne v7 c0_i32_2
  v8

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, v0.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, v0.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S1x512x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S1x512x1 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 2 → Memref sig .tc .vmem S1x512x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

class Facts₀ : Prop where
  slices_S101x1024_S64x1024_5_0 : S101x1024.Slices ![5, 0] S64x1024
  slices_S101x1024_S32x1024_69_0 : S101x1024.Slices ![69, 0] S32x1024
  concatenates_S64x1024_S32x1024_S64x1024_S32x1024_S192x1024_d0 : Shape.Concatenates [S64x1024, S32x1024, S64x1024, S32x1024] S192x1024 0
  pads_S192x1024_S256x1024_0640_000 : S192x1024.Pads (![0, 0] : Fin 2 → Nat) ![64, 0] ![0, 0] S256x1024
  h_S_ : 0 < S_.numel
  bitsLt_bf16_f32 : FTy.bits .bf16 < FTy.bits .f32
  bcast_S_S96 : S_.BroadcastsInDim S96 (![] : Fin 0 → Fin S96.rank)
  concatenates_S64_S32_S96_S192_d0 : Shape.Concatenates [S64, S32, S96] S192 0
  pads_S192_S256_0640 : S192.Pads (![0] : Fin 1 → Nat) ![64] ![0] S256
  shapeCasts_S256_S1x256 : S256.ShapeCasts S1x256
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  transposes_S256x1024_p1_0_S1024x256 : S256x1024.Transposes [1, 0] S1024x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  shapeCasts_S512x256_S1x512x256 : S512x256.ShapeCasts S1x512x256
  slices_S8x2048x256_S8x2048x64_0_0_0 : S8x2048x256.Slices ![0, 0, 0] S8x2048x64
  slices_S8x2048x256_S8x2048x32_0_0_64 : S8x2048x256.Slices ![0, 0, 64] S8x2048x32
  slices_S8x2048x256_S8x2048x64_0_0_96 : S8x2048x256.Slices ![0, 0, 96] S8x2048x64
  slices_S8x2048x256_S8x2048x32_0_0_160 : S8x2048x256.Slices ![0, 0, 160] S8x2048x32
  bcast_S_S8x2048 : S_.BroadcastsInDim S8x2048 (![] : Fin 0 → Fin S8x2048.rank)
  slices_S8x2048_S8x2047_0_0 : S8x2048.Slices ![0, 0] S8x2047
  bcast_S_S_ : S_.BroadcastsInDim S_ (![] : Fin 0 → Fin S_.rank)
  pads_S8x2047_S8x2048_000_100 : S8x2047.Pads (![0, 1] : Fin 2 → Nat) ![0, 0] ![0, 0] S8x2048
  bcast_S8x2048_S8x2048x1_0_1 : S8x2048.BroadcastsInDim S8x2048x1 (![0, 1] : Fin 2 → Fin S8x2048x1.rank)
  bcast_S8x2048x1_S8x2048x64_0_1_2 : S8x2048x1.BroadcastsInDim S8x2048x64 (![0, 1, 2] : Fin 3 → Fin S8x2048x64.rank)
  bcast_S1x1x64_S8x2048x64_0_1_2 : S1x1x64.BroadcastsInDim S8x2048x64 (![0, 1, 2] : Fin 3 → Fin S8x2048x64.rank)
  bcast_S8x2048x1_S8x2048x32_0_1_2 : S8x2048x1.BroadcastsInDim S8x2048x32 (![0, 1, 2] : Fin 3 → Fin S8x2048x32.rank)
  bcast_S1x1x32_S8x2048x32_0_1_2 : S1x1x32.BroadcastsInDim S8x2048x32 (![0, 1, 2] : Fin 3 → Fin S8x2048x32.rank)
  concatenates_S8x2048x64_S8x2048x32_S8x2048x96_d2 : Shape.Concatenates [S8x2048x64, S8x2048x32] S8x2048x96 2
  pads_S8x2048x96_S8x2048x128_000_000_0320 : S8x2048x96.Pads (![0, 0, 0] : Fin 3 → Nat) ![0, 0, 32] ![0, 0, 0] S8x2048x128
  reducesTo_S8x2048x1024_S8x2048_d2 : S8x2048x1024.ReducesTo [2] S8x2048
  bcast_S_S8x2048x1 : S_.BroadcastsInDim S8x2048x1 (![] : Fin 0 → Fin S8x2048x1.rank)
  bcast_S8x2048x1_S8x2048x1024_0_1_2 : S8x2048x1.BroadcastsInDim S8x2048x1024 (![0, 1, 2] : Fin 3 → Fin S8x2048x1024.rank)
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  broadcasts_S512x1_S512x1024 : S512x1.Broadcasts S512x1024
  transposes_S512x1024_p1_0_S1024x512 : S512x1024.Transposes [1, 0] S1024x512
  iota_S512x512_d0_w32 : S512x512.Iotas .tc 32 [0]
  iota_S512x512_d1_w32 : S512x512.Iotas .tc 32 [1]
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  shapeCasts_S512x128_S1x512x128 : S512x128.ShapeCasts S1x512x128
  slices_S8x2048x128_S8x2048x64_0_0_0 : S8x2048x128.Slices ![0, 0, 0] S8x2048x64
  slices_S8x2048x128_S8x2048x32_0_0_64 : S8x2048x128.Slices ![0, 0, 64] S8x2048x32
  bcast_S_S8x2048x64 : S_.BroadcastsInDim S8x2048x64 (![] : Fin 0 → Fin S8x2048x64.rank)
  bcast_S_S8x2048x32 : S_.BroadcastsInDim S8x2048x32 (![] : Fin 0 → Fin S8x2048x32.rank)
  dot_S512x1024_S1024x256_S512x256_1_0_0_1_n_n_wf : DotDims.WF S512x1024 S1024x256 S512x256 [1] [0] [0] [1] [] []
  dot_S512x1024_S1024x512_S512x512_1_0_0_1_n_n_wf : DotDims.WF S512x1024 S1024x512 S512x512 [1] [0] [0] [1] [] []
  dot_S512x512_S512x128_S512x128_1_0_0_1_n_n_wf : DotDims.WF S512x512 S512x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S8x2048x1024.size a
  hwx0_0 : ∀ i : grid0.Coords, EltTy.bits .f32 = 32 ∨ (Rect.block (s := S8x2048x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S256x1024.size a
  hwx0_1 : ∀ i : grid0.Coords, EltTy.bits .bf16 = 32 ∨ (Rect.block (s := S256x1024) S256x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x256.size a ≤ S8x2048x256.size a
  hwx0_3 : ∀ i : grid0.Coords, EltTy.bits .f32 = 32 ∨ (Rect.block (s := S8x2048x256) S1x512x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S8x2048x1024.size a
  hwx1_0 : ∀ i : grid1.Coords, EltTy.bits .bf16 = 32 ∨ (Rect.block (s := S8x2048x1024) S1x512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x1024.size a ≤ S8x2048x1024.size a
  hwx1_1 : ∀ i : grid1.Coords, EltTy.bits .bf16 = 32 ∨ (Rect.block (s := S8x2048x1024) S1x512x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x128.size a ≤ S8x2048x128.size a
  hwx1_2 : ∀ i : grid1.Coords, EltTy.bits .bf16 = 32 ∨ (Rect.block (s := S8x2048x128) S1x512x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x1.size a ≤ S8x2048x1.size a
  hwx1_3 : ∀ i : grid1.Coords, EltTy.bits .bf16 = 32 ∨ (Rect.block (s := S8x2048x1) S1x512x1.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x512x128.size a ≤ S8x2048x128.size a
  hwx1_4 : ∀ i : grid1.Coords, EltTy.bits .f32 = 32 ∨ (Rect.block (s := S8x2048x128) S1x512x128.size (cc1_transform_4 i) (hinb1_4 i)).WholeWords (EltTy.packing .f32)

variable [Facts₀]

def dot_S512x1024_S1024x256_S512x256_1_0_0_1_n_n : DotDims S512x1024 S1024x256 S512x256 where
  lhsContracting := [1]
  rhsContracting := [0]
  lhsNonContracting := [0]
  rhsNonContracting := [1]
  lhsBatch := []
  rhsBatch := []
  wf := dot_S512x1024_S1024x256_S512x256_1_0_0_1_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf

abbrev win0_0 : Pipeline.Window sig grid0 :=
  Pipeline.Window.ofSpec (Memref.whole main_arg1) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S256x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x512x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v56) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v56) S1x512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v48) S1x512x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v50) S1x512x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v57) S1x512x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond3 i == 1#1) | ⟨_ + 5, h⟩ => absurd h (Nat.not_lt.2 (Nat.le_add_left _ _))

class Facts : Prop extends Facts₀ where

variable [Facts]
-- ==== ReferenceIdeal.lean ====
abbrev S8x2048 : Shape := ⟨2, ![8, 2048]⟩
abbrev S8x2048x1024 : Shape := ⟨3, ![8, 2048, 1024]⟩
abbrev S101x1024 : Shape := ⟨2, ![101, 1024]⟩
abbrev S64x1024 : Shape := ⟨2, ![64, 1024]⟩
abbrev S64 : Shape := ⟨1, ![64]⟩
abbrev S32x1024 : Shape := ⟨2, ![32, 1024]⟩
abbrev S32 : Shape := ⟨1, ![32]⟩
abbrev S_ : Shape := ⟨0, ![]⟩
abbrev S8x2048x64 : Shape := ⟨3, ![8, 2048, 64]⟩
abbrev S1x1x64 : Shape := ⟨3, ![1, 1, 64]⟩
abbrev S8x2048x32 : Shape := ⟨3, ![8, 2048, 32]⟩
abbrev S1x1x32 : Shape := ⟨3, ![1, 1, 32]⟩
abbrev S8x2048x1 : Shape := ⟨3, ![8, 2048, 1]⟩
abbrev S8x2048x2048 : Shape := ⟨3, ![8, 2048, 2048]⟩
abbrev S8x2047 : Shape := ⟨2, ![8, 2047]⟩
abbrev S2048x2048 : Shape := ⟨2, ![2048, 2048]⟩
abbrev S1x2048x2048 : Shape := ⟨3, ![1, 2048, 2048]⟩
abbrev S8x1x2048 : Shape := ⟨3, ![8, 1, 2048]⟩

abbrev nBuf : Space → Nat
  | .hbm => 215
  | .vmem => 0
  | .smem => 0
  | _ => 0

abbrev hbmTy0_0 (i : Nat) : BufTy := match i % 128 with
  | 0 => ⟨S8x2048, .i32⟩
  | 1 => ⟨S8x2048x1024, .f32⟩
  | 2 => ⟨S101x1024, .f32⟩
  | 3 => ⟨S64x1024, .f32⟩
  | 4 => ⟨S64, .f32⟩
  | 5 => ⟨S32x1024, .f32⟩
  | 6 => ⟨S32, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S8x2048x64, .f32⟩
  | 14 => ⟨S1x1x64, .f32⟩
  | 15 => ⟨S8x2048x64, .f32⟩
  | 16 => ⟨S8x2048x64, .f32⟩
  | 17 => ⟨S8x2048x32, .f32⟩
  | 18 => ⟨S1x1x32, .f32⟩
  | 19 => ⟨S8x2048x32, .f32⟩
  | 20 => ⟨S8x2048x32, .f32⟩
  | 21 => ⟨S64x1024, .f32⟩
  | 22 => ⟨S8x2048x64, .f32⟩
  | 23 => ⟨S32x1024, .f32⟩
  | 24 => ⟨S8x2048x32, .f32⟩
  | 25 => ⟨S8x2048x1024, .f32⟩
  | 26 => ⟨S_, .f32⟩
  | 27 => ⟨S8x2048, .f32⟩
  | 28 => ⟨S8x2048x1, .f32⟩
  | 29 => ⟨S8x2048x1, .f32⟩
  | 30 => ⟨S_, .f32⟩
  | 31 => ⟨S8x2048x1, .f32⟩
  | 32 => ⟨S8x2048x1, .f32⟩
  | 33 => ⟨S8x2048x1024, .f32⟩
  | 34 => ⟨S8x2048x1024, .f32⟩
  | 35 => ⟨S8x2048x2048, .f32⟩
  | 36 => ⟨S_, .i32⟩
  | 37 => ⟨S8x2048, .i32⟩
  | 38 => ⟨S8x2048, .i1⟩
  | 39 => ⟨S8x2047, .i1⟩
  | 40 => ⟨S_, .i32⟩
  | 41 => ⟨S_, .i32⟩
  | 42 => ⟨S_, .i32⟩
  | 43 => ⟨S_, .i1⟩
  | 44 => ⟨S_, .i1⟩
  | 45 => ⟨S8x2048, .i1⟩
  | 46 => ⟨S_, .i32⟩
  | 47 => ⟨S8x2048, .i32⟩
  | 48 => ⟨S8x2048, .i1⟩
  | 49 => ⟨S8x2048, .i1⟩
  | 50 => ⟨S_, .i32⟩
  | 51 => ⟨S8x2048, .i32⟩
  | 52 => ⟨S8x2048, .i1⟩
  | 53 => ⟨S8x2048, .i1⟩
  | 54 => ⟨S_, .i32⟩
  | 55 => ⟨S8x2048, .i32⟩
  | 56 => ⟨S8x2048, .i1⟩
  | 57 => ⟨S8x2048, .i1⟩
  | 58 => ⟨S_, .i32⟩
  | 59 => ⟨S8x2048, .i32⟩
  | 60 => ⟨S8x2048, .i1⟩
  | 61 => ⟨S8x2048, .i1⟩
  | 62 => ⟨S_, .i1⟩
  | 63 => ⟨S2048x2048, .i1⟩
  | 64 => ⟨S2048x2048, .i32⟩
  | 65 => ⟨S_, .i32⟩
  | 66 => ⟨S2048x2048, .i32⟩
  | 67 => ⟨S2048x2048, .i32⟩
  | 68 => ⟨S2048x2048, .i32⟩
  | 69 => ⟨S2048x2048, .i1⟩
  | 70 => ⟨S_, .i1⟩
  | 71 => ⟨S2048x2048, .i1⟩
  | 72 => ⟨S2048x2048, .i1⟩
  | 73 => ⟨S_, .i32⟩
  | 74 => ⟨S8x2048, .i32⟩
  | 75 => ⟨S8x2048, .i32⟩
  | 76 => ⟨S_, .f32⟩
  | 77 => ⟨S_, .f32⟩
  | 78 => ⟨S_, .f32⟩
  | 79 => ⟨S_, .i1⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S8x2048x1, .i1⟩
  | 88 => ⟨S1x2048x2048, .i1⟩
  | 89 => ⟨S8x2048x2048, .i1⟩
  | 90 => ⟨S8x2048x2048, .i1⟩
  | 91 => ⟨S8x2048x2048, .i1⟩
  | 92 => ⟨S8x1x2048, .i1⟩
  | 93 => ⟨S8x2048x2048, .i1⟩
  | 94 => ⟨S8x2048x2048, .i1⟩
  | 95 => ⟨S_, .f32⟩
  | 96 => ⟨S_, .f32⟩
  | 97 => ⟨S8x2048x2048, .f32⟩
  | 98 => ⟨S8x2048x2048, .f32⟩
  | 99 => ⟨S8x2048x2048, .f32⟩
  | 100 => ⟨S8x2048x2048, .f32⟩
  | 101 => ⟨S_, .i32⟩
  | 102 => ⟨S_, .i32⟩
  | 103 => ⟨S_, .i32⟩
  | 104 => ⟨S8x2048, .i32⟩
  | 105 => ⟨S8x2048, .i32⟩
  | 106 => ⟨S_, .i32⟩
  | 107 => ⟨S8x2048, .i32⟩
  | 108 => ⟨S8x2048, .i32⟩
  | 109 => ⟨S8x2048x1, .i32⟩
  | 110 => ⟨S1x1x64, .i32⟩
  | 111 => ⟨S8x2048x64, .i32⟩
  | 112 => ⟨S8x2048x64, .i32⟩
  | 113 => ⟨S8x2048x64, .i1⟩
  | 114 => ⟨S8x2048x64, .f32⟩
  | 115 => ⟨S8x2048x64, .f32⟩
  | 116 => ⟨S_, .i32⟩
  | 117 => ⟨S8x2048, .i32⟩
  | 118 => ⟨S8x2048, .i32⟩
  | 119 => ⟨S_, .f32⟩
  | 120 => ⟨S_, .f32⟩
  | 121 => ⟨S_, .f32⟩
  | 122 => ⟨S_, .i1⟩
  | 123 => ⟨S_, .f32⟩
  | 124 => ⟨S_, .f32⟩
  | 125 => ⟨S_, .f32⟩
  | 126 => ⟨S_, .f32⟩
  | 127 => ⟨S_, .f32⟩
  | _ => ⟨S8x2048, .i32⟩

abbrev hbmTy0_1 (i : Nat) : BufTy := match i % 128 with
  | 0 => ⟨S_, .f32⟩
  | 1 => ⟨S_, .f32⟩
  | 2 => ⟨S8x2048x1, .i1⟩
  | 3 => ⟨S1x2048x2048, .i1⟩
  | 4 => ⟨S8x2048x2048, .i1⟩
  | 5 => ⟨S8x2048x2048, .i1⟩
  | 6 => ⟨S8x2048x2048, .i1⟩
  | 7 => ⟨S8x1x2048, .i1⟩
  | 8 => ⟨S8x2048x2048, .i1⟩
  | 9 => ⟨S8x2048x2048, .i1⟩
  | 10 => ⟨S_, .f32⟩
  | 11 => ⟨S_, .f32⟩
  | 12 => ⟨S8x2048x2048, .f32⟩
  | 13 => ⟨S8x2048x2048, .f32⟩
  | 14 => ⟨S8x2048x2048, .f32⟩
  | 15 => ⟨S8x2048x2048, .f32⟩
  | 16 => ⟨S_, .i32⟩
  | 17 => ⟨S_, .i32⟩
  | 18 => ⟨S_, .i32⟩
  | 19 => ⟨S8x2048, .i32⟩
  | 20 => ⟨S8x2048, .i32⟩
  | 21 => ⟨S_, .i32⟩
  | 22 => ⟨S8x2048, .i32⟩
  | 23 => ⟨S8x2048, .i32⟩
  | 24 => ⟨S8x2048x1, .i32⟩
  | 25 => ⟨S1x1x32, .i32⟩
  | 26 => ⟨S8x2048x32, .i32⟩
  | 27 => ⟨S8x2048x32, .i32⟩
  | 28 => ⟨S8x2048x32, .i1⟩
  | 29 => ⟨S8x2048x32, .f32⟩
  | 30 => ⟨S8x2048x32, .f32⟩
  | 31 => ⟨S_, .f32⟩
  | 32 => ⟨S_, .f32⟩
  | 33 => ⟨S_, .f32⟩
  | 34 => ⟨S_, .i1⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S8x2048x64, .f32⟩
  | 43 => ⟨S8x2048x64, .f32⟩
  | 44 => ⟨S8x2048x64, .f32⟩
  | 45 => ⟨S_, .f32⟩
  | 46 => ⟨S_, .f32⟩
  | 47 => ⟨S_, .f32⟩
  | 48 => ⟨S_, .i1⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S8x2048x64, .f32⟩
  | 57 => ⟨S8x2048x64, .f32⟩
  | 58 => ⟨S8x2048x64, .f32⟩
  | 59 => ⟨S_, .f32⟩
  | 60 => ⟨S_, .f32⟩
  | 61 => ⟨S_, .f32⟩
  | 62 => ⟨S_, .i1⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S8x2048x32, .f32⟩
  | 71 => ⟨S8x2048x32, .f32⟩
  | 72 => ⟨S8x2048x32, .f32⟩
  | 73 => ⟨S_, .f32⟩
  | 74 => ⟨S_, .f32⟩
  | 75 => ⟨S_, .f32⟩
  | 76 => ⟨S_, .i1⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S8x2048x32, .f32⟩
  | 85 => ⟨S8x2048x32, .f32⟩
  | 86 => ⟨S8x2048x32, .f32⟩
  | _ => ⟨S8x2048, .i32⟩

abbrev hbmTy (i : Nat) : BufTy := match i / 128 with
  | 0 => hbmTy0_0 i
  | 1 => hbmTy0_1 i
  | _ => ⟨S8x2048, .i32⟩

abbrev bufTy : (tb : Table) → Fin (tcTables nBuf tb) → BufTy
  | .hbm, ⟨i, _⟩ => hbmTy i
  | _, _ => ⟨S8x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_call0_v0 : Ref sig .tc := ⟨.hbm, 25, rfl⟩
abbrev main_call0_cst : Ref sig .tc := ⟨.hbm, 26, rfl⟩
abbrev main_call0_v1 : Ref sig .tc := ⟨.hbm, 27, rfl⟩
abbrev main_call0_v2 : Ref sig .tc := ⟨.hbm, 28, rfl⟩
abbrev main_v12 : Ref sig .tc := ⟨.hbm, 29, rfl⟩
abbrev main_cst : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_c : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c_0 : Ref sig .tc := ⟨.hbm, 40, rfl⟩
abbrev main_call1_c : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v21 : Ref sig .tc := ⟨.hbm, 45, rfl⟩
abbrev main_c_1 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_c_2 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_c_3 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_c_4 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_c_5 : Ref sig .tc := ⟨.hbm, 62, rfl⟩
abbrev main_v34 : Ref sig .tc := ⟨.hbm, 63, rfl⟩
abbrev main_call2_v0 : Ref sig .tc := ⟨.hbm, 64, rfl⟩
abbrev main_call2_c : Ref sig .tc := ⟨.hbm, 65, rfl⟩
abbrev main_call2_v1 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_call2_c_0 : Ref sig .tc := ⟨.hbm, 70, rfl⟩
abbrev main_call2_v5 : Ref sig .tc := ⟨.hbm, 71, rfl⟩
abbrev main_v35 : Ref sig .tc := ⟨.hbm, 72, rfl⟩
abbrev main_c_6 : Ref sig .tc := ⟨.hbm, 73, rfl⟩
abbrev main_v36 : Ref sig .tc := ⟨.hbm, 74, rfl⟩
abbrev main_v37 : Ref sig .tc := ⟨.hbm, 75, rfl⟩
abbrev main_call3_cst : Ref sig .tc := ⟨.hbm, 76, rfl⟩
abbrev main_call3_v0 : Ref sig .tc := ⟨.hbm, 77, rfl⟩
abbrev main_call3_v1 : Ref sig .tc := ⟨.hbm, 78, rfl⟩
abbrev main_call3_v2 : Ref sig .tc := ⟨.hbm, 79, rfl⟩
abbrev main_call3_v3 : Ref sig .tc := ⟨.hbm, 80, rfl⟩
abbrev main_call3_v4 : Ref sig .tc := ⟨.hbm, 81, rfl⟩
abbrev main_call3_v5 : Ref sig .tc := ⟨.hbm, 82, rfl⟩
abbrev main_call3_v6 : Ref sig .tc := ⟨.hbm, 83, rfl⟩
abbrev main_call3_v7 : Ref sig .tc := ⟨.hbm, 84, rfl⟩
abbrev main_call3_v8 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_cst_7 : Ref sig .tc := ⟨.hbm, 95, rfl⟩
abbrev main_call4_v0 : Ref sig .tc := ⟨.hbm, 96, rfl⟩
abbrev main_call4_v1 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_c_8 : Ref sig .tc := ⟨.hbm, 101, rfl⟩
abbrev main_c_9 : Ref sig .tc := ⟨.hbm, 102, rfl⟩
abbrev main_call5_v0 : Ref sig .tc := ⟨.hbm, 103, rfl⟩
abbrev main_call5_v1 : Ref sig .tc := ⟨.hbm, 104, rfl⟩
abbrev main_call5_v2 : Ref sig .tc := ⟨.hbm, 105, rfl⟩
abbrev main_call5_v3 : Ref sig .tc := ⟨.hbm, 106, rfl⟩
abbrev main_call5_v4 : Ref sig .tc := ⟨.hbm, 107, rfl⟩
abbrev main_v50 : Ref sig .tc := ⟨.hbm, 108, rfl⟩
abbrev main_call6_v0 : Ref sig .tc := ⟨.hbm, 109, rfl⟩
abbrev main_call6_v1 : Ref sig .tc := ⟨.hbm, 110, rfl⟩
abbrev main_call6_v2 : Ref sig .tc := ⟨.hbm, 111, rfl⟩
abbrev main_call6_v3 : Ref sig .tc := ⟨.hbm, 112, rfl⟩
abbrev main_call6_v4 : Ref sig .tc := ⟨.hbm, 113, rfl⟩
abbrev main_v51 : Ref sig .tc := ⟨.hbm, 114, rfl⟩
abbrev main_v52 : Ref sig .tc := ⟨.hbm, 115, rfl⟩
abbrev main_c_10 : Ref sig .tc := ⟨.hbm, 116, rfl⟩
abbrev main_v53 : Ref sig .tc := ⟨.hbm, 117, rfl⟩
abbrev main_v54 : Ref sig .tc := ⟨.hbm, 118, rfl⟩
abbrev main_call7_cst : Ref sig .tc := ⟨.hbm, 119, rfl⟩
abbrev main_call7_v0 : Ref sig .tc := ⟨.hbm, 120, rfl⟩
abbrev main_call7_v1 : Ref sig .tc := ⟨.hbm, 121, rfl⟩
abbrev main_call7_v2 : Ref sig .tc := ⟨.hbm, 122, rfl⟩
abbrev main_call7_v3 : Ref sig .tc := ⟨.hbm, 123, rfl⟩
abbrev main_call7_v4 : Ref sig .tc := ⟨.hbm, 124, rfl⟩
abbrev main_call7_v5 : Ref sig .tc := ⟨.hbm, 125, rfl⟩
abbrev main_call7_v6 : Ref sig .tc := ⟨.hbm, 126, rfl⟩
abbrev main_call7_v7 : Ref sig .tc := ⟨.hbm, 127, rfl⟩
abbrev main_call7_v8 : Ref sig .tc := ⟨.hbm, 128, rfl⟩
abbrev main_v55 : Ref sig .tc := ⟨.hbm, 129, rfl⟩
abbrev main_v56 : Ref sig .tc := ⟨.hbm, 130, rfl⟩
abbrev main_v57 : Ref sig .tc := ⟨.hbm, 131, rfl⟩
abbrev main_v58 : Ref sig .tc := ⟨.hbm, 132, rfl⟩
abbrev main_v59 : Ref sig .tc := ⟨.hbm, 133, rfl⟩
abbrev main_v60 : Ref sig .tc := ⟨.hbm, 134, rfl⟩
abbrev main_v61 : Ref sig .tc := ⟨.hbm, 135, rfl⟩
abbrev main_v62 : Ref sig .tc := ⟨.hbm, 136, rfl⟩
abbrev main_v63 : Ref sig .tc := ⟨.hbm, 137, rfl⟩
abbrev main_cst_11 : Ref sig .tc := ⟨.hbm, 138, rfl⟩
abbrev main_call8_v0 : Ref sig .tc := ⟨.hbm, 139, rfl⟩
abbrev main_call8_v1 : Ref sig .tc := ⟨.hbm, 140, rfl⟩
abbrev main_v64 : Ref sig .tc := ⟨.hbm, 141, rfl⟩
abbrev main_v65 : Ref sig .tc := ⟨.hbm, 142, rfl⟩
abbrev main_v66 : Ref sig .tc := ⟨.hbm, 143, rfl⟩
abbrev main_c_12 : Ref sig .tc := ⟨.hbm, 144, rfl⟩
abbrev main_c_13 : Ref sig .tc := ⟨.hbm, 145, rfl⟩
abbrev main_call9_v0 : Ref sig .tc := ⟨.hbm, 146, rfl⟩
abbrev main_call9_v1 : Ref sig .tc := ⟨.hbm, 147, rfl⟩
abbrev main_call9_v2 : Ref sig .tc := ⟨.hbm, 148, rfl⟩
abbrev main_call9_v3 : Ref sig .tc := ⟨.hbm, 149, rfl⟩
abbrev main_call9_v4 : Ref sig .tc := ⟨.hbm, 150, rfl⟩
abbrev main_v67 : Ref sig .tc := ⟨.hbm, 151, rfl⟩
abbrev main_call10_v0 : Ref sig .tc := ⟨.hbm, 152, rfl⟩
abbrev main_call10_v1 : Ref sig .tc := ⟨.hbm, 153, rfl⟩
abbrev main_call10_v2 : Ref sig .tc := ⟨.hbm, 154, rfl⟩
abbrev main_call10_v3 : Ref sig .tc := ⟨.hbm, 155, rfl⟩
abbrev main_call10_v4 : Ref sig .tc := ⟨.hbm, 156, rfl⟩
abbrev main_v68 : Ref sig .tc := ⟨.hbm, 157, rfl⟩
abbrev main_v69 : Ref sig .tc := ⟨.hbm, 158, rfl⟩
abbrev main_call11_cst : Ref sig .tc := ⟨.hbm, 159, rfl⟩
abbrev main_call11_v0 : Ref sig .tc := ⟨.hbm, 160, rfl⟩
abbrev main_call11_v1 : Ref sig .tc := ⟨.hbm, 161, rfl⟩
abbrev main_call11_v2 : Ref sig .tc := ⟨.hbm, 162, rfl⟩
abbrev main_call11_v3 : Ref sig .tc := ⟨.hbm, 163, rfl⟩
abbrev main_call11_v4 : Ref sig .tc := ⟨.hbm, 164, rfl⟩
abbrev main_call11_v5 : Ref sig .tc := ⟨.hbm, 165, rfl⟩
abbrev main_call11_v6 : Ref sig .tc := ⟨.hbm, 166, rfl⟩
abbrev main_call11_v7 : Ref sig .tc := ⟨.hbm, 167, rfl⟩
abbrev main_call11_v8 : Ref sig .tc := ⟨.hbm, 168, rfl⟩
abbrev main_v70 : Ref sig .tc := ⟨.hbm, 169, rfl⟩
abbrev main_v71 : Ref sig .tc := ⟨.hbm, 170, rfl⟩
abbrev main_v72 : Ref sig .tc := ⟨.hbm, 171, rfl⟩
abbrev main_v73 : Ref sig .tc := ⟨.hbm, 172, rfl⟩
abbrev main_call12_cst : Ref sig .tc := ⟨.hbm, 173, rfl⟩
abbrev main_call12_v0 : Ref sig .tc := ⟨.hbm, 174, rfl⟩
abbrev main_call12_v1 : Ref sig .tc := ⟨.hbm, 175, rfl⟩
abbrev main_call12_v2 : Ref sig .tc := ⟨.hbm, 176, rfl⟩
abbrev main_call12_v3 : Ref sig .tc := ⟨.hbm, 177, rfl⟩
abbrev main_call12_v4 : Ref sig .tc := ⟨.hbm, 178, rfl⟩
abbrev main_call12_v5 : Ref sig .tc := ⟨.hbm, 179, rfl⟩
abbrev main_call12_v6 : Ref sig .tc := ⟨.hbm, 180, rfl⟩
abbrev main_call12_v7 : Ref sig .tc := ⟨.hbm, 181, rfl⟩
abbrev main_call12_v8 : Ref sig .tc := ⟨.hbm, 182, rfl⟩
abbrev main_v74 : Ref sig .tc := ⟨.hbm, 183, rfl⟩
abbrev main_v75 : Ref sig .tc := ⟨.hbm, 184, rfl⟩
abbrev main_v76 : Ref sig .tc := ⟨.hbm, 185, rfl⟩
abbrev main_v77 : Ref sig .tc := ⟨.hbm, 186, rfl⟩
abbrev main_call13_cst : Ref sig .tc := ⟨.hbm, 187, rfl⟩
abbrev main_call13_v0 : Ref sig .tc := ⟨.hbm, 188, rfl⟩
abbrev main_call13_v1 : Ref sig .tc := ⟨.hbm, 189, rfl⟩
abbrev main_call13_v2 : Ref sig .tc := ⟨.hbm, 190, rfl⟩
abbrev main_call13_v3 : Ref sig .tc := ⟨.hbm, 191, rfl⟩
abbrev main_call13_v4 : Ref sig .tc := ⟨.hbm, 192, rfl⟩
abbrev main_call13_v5 : Ref sig .tc := ⟨.hbm, 193, rfl⟩
abbrev main_call13_v6 : Ref sig .tc := ⟨.hbm, 194, rfl⟩
abbrev main_call13_v7 : Ref sig .tc := ⟨.hbm, 195, rfl⟩
abbrev main_call13_v8 : Ref sig .tc := ⟨.hbm, 196, rfl⟩
abbrev main_v78 : Ref sig .tc := ⟨.hbm, 197, rfl⟩
abbrev main_v79 : Ref sig .tc := ⟨.hbm, 198, rfl⟩
abbrev main_v80 : Ref sig .tc := ⟨.hbm, 199, rfl⟩
abbrev main_v81 : Ref sig .tc := ⟨.hbm, 200, rfl⟩
abbrev main_call14_cst : Ref sig .tc := ⟨.hbm, 201, rfl⟩
abbrev main_call14_v0 : Ref sig .tc := ⟨.hbm, 202, rfl⟩
abbrev main_call14_v1 : Ref sig .tc := ⟨.hbm, 203, rfl⟩
abbrev main_call14_v2 : Ref sig .tc := ⟨.hbm, 204, rfl⟩
abbrev main_call14_v3 : Ref sig .tc := ⟨.hbm, 205, rfl⟩
abbrev main_call14_v4 : Ref sig .tc := ⟨.hbm, 206, rfl⟩
abbrev main_call14_v5 : Ref sig .tc := ⟨.hbm, 207, rfl⟩
abbrev main_call14_v6 : Ref sig .tc := ⟨.hbm, 208, rfl⟩
abbrev main_call14_v7 : Ref sig .tc := ⟨.hbm, 209, rfl⟩
abbrev main_call14_v8 : Ref sig .tc := ⟨.hbm, 210, rfl⟩
abbrev main_v82 : Ref sig .tc := ⟨.hbm, 211, rfl⟩
abbrev main_v83 : Ref sig .tc := ⟨.hbm, 212, rfl⟩
abbrev main_v84 : Ref sig .tc := ⟨.hbm, 213, rfl⟩
abbrev main_v85 : Ref sig .tc := ⟨.hbm, 214, rfl⟩

abbrev nD : Nat := 1
abbrev τ : Topo := Topo.v7x

variable {F : FTy → Type} [FloatOps F]

class Facts₀ : Prop where
  bcast_S64_S1x1x64_2 : S64.BroadcastsInDim S1x1x64 (![2] : Fin 1 → Fin S1x1x64.rank)
  bcast_S1x1x64_S8x2048x64_0_1_2 : S1x1x64.BroadcastsInDim S8x2048x64 (![0, 1, 2] : Fin 3 → Fin S8x2048x64.rank)
  bcast_S32_S1x1x32_2 : S32.BroadcastsInDim S1x1x32 (![2] : Fin 1 → Fin S1x1x32.rank)
  bcast_S1x1x32_S8x2048x32_0_1_2 : S1x1x32.BroadcastsInDim S8x2048x32 (![0, 1, 2] : Fin 3 → Fin S8x2048x32.rank)
  slices_S101x1024_S64x1024_5_0 : S101x1024.Slices ![5, 0] S64x1024
  slices_S101x1024_S32x1024_69_0 : S101x1024.Slices ![69, 0] S32x1024
  reducesTo_S8x2048x1024_S8x2048_d2 : S8x2048x1024.ReducesTo [2] S8x2048
  h_S_ : 0 < S_.numel
  bcast_S8x2048_S8x2048x1_0_1 : S8x2048.BroadcastsInDim S8x2048x1 (![0, 1] : Fin 2 → Fin S8x2048x1.rank)
  bcast_S_S8x2048x1 : S_.BroadcastsInDim S8x2048x1 (![] : Fin 0 → Fin S8x2048x1.rank)
  bcast_S8x2048x1_S8x2048x1024_0_1_2 : S8x2048x1.BroadcastsInDim S8x2048x1024 (![0, 1, 2] : Fin 3 → Fin S8x2048x1024.rank)
  bcast_S_S8x2048 : S_.BroadcastsInDim S8x2048 (![] : Fin 0 → Fin S8x2048.rank)
  slices_S8x2048_S8x2047_0_0 : S8x2048.Slices ![0, 0] S8x2047
  bcast_S_S_ : S_.BroadcastsInDim S_ (![] : Fin 0 → Fin S_.rank)
  pads_S8x2047_S8x2048_000_100 : S8x2047.Pads (![0, 1] : Fin 2 → Nat) ![0, 0] ![0, 0] S8x2048
  bcast_S_S2048x2048 : S_.BroadcastsInDim S2048x2048 (![] : Fin 0 → Fin S2048x2048.rank)
  bcast_S2048x2048_S1x2048x2048_1_2 : S2048x2048.BroadcastsInDim S1x2048x2048 (![1, 2] : Fin 2 → Fin S1x2048x2048.rank)
  bcast_S8x2048x1_S8x2048x2048_0_1_2 : S8x2048x1.BroadcastsInDim S8x2048x2048 (![0, 1, 2] : Fin 3 → Fin S8x2048x2048.rank)
  bcast_S1x2048x2048_S8x2048x2048_0_1_2 : S1x2048x2048.BroadcastsInDim S8x2048x2048 (![0, 1, 2] : Fin 3 → Fin S8x2048x2048.rank)
  bcast_S8x2048_S8x1x2048_0_2 : S8x2048.BroadcastsInDim S8x1x2048 (![0, 2] : Fin 2 → Fin S8x1x2048.rank)
  bcast_S8x1x2048_S8x2048x2048_0_1_2 : S8x1x2048.BroadcastsInDim S8x2048x2048 (![0, 1, 2] : Fin 3 → Fin S8x2048x2048.rank)
  bcast_S_S8x2048x2048 : S_.BroadcastsInDim S8x2048x2048 (![] : Fin 0 → Fin S8x2048x2048.rank)
  bcast_S8x2048x1_S8x2048x64_0_1_2 : S8x2048x1.BroadcastsInDim S8x2048x64 (![0, 1, 2] : Fin 3 → Fin S8x2048x64.rank)
  bcast_S8x2048x1_S8x2048x32_0_1_2 : S8x2048x1.BroadcastsInDim S8x2048x32 (![0, 1, 2] : Fin 3 → Fin S8x2048x32.rank)
  bcast_S_S8x2048x64 : S_.BroadcastsInDim S8x2048x64 (![] : Fin 0 → Fin S8x2048x64.rank)
  bcast_S_S8x2048x32 : S_.BroadcastsInDim S8x2048x32 (![] : Fin 0 → Fin S8x2048x32.rank)
  dot_S8x2048x1024_S64x1024_S8x2048x64_2_1_01_0_n_n_wf : DotDims.WF S8x2048x1024 S64x1024 S8x2048x64 [2] [1] [0, 1] [0] [] []
  dot_S8x2048x1024_S32x1024_S8x2048x32_2_1_01_0_n_n_wf : DotDims.WF S8x2048x1024 S32x1024 S8x2048x32 [2] [1] [0, 1] [0] [] []
  dot_S8x2048x1024_S8x2048x1024_S8x2048x2048_2_2_1_1_0_0_wf : DotDims.WF S8x2048x1024 S8x2048x1024 S8x2048x2048 [2] [2] [1] [1] [0] [0]
  dot_S8x2048x2048_S8x2048x64_S8x2048x64_2_1_1_2_0_0_wf : DotDims.WF S8x2048x2048 S8x2048x64 S8x2048x64 [2] [1] [1] [2] [0] [0]
  dot_S8x2048x2048_S8x2048x32_S8x2048x32_2_1_1_2_0_0_wf : DotDims.WF S8x2048x2048 S8x2048x32 S8x2048x32 [2] [1] [1] [2] [0] [0]

variable [Facts₀]

def dot_S8x2048x1024_S64x1024_S8x2048x64_2_1_01_0_n_n : DotDims S8x2048x1024 S64x1024 S8x2048x64 where
  lhsContracting := [2]
  rhsContracting := [1]
  lhsNonContracting := [0, 1]
  rhsNonContracting := [0]
  lhsBatch := []
  rhsBatch := []
  wf := dot_S8x2048x1024_S64x1024_S8x2048x64_2_1_01_0_n_n_wf
def dot_S8x2048x1024_S32x1024_S8x2048x32_2_1_01_0_n_n : DotDims S8x2048x1024 S32x1024 S8x2048x32 where
  lhsContracting := [2]
  rhsContracting := [1]
  lhsNonContracting := [0, 1]
  rhsNonContracting := [0]
  lhsBatch := []
  rhsBatch := []
  wf := dot_S8x2048x1024_S32x1024_S8x2048x32_2_1_01_0_n_n_wf
def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def dot_S8x2048x2048_S8x2048x64_S8x2048x64_2_1_1_2_0_0 : DotDims S8x2048x2048 S8x2048x64 S8x2048x64 where
  lhsContracting := [2]
  rhsContracting := [1]
  lhsNonContracting := [1]
  rhsNonContracting := [2]
  lhsBatch := [0]
  rhsBatch := [0]
  wf := dot_S8x2048x2048_S8x2048x64_S8x2048x64_2_1_1_2_0_0_wf
def dot_S8x2048x2048_S8x2048x32_S8x2048x32_2_1_1_2_0_0 : DotDims S8x2048x2048 S8x2048x32 S8x2048x32 where
  lhsContracting := [2]
  rhsContracting := [1]
  lhsNonContracting := [1]
  rhsNonContracting := [2]
  lhsBatch := [0]
  rhsBatch := [0]
  wf := dot_S8x2048x2048_S8x2048x32_S8x2048x32_2_1_1_2_0_0_wf

class Facts : Prop extends Facts₀ where

variable [Facts]
-- ==== Proof.Region0.lean ====
/- The first pipelined call: the dense projection of each block of 512 activation rows onto the 256 concatenated
   head columns. For an arbitrary valuation of the core's buffers at entry, this file names the block each of the
   four windows (activations, weights, bias, result) holds at a grid point, shows that an input window still holds
   its block at a point where it was not fetched again, and proves the body's triple: it reads the three input
   blocks whole and stores the product plus bias over the whole result block. -/
import proofs.«114772_j1760936591416_2_alg».proof.Proof.Gen.KernelIdeal.Launch
import proofs.«114772_j1760936591416_2_alg».proof.Proof.Gen.KernelIdeal.Skeleton
import proofs.«114772_j1760936591416_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The first pipelined call (the dense projection of every row block onto the concatenated heads): what each of
   its four windows holds at a grid point, what its body leaves there, and the body's triple. Everything is
   stated at an arbitrary valuation `V` of the core's buffers at the moment the call is entered. -/
variable (V : (c : Dev nD) → (b : Ref sig .tc) → Buf (Elt F) ((c : Thread nD τ).loc b))

/-- Window `w`'s block at grid point `t`: the rows of its array (as `V` has it) that the index map selects. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activation block (window 0) is in its buffer at every point: it moves with both grid axes. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix (window 1) has a constant index map: brought in once, it is still there at every later
    point, because the body leaves it as found. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The bias row (window 2): constant index map, as the weights. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! The body reads each input buffer whole and writes the output buffer whole. -/

abbrev r0_0 : Rect S1x512x1024 := Rect.unit (s := S1x512x1024) ![0, 0, 0] S1x512x1024.size inb_S1x512x1024_S1x512x1024_0_0_0
abbrev r0_1 : Rect S256x1024 := Rect.unit (s := S256x1024) ![0, 0] S256x1024.size inb_S256x1024_S256x1024_0_0
abbrev r0_2 : Rect S1x256 := Rect.unit (s := S1x256) ![0, 0] S1x256.size inb_S1x256_S1x256_0_0
abbrev r0_3 : Rect S1x512x256 := Rect.unit (s := S1x512x256) ![0, 0, 0] S1x512x256.size inb_S1x512x256_S1x512x256_0_0_0

/-- What the body leaves in the output buffer, from what it read of the three inputs: one store over the
    whole buffer (the buffer's prior contents, loaded but never used, do not enter). -/
def out0_3 (x0 : Vec F S1x512x1024 .f32) (x1 : Vec F S256x1024 .bf16) (x2 : Vec F S1x256 .f32) : Vec F S1x512x256 .f32 :=
  View.canon [⟨r0_3, k0_pay1 (View.ld x0 r0_0) (View.ld x1 r0_1) (View.ld x2 r0_2)⟩]

/-- The single store covers the buffer. -/
theorem cover0_3 (p0 : Vec F S1x512x256 .f32) (y : S1x512x256.Idx) :
    ∃ pc ∈ ([⟨r0_3, p0⟩] : List (View.Piece (Elt F) S1x512x256 .f32)), y ∈ pc.1.set :=
  View.cover_of_tiled [⟨r0_3, p0⟩] S1x512x256.size (by rfl) y

/-! Reading a buffer whole, and writing it whole: a unit-stride rectangle from the origin with the shape's own
    extents places every index at itself. -/

theorem ld_whole {S : Shape} {e : EltTy} (X : S.Idx → Elt F e) (off : Fin S.rank → Nat) (inb : ∀ a, off a + S.size a ≤ S.size a)
    (h0 : ∀ a, off a = 0) : View.ld X (Rect.unit (s := S) off S.size inb) = X := by
  funext x
  show X ((Rect.unit (s := S) off S.size inb).idx x) = X x
  congr 1
  funext a; apply Fin.ext
  show off a + 1 * (x a : Nat) = x a
  rw [h0]; omega

theorem canon_whole {S : Shape} {e : EltTy} (off : Fin S.rank → Nat) (inb : ∀ a, off a + S.size a ≤ S.size a)
    (h0 : ∀ a, off a = 0) (p : S.Idx → Elt F e) :
    View.canon [(⟨Rect.unit (s := S) off S.size inb, p⟩ : View.Piece (Elt F) S e)] = p := by
  funext y
  have hy : y ∈ (Rect.unit (s := S) off S.size inb).set := by
    rw [Rect.mem_set_unit]; intro a; rw [h0]; exact ⟨Nat.zero_le _, by have := (y a).isLt; omega⟩
  obtain ⟨x, rfl⟩ := (Rect.unit (s := S) off S.size inb).exists_idx_of_mem hy
  refine (View.canon_cons_emb (Rect.unit (s := S) off S.size inb) p [] x).trans ?_
  congr 1
  funext a; apply Fin.ext
  show (x a : Nat) = off a + 1 * (x a : Nat)
  rw [h0]; omega

/-- So the body leaves in the output buffer exactly the block product plus bias of what it read. -/
theorem out0_3_eq (x0 : Vec F S1x512x1024 .f32) (x1 : Vec F S256x1024 .bf16) (x2 : Vec F S1x256 .f32) :
    out0_3 x0 x1 x2 = k0_pay1 x0 x1 x2 := by
  unfold out0_3
  rw [show View.ld x0 r0_0 = x0 from ld_whole x0 _ _ (by decide), show View.ld x1 r0_1 = x1 from ld_whole x1 _ _ (by decide),
    show View.ld x2 r0_2 = x2 from ld_whole x2 _ _ (by decide)]
  exact canon_whole _ _ (by decide) _

set_option maxHeartbeats 1000000 in
/-- The body on whole buffers: the three inputs are read and given back as found; the output buffer, whatever it
    held, ends holding the block product plus bias of the inputs. -/
theorem sound_kernel0 (c : Dev nD) (E : Set ℕ) (i : grid0.Coords)
    (arg2 : Memref sig .tc .vmem S1x512x1024 .f32) (harg2 : arg2.IsWhole) (arg3 : Memref sig .tc .vmem S256x1024 .bf16) (harg3 : arg3.IsWhole)
    (arg4 : Memref sig .tc .vmem S1x256 .f32) (harg4 : arg4.IsWhole) (arg5 : Memref sig .tc .vmem S1x512x256 .f32) (harg5 : arg5.IsWhole)
    (x0 : Vec F S1x512x1024 .f32) (x1 : Vec F S256x1024 .bf16) (x2 : Vec F S1x256 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (k0_pay1 x0 x1 x2)) -∗ K ⟨⟩))
      ⊢ wp frame (wpE (defs₀ (F := F)) Variants.none c none) E (cc0__dense_heads_kernel i arg2 harg2 arg3 harg3 arg4 harg4 arg5 harg5) K := by
  simp only [cc0__dense_heads_kernel_eq_skeleton]; unfold cc0__dense_heads_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact (View.read_writes_eq_canon _ _ _ (cover0_3 _)).trans (out0_3_eq _ _ _)

/-! ## The call's proof data -/

/-- The proof data of the call on core `c`: the arrays as the call finds them (`V`); after the body at point `t`
    each input buffer still at its block and the output buffer at the product of the input blocks; the invariant
    carries only what the call never touches; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay1 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = k0_pay1 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the input buffers hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the call, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Gen

end
-- ==== Proof.Region0Seg.lean ====
/- The first pipelined call as one step of the whole program. Entered with every unscoped buffer of the core at a
   valuation, it returns them at that valuation updated at the result array alone, which then holds the fold of
   the 32 block write-backs; the random-generator register and the core's (empty) dues ride along unchanged. -/
import proofs.«114772_j1760936591416_2_alg».proof.Proof.Region0
import proofs.«114772_j1760936591416_2_alg».proof.Proof.Gen.KernelIdeal.Regions

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The first pipelined call as one step of the whole program: entered with every unscoped buffer of the core at a
   valuation `W`, it leaves them at `exit0 W` — the call's own arrays at what its write-backs left, every other
   buffer untouched. -/
variable (W : Dev nD → Valuation τ sig (Elt F))

/-- A valuation read at the core's own references. -/
abbrev atTc (W : Dev nD → Valuation τ sig (Elt F)) : (c : Dev nD) → (b : Ref sig .tc) → Buf (Elt F) ((c : Thread nD τ).loc b) :=
  fun c b => W c b

/-- The buffers when the call returns: its four arrays at what the pipeline leaves (the three inputs as found, the
    output at the fold of its write-backs), every other buffer as on entry. -/
def exit0 (c : Dev nD) : Valuation τ sig (Elt F) :=
  Pipeline.withArrays spec0 c (W c) fun w => (dat0 (atTc W) c).arrAt w cfg0.N
theorem exit0_arr (c : Dev nD) (w : Fin cfg0.W) :
    exit0 W c (Proc.devRef .tc (Pipeline.arrRef spec0 w)) = (dat0 (atTc W) c).arrAt w cfg0.N := by
  unfold exit0; exact Pipeline.withArrays_arr spec0 launch0.win.arr_inj c _ _ w
theorem exit0_of_ne (c : Dev nD) (b : Ref sig .tc) (hb : ∀ w, Pipeline.arrRef spec0 w ≠ b) :
    exit0 W c (Proc.devRef .tc b) = W c (Proc.devRef .tc b) := by
  unfold exit0; exact Pipeline.withArrays_of_ne spec0 c _ _ b hb
theorem hF0 (c : Dev nD) (w : Fin cfg0.W) : (dat0 (atTc W) c).arrAt w cfg0.N = atTc (exit0 W) c (Pipeline.arrRef spec0 w) :=
  (exit0_arr W c w).symm
theorem hrest0 (c : Dev nD) : ∀ b, b ∉ Finset.univ.image (Pipeline.arrRef spec0) → atTc (exit0 W) c b = atTc W c b :=
  fun b hb => exit0_of_ne W c b fun w e => hb (Finset.mem_image.mpr ⟨w, Finset.mem_univ _, e⟩)

/-- Both calls' proof data: the first call's at the entry valuation, the second's whatever is given. -/
def pdatsOf (V : (c : Dev nD) → (b : Ref sig .tc) → Buf (Elt F) ((c : Thread nD τ).loc b))
    (d1 : (c : Dev nD) → Dat τ (Elt F) Unit ℕ (UR sig nD τ) ℕ cfg1 c) :
    (p : Fin 2) → (c : Dev nD) → Dat τ (Elt F) Unit ℕ (UR sig nD τ) ℕ (cfgs p) c
  | ⟨0, _⟩ => fun c => dat0 V c
  | ⟨1, _⟩ => d1

/-- No core owes another anything. -/
abbrev L0 : GSem nD τ sig → Finset Unit := fun _ => ∅
abbrev lv0 : GSem nD τ sig → Unit → ℕ := fun _ _ => 0
/-- What rides beside the buffers: the core's generator register at some state and its dues, at nothing. -/
abbrev ride (c : Dev nD) : sProp 𝕄 := iprop((∃ r, prngReg c r) ∗ ∃ Wt, owes (c : Thread nD τ) (0 : CellTallies nD τ sig Unit) Wt)

set_option backward.isDefEq.respectTransparency.types false in
/-- The call as a step: its arrays are split out of the unscoped buffers on entry and put back, at the exit
    valuation, on return; the generator register goes into the invariant and comes back; nothing is owed; the
    kernel has no semaphore of its own. -/
def reg0 (d1 : (c : Dev nD) → Dat τ (Elt F) Unit ℕ (UR sig nD τ) ℕ cfg1 c) :
    Pipeline.RegionSeg (pcfgs (F := F)) adm (pdatsOf (atTc W) d1) () defs₀ Variants.none L0 lv0 0 where
  win := launch0.win.to₀
  block_pos := launch0.block_pos
  stage_whole := launch0.stage_whole
  K := PEmpty
  osem k := k.elim
  ho := Pipeline.OwnSemFacts.none _
  hbody c := (body_obligation0 (atTc W) c).loose
  hwaits := Pipeline.hwaits_of_owed_zero _ _ _ _ L0 lv0 0 fun _ _ => rfl
  pre c := iprop(StableHlo.held (c : Thread nD τ) (Pipeline.ucRefs τ sig) (W c) ∗ ride c)
  post c := iprop(StableHlo.held (c : Thread nD τ) (Pipeline.ucRefs τ sig) (exit0 W c) ∗ ride c)
  X c := iprop(∃ r, prngReg c r)
  Y c := iprop(∃ r, prngReg c r)
  Z c := Pipeline.unscopedRest (Ix := Unit) (Name := ℕ) (U := UR sig nD τ) (Lvl := ℕ) spec0 c (atTc W c)
  hentry c := by
    rw [Pipeline.ownSems0_none]
    have hsplit := Pipeline.arrays_of_unscopedBufs (p := 0) (pcfgs (F := F)) adm (pdatsOf (atTc W) d1) launch0.win launch0.arr_whole c
      ((pdatsOf (atTc W) d1 0 c).share_full fun _ => rfl) (atTc W c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Wt, HO⟩; iexists Wt; isplitr; · ipureintro; exact fun _ _ => Or.inl trivial
      iexact HO
    isplitl [Hp]; · iexact Hp
    iexact Hrest
  hin c := by
    rw [show (pdatsOf (atTc W) d1 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsOf (atTc W) d1 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdatsOf (atTc W) d1) ((pdatsOf (atTc W) d1 0 c).share_full fun _ => rfl)
      (atTc W c) (atTc (exit0 W) c) ((pdatsOf (atTc W) d1 0 c).arrAt · cfg0.N) (hF0 W c) (hrest0 W c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%Wt, -, HO⟩; iexists Wt; iexact HO

/-- The call writes only its output array: on return the buffers are the entry valuation updated at that array. -/
theorem exit0_eq_update (c : Dev nD) :
    exit0 W c = Function.update (W c) main_v9 (exit0 W c main_v9) := by
  funext b
  by_cases hb : b = (main_v9 : DevRef τ sig)
  · subst hb; rw [Function.update_self]
  · rw [Function.update_of_ne hb]
    by_cases h : ∃ w, Proc.devRef .tc (Pipeline.arrRef spec0 w) = b
    · obtain ⟨w, rfl⟩ := h
      rw [exit0_arr]
      match w with
      | ⟨0, _⟩ => exact ((dat0 (atTc W) c).arrAt_in 0 rfl _).trans (A_eq0 (atTc W) c 0)
      | ⟨1, _⟩ => exact ((dat0 (atTc W) c).arrAt_in 1 rfl _).trans (A_eq0 (atTc W) c 1)
      | ⟨2, _⟩ => exact ((dat0 (atTc W) c).arrAt_in 2 rfl _).trans (A_eq0 (atTc W) c 2)
      | ⟨3, _⟩ => exact absurd rfl hb
    · unfold exit0 Pipeline.withArrays; rw [dif_neg h]

/-- Against the program's own valuations: entered at the valuation before the call, the call leaves the one after
    it, the output array's unknown contents there being what the pipeline leaves. -/
theorem exit0_V5_eq_V6 (m : (ℓ : Loc nD τ sig) → Buf (Elt F) ℓ) (outs : Outs (F := F))
    (houts : ∀ c, outs 6 main_v9 c = exit0 (V5 m) c main_v9) (c : Dev nD) : exit0 (V5 m) c = V6 m outs c := by
  rw [exit0_eq_update (V5 m) c, ← houts c]

theorem post0_V6 (m : (ℓ : Loc nD τ sig) → Buf (Elt F) ℓ) (outs : Outs (F := F))
    (houts : ∀ c, outs 6 main_v9 c = exit0 (V5 m) c main_v9)
    (d1 : (c : Dev nD) → Dat τ (Elt F) Unit ℕ (UR sig nD τ) ℕ cfg1 c) (c : Dev nD) :
    (reg0 (V5 m) d1).post c ⊢ iprop(StableHlo.held (c : Thread nD τ) (Pipeline.ucRefs τ sig) (V6 m outs c) ∗ ride c) := by
  rw [← exit0_V5_eq_V6 m outs houts c]; exact .rfl

end Cert.KernelIdeal.Gen

end
-- ==== Proof.Region1Arr.lean ====
/- The second pipelined call's arrays. Its five windows stand on four buffers: the first two windows (query rows and
   key rows) read the same array. On entry that buffer's full share splits into two half shares, one per window;
   on return the halves join back, an input array being never written, and the result array holds what the
   write-backs left. -/
import proofs.«114772_j1760936591416_2_alg».proof.Proof.Region0Seg

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The second pipelined call's arrays: five windows over four buffers

Its first two windows read the same array (query rows and key rows of the normalised activations), so the call
holds that buffer once and deals it to the two windows as two half shares. -/

section Arrays1

variable {c : Dev nD} (dat : Dat τ (Elt F) Unit ℕ (UR sig nD τ) ℕ cfg1 c)
  (V : (b : Ref sig .tc) → Buf (Elt F) ((c : Thread nD τ).loc b))

/-- The four distinct buffers behind the five windows. -/
theorem arrBufs1_eq :
    (Pipeline.arrBufs spec1 c V : sProp 𝕄)
      = iprop((((c : Thread nD τ).loc main_v56) ↦{fullShare} V main_v56) ∗ (((c : Thread nD τ).loc main_v48) ↦{fullShare} V main_v48)
          ∗ (((c : Thread nD τ).loc main_v50) ↦{fullShare} V main_v50) ∗ (((c : Thread nD τ).loc main_v57) ↦{fullShare} V main_v57)) := by
  unfold Pipeline.arrBufs
  rw [show Finset.univ.image (Pipeline.arrRef spec1) = insert main_v56 (insert main_v48 (insert main_v50 {main_v57})) from by decide,
    bigSep_insert (by decide), bigSep_insert (by decide), bigSep_insert (by decide), bigSep_singleton]
  rfl

/-- One window's array is a whole buffer. -/
theorem arr1_pt (w : Fin cfg1.W) (X : Buf (Elt F) ((cfg1.win w).arr.view.loc (c : Thread nD τ))) :
    ((cfg1.win w).arr.view.loc (c : Thread nD τ) ↦[(cfg1.win w).arr.view.set]{dat.share w} X : sProp 𝕄)
      = (((c : Thread nD τ).loc (Pipeline.arrRef spec1 w)) ↦{dat.share w} X) := by
  rw [(arr_whole1 w).set_eq_univ]

set_option maxHeartbeats 2000000 in
/-- The call's arrays, window by window, each whole at its window's share. -/
theorem arrays1_eq (Fw : (w : Fin cfg1.W) → Buf (Elt F) ((cfg1.win w).arr.view.loc (c : Thread nD τ))) :
    dat.arrays Fw
      = iprop((((c : Thread nD τ).loc main_v56) ↦{dat.q 0} Fw 0) ∗ (((c : Thread nD τ).loc main_v56) ↦{dat.q 1} Fw 1)
          ∗ (((c : Thread nD τ).loc main_v48) ↦{dat.q 2} Fw 2) ∗ (((c : Thread nD τ).loc main_v50) ↦{dat.q 3} Fw 3)
          ∗ (((c : Thread nD τ).loc main_v57) ↦{fullShare} Fw 4)) := by
  unfold Dat.arrays
  rw [bigSep_W1, arr1_pt dat 0, arr1_pt dat 1, arr1_pt dat 2, arr1_pt dat 3, arr1_pt dat 4]
  exact congrArg₂ BI.sep rfl (congrArg₂ BI.sep rfl (congrArg₂ BI.sep rfl (congrArg₂ BI.sep rfl rfl)))
end Arrays1

section Arrays1b

variable {c : Dev nD} (dat : Dat τ (Elt F) Unit ℕ (UR sig nD τ) ℕ cfg1 c)
  (V : (b : Ref sig .tc) → Buf (Elt F) ((c : Thread nD τ).loc b))

set_option maxHeartbeats 2000000 in
/-- ENTRY: the four buffers at the entry contents make the call's arrays at entry — the shared buffer's full share
    split into the two windows' shares. -/
theorem arrays1_of_arrBufs (hA : ∀ w, dat.A w = V (Pipeline.arrRef spec1 w))
    (hq01 : (fullShare : PosShare TreeShare) ∈ PCS.op (dat.q 0) (dat.q 1)) (hq2 : dat.q 2 = fullShare) (hq3 : dat.q 3 = fullShare) :
    (Pipeline.arrBufs spec1 c V : sProp 𝕄) ⊢ dat.arrays (dat.arrAt · 0) := by
  rw [arrBufs1_eq, arrays1_eq, hq2, hq3]
  rw [show dat.arrAt 0 0 = V main_v56 from hA 0, show dat.arrAt 1 0 = V main_v56 from hA 1, show dat.arrAt 2 0 = V main_v48 from hA 2,
    show dat.arrAt 3 0 = V main_v50 from hA 3, show dat.arrAt 4 0 = V main_v57 from hA 4]
  iintro ⟨H56, H48, H50, H57⟩
  ihave H := (pointsTo_share hq01).1 $$ H56
  icases H with ⟨Ha, Hb⟩
  isplitl [Ha]; · iexact Ha
  isplitl [Hb]; · iexact Hb
  isplitl [H48]; · iexact H48
  isplitl [H50]; · iexact H50
  iexact H57

set_option maxHeartbeats 2000000 in
/-- EXIT: the call's arrays after its last write-back make the four buffers at any contents `V'` that has the three
    input buffers as on entry and the output buffer at what the write-backs left — the two half shares of the shared
    buffer joined back. -/
theorem arrBufs_of_arrays1 (hA : ∀ w, dat.A w = V (Pipeline.arrRef spec1 w))
    (hq01 : (fullShare : PosShare TreeShare) ∈ PCS.op (dat.q 0) (dat.q 1)) (hq2 : dat.q 2 = fullShare) (hq3 : dat.q 3 = fullShare)
    (V' : (b : Ref sig .tc) → Buf (Elt F) ((c : Thread nD τ).loc b))
    (h56 : V' main_v56 = V main_v56) (h48 : V' main_v48 = V main_v48) (h50 : V' main_v50 = V main_v50)
    (h57 : V' main_v57 = dat.arrAt 4 cfg1.N) :
    dat.arrays (dat.arrAt · cfg1.N) ⊢ (Pipeline.arrBufs spec1 c V' : sProp 𝕄) := by
  rw [arrBufs1_eq, arrays1_eq, hq2, hq3, h56, h48, h50, h57]
  rw [show dat.arrAt 0 cfg1.N = V main_v56 from (dat.arrAt_in 0 rfl _).trans (hA 0),
    show dat.arrAt 1 cfg1.N = V main_v56 from (dat.arrAt_in 1 rfl _).trans (hA 1),
    show dat.arrAt 2 cfg1.N = V main_v48 from (dat.arrAt_in 2 rfl _).trans (hA 2),
    show dat.arrAt 3 cfg1.N = V main_v50 from (dat.arrAt_in 3 rfl _).trans (hA 3)]
  iintro ⟨Ha, Hb, H48, H50, H57⟩
  isplitl [Ha Hb]
  · iapply (pointsTo_share hq01).2
    isplitl [Ha]; · iexact Ha
    iexact Hb
  isplitl [H48]; · iexact H48
  isplitl [H50]; · iexact H50
  iexact H57

end Arrays1b

end Cert.KernelIdeal.Gen

end
-- ==== Proof.Region1Conds.lean ====
/-
  The three tests the retrieval body makes on its grid point (b, qi, ki) — ki = 0, ki ≤ qi, ki = 3 — each in closed
  form over the 128 points t = (b·4 + qi)·4 + ki: t % 4 = 0, t % 4 ≤ t / 4 % 4, t % 4 = 3. And the two facts about a
  buffer read or written whole through the zero-offset rectangle of its own sizes: a load reads the contents, a store
  leaves its payload whatever was there before.
-/
import proofs.«114772_j1760936591416_2_alg».proof.Proof.Gen.KernelIdeal.Launch
import proofs.«114772_j1760936591416_2_alg».proof.Proof.Gen.KernelIdeal.Skeleton
import proofs.«114772_j1760936591416_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The reset condition (third grid coordinate is 0), as the body computes it from the coordinates. -/
abbrev cond1_0 (i : grid1.Coords) : Prop := (Scalar.cmpi .ne (Scalar.extui (Scalar.cmpi .eq (BitVec.ofNat 32 (i 2).val) 0#32)) 0#32) = 1#1
/-- The accumulate condition (third coordinate at most the second). -/
abbrev cond1_1 (i : grid1.Coords) : Prop := (Scalar.cmpi .ne (Scalar.extui (Scalar.cmpi .sle (BitVec.ofNat 32 (i 2).val) (BitVec.ofNat 32 (i 1).val))) 0#32) = 1#1
/-- The write-out condition (third coordinate is 3). -/
abbrev cond1_2 (i : grid1.Coords) : Prop := k1_cond3 i = 1#1

theorem hcond1_0 : ∀ t : Fin cfg1.N, cond1_0 (grid1.coords t) ↔ t.val % 4 = 0 :=
  (by decide +kernel : ∀ t : Fin grid1.N, cond1_0 (grid1.coords t) ↔ t.val % 4 = 0)
theorem hcond1_1 : ∀ t : Fin cfg1.N, cond1_1 (grid1.coords t) ↔ t.val % 4 ≤ t.val / 4 % 4 :=
  (by decide +kernel : ∀ t : Fin grid1.N, cond1_1 (grid1.coords t) ↔ t.val % 4 ≤ t.val / 4 % 4)
theorem hcond1_2 : ∀ t : Fin cfg1.N, cond1_2 (grid1.coords t) ↔ t.val % 4 = 3 :=
  (by decide +kernel : ∀ t : Fin grid1.N, cond1_2 (grid1.coords t) ↔ t.val % 4 = 3)

/-! ## Whole-buffer loads and stores -/

theorem hz2 : (![0, 0] : Fin 2 → Nat) = fun _ => 0 := funext fun a => by fin_cases a <;> rfl
theorem hz3 : (![0, 0, 0] : Fin 3 → Nat) = fun _ => 0 := funext fun a => by fin_cases a <;> rfl

section Generic
variable {Val : EltTy → Type} [∀ e, Nonempty (Val e)] {sg : RefSig} {κ : Kind} {sp : Space} {S : Shape} {e : EltTy}

/-- One store through the whole-shape rectangle at zero offsets leaves its payload. -/
theorem read_store_whole (v : View sg κ sp S e) (f : v.ty.Contents Val) {off : Fin S.rank → Nat} (hoff : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon _ _ _ (fun y => ⟨_, List.mem_singleton_self _, View.mem_set_unit_zero hoff inb y⟩), View.canon_unit_zero hoff]

/-- A later store through it leaves its payload whatever the earlier stores were. -/
theorem read_store_whole_cons (v : View sg κ sp S e) (f : v.ty.Contents Val) {off : Fin S.rank → Nat} (hoff : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero hoff inb y⟩), View.canon_cons_unit_zero hoff]

/-- A load through it of a whole memref's contents reads them. -/
theorem readAt_whole (m : Memref sg κ sp S e) (h : m.IsWhole) {off : Fin S.rank → Nat} (hoff : off = fun _ => 0)
    (inb : ∀ a, off a + S.size a ≤ S.size a) (X : S.Idx → Val e) :
    m.view.readAt Val (Rect.unit off S.size inb).toLoadRect (h.unread X) = X := by
  rw [View.readAt_eq_ld, h.read_unread, View.ld_unit_zero hoff]
end Generic

end Cert.KernelIdeal.Gen

end
-- ==== Proof.Region1Runs.lean ====
/-
  The retrieval body in each of its five control cases, as a triple on whole buffers. The accumulator (a [512,128]
  block) is zeroed where ki = 0, gains the masked product of the query block with the key block times the value block
  where ki ≤ qi, and is copied to the output block where ki = 3; the four input blocks are only read. Each case names
  exactly what the accumulator and the output block hold afterwards.
-/
import proofs.«114772_j1760936591416_2_alg».proof.Proof.Region1Conds

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's triple in each control case

On whole memrefs: the four inputs at their contents, the accumulator at its contents (at anything where the case
stores it before reading it), the output block at anything where the case stores it. A buffer the case never touches
is not mentioned. -/

set_option maxHeartbeats 1000000 in
/-- Reset, then accumulate, no write-out: the accumulator ends at the accumulate payload over the zero block. -/
theorem run1_A (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x128 .bf16) (harg5 : arg5.IsWhole) (arg6 : Memref sig .tc .vmem S1x512x1 .bf16) (harg6 : arg6.IsWhole) (arg7 : Memref sig .tc .vmem S1x512x128 .f32) (harg7 : arg7.IsWhole) (arg8 : Memref sig .tc .vmem S512x128 .f32) (harg8 : arg8.IsWhole)
    (hc0 : cond1_0 i) (hc1 : cond1_1 i) (hc2 : ¬cond1_2 i) (x0 : Vec F S1x512x1024 .bf16) (x1 : Vec F S1x512x1024 .bf16) (x2 : Vec F S1x512x128 .bf16) (x3 : Vec F S1x512x1 .bf16)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg8 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg8 fullShare (k1_pay2 i x0 x1 x3 x2 k1_pay1)) -∗ K ⟨⟩))
      ⊢ wp frame (wpE (defs₀ (F := F)) Variants.none c none) E (cc1__retrieval_kernel i arg3 harg3 arg4 harg4 arg5 harg5 arg6 harg6 arg7 harg7 arg8 harg8) K := by
  simp only [cc1__retrieval_kernel_eq_skeleton]; unfold cc1__retrieval_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg3.eq_unread hf0; obtain rfl := harg4.eq_unread hf1; obtain rfl := harg5.eq_unread hf2; obtain rfl := harg6.eq_unread hf3
  sl_exec (disch := first | exact hc0 | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr
  swap; · iexact HS
  ipureintro
  sl_unfold_words
  exact (read_store_whole_cons _ _ hz2 _ _ _).trans (by rw [readAt_whole arg3 harg3 hz3, readAt_whole arg4 harg4 hz3, readAt_whole arg6 harg6 hz3, readAt_whole arg5 harg5 hz3, View.readCov_unit_zero (S := S512x128) _ hz2])

set_option maxHeartbeats 1000000 in
/-- No reset, accumulate, no write-out: the accumulator ends at the accumulate payload over what it held. -/
theorem run1_B (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x128 .bf16) (harg5 : arg5.IsWhole) (arg6 : Memref sig .tc .vmem S1x512x1 .bf16) (harg6 : arg6.IsWhole) (arg7 : Memref sig .tc .vmem S1x512x128 .f32) (harg7 : arg7.IsWhole) (arg8 : Memref sig .tc .vmem S512x128 .f32) (harg8 : arg8.IsWhole)
    (hc0 : ¬cond1_0 i) (hc1 : cond1_1 i) (hc2 : ¬cond1_2 i) (x0 : Vec F S1x512x1024 .bf16) (x1 : Vec F S1x512x1024 .bf16) (x2 : Vec F S1x512x128 .bf16) (x3 : Vec F S1x512x1 .bf16) (xs : Vec F S512x128 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg8 fullShare xs
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg8 fullShare (k1_pay2 i x0 x1 x3 x2 xs)) -∗ K ⟨⟩))
      ⊢ wp frame (wpE (defs₀ (F := F)) Variants.none c none) E (cc1__retrieval_kernel i arg3 harg3 arg4 harg4 arg5 harg5 arg6 harg6 arg7 harg7 arg8 harg8) K := by
  simp only [cc1__retrieval_kernel_eq_skeleton]; unfold cc1__retrieval_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg3.eq_unread hf0; obtain rfl := harg4.eq_unread hf1; obtain rfl := harg5.eq_unread hf2; obtain rfl := harg6.eq_unread hf3; obtain rfl := harg8.eq_unread hfs
  sl_exec (disch := first | exact hc0 | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr
  swap; · iexact HS
  ipureintro
  exact (read_store_whole _ _ hz2 _ _).trans (by rw [readAt_whole arg3 harg3 hz3, readAt_whole arg4 harg4 hz3, readAt_whole arg6 harg6 hz3, readAt_whole arg5 harg5 hz3, readAt_whole arg8 harg8 hz2])

set_option maxHeartbeats 1000000 in
/-- No reset, accumulate, write-out: the accumulator as before, the output block at the accumulator reshaped. -/
theorem run1_C (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x128 .bf16) (harg5 : arg5.IsWhole) (arg6 : Memref sig .tc .vmem S1x512x1 .bf16) (harg6 : arg6.IsWhole) (arg7 : Memref sig .tc .vmem S1x512x128 .f32) (harg7 : arg7.IsWhole) (arg8 : Memref sig .tc .vmem S512x128 .f32) (harg8 : arg8.IsWhole)
    (hc0 : ¬cond1_0 i) (hc1 : cond1_1 i) (hc2 : cond1_2 i) (x0 : Vec F S1x512x1024 .bf16) (x1 : Vec F S1x512x1024 .bf16) (x2 : Vec F S1x512x128 .bf16) (x3 : Vec F S1x512x1 .bf16) (xs : Vec F S512x128 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (k1_pay3 (k1_pay2 i x0 x1 x3 x2 xs)) ∗ owns (c : Thread nD τ) arg8 fullShare (k1_pay2 i x0 x1 x3 x2 xs)) -∗ K ⟨⟩))
      ⊢ wp frame (wpE (defs₀ (F := F)) Variants.none c none) E (cc1__retrieval_kernel i arg3 harg3 arg4 harg4 arg5 harg5 arg6 harg6 arg7 harg7 arg8 harg8) K := by
  simp only [cc1__retrieval_kernel_eq_skeleton]; unfold cc1__retrieval_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
  obtain rfl := harg3.eq_unread hf0; obtain rfl := harg4.eq_unread hf1; obtain rfl := harg5.eq_unread hf2; obtain rfl := harg6.eq_unread hf3; obtain rfl := harg8.eq_unread hfs
  sl_exec (disch := first | exact hc0 | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    sl_unfold_words
    exact (read_store_whole _ _ hz3 _ _).trans (by rw [View.readCov_unit_zero (S := S512x128) _ hz2, readAt_whole arg3 harg3 hz3, readAt_whole arg4 harg4 hz3, readAt_whole arg6 harg6 hz3, readAt_whole arg5 harg5 hz3, readAt_whole arg8 harg8 hz2])
  iexists _; isplitr
  swap; · iexact HS
  ipureintro
  exact (read_store_whole _ _ hz2 _ _).trans (by rw [readAt_whole arg3 harg3 hz3, readAt_whole arg4 harg4 hz3, readAt_whole arg6 harg6 hz3, readAt_whole arg5 harg5 hz3, readAt_whole arg8 harg8 hz2])

set_option maxHeartbeats 1000000 in
/-- No reset, no accumulate, write-out: the output block at the accumulator reshaped, the accumulator as it was. -/
theorem run1_D (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x128 .bf16) (harg5 : arg5.IsWhole) (arg6 : Memref sig .tc .vmem S1x512x1 .bf16) (harg6 : arg6.IsWhole) (arg7 : Memref sig .tc .vmem S1x512x128 .f32) (harg7 : arg7.IsWhole) (arg8 : Memref sig .tc .vmem S512x128 .f32) (harg8 : arg8.IsWhole)
    (hc0 : ¬cond1_0 i) (hc1 : ¬cond1_1 i) (hc2 : cond1_2 i) (xs : Vec F S512x128 .f32)
    (E : Set ℕ) (K : PUnit → sProp 𝕄) :
    iprop((∃ d, owns (c : Thread nD τ) arg7 fullShare d) ∗ owns (c : Thread nD τ) arg8 fullShare xs
        ∗ (iprop(owns (c : Thread nD τ) arg7 fullShare (k1_pay3 xs) ∗ owns (c : Thread nD τ) arg8 fullShare xs) -∗ K ⟨⟩))
      ⊢ wp frame (wpE (defs₀ (F := F)) Variants.none c none) E (cc1__retrieval_kernel i arg3 harg3 arg4 harg4 arg5 harg5 arg6 harg6 arg7 harg7 arg8 harg8) K := by
  simp only [cc1__retrieval_kernel_eq_skeleton]; unfold cc1__retrieval_kernel_skel
  unfold owns
  iintro ⟨⟨%d4, %f4, -, H4⟩, ⟨%fs, %hfs, HS⟩, Hk⟩
  obtain rfl := harg8.eq_unread hfs
  sl_exec (disch := first | exact hc0 | exact hc1 | exact hc2)
  sl_step
  iapply Hk
  isplitl [H4]
  · iexists _; isplitr
    swap; · iexact H4
    ipureintro
    exact (read_store_whole _ _ hz3 _ _).trans (by rw [readAt_whole arg8 harg8 hz2])
  iexists _; isplitr; · ipureintro; exact hfs
  iexact HS

set_option maxHeartbeats 1000000 in
/-- No condition holds: the body touches nothing. -/
theorem run1_N (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x128 .bf16) (harg5 : arg5.IsWhole) (arg6 : Memref sig .tc .vmem S1x512x1 .bf16) (harg6 : arg6.IsWhole) (arg7 : Memref sig .tc .vmem S1x512x128 .f32) (harg7 : arg7.IsWhole) (arg8 : Memref sig .tc .vmem S512x128 .f32) (harg8 : arg8.IsWhole)
    (hc0 : ¬cond1_0 i) (hc1 : ¬cond1_1 i) (hc2 : ¬cond1_2 i)
    (E : Set ℕ) (K : PUnit → sProp 𝕄) :
    K ⟨⟩ ⊢ wp frame (wpE (defs₀ (F := F)) Variants.none c none) E (cc1__retrieval_kernel i arg3 harg3 arg4 harg4 arg5 harg5 arg6 harg6 arg7 harg7 arg8 harg8) K := by
  simp only [cc1__retrieval_kernel_eq_skeleton]; unfold cc1__retrieval_kernel_skel
  iintro Hk
  sl_exec (disch := first | exact hc0 | exact hc1 | exact hc2)
  sl_step
  iexact Hk

end Cert.KernelIdeal.Gen

end
-- ==== Proof.Region1.lean ====
/-
  The retrieval call over its 128 grid points. The accumulator before point n is the fold of one step over the points
  below n: reset to zero where ki = 0, then the accumulate payload of the point's four input blocks where ki ≤ qi.
  Each input's buffer holds its block of the array at every point; the output's buffer, where ki = 3, holds the
  accumulator after that point, reshaped. The invariant carries the accumulator at that fold from point to point; the
  array read through two windows is held in two halves.
-/
import proofs.«114772_j1760936591416_2_alg».proof.Proof.Region1Runs

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks and the accumulator -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- One point's effect on the accumulator: where the key block index is at most the query block index the masked
    product is added — onto the zero block where the key block index is 0 —, elsewhere nothing. -/
def step1 (c : Dev nD) (t : Fin cfg1.N) (a : Vec F S512x128 .f32) : Vec F S512x128 .f32 :=
  if t.val % 4 ≤ t.val / 4 % 4 then
    k1_pay2 (grid1.coords t) (iblk1 V c 0 t) (iblk1 V c 1 t) (iblk1 V c 3 t) (iblk1 V c 2 t) (if t.val % 4 = 0 then k1_pay1 else a)
  else a

/-- The accumulator before point `n`: the fold of `step1` over the points below `n`. -/
def acc1 (c : Dev nD) : ℕ → Vec F S512x128 .f32
  | 0 => k1_pay1
  | n + 1 => if h : n < cfg1.N then step1 V c ⟨n, h⟩ (acc1 c n) else acc1 c n

theorem acc1_succ (c : Dev nD) (t : Fin cfg1.N) : acc1 V c (t.val + 1) = step1 V c t (acc1 V c t.val) := by
  rw [acc1, dif_pos t.isLt]

theorem acc1_A (c : Dev nD) (t : Fin cfg1.N) (h0 : t.val % 4 = 0) :
    acc1 V c (t.val + 1) = k1_pay2 (grid1.coords t) (iblk1 V c 0 t) (iblk1 V c 1 t) (iblk1 V c 3 t) (iblk1 V c 2 t) k1_pay1 := by
  rw [acc1_succ]; unfold step1; rw [if_pos (by omega), if_pos h0]

theorem acc1_B (c : Dev nD) (t : Fin cfg1.N) (h0 : ¬t.val % 4 = 0) (h1 : t.val % 4 ≤ t.val / 4 % 4) :
    acc1 V c (t.val + 1) = k1_pay2 (grid1.coords t) (iblk1 V c 0 t) (iblk1 V c 1 t) (iblk1 V c 3 t) (iblk1 V c 2 t) (acc1 V c t.val) := by
  rw [acc1_succ]; unfold step1; rw [if_pos h1, if_neg h0]

theorem acc1_N (c : Dev nD) (t : Fin cfg1.N) (h1 : ¬t.val % 4 ≤ t.val / 4 % 4) : acc1 V c (t.val + 1) = acc1 V c t.val := by
  rw [acc1_succ]; unfold step1; rw [if_neg h1]

/-! ## The invariant -/

/-- The accumulator: a whole scoped buffer of the kernel's own. -/
abbrev scM1 : Memref sig .tc .vmem S512x128 .f32 := Memref.whole cc1_scratch0

/-- The core's scoped buffers that neither this kernel stages nor it uses, each whole at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f))

/-- The scoped buffers no window stages: those, and the accumulator at some contents. -/
theorem scopedRest1_split (c : Dev nD) :
    (Pipeline.scopedRest (Ix := Unit) (Name := ℕ) (U := UR sig nD τ) (Lvl := ℕ) (Val := Elt F) spec1 c : sProp 𝕄)
      = iprop(rest1 c ∗ (∃ d, owns (c : Thread nD τ) scM1 fullShare d)) := by
  rw [scopedRest1_eq]; unfold rest1; simp only [scM1, owns_whole]
  have h₁ : iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_scratch0), ((c : Thread nD τ).loc cc1_scratch0) ↦{fullShare} f))
      ⊢ (iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f)) ∗ (∃ d : Buf (Elt F) ((c : Thread nD τ).loc cc1_scratch0), ((c : Thread nD τ).loc cc1_scratch0) ↦{fullShare} d)) : sProp 𝕄) := by
    iintro ⟨R1, R2, R3, R4, R5, R6, HS⟩
    isplitl [R1 R2 R3 R4 R5 R6]
    · isplitl [R1]; · iexact R1
      isplitl [R2]; · iexact R2
      isplitl [R3]; · iexact R3
      isplitl [R4]; · iexact R4
      isplitl [R5]; · iexact R5
      iexact R6
    iexact HS
  have h₂ : (iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f)) ∗ (∃ d : Buf (Elt F) ((c : Thread nD τ).loc cc1_scratch0), ((c : Thread nD τ).loc cc1_scratch0) ↦{fullShare} d)) : sProp 𝕄)
      ⊢ iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_scratch0), ((c : Thread nD τ).loc cc1_scratch0) ↦{fullShare} f)) := by
    iintro ⟨⟨R1, R2, R3, R4, R5, R6⟩, HS⟩
    isplitl [R1]; · iexact R1
    isplitl [R2]; · iexact R2
    isplitl [R3]; · iexact R3
    isplitl [R4]; · iexact R4
    isplitl [R5]; · iexact R5
    isplitl [R6]; · iexact R6
    iexact HS
  exact BI.equiv_iff.mp ⟨h₁, h₂⟩

/-- The invariant before position `n`: before the first point the scoped rest at anything and the generator register
    at some state; afterwards the same with the accumulator at `acc1`. -/
def PhiS1 (c : Dev nD) : ℕ → sProp 𝕄
  | 0 => iprop(rest1 c ∗ (∃ d, owns (c : Thread nD τ) scM1 fullShare d) ∗ (∃ r, prngReg c r))
  | n + 1 => iprop(rest1 c ∗ owns (c : Thread nD τ) scM1 fullShare (acc1 V c (n + 1)) ∗ (∃ r, prngReg c r))

theorem PhiS1_zero (c : Dev nD) (n : ℕ) (hz : n = 0) :
    PhiS1 V c n = iprop(rest1 c ∗ (∃ d, owns (c : Thread nD τ) scM1 fullShare d) ∗ (∃ r, prngReg c r)) := by
  subst hz; rfl

theorem PhiS1_succ (c : Dev nD) (n : ℕ) :
    PhiS1 V c (n + 1) = iprop(rest1 c ∗ owns (c : Thread nD τ) scM1 fullShare (acc1 V c (n + 1)) ∗ (∃ r, prngReg c r)) := rfl

theorem PhiS1_pos (c : Dev nD) (n : ℕ) (hz : n ≠ 0) :
    PhiS1 V c n = iprop(rest1 c ∗ owns (c : Thread nD τ) scM1 fullShare (acc1 V c n) ∗ (∃ r, prngReg c r)) := by
  cases n with
  | zero => exact absurd rfl hz
  | succ n => rfl

/-! ## The proof data -/

/-- The proof data of the retrieval pipeline on core `c`: the arrays as the region finds them; after the body each
    input's buffer at its block and the output's at the accumulator reshaped; the invariant `PhiS1`; the array the
    first two windows share held in two halves; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay3 (acc1 V c (t.val + 1))
  Φ t := PhiS1 V c t.val
  q w := match w with
    | ⟨0, _⟩ => ⟨Share.of TreeShare.leftHalf, by decide⟩
    | ⟨1, _⟩ => ⟨Share.of TreeShare.rightHalf, by decide⟩
    | ⟨2, _⟩ => fullShare
    | ⟨3, _⟩ => fullShare
    | ⟨4, _⟩ => fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) : (dat1 V c).Φ t.castSucc = PhiS1 V c t.val := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = k1_pay3 (acc1 V c (t.val + 1)) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)

/-! ## The body obligation -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem idleAt1_4 : ∀ t : Fin cfg1.N, ¬cond1_2 (grid1.coords t) → cfg1.idle 4 (grid1.coords t) = true := by decide +kernel
theorem liveAt1_4 : ∀ t : Fin cfg1.N, cond1_2 (grid1.coords t) → cfg1.idle 4 (grid1.coords t) = false := by decide +kernel
theorem noFlush1_4 : ∀ t : Fin cfg1.N, ¬cond1_2 (grid1.coords t) → (cfg1.win 4).flush t = false := by decide +kernel

abbrev ms1_0 (t : Fin cfg1.N) : Memref sig .tc .vmem S1x512x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x1 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x512x128 .f32 := win1_4.stage (cfg1.slots t 4)
abbrev hs1_4 (t : Fin cfg1.N) : (ms1_4 t).IsWhole := hstage1_4 ((cfg1.slots t 4).cast nbuf1_4)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: the inputs' memrefs hold their blocks; the closed forms of the three conditions say which
    control case the point is in; that case's triple applies; the invariant hands over the accumulator at `acc1`
    (at anything before the first point) and takes it back at the next value. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) from rfl, PhiS1_succ, PhiS1_castSucc]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  have hN : t.val < 128 := lt_of_lt_of_eq t.isLt (show cfg1.N = 128 from N_1)
  by_cases h0 : t.val % 4 = 0
  · have h1 : t.val % 4 ≤ t.val / 4 % 4 := by omega
    have h2 : ¬t.val % 4 = 3 := by omega
    rw [Dat.leavesExact_idle (dat1 V c) 4 t (idleAt1_4 t (fun h => h2 ((hcond1_2 t).mp h))) (noFlush1_4 t (fun h => h2 ((hcond1_2 t).mp h)))]
    rw [acc1_A V c t h0]
    by_cases hz : t.val = 0
    · rw [PhiS1_zero V c _ hz]
      iintro ⟨⟨R, HS, Hg⟩, Ho, ⟨%d0, H0⟩, ⟨%d1, H1⟩, ⟨%d2, H2⟩, ⟨%d3, H3⟩, ⟨%d4, H4⟩⟩
      iapply (run1_A c (grid1.coords t) _ _ _ _ _ _ _ _ _ _ _ _ ((hcond1_0 t).mpr h0) ((hcond1_1 t).mpr h1) (fun h => h2 ((hcond1_2 t).mp h)) (iblk1 V c 0 t) (iblk1 V c 1 t) (iblk1 V c 2 t) (iblk1 V c 3 t) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [R HS Hg]
      · isplitl [R]; · iexact R
        isplitl [HS]; · iexact HS
        iexact Hg
      isplitl [Ho]; · iexact Ho
      isplitl [H0]; · iexact H0
      isplitl [H1]; · iexact H1
      isplitl [H2]; · iexact H2
      isplitl [H3]; · iexact H3
      iexists _; iexact H4
    · rw [PhiS1_pos V c _ hz]
      iintro ⟨⟨R, HS, Hg⟩, Ho, ⟨%d0, H0⟩, ⟨%d1, H1⟩, ⟨%d2, H2⟩, ⟨%d3, H3⟩, ⟨%d4, H4⟩⟩
      iapply (run1_A c (grid1.coords t) _ _ _ _ _ _ _ _ _ _ _ _ ((hcond1_0 t).mpr h0) ((hcond1_1 t).mpr h1) (fun h => h2 ((hcond1_2 t).mp h)) (iblk1 V c 0 t) (iblk1 V c 1 t) (iblk1 V c 2 t) (iblk1 V c 3 t) Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [R HS Hg]
      · isplitl [R]; · iexact R
        isplitl [HS]; · iexact HS
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    rw [PhiS1_pos V c _ hz]
    by_cases h1 : t.val % 4 ≤ t.val / 4 % 4
    · by_cases h2 : t.val % 4 = 3
      · rw [show (dat1 V c).leavesExact 4 t = owns (c : Thread nD τ) (ms1_4 t) fullShare ((dat1 V c).after 4 t) from by
            unfold Dat.leavesExact; rw [liveAt1_4 t ((hcond1_2 t).mpr h2)], after1_4]
        rw [acc1_B V c t h0 h1]
        iintro ⟨⟨R, HS, Hg⟩, Ho, ⟨%d0, H0⟩, ⟨%d1, H1⟩, ⟨%d2, H2⟩, ⟨%d3, H3⟩, ⟨%d4, H4⟩⟩
        iapply (run1_C c (grid1.coords t) _ _ _ _ _ _ _ _ _ _ _ _ (fun h => h0 ((hcond1_0 t).mp h)) ((hcond1_1 t).mpr h1) ((hcond1_2 t).mpr h2) (iblk1 V c 0 t) (iblk1 V c 1 t) (iblk1 V c 2 t) (iblk1 V c 3 t) (acc1 V c t.val) Set.univ _)
        isplitl [H0]; · iexact H0
        isplitl [H1]; · iexact H1
        isplitl [H2]; · iexact H2
        isplitl [H3]; · iexact H3
        isplitl [H4]; · iexists _; iexact H4
        isplitl [HS]; · iexact HS
        iintro ⟨H0, H1, H2, H3, H4, HS⟩
        isplitl [R HS Hg]
        · isplitl [R]; · iexact R
          isplitl [HS]; · iexact HS
          iexact Hg
        isplitl [Ho]; · iexact Ho
        isplitl [H0]; · iexact H0
        isplitl [H1]; · iexact H1
        isplitl [H2]; · iexact H2
        isplitl [H3]; · iexact H3
        iexact H4
      · rw [Dat.leavesExact_idle (dat1 V c) 4 t (idleAt1_4 t (fun h => h2 ((hcond1_2 t).mp h))) (noFlush1_4 t (fun h => h2 ((hcond1_2 t).mp h)))]
        rw [acc1_B V c t h0 h1]
        iintro ⟨⟨R, HS, Hg⟩, Ho, ⟨%d0, H0⟩, ⟨%d1, H1⟩, ⟨%d2, H2⟩, ⟨%d3, H3⟩, ⟨%d4, H4⟩⟩
        iapply (run1_B c (grid1.coords t) _ _ _ _ _ _ _ _ _ _ _ _ (fun h => h0 ((hcond1_0 t).mp h)) ((hcond1_1 t).mpr h1) (fun h => h2 ((hcond1_2 t).mp h)) (iblk1 V c 0 t) (iblk1 V c 1 t) (iblk1 V c 2 t) (iblk1 V c 3 t) (acc1 V c t.val) Set.univ _)
        isplitl [H0]; · iexact H0
        isplitl [H1]; · iexact H1
        isplitl [H2]; · iexact H2
        isplitl [H3]; · iexact H3
        isplitl [HS]; · iexact HS
        iintro ⟨H0, H1, H2, H3, HS⟩
        isplitl [R HS Hg]
        · isplitl [R]; · iexact R
          isplitl [HS]; · iexact HS
          iexact Hg
        isplitl [Ho]; · iexact Ho
        isplitl [H0]; · iexact H0
        isplitl [H1]; · iexact H1
        isplitl [H2]; · iexact H2
        isplitl [H3]; · iexact H3
        iexists _; iexact H4
    · by_cases h2 : t.val % 4 = 3
      · rw [show (dat1 V c).leavesExact 4 t = owns (c : Thread nD τ) (ms1_4 t) fullShare ((dat1 V c).after 4 t) from by
            unfold Dat.leavesExact; rw [liveAt1_4 t ((hcond1_2 t).mpr h2)], after1_4]
        rw [acc1_N V c t h1]
        iintro ⟨⟨R, HS, Hg⟩, Ho, ⟨%d0, H0⟩, ⟨%d1, H1⟩, ⟨%d2, H2⟩, ⟨%d3, H3⟩, ⟨%d4, H4⟩⟩
        iapply (run1_D c (grid1.coords t) _ _ _ _ _ _ _ _ _ _ _ _ (fun h => h0 ((hcond1_0 t).mp h)) (fun h => h1 ((hcond1_1 t).mp h)) ((hcond1_2 t).mpr h2) (acc1 V c t.val) Set.univ _)
        isplitl [H4]; · iexists _; iexact H4
        isplitl [HS]; · iexact HS
        iintro ⟨H4, HS⟩
        isplitl [R HS Hg]
        · isplitl [R]; · iexact R
          isplitl [HS]; · iexact HS
          iexact Hg
        isplitl [Ho]; · iexact Ho
        isplitl [H0]; · iexact H0
        isplitl [H1]; · iexact H1
        isplitl [H2]; · iexact H2
        isplitl [H3]; · iexact H3
        iexact H4
      · rw [Dat.leavesExact_idle (dat1 V c) 4 t (idleAt1_4 t (fun h => h2 ((hcond1_2 t).mp h))) (noFlush1_4 t (fun h => h2 ((hcond1_2 t).mp h)))]
        rw [acc1_N V c t h1]
        iintro ⟨⟨R, HS, Hg⟩, Ho, ⟨%d0, H0⟩, ⟨%d1, H1⟩, ⟨%d2, H2⟩, ⟨%d3, H3⟩, ⟨%d4, H4⟩⟩
        iapply (run1_N c (grid1.coords t) _ _ _ _ _ _ _ _ _ _ _ _ (fun h => h0 ((hcond1_0 t).mp h)) (fun h => h1 ((hcond1_1 t).mp h)) (fun h => h2 ((hcond1_2 t).mp h)) Set.univ _)
        isplitl [R HS Hg]
        · isplitl [R]; · iexact R
          isplitl [HS]; · iexact HS
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The two ends of the invariant -/

/-- What the launch hands the region is the invariant before the first point. -/
theorem hin1 (c : Dev nD) :
    (iprop((∃ r, prngReg c r) ∗ Pipeline.scopedRest (Ix := Unit) (Name := ℕ) (U := UR sig nD τ) (Lvl := ℕ) (Val := Elt F) spec1 c) : sProp 𝕄)
      ⊢ (dat1 V c).Φ 0 := by
  rw [show (dat1 V c).Φ 0 = PhiS1 V c 0 from rfl, PhiS1_zero V c 0 rfl, scopedRest1_split]
  iintro ⟨Hg, R, HS⟩
  isplitl [R]; · iexact R
  isplitl [HS]; · iexact HS
  iexact Hg

/-- After the last point the invariant gives them back: the accumulator's named contents are forgotten. -/
theorem hout1 (c : Dev nD) :
    (dat1 V c).Φ (Fin.last cfg1.N)
      ⊢ (iprop((∃ r, prngReg c r) ∗ Pipeline.scopedRest (Ix := Unit) (Name := ℕ) (U := UR sig nD τ) (Lvl := ℕ) (Val := Elt F) spec1 c) : sProp 𝕄) := by
  rw [show (dat1 V c).Φ (Fin.last cfg1.N) = PhiS1 V c (Fin.last cfg1.N).val from rfl,
    PhiS1_pos V c _ (by rw [Fin.val_last]; have : cfg1.N = 128 := N_1; omega), scopedRest1_split]
  iintro ⟨R, HS, Hg⟩
  isplitl [Hg]; · iexact Hg
  isplitl [R]; · iexact R
  iexists _; iexact HS

end Cert.KernelIdeal.Gen

end
-- ==== Proof.Region1Seg.lean ====
/- The second pipelined call (the causal retrieval) as one step of the whole program. Entered with every unscoped
   buffer of the core at a valuation, it returns them at that valuation updated at the result array alone, which
   holds the fold of the write-backs made at the last key step of each (batch, query block). Stated first for any
   proof data with the right shares, nothing owed and an invariant with the stated two ends, then at the call's
   own proof data. -/
import proofs.«114772_j1760936591416_2_alg».proof.Proof.Region1Arr
import proofs.«114772_j1760936591416_2_alg».proof.Proof.Region1

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The second pipelined call as a step of the whole program -/

section Seg1

variable (W : Dev nD → Valuation τ sig (Elt F))
  (V0 : (c : Dev nD) → (b : Ref sig .tc) → Buf (Elt F) ((c : Thread nD τ).loc b))
  (d1 : (c : Dev nD) → Dat τ (Elt F) Unit ℕ (UR sig nD τ) ℕ cfg1 c)

/-- The buffers when the call returns: the output array at the fold of its write-backs, every other buffer as on
    entry (the call writes no other). -/
def exit1G (c : Dev nD) : Valuation τ sig (Elt F) :=
  Function.update (W c) main_v57 ((d1 c).arrAt 4 cfg1.N)

theorem exit1G_out (c : Dev nD) : exit1G W d1 c main_v57 = (d1 c).arrAt 4 cfg1.N := by
  unfold exit1G; rw [Function.update_self]
theorem exit1G_of_ne (c : Dev nD) (b : Ref sig .tc) (hb : b ≠ main_v57) :
    exit1G W d1 c (Proc.devRef .tc b) = W c (Proc.devRef .tc b) := by
  unfold exit1G; exact Function.update_of_ne (fun e => hb (Proc.devRef_injective _ e)) _ _

/-- Off the call's arrays the exit valuation is the entry one. -/
theorem unscopedRest1_exit (c : Dev nD) :
    (Pipeline.unscopedRest spec1 c (atTc (exit1G W d1) c) : sProp 𝕄) = Pipeline.unscopedRest spec1 c (atTc W c) := by
  unfold Pipeline.unscopedRest
  exact bigSep_congr fun b hb => by
    have hne : b ≠ main_v57 := fun e =>
      (Finset.mem_sdiff.mp hb).2 (Finset.mem_image.mpr ⟨4, Finset.mem_univ _, e.symm⟩)
    show (((c : Thread nD τ).loc b) ↦{fullShare} exit1G W d1 c (Proc.devRef .tc b) : sProp 𝕄) = _
    rw [exit1G_of_ne W d1 c b hne]

set_option backward.isDefEq.respectTransparency.types false in
set_option maxHeartbeats 2000000 in
/-- The call as a step, for ANY proof data of it whose arrays are the entry valuation's, whose first two windows'
    shares make the full share, whose other inputs are held whole, that owes nothing and bounds nothing, given its
    body obligation and its invariant's two ends: the four buffers are split out of the unscoped buffers on entry —
    the shared one into two halves — and put back on return, the halves joined. -/
def reg1G
    (hA : ∀ c w, (d1 c).A w = atTc W c (Pipeline.arrRef spec1 w))
    (hq01 : ∀ c, (fullShare : PosShare TreeShare) ∈ PCS.op ((d1 c).q 0) ((d1 c).q 1))
    (hq2 : ∀ c, (d1 c).q 2 = fullShare) (hq3 : ∀ c, (d1 c).q 3 = fullShare)
    (howed : ∀ c t, (d1 c).owed t = 0) (hrec : ∀ c t, (d1 c).recorded t = Set.univ)
    (hbody : ∀ c, Pipeline.BodyObligationLoose (d1 c) (defs₀ (F := F)) Variants.none () Set.univ)
    (hin1 : ∀ c, iprop((∃ r, prngReg c r) ∗ Pipeline.scopedRest spec1 c) ⊢ ((d1 c).Φ 0 : sProp 𝕄))
    (hout1 : ∀ c, (d1 c).Φ (Fin.last cfg1.N) ⊢ (iprop((∃ r, prngReg c r) ∗ Pipeline.scopedRest spec1 c) : sProp 𝕄)) :
    Pipeline.RegionSeg (pcfgs (F := F)) adm (pdatsOf V0 d1) () defs₀ Variants.none L0 lv0 1 where
  win := winFacts₀1
  block_pos := block_pos1
  stage_whole := stage_whole1
  K := PEmpty
  osem k := k.elim
  ho := Pipeline.OwnSemFacts.none _
  hbody c := hbody c
  hwaits := Pipeline.hwaits_of_owed_zero _ _ _ _ L0 lv0 1 fun c t => howed c t
  pre c := iprop(StableHlo.held (c : Thread nD τ) (Pipeline.ucRefs τ sig) (W c) ∗ ride c)
  post c := iprop(StableHlo.held (c : Thread nD τ) (Pipeline.ucRefs τ sig) (exit1G W d1 c) ∗ ride c)
  X c := iprop(∃ r, prngReg c r)
  Y c := iprop(∃ r, prngReg c r)
  Z c := Pipeline.unscopedRest (Ix := Unit) (Name := ℕ) (U := UR sig nD τ) (Lvl := ℕ) spec1 c (atTc W c)
  hentry c := by
    rw [Pipeline.ownSems0_none]
    have hs : (unscopedBufs c (atTc W c) : sProp 𝕄)
        = iprop(Pipeline.arrBufs spec1 c (atTc W c) ∗ Pipeline.unscopedRest spec1 c (atTc W c)) :=
      Pipeline.unscopedBufs_split₀ (Ix := Unit) (Name := ℕ) (U := UR sig nD τ) (Lvl := ℕ) (Val := Elt F) cfgs 1
        winFacts₀1.arr_unscoped c (atTc W c)
    rw [Pipeline.unscopedBufs_held] at hs
    iintro ⟨⟨Hub, Hp, HO⟩, -, -⟩
    ihave H := (Entails.of_eq hs) $$ Hub
    icases H with ⟨Ha, Hrest⟩
    imodintro
    isplitl [Ha]
    · iapply (arrays1_of_arrBufs (d1 c) (atTc W c) (hA c) (hq01 c) (hq2 c) (hq3 c)); iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdatsOf V0 d1 1 c).owed 0 = 0 from howed c 0]
      icases HO with ⟨%Wt, HO⟩; iexists Wt; isplitr
      · ipureintro; intro x _; exact Or.inl (by rw [show (pdatsOf V0 d1 1 c).recorded 0 = (d1 c).recorded 0 from rfl, hrec]; trivial)
      iexact HO
    isplitl [Hp]; · iexact Hp
    iexact Hrest
  hin c := by
    rw [show (pdatsOf V0 d1 1 c).Φ 0 = (d1 c).Φ 0 from rfl]
    iintro ⟨Hp, -, Hr⟩
    iapply (hin1 c)
    isplitl [Hp]; · iexact Hp
    iexact Hr
  hout c := by
    rw [Pipeline.ownSems0_none, show (pdatsOf V0 d1 1 c).Φ (Fin.last _) = (d1 c).Φ (Fin.last cfg1.N) from rfl]
    iintro H
    ihave H' := (hout1 c) $$ H
    icases H' with ⟨Hp, Hr⟩
    isplitl [Hp]; · iexact Hp
    isplitr; · iempintro
    iexact Hr
  hexit c := by
    have hs : (unscopedBufs c (atTc (exit1G W d1) c) : sProp 𝕄)
        = iprop(Pipeline.arrBufs spec1 c (atTc (exit1G W d1) c) ∗ Pipeline.unscopedRest spec1 c (atTc (exit1G W d1) c)) :=
      Pipeline.unscopedBufs_split₀ (Ix := Unit) (Name := ℕ) (U := UR sig nD τ) (Lvl := ℕ) (Val := Elt F) cfgs 1
        winFacts₀1.arr_unscoped c (atTc (exit1G W d1) c)
    rw [Pipeline.unscopedBufs_held, unscopedRest1_exit W d1 c] at hs
    have hjoin := arrBufs_of_arrays1 (d1 c) (atTc W c) (hA c) (hq01 c) (hq2 c) (hq3 c) (atTc (exit1G W d1) c)
      (exit1G_of_ne W d1 c main_v56 (by decide)) (exit1G_of_ne W d1 c main_v48 (by decide)) (exit1G_of_ne W d1 c main_v50 (by decide))
      (exit1G_out W d1 c)
    iintro ⟨Ha, HO, HY, Hrest⟩
    imodintro
    isplitl [Ha Hrest]
    · iapply (Entails.of_eq hs.symm)
      isplitl [Ha]; · iapply hjoin; iexact Ha
      iexact Hrest
    isplitl [HY]; · iexact HY
    unfold Pipeline.Dat.owesAt Pipeline.owesWithin
    rw [show (pdatsOf V0 d1 1 c).owed (Fin.last (Pipeline.pin (pcfgs (F := F)) adm 1).N) = 0 from howed c _]
    icases HO with ⟨%Wt, -, HO⟩; iexists Wt; iexact HO

end Seg1

/-! ## At the call's own proof data -/

section Spec1

variable (W : Dev nD → Valuation τ sig (Elt F))
  (V0 : (c : Dev nD) → (b : Ref sig .tc) → Buf (Elt F) ((c : Thread nD τ).loc b))

/-- The two windows on the shared array hold the two halves of the full share. -/
theorem q01_dat1 (V : (c : Dev nD) → (b : Ref sig .tc) → Buf (Elt F) ((c : Thread nD τ).loc b)) (c : Dev nD) :
    (fullShare : PosShare TreeShare) ∈ PCS.op ((dat1 V c).q 0) ((dat1 V c).q 1) := by
  have h0 : (dat1 V c).q 0 = (fullShare : PosShare TreeShare).left := by
    dsimp only [dat1]
    first | rfl | exact Subtype.ext (congrArg Share.of (by decide)) | decide
  have h1 : (dat1 V c).q 1 = (fullShare : PosShare TreeShare).right := by
    dsimp only [dat1]
    first | rfl | exact Subtype.ext (congrArg Share.of (by decide)) | decide
  rw [h0, h1]; exact PosShare.mem_left_op_right fullShare

/-- The buffers when the call returns. -/
def exit1 (c : Dev nD) : Valuation τ sig (Elt F) := exit1G W (dat1 (atTc W)) c

theorem exit1_eq_update (c : Dev nD) :
    exit1 W c = Function.update (W c) main_v57 ((dat1 (atTc W) c).arrAt 4 cfg1.N) := rfl
theorem exit1_out (c : Dev nD) : exit1 W c main_v57 = (dat1 (atTc W) c).arrAt 4 cfg1.N := exit1G_out W _ c
theorem exit1_of_ne (c : Dev nD) (b : Ref sig .tc) (hb : b ≠ main_v57) :
    exit1 W c (Proc.devRef .tc b) = W c (Proc.devRef .tc b) := exit1G_of_ne W _ c b hb

/-- The second pipelined call as a step of the whole program, at its own proof data. -/
def reg1 : Pipeline.RegionSeg (pcfgs (F := F)) adm (pdatsOf V0 (dat1 (atTc W))) () defs₀ Variants.none L0 lv0 1 :=
  reg1G W V0 (dat1 (atTc W)) (fun c w => A_eq1 (atTc W) c w) (fun c => q01_dat1 (atTc W) c)
    (fun c => by dsimp only [dat1]) (fun c => by dsimp only [dat1])
    (fun c t => by dsimp only [dat1]) (fun c t => by dsimp only [dat1])
    (fun c => (body_obligation1 (atTc W) c).loose) (fun c => hin1 (atTc W) c) (fun c => hout1 (atTc W) c)

theorem reg1_pre (c : Dev nD) :
    (reg1 W V0).pre c = iprop(StableHlo.held (c : Thread nD τ) (Pipeline.ucRefs τ sig) (W c) ∗ ride c) := rfl
theorem reg1_post (c : Dev nD) :
    (reg1 W V0).post c = iprop(StableHlo.held (c : Thread nD τ) (Pipeline.ucRefs τ sig) (exit1 W c) ∗ ride c) := rfl

/-- Against the program's own valuations. -/
theorem exit1_V19_eq_V20 (m : (ℓ : Loc nD τ sig) → Buf (Elt F) ℓ) (outs : Outs (F := F))
    (houts : ∀ c, outs 20 main_v57 c = exit1 (V19 m outs) c main_v57) (c : Dev nD) :
    exit1 (V19 m outs) c = V20 m outs c := by
  show Function.update (V19 m outs c) main_v57 ((dat1 (atTc (V19 m outs)) c).arrAt 4 cfg1.N)
    = Function.update (V19 m outs c) main_v57 (outs 20 main_v57 c)
  rw [houts c, exit1_out]

theorem post1_V20 (m : (ℓ : Loc nD τ sig) → Buf (Elt F) ℓ) (outs : Outs (F := F))
    (houts : ∀ c, outs 20 main_v57 c = exit1 (V19 m outs) c main_v57) (c : Dev nD) :
    (reg1 (V19 m outs) V0).post c ⊢ iprop(StableHlo.held (c : Thread nD τ) (Pipeline.ucRefs τ sig) (V20 m outs c) ∗ ride c) := by
  rw [reg1_post, exit1_V19_eq_V20 m outs houts c]

end Spec1

end Cert.KernelIdeal.Gen

end
-- ==== Proof.KRun.lean ====
/-
  The run of the whole program as a chain of host stretches and two kernel regions, with EVERY unscoped buffer
  read back at the end.

  Between two items a core holds each unscoped buffer whole at a named valuation: the launch contents, then the
  pure effect of each host stretch, then — after a kernel region — the region's result array replaced by what the
  region leaves there. Given, for each of the two regions, a segment record entered from the valuation before it
  and left at the valuation after it, every weakly fair execution terminates and the final memory agrees with the
  last valuation on every unscoped buffer: in particular on the two result arrays and on the thirteen arguments.
  The rest of the thread state (the generator register and the core owing nothing) rides along unchanged.
-/
import proofs.«114772_j1760936591416_2_alg».proof.Proof.Gen.KernelIdeal.Regions
import Idealize.ShloMosaic.Lib.Pipeline.Kit

set_option maxRecDepth 1384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

/-- No core owes another anything: no level is assigned. -/
abbrev L₀ : GSem nD τ sig → Finset Unit := fun _ => ∅
abbrev lv₀ : GSem nD τ sig → Unit → ℕ := fun _ _ => 0

/-- What rides beside the buffers through every item: the core's generator register at some state and the core
    owing nothing. -/
abbrev Rest (c : Dev nD) : sProp 𝕄 :=
  iprop((∃ r, prngReg c r) ∗ ∃ W, owes (c : Thread nD τ) (0 : CellTallies nD τ sig Unit) W)

/-- The same rest state at each of the three stretches of host items (before, between and after the regions). -/
abbrev Rests : Fin 3 → Dev nD → sProp 𝕄 := fun _ c => Rest (F := F) c

variable (m : (ℓ : Loc nD τ sig) → Buf (Elt F) ℓ) (outs : Outs (F := F))

set_option backward.isDefEq.respectTransparency.types false in
/-- From a segment record per region, entered from the valuation before the region and left at the one after it:
    every weakly fair execution of the program terminates, and the final memory holds every unscoped buffer at the
    last valuation. -/
theorem run_all (ρ : Dev nD → PrngReg)
    (pdats : (p : Fin 2) → (c : Dev nD) → Dat τ (Elt F) Unit ℕ (UR sig nD τ) ℕ (cfgs p) c)
    (R0 : RegionSeg (pcfgs (F := F)) adm pdats () defs₀ Variants.none L₀ lv₀ 0)
    (hpre0 : ∀ c : Dev nD, iprop(StableHlo.held (c : Thread nD τ) (Pipeline.ucRefs τ sig) (V5 m c) ∗ Rest c) ⊢ R0.pre c)
    (hpost0 : ∀ c : Dev nD, R0.post c ⊢ iprop(StableHlo.held (c : Thread nD τ) (Pipeline.ucRefs τ sig) (V6 m outs c) ∗ Rest c))
    (R1 : RegionSeg (pcfgs (F := F)) adm pdats () defs₀ Variants.none L₀ lv₀ 1)
    (hpre1 : ∀ c : Dev nD, iprop(StableHlo.held (c : Thread nD τ) (Pipeline.ucRefs τ sig) (V19 m outs c) ∗ Rest c) ⊢ R1.pre c)
    (hpost1 : ∀ c : Dev nD, R1.post c ⊢ iprop(StableHlo.held (c : Thread nD τ) (Pipeline.ucRefs τ sig) (V20 m outs c) ∗ Rest c)) :
    θ_run defs (onTc (τ := τ) (main (F := F))) ⟨m, fun _ => 0, ρ⟩ (fun r => ∀ c : Dev nD,
      ∀ b ∈ Pipeline.ucRefs τ sig, r.2.mem ((c : Thread nD τ).1, b) = V31 m outs c b) := by
  refine Pipeline.θ_run_regions_kit_dev (pcfgs (F := F)) adm pdats () cellOf_inj emb₁ defs₀ Variants.none L₀ lv₀ m ρ main
    (segs m outs Variants.none L₀ lv₀ (Rests (F := F)) () pdats R0 R1)
    (fun c Q => by
      -- the program is its items in order: five host stretches, the first region, thirteen stretches, the second
      -- region, eleven stretches
      rewrite [main_chain c, Seg.run_eq_chain,
        show (segs m outs Variants.none L₀ lv₀ (Rests (F := F)) () pdats R0 R1 c).map Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          StableHlo.seq hostOps1_7,
          StableHlo.seq hostOps1_8,
          StableHlo.seq hostOps1_9,
          StableHlo.seq hostOps1_10,
          StableHlo.seq hostOps1_11,
          StableHlo.seq hostOps1_12,
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5,
          StableHlo.seq hostOps2_6,
          StableHlo.seq hostOps2_7,
          StableHlo.seq hostOps2_8,
          StableHlo.seq hostOps2_9,
          StableHlo.seq hostOps2_10 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rest c))
    (Tₙ := fun c => StableHlo.held (c : Thread nD τ) (Pipeline.ucRefs τ sig) (V31 m outs c))
    (hch := fun c => ⟨.rfl, .rfl, .rfl, .rfl, .rfl, hpre0 c, hpost0 c, .rfl, .rfl, .rfl, .rfl, .rfl, .rfl, .rfl, .rfl, .rfl, .rfl, .rfl, .rfl, hpre1 c, hpost1 c, .rfl, .rfl, .rfl, .rfl, .rfl, .rfl, .rfl, .rfl, .rfl, .rfl,
      sep_mono .rfl (by iintro ⟨-, H⟩; iexact H)⟩)
    (hinit := ?_)
    (QY := fun c s => ∀ b ∈ Pipeline.ucRefs τ sig, s.mem ((c : Thread nD τ).1, b) = V31 m outs c b)
    (hfin := fun c s' => ?_) (hQ := fun _ h => h)
  · -- the launch: each core's unscoped buffers are held at the launch contents; its generator register and its
    -- empty debt make the rest state
    refine Pipeline.initEach L₀ lv₀ fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · -- the end: every unscoped buffer read off the last valuation
    iintro ⟨Hh, HSI⟩
    unfold StableHlo.held
    imodintro
    iapply (pointsTo_read_all (Pipeline.ucRefs τ sig) (fun b => ((c : Thread nD τ).1, b)) (V31 m outs c) s')
    isplitl [Hh] <;> iassumption

end Cert.KernelIdeal.Gen

end
-- ==== Proof.KOuts.lean ====
/-
  The whole program's run with the two calls' results NAMED.

  What each pipelined call leaves in its result array is the fold of its write-backs over the proof data of that
  call; putting those two arrays in place of the unknown contents of the program's valuations closes the chain of
  valuations, so that the run theorem applies with each call's own segment record: every weakly fair execution
  terminates with every unscoped buffer at the last valuation, hence the thirteen arguments as launched.
-/
import proofs.«114772_j1760936591416_2_alg».proof.Proof.Region0Seg
import proofs.«114772_j1760936591416_2_alg».proof.Proof.Region1Seg
import proofs.«114772_j1760936591416_2_alg».proof.Proof.KRun

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

/-- The buffers after the first call, read at every reference (only the first call's result array is consulted). -/
def outsA : Outs (F := F) := fun _ r c => exit0 (V5 m) c r

/-- The contents the two calls leave: the first call's result array after it, the second call's after it (entered
    from the valuation that already has the first call's result). -/
def outsF : Outs (F := F) := fun n r c => if n = 20 then exit1 (V19 m (outsA m)) c r else outsA m n r c

theorem outsF_6 (c : Dev nD) : outsF m 6 main_v9 c = exit0 (V5 m) c main_v9 := rfl

/-- The valuation the second call is entered from reads the unknown contents only at the first call's result. -/
theorem V19_outsF : V19 m (outsF m) = V19 m (outsA m) := rfl

theorem outsF_20 (c : Dev nD) : outsF m 20 main_v57 c = exit1 (V19 m (outsF m)) c main_v57 := by
  rw [V19_outsF]; rfl

/-- The two calls' proof data: the first at the valuation before it, the second at the valuation before it. -/
abbrev pdatsF : (p : Fin 2) → (c : Dev nD) → Dat τ (Elt F) Unit ℕ (UR sig nD τ) ℕ (cfgs p) c :=
  pdatsOf (atTc (V5 m)) (dat1 (atTc (V19 m (outsF m))))

/-- THE RUN: every weakly fair execution terminates, and the final memory holds every unscoped buffer at the last
    valuation, the two calls' results being what their pipelines leave. -/
theorem run_F (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = V31 m (outsF m) c b) :=
  run_all m (outsF m) ρ (pdatsF m)
    (reg0 (V5 m) (dat1 (atTc (V19 m (outsF m))))) (fun _ => .rfl)
    (post0_V6 m (outsF m) (outsF_6 m) (dat1 (atTc (V19 m (outsF m)))))
    (reg1 (V19 m (outsF m)) (atTc (V5 m))) (fun _ => .rfl)
    (post1_V20 (atTc (V5 m)) m (outsF m) (outsF_20 m))

/-- A TensorCore reference that is not scoped is among the unscoped buffers. -/
theorem mem_uc (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-- THE FRAME: the arguments end as launched (no item of the program writes an argument). -/
theorem frame_F (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨
      (h c (Proc.devRef .tc main_arg0) (mem_uc main_arg0 (by decide))).trans (V31_main_arg0 m (outsF m) c),
      (h c (Proc.devRef .tc main_arg1) (mem_uc main_arg1 (by decide))).trans (V31_main_arg1 m (outsF m) c),
      (h c (Proc.devRef .tc main_arg2) (mem_uc main_arg2 (by decide))).trans (V31_main_arg2 m (outsF m) c),
      (h c (Proc.devRef .tc main_arg3) (mem_uc main_arg3 (by decide))).trans (V31_main_arg3 m (outsF m) c),
      (h c (Proc.devRef .tc main_arg4) (mem_uc main_arg4 (by decide))).trans (V31_main_arg4 m (outsF m) c),
      (h c (Proc.devRef .tc main_arg5) (mem_uc main_arg5 (by decide))).trans (V31_main_arg5 m (outsF m) c),
      (h c (Proc.devRef .tc main_arg6) (mem_uc main_arg6 (by decide))).trans (V31_main_arg6 m (outsF m) c),
      (h c (Proc.devRef .tc main_arg7) (mem_uc main_arg7 (by decide))).trans (V31_main_arg7 m (outsF m) c),
      (h c (Proc.devRef .tc main_arg8) (mem_uc main_arg8 (by decide))).trans (V31_main_arg8 m (outsF m) c),
      (h c (Proc.devRef .tc main_arg9) (mem_uc main_arg9 (by decide))).trans (V31_main_arg9 m (outsF m) c),
      (h c (Proc.devRef .tc main_arg10) (mem_uc main_arg10 (by decide))).trans (V31_main_arg10 m (outsF m) c),
      (h c (Proc.devRef .tc main_arg11) (mem_uc main_arg11 (by decide))).trans (V31_main_arg11 m (outsF m) c),
      (h c (Proc.devRef .tc main_arg12) (mem_uc main_arg12 (by decide))).trans (V31_main_arg12 m (outsF m) c)⟩)
    (run_F m ρ)

/-- THE RUN WITH ITS RESULTS: the two result arrays end at the last valuation, the arguments as launched. -/
theorem run_vals (ρ : Dev nD → PrngReg) :
    θ_run defs (onTc (τ := τ) (main (F := F))) ⟨m, fun _ => 0, ρ⟩ (fun r => ∀ c : Dev nD,
      r.2.mem ((c.tc : Thread nD τ).loc main_v72) = V31 m (outsF m) c main_v72
      ∧ r.2.mem ((c.tc : Thread nD τ).loc main_v79) = V31 m (outsF m) c main_v79
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨
      h c (Proc.devRef .tc main_v72) (mem_uc main_v72 (by decide)),
      h c (Proc.devRef .tc main_v79) (mem_uc main_v79 (by decide)),
      (h c (Proc.devRef .tc main_arg0) (mem_uc main_arg0 (by decide))).trans (V31_main_arg0 m (outsF m) c),
      (h c (Proc.devRef .tc main_arg1) (mem_uc main_arg1 (by decide))).trans (V31_main_arg1 m (outsF m) c),
      (h c (Proc.devRef .tc main_arg2) (mem_uc main_arg2 (by decide))).trans (V31_main_arg2 m (outsF m) c),
      (h c (Proc.devRef .tc main_arg3) (mem_uc main_arg3 (by decide))).trans (V31_main_arg3 m (outsF m) c),
      (h c (Proc.devRef .tc main_arg4) (mem_uc main_arg4 (by decide))).trans (V31_main_arg4 m (outsF m) c),
      (h c (Proc.devRef .tc main_arg5) (mem_uc main_arg5 (by decide))).trans (V31_main_arg5 m (outsF m) c),
      (h c (Proc.devRef .tc main_arg6) (mem_uc main_arg6 (by decide))).trans (V31_main_arg6 m (outsF m) c),
      (h c (Proc.devRef .tc main_arg7) (mem_uc main_arg7 (by decide))).trans (V31_main_arg7 m (outsF m) c),
      (h c (Proc.devRef .tc main_arg8) (mem_uc main_arg8 (by decide))).trans (V31_main_arg8 m (outsF m) c),
      (h c (Proc.devRef .tc main_arg9) (mem_uc main_arg9 (by decide))).trans (V31_main_arg9 m (outsF m) c),
      (h c (Proc.devRef .tc main_arg10) (mem_uc main_arg10 (by decide))).trans (V31_main_arg10 m (outsF m) c),
      (h c (Proc.devRef .tc main_arg11) (mem_uc main_arg11 (by decide))).trans (V31_main_arg11 m (outsF m) c),
      (h c (Proc.devRef .tc main_arg12) (mem_uc main_arg12 (by decide))).trans (V31_main_arg12 m (outsF m) c)⟩)
    (run_F m ρ)

end Cert.KernelIdeal.Gen

end
-- ==== Proof.Region0K.lean ====
/- The first pipelined call: the dense projection of each block of 512 activation rows onto the 256 concatenated
   head columns. For an arbitrary valuation of the core's buffers at entry, this file names the block each of the
   four windows (activations, weights, bias, result) holds at a grid point, shows that an input window still holds
   its block at a point where it was not fetched again, and proves the body's triple: it reads the three input
   blocks whole and stores the product plus bias over the whole result block. -/
import proofs.«114772_j1760936591416_2_alg».proof.Proof.Gen.Kernel.Launch
import proofs.«114772_j1760936591416_2_alg».proof.Proof.Gen.Kernel.Skeleton
import proofs.«114772_j1760936591416_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The first pipelined call (the dense projection of every row block onto the concatenated heads): what each of
   its four windows holds at a grid point, what its body leaves there, and the body's triple. Everything is
   stated at an arbitrary valuation `V` of the core's buffers at the moment the call is entered. -/
variable (V : (c : Dev nD) → (b : Ref sig .tc) → Buf (Elt F) ((c : Thread nD τ).loc b))

/-- Window `w`'s block at grid point `t`: the rows of its array (as `V` has it) that the index map selects. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activation block (window 0) is in its buffer at every point: it moves with both grid axes. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix (window 1) has a constant index map: brought in once, it is still there at every later
    point, because the body leaves it as found. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The bias row (window 2): constant index map, as the weights. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! The body reads each input buffer whole and writes the output buffer whole. -/

abbrev r0_0 : Rect S1x512x1024 := Rect.unit (s := S1x512x1024) ![0, 0, 0] S1x512x1024.size inb_S1x512x1024_S1x512x1024_0_0_0
abbrev r0_1 : Rect S256x1024 := Rect.unit (s := S256x1024) ![0, 0] S256x1024.size inb_S256x1024_S256x1024_0_0
abbrev r0_2 : Rect S1x256 := Rect.unit (s := S1x256) ![0, 0] S1x256.size inb_S1x256_S1x256_0_0
abbrev r0_3 : Rect S1x512x256 := Rect.unit (s := S1x512x256) ![0, 0, 0] S1x512x256.size inb_S1x512x256_S1x512x256_0_0_0

/-- What the body leaves in the output buffer, from what it read of the three inputs: one store over the
    whole buffer (the buffer's prior contents, loaded but never used, do not enter). -/
def out0_3 (x0 : Vec F S1x512x1024 .f32) (x1 : Vec F S256x1024 .bf16) (x2 : Vec F S1x256 .f32) : Vec F S1x512x256 .f32 :=
  View.canon [⟨r0_3, k0_pay1 (View.ld x0 r0_0) (View.ld x1 r0_1) (View.ld x2 r0_2)⟩]

/-- The single store covers the buffer. -/
theorem cover0_3 (p0 : Vec F S1x512x256 .f32) (y : S1x512x256.Idx) :
    ∃ pc ∈ ([⟨r0_3, p0⟩] : List (View.Piece (Elt F) S1x512x256 .f32)), y ∈ pc.1.set :=
  View.cover_of_tiled [⟨r0_3, p0⟩] S1x512x256.size (by rfl) y

/-! Reading a buffer whole, and writing it whole: a unit-stride rectangle from the origin with the shape's own
    extents places every index at itself. -/

theorem ld_whole {S : Shape} {e : EltTy} (X : S.Idx → Elt F e) (off : Fin S.rank → Nat) (inb : ∀ a, off a + S.size a ≤ S.size a)
    (h0 : ∀ a, off a = 0) : View.ld X (Rect.unit (s := S) off S.size inb) = X := by
  funext x
  show X ((Rect.unit (s := S) off S.size inb).idx x) = X x
  congr 1
  funext a; apply Fin.ext
  show off a + 1 * (x a : Nat) = x a
  rw [h0]; omega

theorem canon_whole {S : Shape} {e : EltTy} (off : Fin S.rank → Nat) (inb : ∀ a, off a + S.size a ≤ S.size a)
    (h0 : ∀ a, off a = 0) (p : S.Idx → Elt F e) :
    View.canon [(⟨Rect.unit (s := S) off S.size inb, p⟩ : View.Piece (Elt F) S e)] = p := by
  funext y
  have hy : y ∈ (Rect.unit (s := S) off S.size inb).set := by
    rw [Rect.mem_set_unit]; intro a; rw [h0]; exact ⟨Nat.zero_le _, by have := (y a).isLt; omega⟩
  obtain ⟨x, rfl⟩ := (Rect.unit (s := S) off S.size inb).exists_idx_of_mem hy
  refine (View.canon_cons_emb (Rect.unit (s := S) off S.size inb) p [] x).trans ?_
  congr 1
  funext a; apply Fin.ext
  show (x a : Nat) = off a + 1 * (x a : Nat)
  rw [h0]; omega

/-- So the body leaves in the output buffer exactly the block product plus bias of what it read. -/
theorem out0_3_eq (x0 : Vec F S1x512x1024 .f32) (x1 : Vec F S256x1024 .bf16) (x2 : Vec F S1x256 .f32) :
    out0_3 x0 x1 x2 = k0_pay1 x0 x1 x2 := by
  unfold out0_3
  rw [show View.ld x0 r0_0 = x0 from ld_whole x0 _ _ (by decide), show View.ld x1 r0_1 = x1 from ld_whole x1 _ _ (by decide),
    show View.ld x2 r0_2 = x2 from ld_whole x2 _ _ (by decide)]
  exact canon_whole _ _ (by decide) _

set_option maxHeartbeats 1000000 in
/-- The body on whole buffers: the three inputs are read and given back as found; the output buffer, whatever it
    held, ends holding the block product plus bias of the inputs. -/
theorem sound_kernel0 (c : Dev nD) (E : Set ℕ) (i : grid0.Coords)
    (arg2 : Memref sig .tc .vmem S1x512x1024 .f32) (harg2 : arg2.IsWhole) (arg3 : Memref sig .tc .vmem S256x1024 .bf16) (harg3 : arg3.IsWhole)
    (arg4 : Memref sig .tc .vmem S1x256 .f32) (harg4 : arg4.IsWhole) (arg5 : Memref sig .tc .vmem S1x512x256 .f32) (harg5 : arg5.IsWhole)
    (x0 : Vec F S1x512x1024 .f32) (x1 : Vec F S256x1024 .bf16) (x2 : Vec F S1x256 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (k0_pay1 x0 x1 x2)) -∗ K ⟨⟩))
      ⊢ wp frame (wpE (defs₀ (F := F)) Variants.none c none) E (cc0__dense_heads_kernel i arg2 harg2 arg3 harg3 arg4 harg4 arg5 harg5) K := by
  simp only [cc0__dense_heads_kernel_eq_skeleton]; unfold cc0__dense_heads_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact (View.read_writes_eq_canon _ _ _ (cover0_3 _)).trans (out0_3_eq _ _ _)

/-! ## The call's proof data -/

/-- The proof data of the call on core `c`: the arrays as the call finds them (`V`); after the body at point `t`
    each input buffer still at its block and the output buffer at the product of the input blocks; the invariant
    carries only what the call never touches; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay1 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = k0_pay1 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the input buffers hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the call, at every point. -/
theorem body_obligation0 (c : Dev nD) : BodyObligation (dat0 (F := F) V c) (defs₀ (F := F)) Variants.none () Set.univ := fun t => by
  rw [bigSep_W0, bigSep_W0]
  exact sound_body0 V c t

end Cert.Kernel.Gen

end
-- ==== Proof.Region0SegK.lean ====
/- The first pipelined call as one step of the whole program. Entered with every unscoped buffer of the core at a
   valuation, it returns them at that valuation updated at the result array alone, which then holds the fold of
   the 32 block write-backs; the random-generator register and the core's (empty) dues ride along unchanged. -/
import proofs.«114772_j1760936591416_2_alg».proof.Proof.Region0K
import proofs.«114772_j1760936591416_2_alg».proof.Proof.Gen.Kernel.Regions

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The first pipelined call as one step of the whole program: entered with every unscoped buffer of the core at a
   valuation `W`, it leaves them at `exit0 W` — the call's own arrays at what its write-backs left, every other
   buffer untouched. -/
variable (W : Dev nD → Valuation τ sig (Elt F))

/-- A valuation read at the core's own references. -/
abbrev atTc (W : Dev nD → Valuation τ sig (Elt F)) : (c : Dev nD) → (b : Ref sig .tc) → Buf (Elt F) ((c : Thread nD τ).loc b) :=
  fun c b => W c b

/-- The buffers when the call returns: its four arrays at what the pipeline leaves (the three inputs as found, the
    output at the fold of its write-backs), every other buffer as on entry. -/
def exit0 (c : Dev nD) : Valuation τ sig (Elt F) :=
  Pipeline.withArrays spec0 c (W c) fun w => (dat0 (atTc W) c).arrAt w cfg0.N
theorem exit0_arr (c : Dev nD) (w : Fin cfg0.W) :
    exit0 W c (Proc.devRef .tc (Pipeline.arrRef spec0 w)) = (dat0 (atTc W) c).arrAt w cfg0.N := by
  unfold exit0; exact Pipeline.withArrays_arr spec0 launch0.win.arr_inj c _ _ w
theorem exit0_of_ne (c : Dev nD) (b : Ref sig .tc) (hb : ∀ w, Pipeline.arrRef spec0 w ≠ b) :
    exit0 W c (Proc.devRef .tc b) = W c (Proc.devRef .tc b) := by
  unfold exit0; exact Pipeline.withArrays_of_ne spec0 c _ _ b hb
theorem hF0 (c : Dev nD) (w : Fin cfg0.W) : (dat0 (atTc W) c).arrAt w cfg0.N = atTc (exit0 W) c (Pipeline.arrRef spec0 w) :=
  (exit0_arr W c w).symm
theorem hrest0 (c : Dev nD) : ∀ b, b ∉ Finset.univ.image (Pipeline.arrRef spec0) → atTc (exit0 W) c b = atTc W c b :=
  fun b hb => exit0_of_ne W c b fun w e => hb (Finset.mem_image.mpr ⟨w, Finset.mem_univ _, e⟩)

/-- Both calls' proof data: the first call's at the entry valuation, the second's whatever is given. -/
def pdatsOf (V : (c : Dev nD) → (b : Ref sig .tc) → Buf (Elt F) ((c : Thread nD τ).loc b))
    (d1 : (c : Dev nD) → Dat τ (Elt F) Unit ℕ (UR sig nD τ) ℕ cfg1 c) :
    (p : Fin 2) → (c : Dev nD) → Dat τ (Elt F) Unit ℕ (UR sig nD τ) ℕ (cfgs p) c
  | ⟨0, _⟩ => fun c => dat0 V c
  | ⟨1, _⟩ => d1

/-- No core owes another anything. -/
abbrev L0 : GSem nD τ sig → Finset Unit := fun _ => ∅
abbrev lv0 : GSem nD τ sig → Unit → ℕ := fun _ _ => 0
/-- What rides beside the buffers: the core's generator register at some state and its dues, at nothing. -/
abbrev ride (c : Dev nD) : sProp 𝕄 := iprop((∃ r, prngReg c r) ∗ ∃ Wt, owes (c : Thread nD τ) (0 : CellTallies nD τ sig Unit) Wt)

set_option backward.isDefEq.respectTransparency.types false in
/-- The call as a step: its arrays are split out of the unscoped buffers on entry and put back, at the exit
    valuation, on return; the generator register goes into the invariant and comes back; nothing is owed; the
    kernel has no semaphore of its own. -/
def reg0 (d1 : (c : Dev nD) → Dat τ (Elt F) Unit ℕ (UR sig nD τ) ℕ cfg1 c) :
    Pipeline.RegionSeg (pcfgs (F := F)) adm (pdatsOf (atTc W) d1) () defs₀ Variants.none L0 lv0 0 where
  win := launch0.win.to₀
  block_pos := launch0.block_pos
  stage_whole := launch0.stage_whole
  K := PEmpty
  osem k := k.elim
  ho := Pipeline.OwnSemFacts.none _
  hbody c := (body_obligation0 (atTc W) c).loose
  hwaits := Pipeline.hwaits_of_owed_zero _ _ _ _ L0 lv0 0 fun _ _ => rfl
  pre c := iprop(StableHlo.held (c : Thread nD τ) (Pipeline.ucRefs τ sig) (W c) ∗ ride c)
  post c := iprop(StableHlo.held (c : Thread nD τ) (Pipeline.ucRefs τ sig) (exit0 W c) ∗ ride c)
  X c := iprop(∃ r, prngReg c r)
  Y c := iprop(∃ r, prngReg c r)
  Z c := Pipeline.unscopedRest (Ix := Unit) (Name := ℕ) (U := UR sig nD τ) (Lvl := ℕ) spec0 c (atTc W c)
  hentry c := by
    rw [Pipeline.ownSems0_none]
    have hsplit := Pipeline.arrays_of_unscopedBufs (p := 0) (pcfgs (F := F)) adm (pdatsOf (atTc W) d1) launch0.win launch0.arr_whole c
      ((pdatsOf (atTc W) d1 0 c).share_full fun _ => rfl) (atTc W c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Wt, HO⟩; iexists Wt; isplitr; · ipureintro; exact fun _ _ => Or.inl trivial
      iexact HO
    isplitl [Hp]; · iexact Hp
    iexact Hrest
  hin c := by
    rw [show (pdatsOf (atTc W) d1 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsOf (atTc W) d1 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdatsOf (atTc W) d1) ((pdatsOf (atTc W) d1 0 c).share_full fun _ => rfl)
      (atTc W c) (atTc (exit0 W) c) ((pdatsOf (atTc W) d1 0 c).arrAt · cfg0.N) (hF0 W c) (hrest0 W c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%Wt, -, HO⟩; iexists Wt; iexact HO

/-- The call writes only its output array: on return the buffers are the entry valuation updated at that array. -/
theorem exit0_eq_update (c : Dev nD) :
    exit0 W c = Function.update (W c) main_v9 (exit0 W c main_v9) := by
  funext b
  by_cases hb : b = (main_v9 : DevRef τ sig)
  · subst hb; rw [Function.update_self]
  · rw [Function.update_of_ne hb]
    by_cases h : ∃ w, Proc.devRef .tc (Pipeline.arrRef spec0 w) = b
    · obtain ⟨w, rfl⟩ := h
      rw [exit0_arr]
      match w with
      | ⟨0, _⟩ => exact ((dat0 (atTc W) c).arrAt_in 0 rfl _).trans (A_eq0 (atTc W) c 0)
      | ⟨1, _⟩ => exact ((dat0 (atTc W) c).arrAt_in 1 rfl _).trans (A_eq0 (atTc W) c 1)
      | ⟨2, _⟩ => exact ((dat0 (atTc W) c).arrAt_in 2 rfl _).trans (A_eq0 (atTc W) c 2)
      | ⟨3, _⟩ => exact absurd rfl hb
    · unfold exit0 Pipeline.withArrays; rw [dif_neg h]

/-- Against the program's own valuations: entered at the valuation before the call, the call leaves the one after
    it, the output array's unknown contents there being what the pipeline leaves. -/
theorem exit0_V5_eq_V6 (m : (ℓ : Loc nD τ sig) → Buf (Elt F) ℓ) (outs : Outs (F := F))
    (houts : ∀ c, outs 6 main_v9 c = exit0 (V5 m) c main_v9) (c : Dev nD) : exit0 (V5 m) c = V6 m outs c := by
  rw [exit0_eq_update (V5 m) c, ← houts c]

theorem post0_V6 (m : (ℓ : Loc nD τ sig) → Buf (Elt F) ℓ) (outs : Outs (F := F))
    (houts : ∀ c, outs 6 main_v9 c = exit0 (V5 m) c main_v9)
    (d1 : (c : Dev nD) → Dat τ (Elt F) Unit ℕ (UR sig nD τ) ℕ cfg1 c) (c : Dev nD) :
    (reg0 (V5 m) d1).post c ⊢ iprop(StableHlo.held (c : Thread nD τ) (Pipeline.ucRefs τ sig) (V6 m outs c) ∗ ride c) := by
  rw [← exit0_V5_eq_V6 m outs houts c]; exact .rfl

end Cert.Kernel.Gen

end
-- ==== Proof.Region1ArrK.lean ====
/- The second pipelined call's arrays. Its five windows stand on four buffers: the first two windows (query rows and
   key rows) read the same array. On entry that buffer's full share splits into two half shares, one per window;
   on return the halves join back, an input array being never written, and the result array holds what the
   write-backs left. -/
import proofs.«114772_j1760936591416_2_alg».proof.Proof.Region0SegK

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The second pipelined call's arrays: five windows over four buffers

Its first two windows read the same array (query rows and key rows of the normalised activations), so the call
holds that buffer once and deals it to the two windows as two half shares. -/

section Arrays1

variable {c : Dev nD} (dat : Dat τ (Elt F) Unit ℕ (UR sig nD τ) ℕ cfg1 c)
  (V : (b : Ref sig .tc) → Buf (Elt F) ((c : Thread nD τ).loc b))

/-- The four distinct buffers behind the five windows. -/
theorem arrBufs1_eq :
    (Pipeline.arrBufs spec1 c V : sProp 𝕄)
      = iprop((((c : Thread nD τ).loc main_v56) ↦{fullShare} V main_v56) ∗ (((c : Thread nD τ).loc main_v48) ↦{fullShare} V main_v48)
          ∗ (((c : Thread nD τ).loc main_v50) ↦{fullShare} V main_v50) ∗ (((c : Thread nD τ).loc main_v57) ↦{fullShare} V main_v57)) := by
  unfold Pipeline.arrBufs
  rw [show Finset.univ.image (Pipeline.arrRef spec1) = insert main_v56 (insert main_v48 (insert main_v50 {main_v57})) from by decide,
    bigSep_insert (by decide), bigSep_insert (by decide), bigSep_insert (by decide), bigSep_singleton]
  rfl

/-- One window's array is a whole buffer. -/
theorem arr1_pt (w : Fin cfg1.W) (X : Buf (Elt F) ((cfg1.win w).arr.view.loc (c : Thread nD τ))) :
    ((cfg1.win w).arr.view.loc (c : Thread nD τ) ↦[(cfg1.win w).arr.view.set]{dat.share w} X : sProp 𝕄)
      = (((c : Thread nD τ).loc (Pipeline.arrRef spec1 w)) ↦{dat.share w} X) := by
  rw [(arr_whole1 w).set_eq_univ]

set_option maxHeartbeats 2000000 in
/-- The call's arrays, window by window, each whole at its window's share. -/
theorem arrays1_eq (Fw : (w : Fin cfg1.W) → Buf (Elt F) ((cfg1.win w).arr.view.loc (c : Thread nD τ))) :
    dat.arrays Fw
      = iprop((((c : Thread nD τ).loc main_v56) ↦{dat.q 0} Fw 0) ∗ (((c : Thread nD τ).loc main_v56) ↦{dat.q 1} Fw 1)
          ∗ (((c : Thread nD τ).loc main_v48) ↦{dat.q 2} Fw 2) ∗ (((c : Thread nD τ).loc main_v50) ↦{dat.q 3} Fw 3)
          ∗ (((c : Thread nD τ).loc main_v57) ↦{fullShare} Fw 4)) := by
  unfold Dat.arrays
  rw [bigSep_W1, arr1_pt dat 0, arr1_pt dat 1, arr1_pt dat 2, arr1_pt dat 3, arr1_pt dat 4]
  exact congrArg₂ BI.sep rfl (congrArg₂ BI.sep rfl (congrArg₂ BI.sep rfl (congrArg₂ BI.sep rfl rfl)))
end Arrays1

section Arrays1b

variable {c : Dev nD} (dat : Dat τ (Elt F) Unit ℕ (UR sig nD τ) ℕ cfg1 c)
  (V : (b : Ref sig .tc) → Buf (Elt F) ((c : Thread nD τ).loc b))

set_option maxHeartbeats 2000000 in
/-- ENTRY: the four buffers at the entry contents make the call's arrays at entry — the shared buffer's full share
    split into the two windows' shares. -/
theorem arrays1_of_arrBufs (hA : ∀ w, dat.A w = V (Pipeline.arrRef spec1 w))
    (hq01 : (fullShare : PosShare TreeShare) ∈ PCS.op (dat.q 0) (dat.q 1)) (hq2 : dat.q 2 = fullShare) (hq3 : dat.q 3 = fullShare) :
    (Pipeline.arrBufs spec1 c V : sProp 𝕄) ⊢ dat.arrays (dat.arrAt · 0) := by
  rw [arrBufs1_eq, arrays1_eq, hq2, hq3]
  rw [show dat.arrAt 0 0 = V main_v56 from hA 0, show dat.arrAt 1 0 = V main_v56 from hA 1, show dat.arrAt 2 0 = V main_v48 from hA 2,
    show dat.arrAt 3 0 = V main_v50 from hA 3, show dat.arrAt 4 0 = V main_v57 from hA 4]
  iintro ⟨H56, H48, H50, H57⟩
  ihave H := (pointsTo_share hq01).1 $$ H56
  icases H with ⟨Ha, Hb⟩
  isplitl [Ha]; · iexact Ha
  isplitl [Hb]; · iexact Hb
  isplitl [H48]; · iexact H48
  isplitl [H50]; · iexact H50
  iexact H57

set_option maxHeartbeats 2000000 in
/-- EXIT: the call's arrays after its last write-back make the four buffers at any contents `V'` that has the three
    input buffers as on entry and the output buffer at what the write-backs left — the two half shares of the shared
    buffer joined back. -/
theorem arrBufs_of_arrays1 (hA : ∀ w, dat.A w = V (Pipeline.arrRef spec1 w))
    (hq01 : (fullShare : PosShare TreeShare) ∈ PCS.op (dat.q 0) (dat.q 1)) (hq2 : dat.q 2 = fullShare) (hq3 : dat.q 3 = fullShare)
    (V' : (b : Ref sig .tc) → Buf (Elt F) ((c : Thread nD τ).loc b))
    (h56 : V' main_v56 = V main_v56) (h48 : V' main_v48 = V main_v48) (h50 : V' main_v50 = V main_v50)
    (h57 : V' main_v57 = dat.arrAt 4 cfg1.N) :
    dat.arrays (dat.arrAt · cfg1.N) ⊢ (Pipeline.arrBufs spec1 c V' : sProp 𝕄) := by
  rw [arrBufs1_eq, arrays1_eq, hq2, hq3, h56, h48, h50, h57]
  rw [show dat.arrAt 0 cfg1.N = V main_v56 from (dat.arrAt_in 0 rfl _).trans (hA 0),
    show dat.arrAt 1 cfg1.N = V main_v56 from (dat.arrAt_in 1 rfl _).trans (hA 1),
    show dat.arrAt 2 cfg1.N = V main_v48 from (dat.arrAt_in 2 rfl _).trans (hA 2),
    show dat.arrAt 3 cfg1.N = V main_v50 from (dat.arrAt_in 3 rfl _).trans (hA 3)]
  iintro ⟨Ha, Hb, H48, H50, H57⟩
  isplitl [Ha Hb]
  · iapply (pointsTo_share hq01).2
    isplitl [Ha]; · iexact Ha
    iexact Hb
  isplitl [H48]; · iexact H48
  isplitl [H50]; · iexact H50
  iexact H57

end Arrays1b

end Cert.Kernel.Gen

end
-- ==== Proof.Region1KConds.lean ====
/-
  The three tests the retrieval body makes on its grid point (b, qi, ki) — ki = 0, ki ≤ qi, ki = 3 — each in closed
  form over the 128 points t = (b·4 + qi)·4 + ki: t % 4 = 0, t % 4 ≤ t / 4 % 4, t % 4 = 3. And the two facts about a
  buffer read or written whole through the zero-offset rectangle of its own sizes: a load reads the contents, a store
  leaves its payload whatever was there before.
-/
import proofs.«114772_j1760936591416_2_alg».proof.Proof.Gen.Kernel.Launch
import proofs.«114772_j1760936591416_2_alg».proof.Proof.Gen.Kernel.Skeleton
import proofs.«114772_j1760936591416_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The reset condition (third grid coordinate is 0), as the body computes it from the coordinates. -/
abbrev cond1_0 (i : grid1.Coords) : Prop := (Scalar.cmpi .ne (Scalar.extui (Scalar.cmpi .eq (BitVec.ofNat 32 (i 2).val) 0#32)) 0#32) = 1#1
/-- The accumulate condition (third coordinate at most the second). -/
abbrev cond1_1 (i : grid1.Coords) : Prop := (Scalar.cmpi .ne (Scalar.extui (Scalar.cmpi .sle (BitVec.ofNat 32 (i 2).val) (BitVec.ofNat 32 (i 1).val))) 0#32) = 1#1
/-- The write-out condition (third coordinate is 3). -/
abbrev cond1_2 (i : grid1.Coords) : Prop := k1_cond3 i = 1#1

theorem hcond1_0 : ∀ t : Fin cfg1.N, cond1_0 (grid1.coords t) ↔ t.val % 4 = 0 :=
  (by decide +kernel : ∀ t : Fin grid1.N, cond1_0 (grid1.coords t) ↔ t.val % 4 = 0)
theorem hcond1_1 : ∀ t : Fin cfg1.N, cond1_1 (grid1.coords t) ↔ t.val % 4 ≤ t.val / 4 % 4 :=
  (by decide +kernel : ∀ t : Fin grid1.N, cond1_1 (grid1.coords t) ↔ t.val % 4 ≤ t.val / 4 % 4)
theorem hcond1_2 : ∀ t : Fin cfg1.N, cond1_2 (grid1.coords t) ↔ t.val % 4 = 3 :=
  (by decide +kernel : ∀ t : Fin grid1.N, cond1_2 (grid1.coords t) ↔ t.val % 4 = 3)

/-! ## Whole-buffer loads and stores -/

theorem hz2 : (![0, 0] : Fin 2 → Nat) = fun _ => 0 := funext fun a => by fin_cases a <;> rfl
theorem hz3 : (![0, 0, 0] : Fin 3 → Nat) = fun _ => 0 := funext fun a => by fin_cases a <;> rfl

section Generic
variable {Val : EltTy → Type} [∀ e, Nonempty (Val e)] {sg : RefSig} {κ : Kind} {sp : Space} {S : Shape} {e : EltTy}

/-- One store through the whole-shape rectangle at zero offsets leaves its payload. -/
theorem read_store_whole (v : View sg κ sp S e) (f : v.ty.Contents Val) {off : Fin S.rank → Nat} (hoff : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon _ _ _ (fun y => ⟨_, List.mem_singleton_self _, View.mem_set_unit_zero hoff inb y⟩), View.canon_unit_zero hoff]

/-- A later store through it leaves its payload whatever the earlier stores were. -/
theorem read_store_whole_cons (v : View sg κ sp S e) (f : v.ty.Contents Val) {off : Fin S.rank → Nat} (hoff : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero hoff inb y⟩), View.canon_cons_unit_zero hoff]

/-- A load through it of a whole memref's contents reads them. -/
theorem readAt_whole (m : Memref sg κ sp S e) (h : m.IsWhole) {off : Fin S.rank → Nat} (hoff : off = fun _ => 0)
    (inb : ∀ a, off a + S.size a ≤ S.size a) (X : S.Idx → Val e) :
    m.view.readAt Val (Rect.unit off S.size inb).toLoadRect (h.unread X) = X := by
  rw [View.readAt_eq_ld, h.read_unread, View.ld_unit_zero hoff]
end Generic

end Cert.Kernel.Gen

end
-- ==== Proof.Region1KRuns.lean ====
/-
  The retrieval body in each of its five control cases, as a triple on whole buffers. The accumulator (a [512,128]
  block) is zeroed where ki = 0, gains the masked product of the query block with the key block times the value block
  where ki ≤ qi, and is copied to the output block where ki = 3; the four input blocks are only read. Each case names
  exactly what the accumulator and the output block hold afterwards.
-/
import proofs.«114772_j1760936591416_2_alg».proof.Proof.Region1KConds

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's triple in each control case

On whole memrefs: the four inputs at their contents, the accumulator at its contents (at anything where the case
stores it before reading it), the output block at anything where the case stores it. A buffer the case never touches
is not mentioned. -/

set_option maxHeartbeats 1000000 in
/-- Reset, then accumulate, no write-out: the accumulator ends at the accumulate payload over the zero block. -/
theorem run1_A (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x128 .bf16) (harg5 : arg5.IsWhole) (arg6 : Memref sig .tc .vmem S1x512x1 .bf16) (harg6 : arg6.IsWhole) (arg7 : Memref sig .tc .vmem S1x512x128 .f32) (harg7 : arg7.IsWhole) (arg8 : Memref sig .tc .vmem S512x128 .f32) (harg8 : arg8.IsWhole)
    (hc0 : cond1_0 i) (hc1 : cond1_1 i) (hc2 : ¬cond1_2 i) (x0 : Vec F S1x512x1024 .bf16) (x1 : Vec F S1x512x1024 .bf16) (x2 : Vec F S1x512x128 .bf16) (x3 : Vec F S1x512x1 .bf16)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg8 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg8 fullShare (k1_pay2 i x0 x1 x3 x2 k1_pay1)) -∗ K ⟨⟩))
      ⊢ wp frame (wpE (defs₀ (F := F)) Variants.none c none) E (cc1__retrieval_kernel i arg3 harg3 arg4 harg4 arg5 harg5 arg6 harg6 arg7 harg7 arg8 harg8) K := by
  simp only [cc1__retrieval_kernel_eq_skeleton]; unfold cc1__retrieval_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg3.eq_unread hf0; obtain rfl := harg4.eq_unread hf1; obtain rfl := harg5.eq_unread hf2; obtain rfl := harg6.eq_unread hf3
  sl_exec (disch := first | exact hc0 | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr
  swap; · iexact HS
  ipureintro
  sl_unfold_words
  exact (read_store_whole_cons _ _ hz2 _ _ _).trans (by rw [readAt_whole arg3 harg3 hz3, readAt_whole arg4 harg4 hz3, readAt_whole arg6 harg6 hz3, readAt_whole arg5 harg5 hz3, View.readCov_unit_zero (S := S512x128) _ hz2])

set_option maxHeartbeats 1000000 in
/-- No reset, accumulate, no write-out: the accumulator ends at the accumulate payload over what it held. -/
theorem run1_B (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x128 .bf16) (harg5 : arg5.IsWhole) (arg6 : Memref sig .tc .vmem S1x512x1 .bf16) (harg6 : arg6.IsWhole) (arg7 : Memref sig .tc .vmem S1x512x128 .f32) (harg7 : arg7.IsWhole) (arg8 : Memref sig .tc .vmem S512x128 .f32) (harg8 : arg8.IsWhole)
    (hc0 : ¬cond1_0 i) (hc1 : cond1_1 i) (hc2 : ¬cond1_2 i) (x0 : Vec F S1x512x1024 .bf16) (x1 : Vec F S1x512x1024 .bf16) (x2 : Vec F S1x512x128 .bf16) (x3 : Vec F S1x512x1 .bf16) (xs : Vec F S512x128 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg8 fullShare xs
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg8 fullShare (k1_pay2 i x0 x1 x3 x2 xs)) -∗ K ⟨⟩))
      ⊢ wp frame (wpE (defs₀ (F := F)) Variants.none c none) E (cc1__retrieval_kernel i arg3 harg3 arg4 harg4 arg5 harg5 arg6 harg6 arg7 harg7 arg8 harg8) K := by
  simp only [cc1__retrieval_kernel_eq_skeleton]; unfold cc1__retrieval_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg3.eq_unread hf0; obtain rfl := harg4.eq_unread hf1; obtain rfl := harg5.eq_unread hf2; obtain rfl := harg6.eq_unread hf3; obtain rfl := harg8.eq_unread hfs
  sl_exec (disch := first | exact hc0 | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr
  swap; · iexact HS
  ipureintro
  exact (read_store_whole _ _ hz2 _ _).trans (by rw [readAt_whole arg3 harg3 hz3, readAt_whole arg4 harg4 hz3, readAt_whole arg6 harg6 hz3, readAt_whole arg5 harg5 hz3, readAt_whole arg8 harg8 hz2])

set_option maxHeartbeats 1000000 in
/-- No reset, accumulate, write-out: the accumulator as before, the output block at the accumulator reshaped. -/
theorem run1_C (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x128 .bf16) (harg5 : arg5.IsWhole) (arg6 : Memref sig .tc .vmem S1x512x1 .bf16) (harg6 : arg6.IsWhole) (arg7 : Memref sig .tc .vmem S1x512x128 .f32) (harg7 : arg7.IsWhole) (arg8 : Memref sig .tc .vmem S512x128 .f32) (harg8 : arg8.IsWhole)
    (hc0 : ¬cond1_0 i) (hc1 : cond1_1 i) (hc2 : cond1_2 i) (x0 : Vec F S1x512x1024 .bf16) (x1 : Vec F S1x512x1024 .bf16) (x2 : Vec F S1x512x128 .bf16) (x3 : Vec F S1x512x1 .bf16) (xs : Vec F S512x128 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (k1_pay3 (k1_pay2 i x0 x1 x3 x2 xs)) ∗ owns (c : Thread nD τ) arg8 fullShare (k1_pay2 i x0 x1 x3 x2 xs)) -∗ K ⟨⟩))
      ⊢ wp frame (wpE (defs₀ (F := F)) Variants.none c none) E (cc1__retrieval_kernel i arg3 harg3 arg4 harg4 arg5 harg5 arg6 harg6 arg7 harg7 arg8 harg8) K := by
  simp only [cc1__retrieval_kernel_eq_skeleton]; unfold cc1__retrieval_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
  obtain rfl := harg3.eq_unread hf0; obtain rfl := harg4.eq_unread hf1; obtain rfl := harg5.eq_unread hf2; obtain rfl := harg6.eq_unread hf3; obtain rfl := harg8.eq_unread hfs
  sl_exec (disch := first | exact hc0 | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    sl_unfold_words
    exact (read_store_whole _ _ hz3 _ _).trans (by rw [View.readCov_unit_zero (S := S512x128) _ hz2, readAt_whole arg3 harg3 hz3, readAt_whole arg4 harg4 hz3, readAt_whole arg6 harg6 hz3, readAt_whole arg5 harg5 hz3, readAt_whole arg8 harg8 hz2])
  iexists _; isplitr
  swap; · iexact HS
  ipureintro
  exact (read_store_whole _ _ hz2 _ _).trans (by rw [readAt_whole arg3 harg3 hz3, readAt_whole arg4 harg4 hz3, readAt_whole arg6 harg6 hz3, readAt_whole arg5 harg5 hz3, readAt_whole arg8 harg8 hz2])

set_option maxHeartbeats 1000000 in
/-- No reset, no accumulate, write-out: the output block at the accumulator reshaped, the accumulator as it was. -/
theorem run1_D (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x128 .bf16) (harg5 : arg5.IsWhole) (arg6 : Memref sig .tc .vmem S1x512x1 .bf16) (harg6 : arg6.IsWhole) (arg7 : Memref sig .tc .vmem S1x512x128 .f32) (harg7 : arg7.IsWhole) (arg8 : Memref sig .tc .vmem S512x128 .f32) (harg8 : arg8.IsWhole)
    (hc0 : ¬cond1_0 i) (hc1 : ¬cond1_1 i) (hc2 : cond1_2 i) (xs : Vec F S512x128 .f32)
    (E : Set ℕ) (K : PUnit → sProp 𝕄) :
    iprop((∃ d, owns (c : Thread nD τ) arg7 fullShare d) ∗ owns (c : Thread nD τ) arg8 fullShare xs
        ∗ (iprop(owns (c : Thread nD τ) arg7 fullShare (k1_pay3 xs) ∗ owns (c : Thread nD τ) arg8 fullShare xs) -∗ K ⟨⟩))
      ⊢ wp frame (wpE (defs₀ (F := F)) Variants.none c none) E (cc1__retrieval_kernel i arg3 harg3 arg4 harg4 arg5 harg5 arg6 harg6 arg7 harg7 arg8 harg8) K := by
  simp only [cc1__retrieval_kernel_eq_skeleton]; unfold cc1__retrieval_kernel_skel
  unfold owns
  iintro ⟨⟨%d4, %f4, -, H4⟩, ⟨%fs, %hfs, HS⟩, Hk⟩
  obtain rfl := harg8.eq_unread hfs
  sl_exec (disch := first | exact hc0 | exact hc1 | exact hc2)
  sl_step
  iapply Hk
  isplitl [H4]
  · iexists _; isplitr
    swap; · iexact H4
    ipureintro
    exact (read_store_whole _ _ hz3 _ _).trans (by rw [readAt_whole arg8 harg8 hz2])
  iexists _; isplitr; · ipureintro; exact hfs
  iexact HS

set_option maxHeartbeats 1000000 in
/-- No condition holds: the body touches nothing. -/
theorem run1_N (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x128 .bf16) (harg5 : arg5.IsWhole) (arg6 : Memref sig .tc .vmem S1x512x1 .bf16) (harg6 : arg6.IsWhole) (arg7 : Memref sig .tc .vmem S1x512x128 .f32) (harg7 : arg7.IsWhole) (arg8 : Memref sig .tc .vmem S512x128 .f32) (harg8 : arg8.IsWhole)
    (hc0 : ¬cond1_0 i) (hc1 : ¬cond1_1 i) (hc2 : ¬cond1_2 i)
    (E : Set ℕ) (K : PUnit → sProp 𝕄) :
    K ⟨⟩ ⊢ wp frame (wpE (defs₀ (F := F)) Variants.none c none) E (cc1__retrieval_kernel i arg3 harg3 arg4 harg4 arg5 harg5 arg6 harg6 arg7 harg7 arg8 harg8) K := by
  simp only [cc1__retrieval_kernel_eq_skeleton]; unfold cc1__retrieval_kernel_skel
  iintro Hk
  sl_exec (disch := first | exact hc0 | exact hc1 | exact hc2)
  sl_step
  iexact Hk

end Cert.Kernel.Gen

end
-- ==== Proof.Region1K.lean ====
/-
  The retrieval call over its 128 grid points. The accumulator before point n is the fold of one step over the points
  below n: reset to zero where ki = 0, then the accumulate payload of the point's four input blocks where ki ≤ qi.
  Each input's buffer holds its block of the array at every point; the output's buffer, where ki = 3, holds the
  accumulator after that point, reshaped. The invariant carries the accumulator at that fold from point to point; the
  array read through two windows is held in two halves.
-/
import proofs.«114772_j1760936591416_2_alg».proof.Proof.Region1KRuns

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks and the accumulator -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- One point's effect on the accumulator: where the key block index is at most the query block index the masked
    product is added — onto the zero block where the key block index is 0 —, elsewhere nothing. -/
def step1 (c : Dev nD) (t : Fin cfg1.N) (a : Vec F S512x128 .f32) : Vec F S512x128 .f32 :=
  if t.val % 4 ≤ t.val / 4 % 4 then
    k1_pay2 (grid1.coords t) (iblk1 V c 0 t) (iblk1 V c 1 t) (iblk1 V c 3 t) (iblk1 V c 2 t) (if t.val % 4 = 0 then k1_pay1 else a)
  else a

/-- The accumulator before point `n`: the fold of `step1` over the points below `n`. -/
def acc1 (c : Dev nD) : ℕ → Vec F S512x128 .f32
  | 0 => k1_pay1
  | n + 1 => if h : n < cfg1.N then step1 V c ⟨n, h⟩ (acc1 c n) else acc1 c n

theorem acc1_succ (c : Dev nD) (t : Fin cfg1.N) : acc1 V c (t.val + 1) = step1 V c t (acc1 V c t.val) := by
  rw [acc1, dif_pos t.isLt]

theorem acc1_A (c : Dev nD) (t : Fin cfg1.N) (h0 : t.val % 4 = 0) :
    acc1 V c (t.val + 1) = k1_pay2 (grid1.coords t) (iblk1 V c 0 t) (iblk1 V c 1 t) (iblk1 V c 3 t) (iblk1 V c 2 t) k1_pay1 := by
  rw [acc1_succ]; unfold step1; rw [if_pos (by omega), if_pos h0]

theorem acc1_B (c : Dev nD) (t : Fin cfg1.N) (h0 : ¬t.val % 4 = 0) (h1 : t.val % 4 ≤ t.val / 4 % 4) :
    acc1 V c (t.val + 1) = k1_pay2 (grid1.coords t) (iblk1 V c 0 t) (iblk1 V c 1 t) (iblk1 V c 3 t) (iblk1 V c 2 t) (acc1 V c t.val) := by
  rw [acc1_succ]; unfold step1; rw [if_pos h1, if_neg h0]

theorem acc1_N (c : Dev nD) (t : Fin cfg1.N) (h1 : ¬t.val % 4 ≤ t.val / 4 % 4) : acc1 V c (t.val + 1) = acc1 V c t.val := by
  rw [acc1_succ]; unfold step1; rw [if_neg h1]

/-! ## The invariant -/

/-- The accumulator: a whole scoped buffer of the kernel's own. -/
abbrev scM1 : Memref sig .tc .vmem S512x128 .f32 := Memref.whole cc1_scratch0

/-- The core's scoped buffers that neither this kernel stages nor it uses, each whole at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f))

/-- The scoped buffers no window stages: those, and the accumulator at some contents. -/
theorem scopedRest1_split (c : Dev nD) :
    (Pipeline.scopedRest (Ix := Unit) (Name := ℕ) (U := UR sig nD τ) (Lvl := ℕ) (Val := Elt F) spec1 c : sProp 𝕄)
      = iprop(rest1 c ∗ (∃ d, owns (c : Thread nD τ) scM1 fullShare d)) := by
  rw [scopedRest1_eq]; unfold rest1; simp only [scM1, owns_whole]
  have h₁ : iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_scratch0), ((c : Thread nD τ).loc cc1_scratch0) ↦{fullShare} f))
      ⊢ (iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f)) ∗ (∃ d : Buf (Elt F) ((c : Thread nD τ).loc cc1_scratch0), ((c : Thread nD τ).loc cc1_scratch0) ↦{fullShare} d)) : sProp 𝕄) := by
    iintro ⟨R1, R2, R3, R4, R5, R6, HS⟩
    isplitl [R1 R2 R3 R4 R5 R6]
    · isplitl [R1]; · iexact R1
      isplitl [R2]; · iexact R2
      isplitl [R3]; · iexact R3
      isplitl [R4]; · iexact R4
      isplitl [R5]; · iexact R5
      iexact R6
    iexact HS
  have h₂ : (iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f)) ∗ (∃ d : Buf (Elt F) ((c : Thread nD τ).loc cc1_scratch0), ((c : Thread nD τ).loc cc1_scratch0) ↦{fullShare} d)) : sProp 𝕄)
      ⊢ iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_scratch0), ((c : Thread nD τ).loc cc1_scratch0) ↦{fullShare} f)) := by
    iintro ⟨⟨R1, R2, R3, R4, R5, R6⟩, HS⟩
    isplitl [R1]; · iexact R1
    isplitl [R2]; · iexact R2
    isplitl [R3]; · iexact R3
    isplitl [R4]; · iexact R4
    isplitl [R5]; · iexact R5
    isplitl [R6]; · iexact R6
    iexact HS
  exact BI.equiv_iff.mp ⟨h₁, h₂⟩

/-- The invariant before position `n`: before the first point the scoped rest at anything and the generator register
    at some state; afterwards the same with the accumulator at `acc1`. -/
def PhiS1 (c : Dev nD) : ℕ → sProp 𝕄
  | 0 => iprop(rest1 c ∗ (∃ d, owns (c : Thread nD τ) scM1 fullShare d) ∗ (∃ r, prngReg c r))
  | n + 1 => iprop(rest1 c ∗ owns (c : Thread nD τ) scM1 fullShare (acc1 V c (n + 1)) ∗ (∃ r, prngReg c r))

theorem PhiS1_zero (c : Dev nD) (n : ℕ) (hz : n = 0) :
    PhiS1 V c n = iprop(rest1 c ∗ (∃ d, owns (c : Thread nD τ) scM1 fullShare d) ∗ (∃ r, prngReg c r)) := by
  subst hz; rfl

theorem PhiS1_succ (c : Dev nD) (n : ℕ) :
    PhiS1 V c (n + 1) = iprop(rest1 c ∗ owns (c : Thread nD τ) scM1 fullShare (acc1 V c (n + 1)) ∗ (∃ r, prngReg c r)) := rfl

theorem PhiS1_pos (c : Dev nD) (n : ℕ) (hz : n ≠ 0) :
    PhiS1 V c n = iprop(rest1 c ∗ owns (c : Thread nD τ) scM1 fullShare (acc1 V c n) ∗ (∃ r, prngReg c r)) := by
  cases n with
  | zero => exact absurd rfl hz
  | succ n => rfl

/-! ## The proof data -/

/-- The proof data of the retrieval pipeline on core `c`: the arrays as the region finds them; after the body each
    input's buffer at its block and the output's at the accumulator reshaped; the invariant `PhiS1`; the array the
    first two windows share held in two halves; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay3 (acc1 V c (t.val + 1))
  Φ t := PhiS1 V c t.val
  q w := match w with
    | ⟨0, _⟩ => ⟨Share.of TreeShare.leftHalf, by decide⟩
    | ⟨1, _⟩ => ⟨Share.of TreeShare.rightHalf, by decide⟩
    | ⟨2, _⟩ => fullShare
    | ⟨3, _⟩ => fullShare
    | ⟨4, _⟩ => fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) : (dat1 V c).Φ t.castSucc = PhiS1 V c t.val := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = k1_pay3 (acc1 V c (t.val + 1)) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)

/-! ## The body obligation -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem idleAt1_4 : ∀ t : Fin cfg1.N, ¬cond1_2 (grid1.coords t) → cfg1.idle 4 (grid1.coords t) = true := by decide +kernel
theorem liveAt1_4 : ∀ t : Fin cfg1.N, cond1_2 (grid1.coords t) → cfg1.idle 4 (grid1.coords t) = false := by decide +kernel
theorem noFlush1_4 : ∀ t : Fin cfg1.N, ¬cond1_2 (grid1.coords t) → (cfg1.win 4).flush t = false := by decide +kernel

abbrev ms1_0 (t : Fin cfg1.N) : Memref sig .tc .vmem S1x512x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x1 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x512x128 .f32 := win1_4.stage (cfg1.slots t 4)
abbrev hs1_4 (t : Fin cfg1.N) : (ms1_4 t).IsWhole := hstage1_4 ((cfg1.slots t 4).cast nbuf1_4)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: the inputs' memrefs hold their blocks; the closed forms of the three conditions say which
    control case the point is in; that case's triple applies; the invariant hands over the accumulator at `acc1`
    (at anything before the first point) and takes it back at the next value. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) from rfl, PhiS1_succ, PhiS1_castSucc]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  have hN : t.val < 128 := lt_of_lt_of_eq t.isLt (show cfg1.N = 128 from N_1)
  by_cases h0 : t.val % 4 = 0
  · have h1 : t.val % 4 ≤ t.val / 4 % 4 := by omega
    have h2 : ¬t.val % 4 = 3 := by omega
    rw [Dat.leavesExact_idle (dat1 V c) 4 t (idleAt1_4 t (fun h => h2 ((hcond1_2 t).mp h))) (noFlush1_4 t (fun h => h2 ((hcond1_2 t).mp h)))]
    rw [acc1_A V c t h0]
    by_cases hz : t.val = 0
    · rw [PhiS1_zero V c _ hz]
      iintro ⟨⟨R, HS, Hg⟩, Ho, ⟨%d0, H0⟩, ⟨%d1, H1⟩, ⟨%d2, H2⟩, ⟨%d3, H3⟩, ⟨%d4, H4⟩⟩
      iapply (run1_A c (grid1.coords t) _ _ _ _ _ _ _ _ _ _ _ _ ((hcond1_0 t).mpr h0) ((hcond1_1 t).mpr h1) (fun h => h2 ((hcond1_2 t).mp h)) (iblk1 V c 0 t) (iblk1 V c 1 t) (iblk1 V c 2 t) (iblk1 V c 3 t) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [R HS Hg]
      · isplitl [R]; · iexact R
        isplitl [HS]; · iexact HS
        iexact Hg
      isplitl [Ho]; · iexact Ho
      isplitl [H0]; · iexact H0
      isplitl [H1]; · iexact H1
      isplitl [H2]; · iexact H2
      isplitl [H3]; · iexact H3
      iexists _; iexact H4
    · rw [PhiS1_pos V c _ hz]
      iintro ⟨⟨R, HS, Hg⟩, Ho, ⟨%d0, H0⟩, ⟨%d1, H1⟩, ⟨%d2, H2⟩, ⟨%d3, H3⟩, ⟨%d4, H4⟩⟩
      iapply (run1_A c (grid1.coords t) _ _ _ _ _ _ _ _ _ _ _ _ ((hcond1_0 t).mpr h0) ((hcond1_1 t).mpr h1) (fun h => h2 ((hcond1_2 t).mp h)) (iblk1 V c 0 t) (iblk1 V c 1 t) (iblk1 V c 2 t) (iblk1 V c 3 t) Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [R HS Hg]
      · isplitl [R]; · iexact R
        isplitl [HS]; · iexact HS
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    rw [PhiS1_pos V c _ hz]
    by_cases h1 : t.val % 4 ≤ t.val / 4 % 4
    · by_cases h2 : t.val % 4 = 3
      · rw [show (dat1 V c).leavesExact 4 t = owns (c : Thread nD τ) (ms1_4 t) fullShare ((dat1 V c).after 4 t) from by
            unfold Dat.leavesExact; rw [liveAt1_4 t ((hcond1_2 t).mpr h2)], after1_4]
        rw [acc1_B V c t h0 h1]
        iintro ⟨⟨R, HS, Hg⟩, Ho, ⟨%d0, H0⟩, ⟨%d1, H1⟩, ⟨%d2, H2⟩, ⟨%d3, H3⟩, ⟨%d4, H4⟩⟩
        iapply (run1_C c (grid1.coords t) _ _ _ _ _ _ _ _ _ _ _ _ (fun h => h0 ((hcond1_0 t).mp h)) ((hcond1_1 t).mpr h1) ((hcond1_2 t).mpr h2) (iblk1 V c 0 t) (iblk1 V c 1 t) (iblk1 V c 2 t) (iblk1 V c 3 t) (acc1 V c t.val) Set.univ _)
        isplitl [H0]; · iexact H0
        isplitl [H1]; · iexact H1
        isplitl [H2]; · iexact H2
        isplitl [H3]; · iexact H3
        isplitl [H4]; · iexists _; iexact H4
        isplitl [HS]; · iexact HS
        iintro ⟨H0, H1, H2, H3, H4, HS⟩
        isplitl [R HS Hg]
        · isplitl [R]; · iexact R
          isplitl [HS]; · iexact HS
          iexact Hg
        isplitl [Ho]; · iexact Ho
        isplitl [H0]; · iexact H0
        isplitl [H1]; · iexact H1
        isplitl [H2]; · iexact H2
        isplitl [H3]; · iexact H3
        iexact H4
      · rw [Dat.leavesExact_idle (dat1 V c) 4 t (idleAt1_4 t (fun h => h2 ((hcond1_2 t).mp h))) (noFlush1_4 t (fun h => h2 ((hcond1_2 t).mp h)))]
        rw [acc1_B V c t h0 h1]
        iintro ⟨⟨R, HS, Hg⟩, Ho, ⟨%d0, H0⟩, ⟨%d1, H1⟩, ⟨%d2, H2⟩, ⟨%d3, H3⟩, ⟨%d4, H4⟩⟩
        iapply (run1_B c (grid1.coords t) _ _ _ _ _ _ _ _ _ _ _ _ (fun h => h0 ((hcond1_0 t).mp h)) ((hcond1_1 t).mpr h1) (fun h => h2 ((hcond1_2 t).mp h)) (iblk1 V c 0 t) (iblk1 V c 1 t) (iblk1 V c 2 t) (iblk1 V c 3 t) (acc1 V c t.val) Set.univ _)
        isplitl [H0]; · iexact H0
        isplitl [H1]; · iexact H1
        isplitl [H2]; · iexact H2
        isplitl [H3]; · iexact H3
        isplitl [HS]; · iexact HS
        iintro ⟨H0, H1, H2, H3, HS⟩
        isplitl [R HS Hg]
        · isplitl [R]; · iexact R
          isplitl [HS]; · iexact HS
          iexact Hg
        isplitl [Ho]; · iexact Ho
        isplitl [H0]; · iexact H0
        isplitl [H1]; · iexact H1
        isplitl [H2]; · iexact H2
        isplitl [H3]; · iexact H3
        iexists _; iexact H4
    · by_cases h2 : t.val % 4 = 3
      · rw [show (dat1 V c).leavesExact 4 t = owns (c : Thread nD τ) (ms1_4 t) fullShare ((dat1 V c).after 4 t) from by
            unfold Dat.leavesExact; rw [liveAt1_4 t ((hcond1_2 t).mpr h2)], after1_4]
        rw [acc1_N V c t h1]
        iintro ⟨⟨R, HS, Hg⟩, Ho, ⟨%d0, H0⟩, ⟨%d1, H1⟩, ⟨%d2, H2⟩, ⟨%d3, H3⟩, ⟨%d4, H4⟩⟩
        iapply (run1_D c (grid1.coords t) _ _ _ _ _ _ _ _ _ _ _ _ (fun h => h0 ((hcond1_0 t).mp h)) (fun h => h1 ((hcond1_1 t).mp h)) ((hcond1_2 t).mpr h2) (acc1 V c t.val) Set.univ _)
        isplitl [H4]; · iexists _; iexact H4
        isplitl [HS]; · iexact HS
        iintro ⟨H4, HS⟩
        isplitl [R HS Hg]
        · isplitl [R]; · iexact R
          isplitl [HS]; · iexact HS
          iexact Hg
        isplitl [Ho]; · iexact Ho
        isplitl [H0]; · iexact H0
        isplitl [H1]; · iexact H1
        isplitl [H2]; · iexact H2
        isplitl [H3]; · iexact H3
        iexact H4
      · rw [Dat.leavesExact_idle (dat1 V c) 4 t (idleAt1_4 t (fun h => h2 ((hcond1_2 t).mp h))) (noFlush1_4 t (fun h => h2 ((hcond1_2 t).mp h)))]
        rw [acc1_N V c t h1]
        iintro ⟨⟨R, HS, Hg⟩, Ho, ⟨%d0, H0⟩, ⟨%d1, H1⟩, ⟨%d2, H2⟩, ⟨%d3, H3⟩, ⟨%d4, H4⟩⟩
        iapply (run1_N c (grid1.coords t) _ _ _ _ _ _ _ _ _ _ _ _ (fun h => h0 ((hcond1_0 t).mp h)) (fun h => h1 ((hcond1_1 t).mp h)) (fun h => h2 ((hcond1_2 t).mp h)) Set.univ _)
        isplitl [R HS Hg]
        · isplitl [R]; · iexact R
          isplitl [HS]; · iexact HS
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The two ends of the invariant -/

/-- What the launch hands the region is the invariant before the first point. -/
theorem hin1 (c : Dev nD) :
    (iprop((∃ r, prngReg c r) ∗ Pipeline.scopedRest (Ix := Unit) (Name := ℕ) (U := UR sig nD τ) (Lvl := ℕ) (Val := Elt F) spec1 c) : sProp 𝕄)
      ⊢ (dat1 V c).Φ 0 := by
  rw [show (dat1 V c).Φ 0 = PhiS1 V c 0 from rfl, PhiS1_zero V c 0 rfl, scopedRest1_split]
  iintro ⟨Hg, R, HS⟩
  isplitl [R]; · iexact R
  isplitl [HS]; · iexact HS
  iexact Hg

/-- After the last point the invariant gives them back: the accumulator's named contents are forgotten. -/
theorem hout1 (c : Dev nD) :
    (dat1 V c).Φ (Fin.last cfg1.N)
      ⊢ (iprop((∃ r, prngReg c r) ∗ Pipeline.scopedRest (Ix := Unit) (Name := ℕ) (U := UR sig nD τ) (Lvl := ℕ) (Val := Elt F) spec1 c) : sProp 𝕄) := by
  rw [show (dat1 V c).Φ (Fin.last cfg1.N) = PhiS1 V c (Fin.last cfg1.N).val from rfl,
    PhiS1_pos V c _ (by rw [Fin.val_last]; have : cfg1.N = 128 := N_1; omega), scopedRest1_split]
  iintro ⟨R, HS, Hg⟩
  isplitl [Hg]; · iexact Hg
  isplitl [R]; · iexact R
  iexists _; iexact HS

end Cert.Kernel.Gen

end
-- ==== Proof.Region1SegK.lean ====
/- The second pipelined call (the causal retrieval) as one step of the whole program. Entered with every unscoped
   buffer of the core at a valuation, it returns them at that valuation updated at the result array alone, which
   holds the fold of the write-backs made at the last key step of each (batch, query block). Stated first for any
   proof data with the right shares, nothing owed and an invariant with the stated two ends, then at the call's
   own proof data. -/
import proofs.«114772_j1760936591416_2_alg».proof.Proof.Region1ArrK
import proofs.«114772_j1760936591416_2_alg».proof.Proof.Region1K

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The second pipelined call as a step of the whole program -/

section Seg1

variable (W : Dev nD → Valuation τ sig (Elt F))
  (V0 : (c : Dev nD) → (b : Ref sig .tc) → Buf (Elt F) ((c : Thread nD τ).loc b))
  (d1 : (c : Dev nD) → Dat τ (Elt F) Unit ℕ (UR sig nD τ) ℕ cfg1 c)

/-- The buffers when the call returns: the output array at the fold of its write-backs, every other buffer as on
    entry (the call writes no other). -/
def exit1G (c : Dev nD) : Valuation τ sig (Elt F) :=
  Function.update (W c) main_v57 ((d1 c).arrAt 4 cfg1.N)

theorem exit1G_out (c : Dev nD) : exit1G W d1 c main_v57 = (d1 c).arrAt 4 cfg1.N := by
  unfold exit1G; rw [Function.update_self]
theorem exit1G_of_ne (c : Dev nD) (b : Ref sig .tc) (hb : b ≠ main_v57) :
    exit1G W d1 c (Proc.devRef .tc b) = W c (Proc.devRef .tc b) := by
  unfold exit1G; exact Function.update_of_ne (fun e => hb (Proc.devRef_injective _ e)) _ _

/-- Off the call's arrays the exit valuation is the entry one. -/
theorem unscopedRest1_exit (c : Dev nD) :
    (Pipeline.unscopedRest spec1 c (atTc (exit1G W d1) c) : sProp 𝕄) = Pipeline.unscopedRest spec1 c (atTc W c) := by
  unfold Pipeline.unscopedRest
  exact bigSep_congr fun b hb => by
    have hne : b ≠ main_v57 := fun e =>
      (Finset.mem_sdiff.mp hb).2 (Finset.mem_image.mpr ⟨4, Finset.mem_univ _, e.symm⟩)
    show (((c : Thread nD τ).loc b) ↦{fullShare} exit1G W d1 c (Proc.devRef .tc b) : sProp 𝕄) = _
    rw [exit1G_of_ne W d1 c b hne]

set_option backward.isDefEq.respectTransparency.types false in
set_option maxHeartbeats 2000000 in
/-- The call as a step, for ANY proof data of it whose arrays are the entry valuation's, whose first two windows'
    shares make the full share, whose other inputs are held whole, that owes nothing and bounds nothing, given its
    body obligation and its invariant's two ends: the four buffers are split out of the unscoped buffers on entry —
    the shared one into two halves — and put back on return, the halves joined. -/
def reg1G
    (hA : ∀ c w, (d1 c).A w = atTc W c (Pipeline.arrRef spec1 w))
    (hq01 : ∀ c, (fullShare : PosShare TreeShare) ∈ PCS.op ((d1 c).q 0) ((d1 c).q 1))
    (hq2 : ∀ c, (d1 c).q 2 = fullShare) (hq3 : ∀ c, (d1 c).q 3 = fullShare)
    (howed : ∀ c t, (d1 c).owed t = 0) (hrec : ∀ c t, (d1 c).recorded t = Set.univ)
    (hbody : ∀ c, Pipeline.BodyObligationLoose (d1 c) (defs₀ (F := F)) Variants.none () Set.univ)
    (hin1 : ∀ c, iprop((∃ r, prngReg c r) ∗ Pipeline.scopedRest spec1 c) ⊢ ((d1 c).Φ 0 : sProp 𝕄))
    (hout1 : ∀ c, (d1 c).Φ (Fin.last cfg1.N) ⊢ (iprop((∃ r, prngReg c r) ∗ Pipeline.scopedRest spec1 c) : sProp 𝕄)) :
    Pipeline.RegionSeg (pcfgs (F := F)) adm (pdatsOf V0 d1) () defs₀ Variants.none L0 lv0 1 where
  win := winFacts₀1
  block_pos := block_pos1
  stage_whole := stage_whole1
  K := PEmpty
  osem k := k.elim
  ho := Pipeline.OwnSemFacts.none _
  hbody c := hbody c
  hwaits := Pipeline.hwaits_of_owed_zero _ _ _ _ L0 lv0 1 fun c t => howed c t
  pre c := iprop(StableHlo.held (c : Thread nD τ) (Pipeline.ucRefs τ sig) (W c) ∗ ride c)
  post c := iprop(StableHlo.held (c : Thread nD τ) (Pipeline.ucRefs τ sig) (exit1G W d1 c) ∗ ride c)
  X c := iprop(∃ r, prngReg c r)
  Y c := iprop(∃ r, prngReg c r)
  Z c := Pipeline.unscopedRest (Ix := Unit) (Name := ℕ) (U := UR sig nD τ) (Lvl := ℕ) spec1 c (atTc W c)
  hentry c := by
    rw [Pipeline.ownSems0_none]
    have hs : (unscopedBufs c (atTc W c) : sProp 𝕄)
        = iprop(Pipeline.arrBufs spec1 c (atTc W c) ∗ Pipeline.unscopedRest spec1 c (atTc W c)) :=
      Pipeline.unscopedBufs_split₀ (Ix := Unit) (Name := ℕ) (U := UR sig nD τ) (Lvl := ℕ) (Val := Elt F) cfgs 1
        winFacts₀1.arr_unscoped c (atTc W c)
    rw [Pipeline.unscopedBufs_held] at hs
    iintro ⟨⟨Hub, Hp, HO⟩, -, -⟩
    ihave H := (Entails.of_eq hs) $$ Hub
    icases H with ⟨Ha, Hrest⟩
    imodintro
    isplitl [Ha]
    · iapply (arrays1_of_arrBufs (d1 c) (atTc W c) (hA c) (hq01 c) (hq2 c) (hq3 c)); iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdatsOf V0 d1 1 c).owed 0 = 0 from howed c 0]
      icases HO with ⟨%Wt, HO⟩; iexists Wt; isplitr
      · ipureintro; intro x _; exact Or.inl (by rw [show (pdatsOf V0 d1 1 c).recorded 0 = (d1 c).recorded 0 from rfl, hrec]; trivial)
      iexact HO
    isplitl [Hp]; · iexact Hp
    iexact Hrest
  hin c := by
    rw [show (pdatsOf V0 d1 1 c).Φ 0 = (d1 c).Φ 0 from rfl]
    iintro ⟨Hp, -, Hr⟩
    iapply (hin1 c)
    isplitl [Hp]; · iexact Hp
    iexact Hr
  hout c := by
    rw [Pipeline.ownSems0_none, show (pdatsOf V0 d1 1 c).Φ (Fin.last _) = (d1 c).Φ (Fin.last cfg1.N) from rfl]
    iintro H
    ihave H' := (hout1 c) $$ H
    icases H' with ⟨Hp, Hr⟩
    isplitl [Hp]; · iexact Hp
    isplitr; · iempintro
    iexact Hr
  hexit c := by
    have hs : (unscopedBufs c (atTc (exit1G W d1) c) : sProp 𝕄)
        = iprop(Pipeline.arrBufs spec1 c (atTc (exit1G W d1) c) ∗ Pipeline.unscopedRest spec1 c (atTc (exit1G W d1) c)) :=
      Pipeline.unscopedBufs_split₀ (Ix := Unit) (Name := ℕ) (U := UR sig nD τ) (Lvl := ℕ) (Val := Elt F) cfgs 1
        winFacts₀1.arr_unscoped c (atTc (exit1G W d1) c)
    rw [Pipeline.unscopedBufs_held, unscopedRest1_exit W d1 c] at hs
    have hjoin := arrBufs_of_arrays1 (d1 c) (atTc W c) (hA c) (hq01 c) (hq2 c) (hq3 c) (atTc (exit1G W d1) c)
      (exit1G_of_ne W d1 c main_v56 (by decide)) (exit1G_of_ne W d1 c main_v48 (by decide)) (exit1G_of_ne W d1 c main_v50 (by decide))
      (exit1G_out W d1 c)
    iintro ⟨Ha, HO, HY, Hrest⟩
    imodintro
    isplitl [Ha Hrest]
    · iapply (Entails.of_eq hs.symm)
      isplitl [Ha]; · iapply hjoin; iexact Ha
      iexact Hrest
    isplitl [HY]; · iexact HY
    unfold Pipeline.Dat.owesAt Pipeline.owesWithin
    rw [show (pdatsOf V0 d1 1 c).owed (Fin.last (Pipeline.pin (pcfgs (F := F)) adm 1).N) = 0 from howed c _]
    icases HO with ⟨%Wt, -, HO⟩; iexists Wt; iexact HO

end Seg1

/-! ## At the call's own proof data -/

section Spec1

variable (W : Dev nD → Valuation τ sig (Elt F))
  (V0 : (c : Dev nD) → (b : Ref sig .tc) → Buf (Elt F) ((c : Thread nD τ).loc b))

/-- The two windows on the shared array hold the two halves of the full share. -/
theorem q01_dat1 (V : (c : Dev nD) → (b : Ref sig .tc) → Buf (Elt F) ((c : Thread nD τ).loc b)) (c : Dev nD) :
    (fullShare : PosShare TreeShare) ∈ PCS.op ((dat1 V c).q 0) ((dat1 V c).q 1) := by
  have h0 : (dat1 V c).q 0 = (fullShare : PosShare TreeShare).left := by
    dsimp only [dat1]
    first | rfl | exact Subtype.ext (congrArg Share.of (by decide)) | decide
  have h1 : (dat1 V c).q 1 = (fullShare : PosShare TreeShare).right := by
    dsimp only [dat1]
    first | rfl | exact Subtype.ext (congrArg Share.of (by decide)) | decide
  rw [h0, h1]; exact PosShare.mem_left_op_right fullShare

/-- The buffers when the call returns. -/
def exit1 (c : Dev nD) : Valuation τ sig (Elt F) := exit1G W (dat1 (atTc W)) c

theorem exit1_eq_update (c : Dev nD) :
    exit1 W c = Function.update (W c) main_v57 ((dat1 (atTc W) c).arrAt 4 cfg1.N) := rfl
theorem exit1_out (c : Dev nD) : exit1 W c main_v57 = (dat1 (atTc W) c).arrAt 4 cfg1.N := exit1G_out W _ c
theorem exit1_of_ne (c : Dev nD) (b : Ref sig .tc) (hb : b ≠ main_v57) :
    exit1 W c (Proc.devRef .tc b) = W c (Proc.devRef .tc b) := exit1G_of_ne W _ c b hb

/-- The second pipelined call as a step of the whole program, at its own proof data. -/
def reg1 : Pipeline.RegionSeg (pcfgs (F := F)) adm (pdatsOf V0 (dat1 (atTc W))) () defs₀ Variants.none L0 lv0 1 :=
  reg1G W V0 (dat1 (atTc W)) (fun c w => A_eq1 (atTc W) c w) (fun c => q01_dat1 (atTc W) c)
    (fun c => by dsimp only [dat1]) (fun c => by dsimp only [dat1])
    (fun c t => by dsimp only [dat1]) (fun c t => by dsimp only [dat1])
    (fun c => (body_obligation1 (atTc W) c).loose) (fun c => hin1 (atTc W) c) (fun c => hout1 (atTc W) c)

theorem reg1_pre (c : Dev nD) :
    (reg1 W V0).pre c = iprop(StableHlo.held (c : Thread nD τ) (Pipeline.ucRefs τ sig) (W c) ∗ ride c) := rfl
theorem reg1_post (c : Dev nD) :
    (reg1 W V0).post c = iprop(StableHlo.held (c : Thread nD τ) (Pipeline.ucRefs τ sig) (exit1 W c) ∗ ride c) := rfl

/-- Against the program's own valuations. -/
theorem exit1_V19_eq_V20 (m : (ℓ : Loc nD τ sig) → Buf (Elt F) ℓ) (outs : Outs (F := F))
    (houts : ∀ c, outs 20 main_v57 c = exit1 (V19 m outs) c main_v57) (c : Dev nD) :
    exit1 (V19 m outs) c = V20 m outs c := by
  show Function.update (V19 m outs c) main_v57 ((dat1 (atTc (V19 m outs)) c).arrAt 4 cfg1.N)
    = Function.update (V19 m outs c) main_v57 (outs 20 main_v57 c)
  rw [houts c, exit1_out]

theorem post1_V20 (m : (ℓ : Loc nD τ sig) → Buf (Elt F) ℓ) (outs : Outs (F := F))
    (houts : ∀ c, outs 20 main_v57 c = exit1 (V19 m outs) c main_v57) (c : Dev nD) :
    (reg1 (V19 m outs) V0).post c ⊢ iprop(StableHlo.held (c : Thread nD τ) (Pipeline.ucRefs τ sig) (V20 m outs c) ∗ ride c) := by
  rw [reg1_post, exit1_V19_eq_V20 m outs houts c]

end Spec1

end Cert.Kernel.Gen

end
-- ==== Proof.KRunK.lean ====
/-
  The run of the whole program as a chain of host stretches and two kernel regions, with EVERY unscoped buffer
  read back at the end.

  Between two items a core holds each unscoped buffer whole at a named valuation: the launch contents, then the
  pure effect of each host stretch, then — after a kernel region — the region's result array replaced by what the
  region leaves there. Given, for each of the two regions, a segment record entered from the valuation before it
  and left at the valuation after it, every weakly fair execution terminates and the final memory agrees with the
  last valuation on every unscoped buffer: in particular on the two result arrays and on the thirteen arguments.
  The rest of the thread state (the generator register and the core owing nothing) rides along unchanged.
-/
import proofs.«114772_j1760936591416_2_alg».proof.Proof.Gen.Kernel.Regions
import Idealize.ShloMosaic.Lib.Pipeline.Kit

set_option maxRecDepth 1384

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

/-- No core owes another anything: no level is assigned. -/
abbrev L₀ : GSem nD τ sig → Finset Unit := fun _ => ∅
abbrev lv₀ : GSem nD τ sig → Unit → ℕ := fun _ _ => 0

/-- What rides beside the buffers through every item: the core's generator register at some state and the core
    owing nothing. -/
abbrev Rest (c : Dev nD) : sProp 𝕄 :=
  iprop((∃ r, prngReg c r) ∗ ∃ W, owes (c : Thread nD τ) (0 : CellTallies nD τ sig Unit) W)

/-- The same rest state at each of the three stretches of host items (before, between and after the regions). -/
abbrev Rests : Fin 3 → Dev nD → sProp 𝕄 := fun _ c => Rest (F := F) c

variable (m : (ℓ : Loc nD τ sig) → Buf (Elt F) ℓ) (outs : Outs (F := F))

set_option backward.isDefEq.respectTransparency.types false in
/-- From a segment record per region, entered from the valuation before the region and left at the one after it:
    every weakly fair execution of the program terminates, and the final memory holds every unscoped buffer at the
    last valuation. -/
theorem run_all (ρ : Dev nD → PrngReg)
    (pdats : (p : Fin 2) → (c : Dev nD) → Dat τ (Elt F) Unit ℕ (UR sig nD τ) ℕ (cfgs p) c)
    (R0 : RegionSeg (pcfgs (F := F)) adm pdats () defs₀ Variants.none L₀ lv₀ 0)
    (hpre0 : ∀ c : Dev nD, iprop(StableHlo.held (c : Thread nD τ) (Pipeline.ucRefs τ sig) (V5 m c) ∗ Rest c) ⊢ R0.pre c)
    (hpost0 : ∀ c : Dev nD, R0.post c ⊢ iprop(StableHlo.held (c : Thread nD τ) (Pipeline.ucRefs τ sig) (V6 m outs c) ∗ Rest c))
    (R1 : RegionSeg (pcfgs (F := F)) adm pdats () defs₀ Variants.none L₀ lv₀ 1)
    (hpre1 : ∀ c : Dev nD, iprop(StableHlo.held (c : Thread nD τ) (Pipeline.ucRefs τ sig) (V19 m outs c) ∗ Rest c) ⊢ R1.pre c)
    (hpost1 : ∀ c : Dev nD, R1.post c ⊢ iprop(StableHlo.held (c : Thread nD τ) (Pipeline.ucRefs τ sig) (V20 m outs c) ∗ Rest c)) :
    θ_run defs (onTc (τ := τ) (main (F := F))) ⟨m, fun _ => 0, ρ⟩ (fun r => ∀ c : Dev nD,
      ∀ b ∈ Pipeline.ucRefs τ sig, r.2.mem ((c : Thread nD τ).1, b) = V31 m outs c b) := by
  refine Pipeline.θ_run_regions_kit_dev (pcfgs (F := F)) adm pdats () cellOf_inj emb₁ defs₀ Variants.none L₀ lv₀ m ρ main
    (segs m outs Variants.none L₀ lv₀ (Rests (F := F)) () pdats R0 R1)
    (fun c Q => by
      -- the program is its items in order: five host stretches, the first region, thirteen stretches, the second
      -- region, eleven stretches
      rewrite [main_chain c, Seg.run_eq_chain,
        show (segs m outs Variants.none L₀ lv₀ (Rests (F := F)) () pdats R0 R1 c).map Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          StableHlo.seq hostOps1_7,
          StableHlo.seq hostOps1_8,
          StableHlo.seq hostOps1_9,
          StableHlo.seq hostOps1_10,
          StableHlo.seq hostOps1_11,
          StableHlo.seq hostOps1_12,
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5,
          StableHlo.seq hostOps2_6,
          StableHlo.seq hostOps2_7,
          StableHlo.seq hostOps2_8,
          StableHlo.seq hostOps2_9,
          StableHlo.seq hostOps2_10 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rest c))
    (Tₙ := fun c => StableHlo.held (c : Thread nD τ) (Pipeline.ucRefs τ sig) (V31 m outs c))
    (hch := fun c => ⟨.rfl, .rfl, .rfl, .rfl, .rfl, hpre0 c, hpost0 c, .rfl, .rfl, .rfl, .rfl, .rfl, .rfl, .rfl, .rfl, .rfl, .rfl, .rfl, .rfl, hpre1 c, hpost1 c, .rfl, .rfl, .rfl, .rfl, .rfl, .rfl, .rfl, .rfl, .rfl, .rfl,
      sep_mono .rfl (by iintro ⟨-, H⟩; iexact H)⟩)
    (hinit := ?_)
    (QY := fun c s => ∀ b ∈ Pipeline.ucRefs τ sig, s.mem ((c : Thread nD τ).1, b) = V31 m outs c b)
    (hfin := fun c s' => ?_) (hQ := fun _ h => h)
  · -- the launch: each core's unscoped buffers are held at the launch contents; its generator register and its
    -- empty debt make the rest state
    refine Pipeline.initEach L₀ lv₀ fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · -- the end: every unscoped buffer read off the last valuation
    iintro ⟨Hh, HSI⟩
    unfold StableHlo.held
    imodintro
    iapply (pointsTo_read_all (Pipeline.ucRefs τ sig) (fun b => ((c : Thread nD τ).1, b)) (V31 m outs c) s')
    isplitl [Hh] <;> iassumption

end Cert.Kernel.Gen

end
-- ==== Proof.KOutsK.lean ====
/-
  The whole program's run with the two calls' results NAMED.

  What each pipelined call leaves in its result array is the fold of its write-backs over the proof data of that
  call; putting those two arrays in place of the unknown contents of the program's valuations closes the chain of
  valuations, so that the run theorem applies with each call's own segment record: every weakly fair execution
  terminates with every unscoped buffer at the last valuation, hence the thirteen arguments as launched.
-/
import proofs.«114772_j1760936591416_2_alg».proof.Proof.Region0SegK
import proofs.«114772_j1760936591416_2_alg».proof.Proof.Region1SegK
import proofs.«114772_j1760936591416_2_alg».proof.Proof.KRunK

set_option maxRecDepth 16384

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

/-- The buffers after the first call, read at every reference (only the first call's result array is consulted). -/
def outsA : Outs (F := F) := fun _ r c => exit0 (V5 m) c r

/-- The contents the two calls leave: the first call's result array after it, the second call's after it (entered
    from the valuation that already has the first call's result). -/
def outsF : Outs (F := F) := fun n r c => if n = 20 then exit1 (V19 m (outsA m)) c r else outsA m n r c

theorem outsF_6 (c : Dev nD) : outsF m 6 main_v9 c = exit0 (V5 m) c main_v9 := rfl

/-- The valuation the second call is entered from reads the unknown contents only at the first call's result. -/
theorem V19_outsF : V19 m (outsF m) = V19 m (outsA m) := rfl

theorem outsF_20 (c : Dev nD) : outsF m 20 main_v57 c = exit1 (V19 m (outsF m)) c main_v57 := by
  rw [V19_outsF]; rfl

/-- The two calls' proof data: the first at the valuation before it, the second at the valuation before it. -/
abbrev pdatsF : (p : Fin 2) → (c : Dev nD) → Dat τ (Elt F) Unit ℕ (UR sig nD τ) ℕ (cfgs p) c :=
  pdatsOf (atTc (V5 m)) (dat1 (atTc (V19 m (outsF m))))

/-- THE RUN: every weakly fair execution terminates, and the final memory holds every unscoped buffer at the last
    valuation, the two calls' results being what their pipelines leave. -/
theorem run_F (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = V31 m (outsF m) c b) :=
  run_all m (outsF m) ρ (pdatsF m)
    (reg0 (V5 m) (dat1 (atTc (V19 m (outsF m))))) (fun _ => .rfl)
    (post0_V6 m (outsF m) (outsF_6 m) (dat1 (atTc (V19 m (outsF m)))))
    (reg1 (V19 m (outsF m)) (atTc (V5 m))) (fun _ => .rfl)
    (post1_V20 (atTc (V5 m)) m (outsF m) (outsF_20 m))

/-- A TensorCore reference that is not scoped is among the unscoped buffers. -/
theorem mem_uc (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-- THE FRAME: the arguments end as launched (no item of the program writes an argument). -/
theorem frame_F (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨
      (h c (Proc.devRef .tc main_arg0) (mem_uc main_arg0 (by decide))).trans (V31_main_arg0 m (outsF m) c),
      (h c (Proc.devRef .tc main_arg1) (mem_uc main_arg1 (by decide))).trans (V31_main_arg1 m (outsF m) c),
      (h c (Proc.devRef .tc main_arg2) (mem_uc main_arg2 (by decide))).trans (V31_main_arg2 m (outsF m) c),
      (h c (Proc.devRef .tc main_arg3) (mem_uc main_arg3 (by decide))).trans (V31_main_arg3 m (outsF m) c),
      (h c (Proc.devRef .tc main_arg4) (mem_uc main_arg4 (by decide))).trans (V31_main_arg4 m (outsF m) c),
      (h c (Proc.devRef .tc main_arg5) (mem_uc main_arg5 (by decide))).trans (V31_main_arg5 m (outsF m) c),
      (h c (Proc.devRef .tc main_arg6) (mem_uc main_arg6 (by decide))).trans (V31_main_arg6 m (outsF m) c),
      (h c (Proc.devRef .tc main_arg7) (mem_uc main_arg7 (by decide))).trans (V31_main_arg7 m (outsF m) c),
      (h c (Proc.devRef .tc main_arg8) (mem_uc main_arg8 (by decide))).trans (V31_main_arg8 m (outsF m) c),
      (h c (Proc.devRef .tc main_arg9) (mem_uc main_arg9 (by decide))).trans (V31_main_arg9 m (outsF m) c),
      (h c (Proc.devRef .tc main_arg10) (mem_uc main_arg10 (by decide))).trans (V31_main_arg10 m (outsF m) c),
      (h c (Proc.devRef .tc main_arg11) (mem_uc main_arg11 (by decide))).trans (V31_main_arg11 m (outsF m) c),
      (h c (Proc.devRef .tc main_arg12) (mem_uc main_arg12 (by decide))).trans (V31_main_arg12 m (outsF m) c)⟩)
    (run_F m ρ)

/-- THE RUN WITH ITS RESULTS: the two result arrays end at the last valuation, the arguments as launched. -/
theorem run_vals (ρ : Dev nD → PrngReg) :
    θ_run defs (onTc (τ := τ) (main (F := F))) ⟨m, fun _ => 0, ρ⟩ (fun r => ∀ c : Dev nD,
      r.2.mem ((c.tc : Thread nD τ).loc main_v72) = V31 m (outsF m) c main_v72
      ∧ r.2.mem ((c.tc : Thread nD τ).loc main_v79) = V31 m (outsF m) c main_v79
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨
      h c (Proc.devRef .tc main_v72) (mem_uc main_v72 (by decide)),
      h c (Proc.devRef .tc main_v79) (mem_uc main_v79 (by decide)),
      (h c (Proc.devRef .tc main_arg0) (mem_uc main_arg0 (by decide))).trans (V31_main_arg0 m (outsF m) c),
      (h c (Proc.devRef .tc main_arg1) (mem_uc main_arg1 (by decide))).trans (V31_main_arg1 m (outsF m) c),
      (h c (Proc.devRef .tc main_arg2) (mem_uc main_arg2 (by decide))).trans (V31_main_arg2 m (outsF m) c),
      (h c (Proc.devRef .tc main_arg3) (mem_uc main_arg3 (by decide))).trans (V31_main_arg3 m (outsF m) c),
      (h c (Proc.devRef .tc main_arg4) (mem_uc main_arg4 (by decide))).trans (V31_main_arg4 m (outsF m) c),
      (h c (Proc.devRef .tc main_arg5) (mem_uc main_arg5 (by decide))).trans (V31_main_arg5 m (outsF m) c),
      (h c (Proc.devRef .tc main_arg6) (mem_uc main_arg6 (by decide))).trans (V31_main_arg6 m (outsF m) c),
      (h c (Proc.devRef .tc main_arg7) (mem_uc main_arg7 (by decide))).trans (V31_main_arg7 m (outsF m) c),
      (h c (Proc.devRef .tc main_arg8) (mem_uc main_arg8 (by decide))).trans (V31_main_arg8 m (outsF m) c),
      (h c (Proc.devRef .tc main_arg9) (mem_uc main_arg9 (by decide))).trans (V31_main_arg9 m (outsF m) c),
      (h c (Proc.devRef .tc main_arg10) (mem_uc main_arg10 (by decide))).trans (V31_main_arg10 m (outsF m) c),
      (h c (Proc.devRef .tc main_arg11) (mem_uc main_arg11 (by decide))).trans (V31_main_arg11 m (outsF m) c),
      (h c (Proc.devRef .tc main_arg12) (mem_uc main_arg12 (by decide))).trans (V31_main_arg12 m (outsF m) c)⟩)
    (run_F m ρ)

end Cert.Kernel.Gen

end
-- ==== Proof.Shared.lean ====
/-
  The arrays both programs derive from the token ids and the hidden states before any sum over keys, written
  once over the argument arrays (extended reals for floats, words for integers and truth values):
  the row-normalized hidden states, the query gate (token = 2), the key masks (previous token = 2 and the token in a
  class range), the one-hot class rows, and softplus of a scalar.
-/
import Idealize.ShloMosaic.PureOps
import Idealize.ShloMosaic.PureOps.Ideal

noncomputable section

namespace Cert.Shared

open Idealize.ShloMosaic

abbrev S_ : Shape := ⟨0, ![]⟩
abbrev S8x2048 : Shape := ⟨2, ![8, 2048]⟩
abbrev S8x2047 : Shape := ⟨2, ![8, 2047]⟩
abbrev S8x2048x1 : Shape := ⟨3, ![8, 2048, 1]⟩
abbrev S8x2048x1024 : Shape := ⟨3, ![8, 2048, 1024]⟩
abbrev S8x2048x64 : Shape := ⟨3, ![8, 2048, 64]⟩
abbrev S8x2048x32 : Shape := ⟨3, ![8, 2048, 32]⟩
abbrev S1x1x64 : Shape := ⟨3, ![1, 1, 64]⟩
abbrev S1x1x32 : Shape := ⟨3, ![1, 1, 32]⟩

/-! ## Shape relations the operations ask for -/

theorem h_S_ : 0 < S_.numel := by decide
theorem red_last : S8x2048x1024.ReducesTo [2] S8x2048 := by decide
theorem bc_rows_col : S8x2048.BroadcastsInDim S8x2048x1 (![0, 1] : Fin 2 → Fin S8x2048x1.rank) := by decide
theorem bc_scalar_col : S_.BroadcastsInDim S8x2048x1 (![] : Fin 0 → Fin S8x2048x1.rank) := by decide
theorem bc_col_1024 : S8x2048x1.BroadcastsInDim S8x2048x1024 (![0, 1, 2] : Fin 3 → Fin S8x2048x1024.rank) := by decide
theorem bc_scalar_rows : S_.BroadcastsInDim S8x2048 (![] : Fin 0 → Fin S8x2048.rank) := by decide
theorem bc_scalar_scalar : S_.BroadcastsInDim S_ (![] : Fin 0 → Fin S_.rank) := by decide
theorem slice_drop_last : S8x2048.Slices ![0, 0] S8x2047 := by decide
theorem pad_one_front : S8x2047.Pads (![0, 1] : Fin 2 → Nat) ![0, 0] ![0, 0] S8x2048 := by decide
theorem bc_col_64 : S8x2048x1.BroadcastsInDim S8x2048x64 (![0, 1, 2] : Fin 3 → Fin S8x2048x64.rank) := by decide
theorem bc_col_32 : S8x2048x1.BroadcastsInDim S8x2048x32 (![0, 1, 2] : Fin 3 → Fin S8x2048x32.rank) := by decide
theorem bc_lane_64 : S1x1x64.BroadcastsInDim S8x2048x64 (![0, 1, 2] : Fin 3 → Fin S8x2048x64.rank) := by decide
theorem bc_lane_32 : S1x1x32.BroadcastsInDim S8x2048x32 (![0, 1, 2] : Fin 3 → Fin S8x2048x32.rank) := by decide

/-! ## The derived arrays -/

/-- Each row of `h` divided by the larger of its Euclidean norm and the literal 1e-12 (as an f32 word). -/
def hnOf (h : Vec Ideal S8x2048x1024 .f32) : Vec Ideal S8x2048x1024 .f32 :=
  Host.divf h (broadcastInDim S8x2048x1024 ![0, 1, 2] bc_col_1024
    (maximumf
      (Host.sqrt (broadcastInDim S8x2048x1 ![0, 1] bc_rows_col
        (Host.reduceAdd (mulf h h) (constant (F := Ideal) S_ .f32 0x00000000#32) red_last h_S_)))
      (broadcastInDim (s := S_) S8x2048x1 ![] bc_scalar_col (constant (F := Ideal) S_ .f32 0x2B8CBCCC#32))))

/-- The query gate: the token equals 2. -/
def labOf (tokens : Vec Ideal S8x2048 .i32) : Vec Ideal S8x2048 .i1 :=
  cmpi .eq tokens (broadcastInDim (s := S_) S8x2048 ![] bc_scalar_rows (constantI S_ 32 2#32))

/-- The gate shifted one position to the right along the sequence, false at position 0: the previous token equals 2. -/
def prevLabOf (tokens : Vec Ideal S8x2048 .i32) : Vec Ideal S8x2048 .i1 :=
  pad S8x2048 ![0, 1] ![0, 0] ![0, 0]
    (extractStridedSlice S8x2047 ![0, 0] (labOf tokens) slice_drop_last)
    (id (cmpi .ne (constantI S_ 32 0#32) (broadcastInDim (s := S_) S_ ![] bc_scalar_scalar (constantI S_ 32 0#32))))
    pad_one_front h_S_

/-- Key mask of the 64-class head: previous token = 2, and 5 ≤ token < 69. -/
def valActOf (tokens : Vec Ideal S8x2048 .i32) : Vec Ideal S8x2048 .i1 :=
  andi (andi (prevLabOf tokens)
      (cmpi .sge tokens (broadcastInDim (s := S_) S8x2048 ![] bc_scalar_rows (constantI S_ 32 5#32))))
    (cmpi .slt tokens (broadcastInDim (s := S_) S8x2048 ![] bc_scalar_rows (constantI S_ 32 69#32)))

/-- Key mask of the 32-class head: previous token = 2, and 69 ≤ token < 101. -/
def valTimeOf (tokens : Vec Ideal S8x2048 .i32) : Vec Ideal S8x2048 .i1 :=
  andi (andi (prevLabOf tokens)
      (cmpi .sge tokens (broadcastInDim (s := S_) S8x2048 ![] bc_scalar_rows (constantI S_ 32 69#32))))
    (cmpi .slt tokens (broadcastInDim (s := S_) S8x2048 ![] bc_scalar_rows (constantI S_ 32 101#32)))

/-- `min hi (max lo (tokens - off))`, elementwise on signed words. -/
def clipOf (off lo hi : BitVec 32) (tokens : Vec Ideal S8x2048 .i32) : Vec Ideal S8x2048 .i32 :=
  minsi (broadcastInDim (s := S_) S8x2048 ![] bc_scalar_rows (id (constantI S_ 32 hi)))
    (maxsi (broadcastInDim (s := S_) S8x2048 ![] bc_scalar_rows (id (constantI S_ 32 lo)))
      (subi tokens (broadcastInDim (s := S_) S8x2048 ![] bc_scalar_rows (constantI S_ 32 off))))

/-- One-hot rows over 64 classes of `clip (token - 5) 0 63`, as floats 0 / 1. -/
def ohActOf (tokens : Vec Ideal S8x2048 .i32) : Vec Ideal S8x2048x64 .f32 :=
  uitofp (F := Ideal) .f32 (cmpi .eq
    (broadcastInDim S8x2048x64 ![0, 1, 2] bc_col_64 (broadcastInDim S8x2048x1 ![0, 1] bc_rows_col (clipOf 5#32 0#32 63#32 tokens)))
    (broadcastInDim S8x2048x64 ![0, 1, 2] bc_lane_64 (iotaInDim S1x1x64 32 2)))

/-- One-hot rows over 32 classes of `clip (token - 69) 0 31`, as floats 0 / 1. -/
def ohTimeOf (tokens : Vec Ideal S8x2048 .i32) : Vec Ideal S8x2048x32 .f32 :=
  uitofp (F := Ideal) .f32 (cmpi .eq
    (broadcastInDim S8x2048x32 ![0, 1, 2] bc_col_32 (broadcastInDim S8x2048x1 ![0, 1] bc_rows_col (clipOf 69#32 0#32 31#32 tokens)))
    (broadcastInDim S8x2048x32 ![0, 1, 2] bc_lane_32 (iotaInDim S1x1x32 32 2)))

/-- Softplus of a scalar as both programs spell it: `x + 0` where `x - 0` differs from itself, else
    `max x 0 + log1p (exp (-|x - 0|))`. -/
def softplusOf (x : Vec Ideal S_ .f32) : Vec Ideal S_ .f32 :=
  select (cmpf .une (subf x (constant (F := Ideal) S_ .f32 0x00000000#32)) (subf x (constant (F := Ideal) S_ .f32 0x00000000#32)))
    (addf x (constant (F := Ideal) S_ .f32 0x00000000#32))
    (addf (maximumf x (constant (F := Ideal) S_ .f32 0x00000000#32))
      (Host.log1p (Host.exp (Host.negf (Host.absf (subf x (constant (F := Ideal) S_ .f32 0x00000000#32)))))))

end Cert.Shared

end
-- ==== Proof.Rows.lean ====
/-
  The two row ranges of the embedding table that the weight-tied heads use: rows 5 … 68 (64 classes) and
  rows 69 … 100 (32 classes), as functions of a class and a feature coordinate.
-/
import proofs.«114772_j1760936591416_2_alg».proof.Proof.Shared
import Idealize.ShloMosaic.Lib.ValueIdx

noncomputable section

namespace Cert.Shared

open Idealize.ShloMosaic Idealize.ShloMosaic.ValueIdx

abbrev S101x1024 : Shape := ⟨2, ![101, 1024]⟩

/-- Row `5 + a` of the table, `a < 64`. -/
def eActOf (E : Vec Ideal S101x1024 .f32) (a : Fin 64) (d : Fin 1024) : EReal :=
  E (ix2 (⟨5 + a.val, by have := a.isLt; omega⟩ : Fin 101) d)

/-- Row `69 + c` of the table, `c < 32`. -/
def eTimeOf (E : Vec Ideal S101x1024 .f32) (c : Fin 32) (d : Fin 1024) : EReal :=
  E (ix2 (⟨69 + c.val, by have := c.isLt; omega⟩ : Fin 101) d)

end Cert.Shared

end
-- ==== Proof.Spec.lean ====
/-
  The result both programs compute, as a function of abstract arrays over the extended reals, in the arrangement
  of the reference: for batch b, query position q and class a,

    (∑ d, h b q d · W a d + bias a) + sTied · ∑ d, h b q d · E a d
      + sScale · ∑ k, ((if the query is gated, k < q and key k is valid then ⟨hn b q, hn b k⟩ else 0) · sTemp) · onehot b k a,

  together with the law joining this arrangement to the one that multiplies the gate into the query row, the key
  mask into the one-hot row, masks only by position, and scales once at the end; and the regrouping of the sum over
  2048 keys into 4 tiles of 512.
-/
import Mathlib.Data.EReal.Operations
import Mathlib.Algebra.BigOperators.Fin
import Mathlib.Logic.Equiv.Fin.Basic
import Mathlib.Tactic.Ring
import Mathlib.Tactic.Choose
import Idealize.ShloMosaic.PureOps.Ideal
import Idealize.ShloMosaic.Lib.ValueIdx
import Idealize.ShloMosaic.Lib.IdealHost

noncomputable section

namespace Cert.Spec

open Idealize.ShloMosaic

/-- The head's logits over `n` classes. `lab` gates queries, `val` marks valid keys, `oh` is the keys' one-hot class rows,
    `hn` the normalized hidden states; `sTied`, `sScale`, `sTemp` are the three positive scalars. -/
def G {n : ℕ} (h : Fin 8 → Fin 2048 → Fin 1024 → EReal) (W : Fin n → Fin 1024 → EReal) (bias : Fin n → EReal)
    (E : Fin n → Fin 1024 → EReal) (hn : Fin 8 → Fin 2048 → Fin 1024 → EReal) (lab val : Fin 8 → Fin 2048 → Bool)
    (oh : Fin 8 → Fin 2048 → Fin n → EReal) (sTied sScale sTemp : EReal) (b : Fin 8) (q : Fin 2048) (a : Fin n) : EReal :=
  ((∑ d : Fin 1024, h b q d * W a d) + bias a) + sTied * (∑ d : Fin 1024, h b q d * E a d)
    + sScale * ∑ k : Fin 2048,
        ((if lab b q = true ∧ k < q ∧ val b k = true then ∑ d : Fin 1024, hn b q d * hn b k d else 0) * sTemp) * oh b k a

/-- The 64-class head. -/
abbrev Gact := @G 64
/-- The 32-class head. -/
abbrev Gtime := @G 32

/-! ## Real coercions through sums and conditionals -/

theorem coe_sum {ι : Type*} (s : Finset ι) (f : ι → ℝ) : ((∑ i ∈ s, f i : ℝ) : EReal) = ∑ i ∈ s, (f i : EReal) := by
  classical
  refine Finset.induction_on s (by simp) fun a s ha ih => ?_
  rw [Finset.sum_insert ha, Finset.sum_insert ha, EReal.coe_add, ih]

theorem coe_ite (c : Prop) [Decidable c] (a b : ℝ) :
    ((if c then a else b : ℝ) : EReal) = if c then (a : EReal) else (b : EReal) := by
  split_ifs <;> rfl

/-! ## The law -/

/-- Over the reals: gate inside the inner product, key mask on the one-hot entry, position mask alone, one scaling by
    `s · t` outside — equals — all three conditions in one mask, scaling by `t` inside the sum and by `s` outside. -/
theorem copy_law_real {K D : ℕ} (q : Fin K) (lab : Bool) (val : Fin K → Bool) (x : Fin D → ℝ) (y : Fin K → Fin D → ℝ)
    (o : Fin K → ℝ) (s t : ℝ) :
    (s * t) * ∑ k : Fin K, (if k < q then ∑ d : Fin D, (x d * (if lab = true then 1 else 0)) * y k d else 0)
        * (o k * (if val k = true then 1 else 0))
      = s * ∑ k : Fin K, ((if lab = true ∧ k < q ∧ val k = true then ∑ d : Fin D, x d * y k d else 0) * t) * o k := by
  rw [mul_assoc, Finset.mul_sum]
  congr 1
  refine Finset.sum_congr rfl fun k _ => ?_
  by_cases hk : k < q <;> cases lab <;> cases hv : val k <;> simp [hk] <;> ring

/-- The same law on the extended reals, for entries that are reals. This is where finiteness is used: on the
    extended reals a factor does not move across a sum that holds both infinities. -/
theorem copy_law {K D : ℕ} (q : Fin K) (lab : Bool) (val : Fin K → Bool) (x : Fin D → EReal) (y : Fin K → Fin D → EReal)
    (o : Fin K → EReal) (s t : EReal)
    (hx : ∀ d, ∃ r : ℝ, x d = (r : EReal)) (hy : ∀ k d, ∃ r : ℝ, y k d = (r : EReal))
    (ho : ∀ k, ∃ r : ℝ, o k = (r : EReal)) (hs : ∃ r : ℝ, s = (r : EReal)) (ht : ∃ r : ℝ, t = (r : EReal)) :
    (s * t) * ∑ k : Fin K, (if k < q then ∑ d : Fin D, (x d * (if lab = true then 1 else 0)) * y k d else 0)
        * (o k * (if val k = true then 1 else 0))
      = s * ∑ k : Fin K, ((if lab = true ∧ k < q ∧ val k = true then ∑ d : Fin D, x d * y k d else 0) * t) * o k := by
  choose xr hxr using hx
  choose yr hyr using hy
  choose or' hor using ho
  obtain ⟨sr, rfl⟩ := hs
  obtain ⟨tr, rfl⟩ := ht
  obtain rfl : x = fun d => (xr d : EReal) := funext hxr
  obtain rfl : y = fun k d => (yr k d : EReal) := funext fun k => funext (hyr k)
  obtain rfl : o = fun k => (or' k : EReal) := funext hor
  have h1 : ∀ c : Bool, (if c = true then (1 : EReal) else 0) = ((if c = true then 1 else 0 : ℝ) : EReal) := by
    intro c; cases c <;> simp
  have L := congrArg (fun r : ℝ => (r : EReal)) (copy_law_real q lab val xr yr or' sr tr)
  simp only [coe_sum, coe_ite, EReal.coe_mul, EReal.coe_zero, EReal.coe_one] at L
  exact L

/-! ## Tiles -/

/-- A sum over 2048 keys is the sum over 4 tiles of the sums over the 512 keys of each tile. -/
theorem sum_tiles (f : ℕ → EReal) :
    ∑ ki : Fin 4, ∑ k' : Fin 512, f (512 * ki.val + k'.val) = ∑ k : Fin 2048, f k.val := by
  rw [← Finset.sum_product', Finset.univ_product_univ]
  refine (Fintype.sum_equiv (finProdFinEquiv (m := 4) (n := 512)) _ _ fun p => ?_)
  show f (512 * p.1.val + p.2.val) = f (p.2.val + 512 * p.1.val)
  rw [Nat.add_comm]

/-- The same when only the tiles up to the query's tile `qi` are added, the summand vanishing on every later tile
    (every key of a later tile lies after every query of tile `qi`). -/
theorem sum_tiles_upto (f : ℕ → EReal) (qi : Fin 4)
    (hz : ∀ ki : Fin 4, qi < ki → ∀ k' : Fin 512, f (512 * ki.val + k'.val) = 0) :
    ∑ ki : Fin 4, (if ki ≤ qi then ∑ k' : Fin 512, f (512 * ki.val + k'.val) else 0) = ∑ k : Fin 2048, f k.val := by
  rw [← sum_tiles f]
  refine Finset.sum_congr rfl fun ki _ => ?_
  split_ifs with hle
  · rfl
  · exact (Finset.sum_eq_zero fun k' _ => hz ki (not_le.mp hle) k').symm

/-- A position mask `k < q` kills every key of a tile after the query's: with `q = 512·qi + r`, `r < 512`. -/
theorem masked_later_tile_zero (g : ℕ → EReal) (qi : Fin 4) (r : Fin 512) (ki : Fin 4) (hlt : qi < ki) (k' : Fin 512) :
    (if 512 * ki.val + k'.val < 512 * qi.val + r.val then g (512 * ki.val + k'.val) else 0) = 0 := by
  have : ¬ (512 * ki.val + k'.val < 512 * qi.val + r.val) := by
    have := r.isLt; have : qi.val < ki.val := hlt; omega
  rw [if_neg this]

/-! ## The zero bias of the tied heads -/

theorem add_zero_bias (x : EReal) : x + 0 = x := add_zero x

theorem add_zero_word (x : EReal) : x + (Ideal.ofBits .f32 0x00000000#32 : EReal) = x := by
  rw [Ideal.ofBits_zero_f32, add_zero]

end Cert.Spec

end
-- ==== Proof.RefBits.lean ====
/-
  The lower-triangular test as the programs spell it on 32-bit words: for positions q, k < 2048,
  `(q + (-1)) ≥ k` as signed words holds exactly when k < q.
-/
import Idealize.ShloMosaic.Lib.Affine

namespace Cert.RefBits

open Idealize.ShloMosaic

/-- A position below 2048 is its own signed reading as a 32-bit word. -/
theorem toInt_ofNat_small (n : ℕ) (h : n < 2048) : (BitVec.ofNat 32 n).toInt = (n : ℤ) := by
  rw [BitVec.toInt_ofNat']
  unfold Int.bmod
  simp only []
  split_ifs <;> omega

/-- `q - 1 ≥ k` on signed 32-bit words, for positions below 2048, says `k < q` (at `q = 0` the left side is `-1`). -/
theorem tril_word (q k : Fin 2048) :
    IntOp.cmpi .sge (IntOp.addi (BitVec.ofNat 32 q.val) 4294967295#32) (BitVec.ofNat 32 k.val) = 1#1 ↔ k < q := by
  have hq := q.isLt; have hk := k.isLt
  rw [IntOp.cmpi_sge]
  unfold IntOp.addi
  rw [BitVec.toInt_add, toInt_ofNat_small _ hq, toInt_ofNat_small _ hk,
    show (4294967295#32 : BitVec 32).toInt = -1 by decide, Fin.lt_def]
  unfold Int.bmod
  simp only []
  split_ifs <;> omega

/-- The same through the `select` that turns the comparison into the constant true / false words. -/
theorem tril_select (q k : Fin 2048) :
    Scalar.select (IntOp.cmpi .sge (IntOp.addi (BitVec.ofNat 32 q.val) 4294967295#32) (BitVec.ofNat 32 k.val))
      (1#1 : BitVec 1) (0#1) = 1#1 ↔ k < q := by
  rw [← tril_word q k]
  unfold Scalar.select
  split_ifs with h
  · exact ⟨fun _ => h, fun _ => rfl⟩
  · exact ⟨fun e => absurd e (by decide), fun e => absurd e h⟩

end Cert.RefBits
-- ==== Proof.RefStages.lean ====
/-
  The reference's intermediate arrays read at explicit coordinates: the normalized rows, the gate, the key masks,
  the one-hot rows and the softplus scalars are the shared definitions; the cosine similarity of positions q and k is
  the inner product of their normalized rows; the strict-past matrix at (q, k) is true exactly when k < q.
-/
import proofs.«114772_j1760936591416_2_alg».proof.Proof.ReadP
import proofs.«114772_j1760936591416_2_alg».proof.Proof.Shared
import proofs.«114772_j1760936591416_2_alg».proof.Proof.Rows
import proofs.«114772_j1760936591416_2_alg».proof.Proof.Spec
import proofs.«114772_j1760936591416_2_alg».proof.Proof.RefBits

noncomputable section

namespace Cert.ReferenceIdeal.RefValue

open Cert.ReferenceIdeal Cert.ReferenceIdeal.Gen Cert.ReferenceIdeal.ReadP Idealize.ShloMosaic Idealize.ShloMosaic.ValueIdx

/-! ## The shared arrays -/

theorem hn_eq (x1 : (⟨S8x2048x1024, .f32⟩ : BufTy).Contents (Elt Ideal)) : val_main_v16 (F := Ideal) x1 = Shared.hnOf x1 := rfl
theorem lab_eq (x0 : (⟨S8x2048, .i32⟩ : BufTy).Contents (Elt Ideal)) : val_main_v19 (F := Ideal) x0 = Shared.labOf x0 := rfl
theorem valAct_eq (x0 : (⟨S8x2048, .i32⟩ : BufTy).Contents (Elt Ideal)) : val_main_v27 (F := Ideal) x0 = Shared.valActOf x0 := rfl
theorem valTime_eq (x0 : (⟨S8x2048, .i32⟩ : BufTy).Contents (Elt Ideal)) : val_main_v33 (F := Ideal) x0 = Shared.valTimeOf x0 := rfl
theorem ohAct_eq (x0 : (⟨S8x2048, .i32⟩ : BufTy).Contents (Elt Ideal)) : val_main_v51 (F := Ideal) x0 = Shared.ohActOf x0 := rfl
theorem ohTime_eq (x0 : (⟨S8x2048, .i32⟩ : BufTy).Contents (Elt Ideal)) : val_main_v68 (F := Ideal) x0 = Shared.ohTimeOf x0 := rfl
theorem sp38_eq (x : (⟨S_, .f32⟩ : BufTy).Contents (Elt Ideal)) : val_main_v38 (F := Ideal) x = Shared.softplusOf x := rfl
theorem sp55_eq (x : (⟨S_, .f32⟩ : BufTy).Contents (Elt Ideal)) : val_main_v55 (F := Ideal) x = Shared.softplusOf x := rfl
theorem sp70_eq (x : (⟨S_, .f32⟩ : BufTy).Contents (Elt Ideal)) : val_main_v70 (F := Ideal) x = Shared.softplusOf x := rfl
theorem sp74_eq (x : (⟨S_, .f32⟩ : BufTy).Contents (Elt Ideal)) : val_main_v74 (F := Ideal) x = Shared.softplusOf x := rfl
theorem sp78_eq (x : (⟨S_, .f32⟩ : BufTy).Contents (Elt Ideal)) : val_main_v78 (F := Ideal) x = Shared.softplusOf x := rfl
theorem sp82_eq (x : (⟨S_, .f32⟩ : BufTy).Contents (Elt Ideal)) : val_main_v82 (F := Ideal) x = Shared.softplusOf x := rfl

/-! ## Similarities and the strict past -/

/-- The similarity of positions q and k of batch b is the inner product of their normalized rows. -/
theorem sims_at (x1 : (⟨S8x2048x1024, .f32⟩ : BufTy).Contents (Elt Ideal)) (b : Fin 8) (q k : Fin 2048) :
    val_main_v17 (F := Ideal) x1 (ix3 b q k)
      = ∑ d : Fin 1024, Shared.hnOf x1 (ix3 b q d) * Shared.hnOf x1 (ix3 b k d) := by
  rw [val_main_v17_apply, hn_eq]
  refine Finset.sum_congr rfl fun d _ => ?_
  rw [(funext fun a => Fin.ext (by match a with | ⟨0, _⟩ => rfl | ⟨1, _⟩ => rfl | ⟨2, _⟩ => rfl) : lidx_main_v17 (ix3 b q k) d = ix3 b q d),
    (funext fun a => Fin.ext (by match a with | ⟨0, _⟩ => rfl | ⟨1, _⟩ => rfl | ⟨2, _⟩ => rfl) : ridx_main_v17 (ix3 b q k) d = ix3 b k d)]

/-- The strict-past matrix at (q, k) is true exactly when k < q. -/
theorem tril_at (q k : Fin 2048) : val_main_v35 (F := Ideal) (ix2 q k) = 1#1 ↔ k < q := by
  rw [val_main_v35_apply, val_main_call2_v4_apply, val_main_call2_v2_apply, val_main_call2_v0_apply,
    val_main_call2_v1_apply, val_main_call2_c_apply, val_main_call2_v3_apply, val_main_v34_apply, val_main_c_5_apply,
    val_main_call2_v5_apply, val_main_call2_c_0_apply]
  exact RefBits.tril_select q k

/-- The zero the masked similarities fall back to. -/
theorem zero_word : (Ideal.ofBits .f32 0x00000000#32 : EReal) = 0 := Ideal.ofBits_zero_f32

end Cert.ReferenceIdeal.RefValue

end
-- ==== Proof.RefAct.lean ====
/-
  The reference's 64-class result, read at coordinates (b, q, a), is the specification's function of the argument
  arrays: the parametric product plus bias, plus the tied product scaled, plus the masked, temperature-scaled
  similarities summed against the keys' one-hot rows and scaled.
-/
import proofs.«114772_j1760936591416_2_alg».proof.Proof.RefStages

noncomputable section

namespace Cert.ReferenceIdeal.RefValue

open Cert.ReferenceIdeal Cert.ReferenceIdeal.Gen Cert.ReferenceIdeal.ReadP Idealize.ShloMosaic Idealize.ShloMosaic.ValueIdx

/-- The full mask at (b, q, k): the query is gated, k is strictly before q, and key k is valid. -/
theorem maskAct_at (x0 : (⟨S8x2048, .i32⟩ : BufTy).Contents (Elt Ideal)) (b : Fin 8) (q k : Fin 2048) :
    val_main_v46 (F := Ideal) x0 (ix3 b q k) = 1#1
      ↔ (Shared.labOf x0 (ix2 b q) = 1#1 ∧ k < q ∧ Shared.valActOf x0 (ix2 b k) = 1#1) := by
  rw [val_main_v46_apply, IntOp.andi_eq_one, val_main_v43_apply, IntOp.andi_eq_one, val_main_v41_apply,
    val_main_v39_apply, val_main_v42_apply, val_main_v40_apply, val_main_v45_apply, val_main_v44_apply,
    lab_eq, valAct_eq,
    (funext fun a => Fin.ext (by match a with | ⟨0, _⟩ => rfl | ⟨1, _⟩ => rfl) : idx_main_v39 (idx_main_v41 (ix3 b q k)) = ix2 b q),
    (funext fun a => Fin.ext (by match a with | ⟨0, _⟩ => rfl | ⟨1, _⟩ => rfl) : idx_main_v40 (idx_main_v42 (ix3 b q k)) = ix2 q k),
    (funext fun a => Fin.ext (by match a with | ⟨0, _⟩ => rfl | ⟨1, _⟩ => rfl) : idx_main_v44 (idx_main_v45 (ix3 b q k)) = ix2 b k),
    tril_at, and_assoc]

/-- The masked similarity times the temperature, at (b, q, k). -/
theorem scaledAct_at (x0 : (⟨S8x2048, .i32⟩ : BufTy).Contents (Elt Ideal)) (x1 : (⟨S8x2048x1024, .f32⟩ : BufTy).Contents (Elt Ideal)) (xt : (⟨S_, .f32⟩ : BufTy).Contents (Elt Ideal)) (b : Fin 8) (q k : Fin 2048) :
    val_main_v49 (F := Ideal) x0 x1 xt (ix3 b q k)
      = (if Shared.labOf x0 (ix2 b q) = 1#1 ∧ k < q ∧ Shared.valActOf x0 (ix2 b k) = 1#1
          then ∑ d : Fin 1024, Shared.hnOf x1 (ix3 b q d) * Shared.hnOf x1 (ix3 b k d) else 0)
        * Shared.softplusOf xt ix0 := by
  rw [val_main_v49_apply, val_main_v47_apply, val_main_v48_apply, sp38_eq, val_main_call4_v1_apply,
    val_main_call4_v0_apply, val_main_cst_7_apply, sims_at]
  show (Scalar.select (val_main_v46 (F := Ideal) x0 (ix3 b q k)) _ _ : EReal) * _ = _
  unfold Scalar.select
  by_cases h : val_main_v46 (F := Ideal) x0 (ix3 b q k) = 1#1
  · rw [if_pos ((maskAct_at x0 b q k).1 h)]
    exact congrArg (fun t : EReal => t * Shared.softplusOf xt ix0) (if_pos h)
  · rw [if_neg (mt (maskAct_at x0 b q k).2 h)]
    exact congrArg (fun t : EReal => t * Shared.softplusOf xt ix0) ((if_neg h).trans zero_word)

/-- The copy term at (b, q, a): the sum over keys of the scaled masked similarity times the key's one-hot entry. -/
theorem copyAct_at (x0 : (⟨S8x2048, .i32⟩ : BufTy).Contents (Elt Ideal)) (x1 : (⟨S8x2048x1024, .f32⟩ : BufTy).Contents (Elt Ideal)) (xt : (⟨S_, .f32⟩ : BufTy).Contents (Elt Ideal)) (b : Fin 8) (q : Fin 2048) (a : Fin 64) :
    val_main_v52 (F := Ideal) x0 x1 xt (ix3 b q a)
      = ∑ k : Fin 2048,
          ((if Shared.labOf x0 (ix2 b q) = 1#1 ∧ k < q ∧ Shared.valActOf x0 (ix2 b k) = 1#1
              then ∑ d : Fin 1024, Shared.hnOf x1 (ix3 b q d) * Shared.hnOf x1 (ix3 b k d) else 0)
            * Shared.softplusOf xt ix0) * Shared.ohActOf x0 (ix3 b k a) := by
  rw [val_main_v52_apply, ohAct_eq]
  refine Finset.sum_congr rfl fun k _ => ?_
  rw [(funext fun a => Fin.ext (by match a with | ⟨0, _⟩ => rfl | ⟨1, _⟩ => rfl | ⟨2, _⟩ => rfl) : lidx_main_v52 (ix3 b q a) k = ix3 b q k),
    (funext fun a => Fin.ext (by match a with | ⟨0, _⟩ => rfl | ⟨1, _⟩ => rfl | ⟨2, _⟩ => rfl) : ridx_main_v52 (ix3 b q a) k = ix3 b k a), scaledAct_at]

/-- The parametric term at (b, q, a). -/
theorem paramAct_at (x1 : (⟨S8x2048x1024, .f32⟩ : BufTy).Contents (Elt Ideal)) (xw : (⟨S64x1024, .f32⟩ : BufTy).Contents (Elt Ideal)) (xb : (⟨S64, .f32⟩ : BufTy).Contents (Elt Ideal)) (b : Fin 8) (q : Fin 2048) (a : Fin 64) :
    val_main_v3 (F := Ideal) x1 xw xb (ix3 b q a)
      = (∑ d : Fin 1024, x1 (ix3 b q d) * xw (ix2 a d)) + xb (ix1 a) := by
  rw [val_main_v3_apply, val_main_v0_apply, val_main_v2_apply, val_main_v1_apply]
  show (∑ k : Fin 1024, _) + _ = _
  congr 1
  · refine Finset.sum_congr rfl fun d _ => ?_
    rw [(funext fun a => Fin.ext (by match a with | ⟨0, _⟩ => rfl | ⟨1, _⟩ => rfl | ⟨2, _⟩ => rfl) : lidx_main_v0 (ix3 b q a) d = ix3 b q d),
      (funext fun a => Fin.ext (by match a with | ⟨0, _⟩ => rfl | ⟨1, _⟩ => rfl) : ridx_main_v0 (ix3 b q a) d = ix2 a d)]
  · exact congrArg xb (funext fun c => Fin.ext (by match c with | ⟨0, _⟩ => rfl))

/-- The tied term at (b, q, a): the product with rows 5 … 68 of the embedding table. -/
theorem tiedAct_at (x1 : (⟨S8x2048x1024, .f32⟩ : BufTy).Contents (Elt Ideal)) (x2 : (⟨S101x1024, .f32⟩ : BufTy).Contents (Elt Ideal)) (b : Fin 8) (q : Fin 2048) (a : Fin 64) :
    val_main_v9 (F := Ideal) x1 x2 (ix3 b q a) = ∑ d : Fin 1024, x1 (ix3 b q d) * Shared.eActOf x2 a d := by
  rw [val_main_v9_apply]
  refine Finset.sum_congr rfl fun d _ => ?_
  rw [val_main_v8_apply, (funext fun a => Fin.ext (by match a with | ⟨0, _⟩ => rfl | ⟨1, _⟩ => rfl | ⟨2, _⟩ => rfl) : lidx_main_v9 (ix3 b q a) d = ix3 b q d)]
  exact congrArg (fun j => x1 (ix3 b q d) * x2 j) (funext fun c => Fin.ext (by match c with | ⟨0, _⟩ => rfl | ⟨1, _⟩ => rfl))

/-- The reference's 64-class result at (b, q, a) is the specification. -/
theorem result77_eq (x0 : (⟨S8x2048, .i32⟩ : BufTy).Contents (Elt Ideal)) (x1 : (⟨S8x2048x1024, .f32⟩ : BufTy).Contents (Elt Ideal)) (x2 : (⟨S101x1024, .f32⟩ : BufTy).Contents (Elt Ideal)) (xw : (⟨S64x1024, .f32⟩ : BufTy).Contents (Elt Ideal)) (xb : (⟨S64, .f32⟩ : BufTy).Contents (Elt Ideal)) (xTied xScale xTemp : (⟨S_, .f32⟩ : BufTy).Contents (Elt Ideal))
    (b : Fin 8) (q : Fin 2048) (a : Fin 64) :
    val_main_v77 (F := Ideal) x0 x1 x2 xw xb xTied xScale xTemp (ix3 b q a)
      = Spec.Gact (fun b q d => x1 (ix3 b q d)) (fun a d => xw (ix2 a d)) (fun a => xb (ix1 a)) (Shared.eActOf x2)
          (fun b q d => Shared.hnOf x1 (ix3 b q d))
          (fun b q => decide (Shared.labOf x0 (ix2 b q) = 1#1)) (fun b k => decide (Shared.valActOf x0 (ix2 b k) = 1#1))
          (fun b k a => Shared.ohActOf x0 (ix3 b k a))
          (Shared.softplusOf xTied ix0) (Shared.softplusOf xScale ix0) (Shared.softplusOf xTemp ix0) b q a := by
  rw [val_main_v77_apply, val_main_v73_apply, val_main_v76_apply, val_main_v72_apply, val_main_v71_apply,
    val_main_v75_apply, sp70_eq, sp74_eq, copyAct_at, paramAct_at, tiedAct_at]
  simp only [Spec.Gact, Spec.G, decide_eq_true_eq]
  rfl

/-- The same for the whole array. -/
theorem ref77_array (x0 : (⟨S8x2048, .i32⟩ : BufTy).Contents (Elt Ideal)) (x1 : (⟨S8x2048x1024, .f32⟩ : BufTy).Contents (Elt Ideal)) (x2 : (⟨S101x1024, .f32⟩ : BufTy).Contents (Elt Ideal)) (xw : (⟨S64x1024, .f32⟩ : BufTy).Contents (Elt Ideal)) (xb : (⟨S64, .f32⟩ : BufTy).Contents (Elt Ideal)) (xTied xScale xTemp : (⟨S_, .f32⟩ : BufTy).Contents (Elt Ideal)) :
    val_main_v77 (F := Ideal) x0 x1 x2 xw xb xTied xScale xTemp
      = fun i => Spec.Gact (fun b q d => x1 (ix3 b q d)) (fun a d => xw (ix2 a d)) (fun a => xb (ix1 a)) (Shared.eActOf x2)
          (fun b q d => Shared.hnOf x1 (ix3 b q d))
          (fun b q => decide (Shared.labOf x0 (ix2 b q) = 1#1)) (fun b k => decide (Shared.valActOf x0 (ix2 b k) = 1#1))
          (fun b k a => Shared.ohActOf x0 (ix3 b k a))
          (Shared.softplusOf xTied ix0) (Shared.softplusOf xScale ix0) (Shared.softplusOf xTemp ix0) (i 0) (i 1) (i 2) := by
  funext i
  obtain ⟨b, q, a, rfl⟩ : ∃ (b : Fin 8) (q : Fin 2048) (a : Fin 64), i = ix3 b q a := ⟨i 0, i 1, i 2, eq_ix3 i⟩
  exact result77_eq x0 x1 x2 xw xb xTied xScale xTemp b q a

end Cert.ReferenceIdeal.RefValue

end
-- ==== Proof.RefTime.lean ====
/-
  The reference's 32-class result, read at coordinates (b, q, a), is the specification's function of the argument
  arrays: the parametric product plus bias, plus the tied product scaled, plus the masked, temperature-scaled
  similarities summed against the keys' one-hot rows and scaled.
-/
import proofs.«114772_j1760936591416_2_alg».proof.Proof.RefStages

noncomputable section

namespace Cert.ReferenceIdeal.RefValue

open Cert.ReferenceIdeal Cert.ReferenceIdeal.Gen Cert.ReferenceIdeal.ReadP Idealize.ShloMosaic Idealize.ShloMosaic.ValueIdx

/-- The full mask at (b, q, k): the query is gated, k is strictly before q, and key k is valid. -/
theorem maskTime_at (x0 : (⟨S8x2048, .i32⟩ : BufTy).Contents (Elt Ideal)) (b : Fin 8) (q k : Fin 2048) :
    val_main_v63 (F := Ideal) x0 (ix3 b q k) = 1#1
      ↔ (Shared.labOf x0 (ix2 b q) = 1#1 ∧ k < q ∧ Shared.valTimeOf x0 (ix2 b k) = 1#1) := by
  rw [val_main_v63_apply, IntOp.andi_eq_one, val_main_v60_apply, IntOp.andi_eq_one, val_main_v58_apply,
    val_main_v56_apply, val_main_v59_apply, val_main_v57_apply, val_main_v62_apply, val_main_v61_apply,
    lab_eq, valTime_eq,
    (funext fun a => Fin.ext (by match a with | ⟨0, _⟩ => rfl | ⟨1, _⟩ => rfl) : idx_main_v56 (idx_main_v58 (ix3 b q k)) = ix2 b q),
    (funext fun a => Fin.ext (by match a with | ⟨0, _⟩ => rfl | ⟨1, _⟩ => rfl) : idx_main_v57 (idx_main_v59 (ix3 b q k)) = ix2 q k),
    (funext fun a => Fin.ext (by match a with | ⟨0, _⟩ => rfl | ⟨1, _⟩ => rfl) : idx_main_v61 (idx_main_v62 (ix3 b q k)) = ix2 b k),
    tril_at, and_assoc]

/-- The masked similarity times the temperature, at (b, q, k). -/
theorem scaledTime_at (x0 : (⟨S8x2048, .i32⟩ : BufTy).Contents (Elt Ideal)) (x1 : (⟨S8x2048x1024, .f32⟩ : BufTy).Contents (Elt Ideal)) (xt : (⟨S_, .f32⟩ : BufTy).Contents (Elt Ideal)) (b : Fin 8) (q k : Fin 2048) :
    val_main_v66 (F := Ideal) x0 x1 xt (ix3 b q k)
      = (if Shared.labOf x0 (ix2 b q) = 1#1 ∧ k < q ∧ Shared.valTimeOf x0 (ix2 b k) = 1#1
          then ∑ d : Fin 1024, Shared.hnOf x1 (ix3 b q d) * Shared.hnOf x1 (ix3 b k d) else 0)
        * Shared.softplusOf xt ix0 := by
  rw [val_main_v66_apply, val_main_v64_apply, val_main_v65_apply, sp55_eq, val_main_call8_v1_apply,
    val_main_call8_v0_apply, val_main_cst_11_apply, sims_at]
  show (Scalar.select (val_main_v63 (F := Ideal) x0 (ix3 b q k)) _ _ : EReal) * _ = _
  unfold Scalar.select
  by_cases h : val_main_v63 (F := Ideal) x0 (ix3 b q k) = 1#1
  · rw [if_pos ((maskTime_at x0 b q k).1 h)]
    exact congrArg (fun t : EReal => t * Shared.softplusOf xt ix0) (if_pos h)
  · rw [if_neg (mt (maskTime_at x0 b q k).2 h)]
    exact congrArg (fun t : EReal => t * Shared.softplusOf xt ix0) ((if_neg h).trans zero_word)

/-- The copy term at (b, q, a): the sum over keys of the scaled masked similarity times the key's one-hot entry. -/
theorem copyTime_at (x0 : (⟨S8x2048, .i32⟩ : BufTy).Contents (Elt Ideal)) (x1 : (⟨S8x2048x1024, .f32⟩ : BufTy).Contents (Elt Ideal)) (xt : (⟨S_, .f32⟩ : BufTy).Contents (Elt Ideal)) (b : Fin 8) (q : Fin 2048) (a : Fin 32) :
    val_main_v69 (F := Ideal) x0 x1 xt (ix3 b q a)
      = ∑ k : Fin 2048,
          ((if Shared.labOf x0 (ix2 b q) = 1#1 ∧ k < q ∧ Shared.valTimeOf x0 (ix2 b k) = 1#1
              then ∑ d : Fin 1024, Shared.hnOf x1 (ix3 b q d) * Shared.hnOf x1 (ix3 b k d) else 0)
            * Shared.softplusOf xt ix0) * Shared.ohTimeOf x0 (ix3 b k a) := by
  rw [val_main_v69_apply, ohTime_eq]
  refine Finset.sum_congr rfl fun k _ => ?_
  rw [(funext fun a => Fin.ext (by match a with | ⟨0, _⟩ => rfl | ⟨1, _⟩ => rfl | ⟨2, _⟩ => rfl) : lidx_main_v69 (ix3 b q a) k = ix3 b q k),
    (funext fun a => Fin.ext (by match a with | ⟨0, _⟩ => rfl | ⟨1, _⟩ => rfl | ⟨2, _⟩ => rfl) : ridx_main_v69 (ix3 b q a) k = ix3 b k a), scaledTime_at]

/-- The parametric term at (b, q, a). -/
theorem paramTime_at (x1 : (⟨S8x2048x1024, .f32⟩ : BufTy).Contents (Elt Ideal)) (xw : (⟨S32x1024, .f32⟩ : BufTy).Contents (Elt Ideal)) (xb : (⟨S32, .f32⟩ : BufTy).Contents (Elt Ideal)) (b : Fin 8) (q : Fin 2048) (a : Fin 32) :
    val_main_v7 (F := Ideal) x1 xw xb (ix3 b q a)
      = (∑ d : Fin 1024, x1 (ix3 b q d) * xw (ix2 a d)) + xb (ix1 a) := by
  rw [val_main_v7_apply, val_main_v4_apply, val_main_v6_apply, val_main_v5_apply]
  show (∑ k : Fin 1024, _) + _ = _
  congr 1
  · refine Finset.sum_congr rfl fun d _ => ?_
    rw [(funext fun a => Fin.ext (by match a with | ⟨0, _⟩ => rfl | ⟨1, _⟩ => rfl | ⟨2, _⟩ => rfl) : lidx_main_v4 (ix3 b q a) d = ix3 b q d),
      (funext fun a => Fin.ext (by match a with | ⟨0, _⟩ => rfl | ⟨1, _⟩ => rfl) : ridx_main_v4 (ix3 b q a) d = ix2 a d)]
  · exact congrArg xb (funext fun c => Fin.ext (by match c with | ⟨0, _⟩ => rfl))

/-- The tied term at (b, q, a): the product with rows 69 … 100 of the embedding table. -/
theorem tiedTime_at (x1 : (⟨S8x2048x1024, .f32⟩ : BufTy).Contents (Elt Ideal)) (x2 : (⟨S101x1024, .f32⟩ : BufTy).Contents (Elt Ideal)) (b : Fin 8) (q : Fin 2048) (a : Fin 32) :
    val_main_v11 (F := Ideal) x1 x2 (ix3 b q a) = ∑ d : Fin 1024, x1 (ix3 b q d) * Shared.eTimeOf x2 a d := by
  rw [val_main_v11_apply]
  refine Finset.sum_congr rfl fun d _ => ?_
  rw [val_main_v10_apply, (funext fun a => Fin.ext (by match a with | ⟨0, _⟩ => rfl | ⟨1, _⟩ => rfl | ⟨2, _⟩ => rfl) : lidx_main_v11 (ix3 b q a) d = ix3 b q d)]
  exact congrArg (fun j => x1 (ix3 b q d) * x2 j) (funext fun c => Fin.ext (by match c with | ⟨0, _⟩ => rfl | ⟨1, _⟩ => rfl))

/-- The reference's 32-class result at (b, q, a) is the specification. -/
theorem result85_eq (x0 : (⟨S8x2048, .i32⟩ : BufTy).Contents (Elt Ideal)) (x1 : (⟨S8x2048x1024, .f32⟩ : BufTy).Contents (Elt Ideal)) (x2 : (⟨S101x1024, .f32⟩ : BufTy).Contents (Elt Ideal)) (xw : (⟨S32x1024, .f32⟩ : BufTy).Contents (Elt Ideal)) (xb : (⟨S32, .f32⟩ : BufTy).Contents (Elt Ideal)) (xTied xScale xTemp : (⟨S_, .f32⟩ : BufTy).Contents (Elt Ideal))
    (b : Fin 8) (q : Fin 2048) (a : Fin 32) :
    val_main_v85 (F := Ideal) x0 x1 x2 xw xb xTied xScale xTemp (ix3 b q a)
      = Spec.Gtime (fun b q d => x1 (ix3 b q d)) (fun a d => xw (ix2 a d)) (fun a => xb (ix1 a)) (Shared.eTimeOf x2)
          (fun b q d => Shared.hnOf x1 (ix3 b q d))
          (fun b q => decide (Shared.labOf x0 (ix2 b q) = 1#1)) (fun b k => decide (Shared.valTimeOf x0 (ix2 b k) = 1#1))
          (fun b k a => Shared.ohTimeOf x0 (ix3 b k a))
          (Shared.softplusOf xTied ix0) (Shared.softplusOf xScale ix0) (Shared.softplusOf xTemp ix0) b q a := by
  rw [val_main_v85_apply, val_main_v81_apply, val_main_v84_apply, val_main_v80_apply, val_main_v79_apply,
    val_main_v83_apply, sp78_eq, sp82_eq, copyTime_at, paramTime_at, tiedTime_at]
  simp only [Spec.Gtime, Spec.G, decide_eq_true_eq]
  rfl

/-- The same for the whole array. -/
theorem ref85_array (x0 : (⟨S8x2048, .i32⟩ : BufTy).Contents (Elt Ideal)) (x1 : (⟨S8x2048x1024, .f32⟩ : BufTy).Contents (Elt Ideal)) (x2 : (⟨S101x1024, .f32⟩ : BufTy).Contents (Elt Ideal)) (xw : (⟨S32x1024, .f32⟩ : BufTy).Contents (Elt Ideal)) (xb : (⟨S32, .f32⟩ : BufTy).Contents (Elt Ideal)) (xTied xScale xTemp : (⟨S_, .f32⟩ : BufTy).Contents (Elt Ideal)) :
    val_main_v85 (F := Ideal) x0 x1 x2 xw xb xTied xScale xTemp
      = fun i => Spec.Gtime (fun b q d => x1 (ix3 b q d)) (fun a d => xw (ix2 a d)) (fun a => xb (ix1 a)) (Shared.eTimeOf x2)
          (fun b q d => Shared.hnOf x1 (ix3 b q d))
          (fun b q => decide (Shared.labOf x0 (ix2 b q) = 1#1)) (fun b k => decide (Shared.valTimeOf x0 (ix2 b k) = 1#1))
          (fun b k a => Shared.ohTimeOf x0 (ix3 b k a))
          (Shared.softplusOf xTied ix0) (Shared.softplusOf xScale ix0) (Shared.softplusOf xTemp ix0) (i 0) (i 1) (i 2) := by
  funext i
  obtain ⟨b, q, a, rfl⟩ : ∃ (b : Fin 8) (q : Fin 2048) (a : Fin 32), i = ix3 b q a := ⟨i 0, i 1, i 2, eq_ix3 i⟩
  exact result85_eq x0 x1 x2 xw xb xTied xScale xTemp b q a

end Cert.ReferenceIdeal.RefValue

end
-- ==== Proof.HostValTailA.lean ====
/-
  What the host takes of the two tiled regions' result arrays: the four bands of the dense result (columns 0 … 63,
  64 … 95, 96 … 159, 160 … 191) and the two bands of the retrieval result (lanes 0 … 63, 64 … 95), each a slice of the
  array the region leaves.
-/
import proofs.«114772_j1760936591416_2_alg».proof.Proof.Gen.KernelIdeal.Regions
import Idealize.ShloMosaic.Lib.StableHlo.Run
import Idealize.ShloMosaic.Lib.ValueIdx
import Idealize.ShloMosaic.Lib.Pipeline.Value
import Idealize.ShloMosaic.PureOps.Ideal.Laws
import proofs.«114772_j1760936591416_2_alg».proof.Proof.Shared

set_option maxRecDepth 1384

noncomputable section

namespace Cert.KernelIdeal.HostVal

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (outs : Gen.Outs (F := Ideal))

/-! ## What the two kernel regions leave, and the slices the host takes of it -/

theorem V6_v9 (c : Dev nD) : V6 m outs c main_v9 = outs 6 main_v9 c := Function.update_self ..

theorem V20_v57 (c : Dev nD) : V20 m outs c main_v57 = outs 20 main_v57 c := Function.update_self ..

theorem V7_v10_of (c : Dev nD) :
    (V7 m outs c main_v10 : S8x2048x64.Idx → EReal)
      = extractStridedSlice S8x2048x64 ![0, 0, 0] (V6 m outs c (Proc.devRef .tc main_v9)) slices_S8x2048x256_S8x2048x64_0_0_0 := by
  show StableHlo.after hostOps1 (V6 m outs c) (Proc.devRef .tc main_v10) = extractStridedSlice S8x2048x64 ![0, 0, 0] (V6 m outs c (Proc.devRef .tc main_v9)) slices_S8x2048x256_S8x2048x64_0_0_0
  generalize V6 m outs c = W
  after_results
  all_goals rfl
theorem V7_v10 (c : Dev nD) :
    (V7 m outs c main_v10 : S8x2048x64.Idx → EReal) = extractStridedSlice S8x2048x64 ![0, 0, 0] (outs 6 main_v9 c : S8x2048x256.Idx → EReal) slices_S8x2048x256_S8x2048x64_0_0_0 :=
  (V7_v10_of m outs c).trans (congrArg (fun x => extractStridedSlice S8x2048x64 ![0, 0, 0] x slices_S8x2048x256_S8x2048x64_0_0_0) (V6_v9 m outs c))

theorem V7_v11_of (c : Dev nD) :
    (V7 m outs c main_v11 : S8x2048x32.Idx → EReal)
      = extractStridedSlice S8x2048x32 ![0, 0, 64] (V6 m outs c (Proc.devRef .tc main_v9)) slices_S8x2048x256_S8x2048x32_0_0_64 := by
  show StableHlo.after hostOps1 (V6 m outs c) (Proc.devRef .tc main_v11) = extractStridedSlice S8x2048x32 ![0, 0, 64] (V6 m outs c (Proc.devRef .tc main_v9)) slices_S8x2048x256_S8x2048x32_0_0_64
  generalize V6 m outs c = W
  after_results
  all_goals rfl
theorem V7_v11 (c : Dev nD) :
    (V7 m outs c main_v11 : S8x2048x32.Idx → EReal) = extractStridedSlice S8x2048x32 ![0, 0, 64] (outs 6 main_v9 c : S8x2048x256.Idx → EReal) slices_S8x2048x256_S8x2048x32_0_0_64 :=
  (V7_v11_of m outs c).trans (congrArg (fun x => extractStridedSlice S8x2048x32 ![0, 0, 64] x slices_S8x2048x256_S8x2048x32_0_0_64) (V6_v9 m outs c))

theorem V7_v12_of (c : Dev nD) :
    (V7 m outs c main_v12 : S8x2048x64.Idx → EReal)
      = extractStridedSlice S8x2048x64 ![0, 0, 96] (V6 m outs c (Proc.devRef .tc main_v9)) slices_S8x2048x256_S8x2048x64_0_0_96 := by
  show StableHlo.after hostOps1 (V6 m outs c) (Proc.devRef .tc main_v12) = extractStridedSlice S8x2048x64 ![0, 0, 96] (V6 m outs c (Proc.devRef .tc main_v9)) slices_S8x2048x256_S8x2048x64_0_0_96
  generalize V6 m outs c = W
  after_results
  all_goals rfl
theorem V7_v12 (c : Dev nD) :
    (V7 m outs c main_v12 : S8x2048x64.Idx → EReal) = extractStridedSlice S8x2048x64 ![0, 0, 96] (outs 6 main_v9 c : S8x2048x256.Idx → EReal) slices_S8x2048x256_S8x2048x64_0_0_96 :=
  (V7_v12_of m outs c).trans (congrArg (fun x => extractStridedSlice S8x2048x64 ![0, 0, 96] x slices_S8x2048x256_S8x2048x64_0_0_96) (V6_v9 m outs c))

theorem V7_v13_of (c : Dev nD) :
    (V7 m outs c main_v13 : S8x2048x32.Idx → EReal)
      = extractStridedSlice S8x2048x32 ![0, 0, 160] (V6 m outs c (Proc.devRef .tc main_v9)) slices_S8x2048x256_S8x2048x32_0_0_160 := by
  show StableHlo.after hostOps1 (V6 m outs c) (Proc.devRef .tc main_v13) = extractStridedSlice S8x2048x32 ![0, 0, 160] (V6 m outs c (Proc.devRef .tc main_v9)) slices_S8x2048x256_S8x2048x32_0_0_160
  generalize V6 m outs c = W
  after_results
  all_goals rfl
theorem V7_v13 (c : Dev nD) :
    (V7 m outs c main_v13 : S8x2048x32.Idx → EReal) = extractStridedSlice S8x2048x32 ![0, 0, 160] (outs 6 main_v9 c : S8x2048x256.Idx → EReal) slices_S8x2048x256_S8x2048x32_0_0_160 :=
  (V7_v13_of m outs c).trans (congrArg (fun x => extractStridedSlice S8x2048x32 ![0, 0, 160] x slices_S8x2048x256_S8x2048x32_0_0_160) (V6_v9 m outs c))

theorem V21_v58_of (c : Dev nD) :
    (V21 m outs c main_v58 : S8x2048x64.Idx → EReal)
      = extractStridedSlice S8x2048x64 ![0, 0, 0] (V20 m outs c (Proc.devRef .tc main_v57)) slices_S8x2048x128_S8x2048x64_0_0_0 := by
  show StableHlo.after hostOps2 (V20 m outs c) (Proc.devRef .tc main_v58) = extractStridedSlice S8x2048x64 ![0, 0, 0] (V20 m outs c (Proc.devRef .tc main_v57)) slices_S8x2048x128_S8x2048x64_0_0_0
  generalize V20 m outs c = W
  after_results
  all_goals rfl
theorem V21_v58 (c : Dev nD) :
    (V21 m outs c main_v58 : S8x2048x64.Idx → EReal) = extractStridedSlice S8x2048x64 ![0, 0, 0] (outs 20 main_v57 c : S8x2048x128.Idx → EReal) slices_S8x2048x128_S8x2048x64_0_0_0 :=
  (V21_v58_of m outs c).trans (congrArg (fun x => extractStridedSlice S8x2048x64 ![0, 0, 0] x slices_S8x2048x128_S8x2048x64_0_0_0) (V20_v57 m outs c))

theorem V21_v59_of (c : Dev nD) :
    (V21 m outs c main_v59 : S8x2048x32.Idx → EReal)
      = extractStridedSlice S8x2048x32 ![0, 0, 64] (V20 m outs c (Proc.devRef .tc main_v57)) slices_S8x2048x128_S8x2048x32_0_0_64 := by
  show StableHlo.after hostOps2 (V20 m outs c) (Proc.devRef .tc main_v59) = extractStridedSlice S8x2048x32 ![0, 0, 64] (V20 m outs c (Proc.devRef .tc main_v57)) slices_S8x2048x128_S8x2048x32_0_0_64
  generalize V20 m outs c = W
  after_results
  all_goals rfl
theorem V21_v59 (c : Dev nD) :
    (V21 m outs c main_v59 : S8x2048x32.Idx → EReal) = extractStridedSlice S8x2048x32 ![0, 0, 64] (outs 20 main_v57 c : S8x2048x128.Idx → EReal) slices_S8x2048x128_S8x2048x32_0_0_64 :=
  (V21_v59_of m outs c).trans (congrArg (fun x => extractStridedSlice S8x2048x32 ![0, 0, 64] x slices_S8x2048x128_S8x2048x32_0_0_64) (V20_v57 m outs c))

end Cert.KernelIdeal.HostVal

end
-- ==== Proof.HostValTailB.lean ====
/-
  The six scalar softplus values of the host tail — of the two tied scales, the two copy scales and the two copy
  temperatures —, each softplus of the scalar as launched, and the two products copy scale × copy temperature.
-/
import proofs.«114772_j1760936591416_2_alg».proof.Proof.Gen.KernelIdeal.Regions
import Idealize.ShloMosaic.Lib.StableHlo.Run
import Idealize.ShloMosaic.Lib.ValueIdx
import Idealize.ShloMosaic.Lib.Pipeline.Value
import Idealize.ShloMosaic.PureOps.Ideal.Laws
import proofs.«114772_j1760936591416_2_alg».proof.Proof.Shared

set_option maxRecDepth 1384

noncomputable section

namespace Cert.KernelIdeal.HostVal

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (outs : Gen.Outs (F := Ideal))

/-! ## The six scalar softplus calls and the two products of them -/

theorem V22_v60_of (c : Dev nD) :
    (V22 m outs c main_v60 : S_.Idx → EReal)
      = Cert.Shared.softplusOf (V21 m outs c (Proc.devRef .tc main_arg9)) := by
  show StableHlo.after hostOps2_1 (V21 m outs c) (Proc.devRef .tc main_v60) = Cert.Shared.softplusOf (V21 m outs c (Proc.devRef .tc main_arg9))
  generalize V21 m outs c = W
  after_results
  all_goals rfl
theorem V22_v60 (c : Dev nD) :
    (V22 m outs c main_v60 : S_.Idx → EReal) = Cert.Shared.softplusOf (m ((c : Thread nD τ).loc main_arg9)) :=
  (V22_v60_of m outs c).trans (congrArg Cert.Shared.softplusOf ((V21_of m outs c main_arg9 (by decide)).trans <| (V20_of m outs c main_arg9 (by decide)).trans <| (V19_of m outs c main_arg9 (by decide)).trans <| (V18_of m outs c main_arg9 (by decide)).trans <| (V17_of m outs c main_arg9 (by decide)).trans <| (V16_of m outs c main_arg9 (by decide)).trans <| (V15_of m outs c main_arg9 (by decide)).trans <| (V14_of m outs c main_arg9 (by decide)).trans <| (V13_of m outs c main_arg9 (by decide)).trans <| (V12_of m outs c main_arg9 (by decide)).trans <| (V11_of m outs c main_arg9 (by decide)).trans <| (V10_of m outs c main_arg9 (by decide)).trans <| (V9_of m outs c main_arg9 (by decide)).trans <| (V8_of m outs c main_arg9 (by decide)).trans <| (V7_of m outs c main_arg9 (by decide)).trans <| (V6_of m outs c main_arg9 (by decide)).trans <| (V5_of m c main_arg9 (by decide)).trans <| (V4_of m c main_arg9 (by decide)).trans <| (V3_of m c main_arg9 (by decide)).trans <| (V2_of m c main_arg9 (by decide)).trans <| (V1_of m c main_arg9 (by decide)).trans rfl))

theorem V23_v61_of (c : Dev nD) :
    (V23 m outs c main_v61 : S_.Idx → EReal)
      = Cert.Shared.softplusOf (V22 m outs c (Proc.devRef .tc main_arg11)) := by
  show StableHlo.after hostOps2_2 (V22 m outs c) (Proc.devRef .tc main_v61) = Cert.Shared.softplusOf (V22 m outs c (Proc.devRef .tc main_arg11))
  generalize V22 m outs c = W
  after_results
  all_goals rfl
theorem V23_v61 (c : Dev nD) :
    (V23 m outs c main_v61 : S_.Idx → EReal) = Cert.Shared.softplusOf (m ((c : Thread nD τ).loc main_arg11)) :=
  (V23_v61_of m outs c).trans (congrArg Cert.Shared.softplusOf ((V22_of m outs c main_arg11 (by decide)).trans <| (V21_of m outs c main_arg11 (by decide)).trans <| (V20_of m outs c main_arg11 (by decide)).trans <| (V19_of m outs c main_arg11 (by decide)).trans <| (V18_of m outs c main_arg11 (by decide)).trans <| (V17_of m outs c main_arg11 (by decide)).trans <| (V16_of m outs c main_arg11 (by decide)).trans <| (V15_of m outs c main_arg11 (by decide)).trans <| (V14_of m outs c main_arg11 (by decide)).trans <| (V13_of m outs c main_arg11 (by decide)).trans <| (V12_of m outs c main_arg11 (by decide)).trans <| (V11_of m outs c main_arg11 (by decide)).trans <| (V10_of m outs c main_arg11 (by decide)).trans <| (V9_of m outs c main_arg11 (by decide)).trans <| (V8_of m outs c main_arg11 (by decide)).trans <| (V7_of m outs c main_arg11 (by decide)).trans <| (V6_of m outs c main_arg11 (by decide)).trans <| (V5_of m c main_arg11 (by decide)).trans <| (V4_of m c main_arg11 (by decide)).trans <| (V3_of m c main_arg11 (by decide)).trans <| (V2_of m c main_arg11 (by decide)).trans <| (V1_of m c main_arg11 (by decide)).trans rfl))

theorem V25_v63_of (c : Dev nD) :
    (V25 m outs c main_v63 : S_.Idx → EReal)
      = Cert.Shared.softplusOf (V24 m outs c (Proc.devRef .tc main_arg10)) := by
  show StableHlo.after hostOps2_4 (V24 m outs c) (Proc.devRef .tc main_v63) = Cert.Shared.softplusOf (V24 m outs c (Proc.devRef .tc main_arg10))
  generalize V24 m outs c = W
  after_results
  all_goals rfl
theorem V25_v63 (c : Dev nD) :
    (V25 m outs c main_v63 : S_.Idx → EReal) = Cert.Shared.softplusOf (m ((c : Thread nD τ).loc main_arg10)) :=
  (V25_v63_of m outs c).trans (congrArg Cert.Shared.softplusOf ((V24_of m outs c main_arg10 (by decide)).trans <| (V23_of m outs c main_arg10 (by decide)).trans <| (V22_of m outs c main_arg10 (by decide)).trans <| (V21_of m outs c main_arg10 (by decide)).trans <| (V20_of m outs c main_arg10 (by decide)).trans <| (V19_of m outs c main_arg10 (by decide)).trans <| (V18_of m outs c main_arg10 (by decide)).trans <| (V17_of m outs c main_arg10 (by decide)).trans <| (V16_of m outs c main_arg10 (by decide)).trans <| (V15_of m outs c main_arg10 (by decide)).trans <| (V14_of m outs c main_arg10 (by decide)).trans <| (V13_of m outs c main_arg10 (by decide)).trans <| (V12_of m outs c main_arg10 (by decide)).trans <| (V11_of m outs c main_arg10 (by decide)).trans <| (V10_of m outs c main_arg10 (by decide)).trans <| (V9_of m outs c main_arg10 (by decide)).trans <| (V8_of m outs c main_arg10 (by decide)).trans <| (V7_of m outs c main_arg10 (by decide)).trans <| (V6_of m outs c main_arg10 (by decide)).trans <| (V5_of m c main_arg10 (by decide)).trans <| (V4_of m c main_arg10 (by decide)).trans <| (V3_of m c main_arg10 (by decide)).trans <| (V2_of m c main_arg10 (by decide)).trans <| (V1_of m c main_arg10 (by decide)).trans rfl))

theorem V26_v64_of (c : Dev nD) :
    (V26 m outs c main_v64 : S_.Idx → EReal)
      = Cert.Shared.softplusOf (V25 m outs c (Proc.devRef .tc main_arg12)) := by
  show StableHlo.after hostOps2_5 (V25 m outs c) (Proc.devRef .tc main_v64) = Cert.Shared.softplusOf (V25 m outs c (Proc.devRef .tc main_arg12))
  generalize V25 m outs c = W
  after_results
  all_goals rfl
theorem V26_v64 (c : Dev nD) :
    (V26 m outs c main_v64 : S_.Idx → EReal) = Cert.Shared.softplusOf (m ((c : Thread nD τ).loc main_arg12)) :=
  (V26_v64_of m outs c).trans (congrArg Cert.Shared.softplusOf ((V25_of m outs c main_arg12 (by decide)).trans <| (V24_of m outs c main_arg12 (by decide)).trans <| (V23_of m outs c main_arg12 (by decide)).trans <| (V22_of m outs c main_arg12 (by decide)).trans <| (V21_of m outs c main_arg12 (by decide)).trans <| (V20_of m outs c main_arg12 (by decide)).trans <| (V19_of m outs c main_arg12 (by decide)).trans <| (V18_of m outs c main_arg12 (by decide)).trans <| (V17_of m outs c main_arg12 (by decide)).trans <| (V16_of m outs c main_arg12 (by decide)).trans <| (V15_of m outs c main_arg12 (by decide)).trans <| (V14_of m outs c main_arg12 (by decide)).trans <| (V13_of m outs c main_arg12 (by decide)).trans <| (V12_of m outs c main_arg12 (by decide)).trans <| (V11_of m outs c main_arg12 (by decide)).trans <| (V10_of m outs c main_arg12 (by decide)).trans <| (V9_of m outs c main_arg12 (by decide)).trans <| (V8_of m outs c main_arg12 (by decide)).trans <| (V7_of m outs c main_arg12 (by decide)).trans <| (V6_of m outs c main_arg12 (by decide)).trans <| (V5_of m c main_arg12 (by decide)).trans <| (V4_of m c main_arg12 (by decide)).trans <| (V3_of m c main_arg12 (by decide)).trans <| (V2_of m c main_arg12 (by decide)).trans <| (V1_of m c main_arg12 (by decide)).trans rfl))

theorem V28_v66_of (c : Dev nD) :
    (V28 m outs c main_v66 : S_.Idx → EReal)
      = Cert.Shared.softplusOf (V27 m outs c (Proc.devRef .tc main_arg7)) := by
  show StableHlo.after hostOps2_7 (V27 m outs c) (Proc.devRef .tc main_v66) = Cert.Shared.softplusOf (V27 m outs c (Proc.devRef .tc main_arg7))
  generalize V27 m outs c = W
  after_results
  all_goals rfl
theorem V28_v66 (c : Dev nD) :
    (V28 m outs c main_v66 : S_.Idx → EReal) = Cert.Shared.softplusOf (m ((c : Thread nD τ).loc main_arg7)) :=
  (V28_v66_of m outs c).trans (congrArg Cert.Shared.softplusOf ((V27_of m outs c main_arg7 (by decide)).trans <| (V26_of m outs c main_arg7 (by decide)).trans <| (V25_of m outs c main_arg7 (by decide)).trans <| (V24_of m outs c main_arg7 (by decide)).trans <| (V23_of m outs c main_arg7 (by decide)).trans <| (V22_of m outs c main_arg7 (by decide)).trans <| (V21_of m outs c main_arg7 (by decide)).trans <| (V20_of m outs c main_arg7 (by decide)).trans <| (V19_of m outs c main_arg7 (by decide)).trans <| (V18_of m outs c main_arg7 (by decide)).trans <| (V17_of m outs c main_arg7 (by decide)).trans <| (V16_of m outs c main_arg7 (by decide)).trans <| (V15_of m outs c main_arg7 (by decide)).trans <| (V14_of m outs c main_arg7 (by decide)).trans <| (V13_of m outs c main_arg7 (by decide)).trans <| (V12_of m outs c main_arg7 (by decide)).trans <| (V11_of m outs c main_arg7 (by decide)).trans <| (V10_of m outs c main_arg7 (by decide)).trans <| (V9_of m outs c main_arg7 (by decide)).trans <| (V8_of m outs c main_arg7 (by decide)).trans <| (V7_of m outs c main_arg7 (by decide)).trans <| (V6_of m outs c main_arg7 (by decide)).trans <| (V5_of m c main_arg7 (by decide)).trans <| (V4_of m c main_arg7 (by decide)).trans <| (V3_of m c main_arg7 (by decide)).trans <| (V2_of m c main_arg7 (by decide)).trans <| (V1_of m c main_arg7 (by decide)).trans rfl))

theorem V30_v73_of (c : Dev nD) :
    (V30 m outs c main_v73 : S_.Idx → EReal)
      = Cert.Shared.softplusOf (V29 m outs c (Proc.devRef .tc main_arg8)) := by
  show StableHlo.after hostOps2_9 (V29 m outs c) (Proc.devRef .tc main_v73) = Cert.Shared.softplusOf (V29 m outs c (Proc.devRef .tc main_arg8))
  generalize V29 m outs c = W
  after_results
  all_goals rfl
theorem V30_v73 (c : Dev nD) :
    (V30 m outs c main_v73 : S_.Idx → EReal) = Cert.Shared.softplusOf (m ((c : Thread nD τ).loc main_arg8)) :=
  (V30_v73_of m outs c).trans (congrArg Cert.Shared.softplusOf ((V29_of m outs c main_arg8 (by decide)).trans <| (V28_of m outs c main_arg8 (by decide)).trans <| (V27_of m outs c main_arg8 (by decide)).trans <| (V26_of m outs c main_arg8 (by decide)).trans <| (V25_of m outs c main_arg8 (by decide)).trans <| (V24_of m outs c main_arg8 (by decide)).trans <| (V23_of m outs c main_arg8 (by decide)).trans <| (V22_of m outs c main_arg8 (by decide)).trans <| (V21_of m outs c main_arg8 (by decide)).trans <| (V20_of m outs c main_arg8 (by decide)).trans <| (V19_of m outs c main_arg8 (by decide)).trans <| (V18_of m outs c main_arg8 (by decide)).trans <| (V17_of m outs c main_arg8 (by decide)).trans <| (V16_of m outs c main_arg8 (by decide)).trans <| (V15_of m outs c main_arg8 (by decide)).trans <| (V14_of m outs c main_arg8 (by decide)).trans <| (V13_of m outs c main_arg8 (by decide)).trans <| (V12_of m outs c main_arg8 (by decide)).trans <| (V11_of m outs c main_arg8 (by decide)).trans <| (V10_of m outs c main_arg8 (by decide)).trans <| (V9_of m outs c main_arg8 (by decide)).trans <| (V8_of m outs c main_arg8 (by decide)).trans <| (V7_of m outs c main_arg8 (by decide)).trans <| (V6_of m outs c main_arg8 (by decide)).trans <| (V5_of m c main_arg8 (by decide)).trans <| (V4_of m c main_arg8 (by decide)).trans <| (V3_of m c main_arg8 (by decide)).trans <| (V2_of m c main_arg8 (by decide)).trans <| (V1_of m c main_arg8 (by decide)).trans rfl))

theorem V24_v62_of (c : Dev nD) :
    (V24 m outs c main_v62 : S_.Idx → EReal)
      = mulf (F := Ideal) (s := S_) (φ := .f32) (V23 m outs c (Proc.devRef .tc main_v60)) (V23 m outs c (Proc.devRef .tc main_v61)) := by
  show StableHlo.after hostOps2_3 (V23 m outs c) (Proc.devRef .tc main_v62) = mulf (F := Ideal) (s := S_) (φ := .f32) (V23 m outs c (Proc.devRef .tc main_v60)) (V23 m outs c (Proc.devRef .tc main_v61))
  generalize V23 m outs c = W
  after_results
  all_goals rfl
theorem V24_v62 (c : Dev nD) :
    (V24 m outs c main_v62 : S_.Idx → EReal) = mulf (F := Ideal) (s := S_) (φ := .f32) (Cert.Shared.softplusOf (m ((c : Thread nD τ).loc main_arg9))) (Cert.Shared.softplusOf (m ((c : Thread nD τ).loc main_arg11))) := by
  rw [V24_v62_of, (V23_of m outs c main_v60 (by decide)), V22_v60, V23_v61]

theorem V27_v65_of (c : Dev nD) :
    (V27 m outs c main_v65 : S_.Idx → EReal)
      = mulf (F := Ideal) (s := S_) (φ := .f32) (V26 m outs c (Proc.devRef .tc main_v63)) (V26 m outs c (Proc.devRef .tc main_v64)) := by
  show StableHlo.after hostOps2_6 (V26 m outs c) (Proc.devRef .tc main_v65) = mulf (F := Ideal) (s := S_) (φ := .f32) (V26 m outs c (Proc.devRef .tc main_v63)) (V26 m outs c (Proc.devRef .tc main_v64))
  generalize V26 m outs c = W
  after_results
  all_goals rfl
theorem V27_v65 (c : Dev nD) :
    (V27 m outs c main_v65 : S_.Idx → EReal) = mulf (F := Ideal) (s := S_) (φ := .f32) (Cert.Shared.softplusOf (m ((c : Thread nD τ).loc main_arg10))) (Cert.Shared.softplusOf (m ((c : Thread nD τ).loc main_arg12))) := by
  rw [V27_v65_of, (V26_of m outs c main_v63 (by decide)), V25_v63, V26_v64]

end Cert.KernelIdeal.HostVal

end
-- ==== Proof.HostValTailC.lean ====
/-
  The two result arrays as whole arrays: for each head, the parametric band of the dense result, plus softplus of the tied
  scale times the tied band, plus the product of the two copy softpluses times the retrieval result's band.
-/
import proofs.«114772_j1760936591416_2_alg».proof.Proof.Gen.KernelIdeal.Regions
import Idealize.ShloMosaic.Lib.StableHlo.Run
import Idealize.ShloMosaic.Lib.ValueIdx
import Idealize.ShloMosaic.Lib.Pipeline.Value
import Idealize.ShloMosaic.PureOps.Ideal.Laws
import proofs.«114772_j1760936591416_2_alg».proof.Proof.Shared
import proofs.«114772_j1760936591416_2_alg».proof.Proof.HostValTailA
import proofs.«114772_j1760936591416_2_alg».proof.Proof.HostValTailB

set_option maxRecDepth 1384

noncomputable section

namespace Cert.KernelIdeal.HostVal

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (outs : Gen.Outs (F := Ideal))

/-! ## The two results as whole arrays -/

theorem V29_v72_of (c : Dev nD) :
    (V29 m outs c main_v72 : S8x2048x64.Idx → EReal)
      = addf (F := Ideal) (s := S8x2048x64) (φ := .f32) (addf (F := Ideal) (s := S8x2048x64) (φ := .f32) (V28 m outs c (Proc.devRef .tc main_v10)) (mulf (F := Ideal) (s := S8x2048x64) (φ := .f32) (broadcastInDim S8x2048x64 ![] bcast_S_S8x2048x64 (V28 m outs c (Proc.devRef .tc main_v66) : S_.Idx → EReal)) (V28 m outs c (Proc.devRef .tc main_v12))))
        (mulf (F := Ideal) (s := S8x2048x64) (φ := .f32) (broadcastInDim S8x2048x64 ![] bcast_S_S8x2048x64 (V28 m outs c (Proc.devRef .tc main_v62) : S_.Idx → EReal)) (V28 m outs c (Proc.devRef .tc main_v58))) := by
  show StableHlo.after hostOps2_8 (V28 m outs c) (Proc.devRef .tc main_v72) = addf (F := Ideal) (s := S8x2048x64) (φ := .f32) (addf (F := Ideal) (s := S8x2048x64) (φ := .f32) (V28 m outs c (Proc.devRef .tc main_v10)) (mulf (F := Ideal) (s := S8x2048x64) (φ := .f32) (broadcastInDim S8x2048x64 ![] bcast_S_S8x2048x64 (V28 m outs c (Proc.devRef .tc main_v66) : S_.Idx → EReal)) (V28 m outs c (Proc.devRef .tc main_v12))))
        (mulf (F := Ideal) (s := S8x2048x64) (φ := .f32) (broadcastInDim S8x2048x64 ![] bcast_S_S8x2048x64 (V28 m outs c (Proc.devRef .tc main_v62) : S_.Idx → EReal)) (V28 m outs c (Proc.devRef .tc main_v58)))
  generalize V28 m outs c = W
  after_results
  all_goals rfl
theorem V31_v79_of (c : Dev nD) :
    (V31 m outs c main_v79 : S8x2048x32.Idx → EReal)
      = addf (F := Ideal) (s := S8x2048x32) (φ := .f32) (addf (F := Ideal) (s := S8x2048x32) (φ := .f32) (V30 m outs c (Proc.devRef .tc main_v11)) (mulf (F := Ideal) (s := S8x2048x32) (φ := .f32) (broadcastInDim S8x2048x32 ![] bcast_S_S8x2048x32 (V30 m outs c (Proc.devRef .tc main_v73) : S_.Idx → EReal)) (V30 m outs c (Proc.devRef .tc main_v13))))
        (mulf (F := Ideal) (s := S8x2048x32) (φ := .f32) (broadcastInDim S8x2048x32 ![] bcast_S_S8x2048x32 (V30 m outs c (Proc.devRef .tc main_v65) : S_.Idx → EReal)) (V30 m outs c (Proc.devRef .tc main_v59))) := by
  show StableHlo.after hostOps2_10 (V30 m outs c) (Proc.devRef .tc main_v79) = addf (F := Ideal) (s := S8x2048x32) (φ := .f32) (addf (F := Ideal) (s := S8x2048x32) (φ := .f32) (V30 m outs c (Proc.devRef .tc main_v11)) (mulf (F := Ideal) (s := S8x2048x32) (φ := .f32) (broadcastInDim S8x2048x32 ![] bcast_S_S8x2048x32 (V30 m outs c (Proc.devRef .tc main_v73) : S_.Idx → EReal)) (V30 m outs c (Proc.devRef .tc main_v13))))
        (mulf (F := Ideal) (s := S8x2048x32) (φ := .f32) (broadcastInDim S8x2048x32 ![] bcast_S_S8x2048x32 (V30 m outs c (Proc.devRef .tc main_v65) : S_.Idx → EReal)) (V30 m outs c (Proc.devRef .tc main_v59)))
  generalize V30 m outs c = W
  after_results
  all_goals rfl

/-- The 64-class result: the first dense band plus softplus of the tied scale times the third band, plus the product
    of the two copy softpluses times the retrieval result's first 64 lanes. -/
theorem V31_v72 (c : Dev nD) :
    (V31 m outs c main_v72 : S8x2048x64.Idx → EReal)
      = addf (F := Ideal) (s := S8x2048x64) (φ := .f32) (addf (F := Ideal) (s := S8x2048x64) (φ := .f32) (extractStridedSlice S8x2048x64 ![0, 0, 0] (outs 6 main_v9 c : S8x2048x256.Idx → EReal) slices_S8x2048x256_S8x2048x64_0_0_0)
          (mulf (F := Ideal) (s := S8x2048x64) (φ := .f32) (broadcastInDim S8x2048x64 ![] bcast_S_S8x2048x64 (Cert.Shared.softplusOf (m ((c : Thread nD τ).loc main_arg7)) : S_.Idx → EReal)) (extractStridedSlice S8x2048x64 ![0, 0, 96] (outs 6 main_v9 c : S8x2048x256.Idx → EReal) slices_S8x2048x256_S8x2048x64_0_0_96)))
        (mulf (F := Ideal) (s := S8x2048x64) (φ := .f32) (broadcastInDim S8x2048x64 ![] bcast_S_S8x2048x64 (mulf (F := Ideal) (s := S_) (φ := .f32) (Cert.Shared.softplusOf (m ((c : Thread nD τ).loc main_arg9))) (Cert.Shared.softplusOf (m ((c : Thread nD τ).loc main_arg11))) : S_.Idx → EReal)) (extractStridedSlice S8x2048x64 ![0, 0, 0] (outs 20 main_v57 c : S8x2048x128.Idx → EReal) slices_S8x2048x128_S8x2048x64_0_0_0)) := by
  rw [(V31_of m outs c main_v72 (by decide)).trans <| (V30_of m outs c main_v72 (by decide)), V29_v72_of,
    (V28_of m outs c main_v10 (by decide)).trans <| (V27_of m outs c main_v10 (by decide)).trans <| (V26_of m outs c main_v10 (by decide)).trans <| (V25_of m outs c main_v10 (by decide)).trans <| (V24_of m outs c main_v10 (by decide)).trans <| (V23_of m outs c main_v10 (by decide)).trans <| (V22_of m outs c main_v10 (by decide)).trans <| (V21_of m outs c main_v10 (by decide)).trans <| (V20_of m outs c main_v10 (by decide)).trans <| (V19_of m outs c main_v10 (by decide)).trans <| (V18_of m outs c main_v10 (by decide)).trans <| (V17_of m outs c main_v10 (by decide)).trans <| (V16_of m outs c main_v10 (by decide)).trans <| (V15_of m outs c main_v10 (by decide)).trans <| (V14_of m outs c main_v10 (by decide)).trans <| (V13_of m outs c main_v10 (by decide)).trans <| (V12_of m outs c main_v10 (by decide)).trans <| (V11_of m outs c main_v10 (by decide)).trans <| (V10_of m outs c main_v10 (by decide)).trans <| (V9_of m outs c main_v10 (by decide)).trans <| (V8_of m outs c main_v10 (by decide)), V7_v10,
    (V28_of m outs c main_v12 (by decide)).trans <| (V27_of m outs c main_v12 (by decide)).trans <| (V26_of m outs c main_v12 (by decide)).trans <| (V25_of m outs c main_v12 (by decide)).trans <| (V24_of m outs c main_v12 (by decide)).trans <| (V23_of m outs c main_v12 (by decide)).trans <| (V22_of m outs c main_v12 (by decide)).trans <| (V21_of m outs c main_v12 (by decide)).trans <| (V20_of m outs c main_v12 (by decide)).trans <| (V19_of m outs c main_v12 (by decide)).trans <| (V18_of m outs c main_v12 (by decide)).trans <| (V17_of m outs c main_v12 (by decide)).trans <| (V16_of m outs c main_v12 (by decide)).trans <| (V15_of m outs c main_v12 (by decide)).trans <| (V14_of m outs c main_v12 (by decide)).trans <| (V13_of m outs c main_v12 (by decide)).trans <| (V12_of m outs c main_v12 (by decide)).trans <| (V11_of m outs c main_v12 (by decide)).trans <| (V10_of m outs c main_v12 (by decide)).trans <| (V9_of m outs c main_v12 (by decide)).trans <| (V8_of m outs c main_v12 (by decide)), V7_v12,
    V28_v66,
    (V28_of m outs c main_v62 (by decide)).trans <| (V27_of m outs c main_v62 (by decide)).trans <| (V26_of m outs c main_v62 (by decide)).trans <| (V25_of m outs c main_v62 (by decide)), V24_v62,
    (V28_of m outs c main_v58 (by decide)).trans <| (V27_of m outs c main_v58 (by decide)).trans <| (V26_of m outs c main_v58 (by decide)).trans <| (V25_of m outs c main_v58 (by decide)).trans <| (V24_of m outs c main_v58 (by decide)).trans <| (V23_of m outs c main_v58 (by decide)).trans <| (V22_of m outs c main_v58 (by decide)), V21_v58]

/-- The 32-class result, likewise, from the second and fourth dense bands and lanes 64 … 95 of the retrieval result. -/
theorem V31_v79 (c : Dev nD) :
    (V31 m outs c main_v79 : S8x2048x32.Idx → EReal)
      = addf (F := Ideal) (s := S8x2048x32) (φ := .f32) (addf (F := Ideal) (s := S8x2048x32) (φ := .f32) (extractStridedSlice S8x2048x32 ![0, 0, 64] (outs 6 main_v9 c : S8x2048x256.Idx → EReal) slices_S8x2048x256_S8x2048x32_0_0_64)
          (mulf (F := Ideal) (s := S8x2048x32) (φ := .f32) (broadcastInDim S8x2048x32 ![] bcast_S_S8x2048x32 (Cert.Shared.softplusOf (m ((c : Thread nD τ).loc main_arg8)) : S_.Idx → EReal)) (extractStridedSlice S8x2048x32 ![0, 0, 160] (outs 6 main_v9 c : S8x2048x256.Idx → EReal) slices_S8x2048x256_S8x2048x32_0_0_160)))
        (mulf (F := Ideal) (s := S8x2048x32) (φ := .f32) (broadcastInDim S8x2048x32 ![] bcast_S_S8x2048x32 (mulf (F := Ideal) (s := S_) (φ := .f32) (Cert.Shared.softplusOf (m ((c : Thread nD τ).loc main_arg10))) (Cert.Shared.softplusOf (m ((c : Thread nD τ).loc main_arg12))) : S_.Idx → EReal)) (extractStridedSlice S8x2048x32 ![0, 0, 64] (outs 20 main_v57 c : S8x2048x128.Idx → EReal) slices_S8x2048x128_S8x2048x32_0_0_64)) := by
  rw [V31_v79_of,
    (V30_of m outs c main_v11 (by decide)).trans <| (V29_of m outs c main_v11 (by decide)).trans <| (V28_of m outs c main_v11 (by decide)).trans <| (V27_of m outs c main_v11 (by decide)).trans <| (V26_of m outs c main_v11 (by decide)).trans <| (V25_of m outs c main_v11 (by decide)).trans <| (V24_of m outs c main_v11 (by decide)).trans <| (V23_of m outs c main_v11 (by decide)).trans <| (V22_of m outs c main_v11 (by decide)).trans <| (V21_of m outs c main_v11 (by decide)).trans <| (V20_of m outs c main_v11 (by decide)).trans <| (V19_of m outs c main_v11 (by decide)).trans <| (V18_of m outs c main_v11 (by decide)).trans <| (V17_of m outs c main_v11 (by decide)).trans <| (V16_of m outs c main_v11 (by decide)).trans <| (V15_of m outs c main_v11 (by decide)).trans <| (V14_of m outs c main_v11 (by decide)).trans <| (V13_of m outs c main_v11 (by decide)).trans <| (V12_of m outs c main_v11 (by decide)).trans <| (V11_of m outs c main_v11 (by decide)).trans <| (V10_of m outs c main_v11 (by decide)).trans <| (V9_of m outs c main_v11 (by decide)).trans <| (V8_of m outs c main_v11 (by decide)), V7_v11,
    (V30_of m outs c main_v13 (by decide)).trans <| (V29_of m outs c main_v13 (by decide)).trans <| (V28_of m outs c main_v13 (by decide)).trans <| (V27_of m outs c main_v13 (by decide)).trans <| (V26_of m outs c main_v13 (by decide)).trans <| (V25_of m outs c main_v13 (by decide)).trans <| (V24_of m outs c main_v13 (by decide)).trans <| (V23_of m outs c main_v13 (by decide)).trans <| (V22_of m outs c main_v13 (by decide)).trans <| (V21_of m outs c main_v13 (by decide)).trans <| (V20_of m outs c main_v13 (by decide)).trans <| (V19_of m outs c main_v13 (by decide)).trans <| (V18_of m outs c main_v13 (by decide)).trans <| (V17_of m outs c main_v13 (by decide)).trans <| (V16_of m outs c main_v13 (by decide)).trans <| (V15_of m outs c main_v13 (by decide)).trans <| (V14_of m outs c main_v13 (by decide)).trans <| (V13_of m outs c main_v13 (by decide)).trans <| (V12_of m outs c main_v13 (by decide)).trans <| (V11_of m outs c main_v13 (by decide)).trans <| (V10_of m outs c main_v13 (by decide)).trans <| (V9_of m outs c main_v13 (by decide)).trans <| (V8_of m outs c main_v13 (by decide)), V7_v13,
    V30_v73,
    (V30_of m outs c main_v65 (by decide)).trans <| (V29_of m outs c main_v65 (by decide)).trans <| (V28_of m outs c main_v65 (by decide)), V27_v65,
    (V30_of m outs c main_v59 (by decide)).trans <| (V29_of m outs c main_v59 (by decide)).trans <| (V28_of m outs c main_v59 (by decide)).trans <| (V27_of m outs c main_v59 (by decide)).trans <| (V26_of m outs c main_v59 (by decide)).trans <| (V25_of m outs c main_v59 (by decide)).trans <| (V24_of m outs c main_v59 (by decide)).trans <| (V23_of m outs c main_v59 (by decide)).trans <| (V22_of m outs c main_v59 (by decide)), V21_v59]

end Cert.KernelIdeal.HostVal

end
-- ==== Proof.HostValTail.lean ====
/-
  The two result arrays read at a batch, a position and a class:
  (D[b,q,a] + softplus(tied_scale) · D[b,q,tied + a]) + (softplus(copy_scale) · softplus(copy_temp)) · R[b,q,lane + a],
  with D and R the arrays the dense and the retrieval regions leave.
-/
import proofs.«114772_j1760936591416_2_alg».proof.Proof.Gen.KernelIdeal.Regions
import Idealize.ShloMosaic.Lib.StableHlo.Run
import Idealize.ShloMosaic.Lib.ValueIdx
import Idealize.ShloMosaic.Lib.Pipeline.Value
import Idealize.ShloMosaic.PureOps.Ideal.Laws
import proofs.«114772_j1760936591416_2_alg».proof.Proof.Shared
import proofs.«114772_j1760936591416_2_alg».proof.Proof.HostValTailC

set_option maxRecDepth 1384

noncomputable section

namespace Cert.KernelIdeal.HostVal

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (outs : Gen.Outs (F := Ideal))

/-! ## The two results read at an index -/

/-- What the dense-heads region leaves in its result array `[8, 2048, 256]`, as extended reals. -/
abbrev denseOut (outs : Gen.Outs (F := Ideal)) (c : Dev nD) : S8x2048x256.Idx → EReal := outs 6 main_v9 c

/-- What the retrieval region leaves in its result array `[8, 2048, 128]`, as extended reals. -/
abbrev retrOut (outs : Gen.Outs (F := Ideal)) (c : Dev nD) : S8x2048x128.Idx → EReal := outs 20 main_v57 c

/-- Softplus of a scalar array, as its one extended real. -/
abbrev spOf (x : S_.Idx → EReal) : EReal := Cert.Shared.softplusOf x ValueIdx.ix0

/-- A scalar broadcast over the whole array reads the scalar everywhere. -/
theorem bcast64_apply {α : Type} (y : S_.Idx → α) (i : S8x2048x64.Idx) :
    broadcastInDim S8x2048x64 ![] bcast_S_S8x2048x64 y i = y ValueIdx.ix0 :=
  broadcastInDim_apply _ bcast_S_S8x2048x64 y i ValueIdx.ix0 (fun d => d.elim0)

theorem bcast32_apply {α : Type} (y : S_.Idx → α) (i : S8x2048x32.Idx) :
    broadcastInDim S8x2048x32 ![] bcast_S_S8x2048x32 y i = y ValueIdx.ix0 :=
  broadcastInDim_apply _ bcast_S_S8x2048x32 y i ValueIdx.ix0 (fun d => d.elim0)

/-- The 64-class result at batch `b`, position `q`, class `a`:
    `(D[b,q,a] + softplus(tied_scale_act) · D[b,q,96+a]) + (softplus(copy_scale_act) · softplus(copy_temp_act)) · R[b,q,a]`
    with `D` what the dense-heads region leaves and `R` what the retrieval region leaves. -/
theorem v72_apply (c : Dev nD) (b : Fin 8) (q : Fin 2048) (a : Fin 64) :
    (V31 m outs c main_v72 : S8x2048x64.Idx → EReal) (ValueIdx.ix3 b q a)
      = (denseOut outs c (ValueIdx.ix3 b q ⟨a.val, by have := a.isLt; omega⟩)
          + spOf (m ((c : Thread nD τ).loc main_arg7)) * denseOut outs c (ValueIdx.ix3 b q ⟨96 + a.val, by have := a.isLt; omega⟩))
        + (spOf (m ((c : Thread nD τ).loc main_arg9)) * spOf (m ((c : Thread nD τ).loc main_arg11)))
          * retrOut outs c (ValueIdx.ix3 b q ⟨a.val, by have := a.isLt; omega⟩) := by
  rw [V31_v72]
  simp only [ValueIdx.addf_apply, ValueIdx.mulf_apply]
  rw [bcast64_apply, bcast64_apply]
  rw [extractStridedSlice_apply ![0, 0, 0] (outs 6 main_v9 c : S8x2048x256.Idx → EReal) slices_S8x2048x256_S8x2048x64_0_0_0 (ValueIdx.ix3 b q a) (ValueIdx.ix3 b q ⟨a.val, by have := a.isLt; omega⟩) (fun d => match d with
      | ⟨0, _⟩ => by show b.val = 0 + b.val; omega
      | ⟨1, _⟩ => by show q.val = 0 + q.val; omega
      | ⟨2, _⟩ => by show a.val = 0 + a.val; omega),
    extractStridedSlice_apply ![0, 0, 96] (outs 6 main_v9 c : S8x2048x256.Idx → EReal) slices_S8x2048x256_S8x2048x64_0_0_96 (ValueIdx.ix3 b q a) (ValueIdx.ix3 b q ⟨96 + a.val, by have := a.isLt; omega⟩) (fun d => match d with
      | ⟨0, _⟩ => by show b.val = 0 + b.val; omega
      | ⟨1, _⟩ => by show q.val = 0 + q.val; omega
      | ⟨2, _⟩ => by show 96 + a.val = 96 + a.val; omega),
    extractStridedSlice_apply ![0, 0, 0] (outs 20 main_v57 c : S8x2048x128.Idx → EReal) slices_S8x2048x128_S8x2048x64_0_0_0 (ValueIdx.ix3 b q a) (ValueIdx.ix3 b q ⟨a.val, by have := a.isLt; omega⟩) (fun d => match d with
      | ⟨0, _⟩ => by show b.val = 0 + b.val; omega
      | ⟨1, _⟩ => by show q.val = 0 + q.val; omega
      | ⟨2, _⟩ => by show a.val = 0 + a.val; omega)]
  all_goals rfl

/-- The 32-class result at batch `b`, position `q`, class `a`:
    `(D[b,q,64+a] + softplus(tied_scale_time) · D[b,q,160+a]) + (softplus(copy_scale_time) · softplus(copy_temp_time)) · R[b,q,64+a]`. -/
theorem v79_apply (c : Dev nD) (b : Fin 8) (q : Fin 2048) (a : Fin 32) :
    (V31 m outs c main_v79 : S8x2048x32.Idx → EReal) (ValueIdx.ix3 b q a)
      = (denseOut outs c (ValueIdx.ix3 b q ⟨64 + a.val, by have := a.isLt; omega⟩)
          + spOf (m ((c : Thread nD τ).loc main_arg8)) * denseOut outs c (ValueIdx.ix3 b q ⟨160 + a.val, by have := a.isLt; omega⟩))
        + (spOf (m ((c : Thread nD τ).loc main_arg10)) * spOf (m ((c : Thread nD τ).loc main_arg12)))
          * retrOut outs c (ValueIdx.ix3 b q ⟨64 + a.val, by have := a.isLt; omega⟩) := by
  rw [V31_v79]
  simp only [ValueIdx.addf_apply, ValueIdx.mulf_apply]
  rw [bcast32_apply, bcast32_apply]
  rw [extractStridedSlice_apply ![0, 0, 64] (outs 6 main_v9 c : S8x2048x256.Idx → EReal) slices_S8x2048x256_S8x2048x32_0_0_64 (ValueIdx.ix3 b q a) (ValueIdx.ix3 b q ⟨64 + a.val, by have := a.isLt; omega⟩) (fun d => match d with
      | ⟨0, _⟩ => by show b.val = 0 + b.val; omega
      | ⟨1, _⟩ => by show q.val = 0 + q.val; omega
      | ⟨2, _⟩ => by show 64 + a.val = 64 + a.val; omega),
    extractStridedSlice_apply ![0, 0, 160] (outs 6 main_v9 c : S8x2048x256.Idx → EReal) slices_S8x2048x256_S8x2048x32_0_0_160 (ValueIdx.ix3 b q a) (ValueIdx.ix3 b q ⟨160 + a.val, by have := a.isLt; omega⟩) (fun d => match d with
      | ⟨0, _⟩ => by show b.val = 0 + b.val; omega
      | ⟨1, _⟩ => by show q.val = 0 + q.val; omega
      | ⟨2, _⟩ => by show 160 + a.val = 160 + a.val; omega),
    extractStridedSlice_apply ![0, 0, 64] (outs 20 main_v57 c : S8x2048x128.Idx → EReal) slices_S8x2048x128_S8x2048x32_0_0_64 (ValueIdx.ix3 b q a) (ValueIdx.ix3 b q ⟨64 + a.val, by have := a.isLt; omega⟩) (fun d => match d with
      | ⟨0, _⟩ => by show b.val = 0 + b.val; omega
      | ⟨1, _⟩ => by show q.val = 0 + q.val; omega
      | ⟨2, _⟩ => by show 64 + a.val = 64 + a.val; omega)]
  all_goals rfl

end Cert.KernelIdeal.HostVal

end
-- ==== Proof.HostValPad.lean ====
/-
  A padded array read at an index: where every coordinate is the low padding plus an operand coordinate times the interior
  stride it is the operand's entry; past the operand's extent, or below the low padding, on some axis it is the padding value.
-/
import Idealize.ShloMosaic.PureOps
import Idealize.ShloMosaic.Lib.Pipeline.Value

noncomputable section

namespace Cert.KernelIdeal.HostVal

open Idealize.ShloMosaic

section PadRead
variable {s t u : Shape} {α : Type}

/-- A pad read at an index that is the image of the operand's index `k`: on every axis the coordinate is the low
    padding plus `k`'s coordinate times the interior stride. -/
theorem pad_apply_in (lo hi interior : Fin s.rank → Nat) (x : s.Idx → α) (v : u.Idx → α)
    (h : s.Pads lo hi interior t) (hu : 0 < u.numel) (j : t.Idx) (k : s.Idx)
    (hk : ∀ a : Fin s.rank, (j (a.cast h.1)).val = lo a + (k a).val * (interior a + 1)) :
    pad t lo hi interior x v h hu j = x k := by
  have hin : ∀ a : Fin s.rank, lo a ≤ (j (a.cast h.1)).val ∧ ((j (a.cast h.1)).val - lo a) % (interior a + 1) = 0
      ∧ ((j (a.cast h.1)).val - lo a) / (interior a + 1) < s.size a := fun a => by
    rw [hk a, Nat.add_sub_cancel_left]
    exact ⟨Nat.le_add_right _ _, Nat.mul_mod_left _ _, by rw [Nat.mul_div_cancel _ (Nat.succ_pos _)]; exact (k a).isLt⟩
  unfold pad
  rw [dif_pos hin]
  refine congrArg x (funext fun a => Fin.ext ?_)
  show ((j (a.cast h.1)).val - lo a) / (interior a + 1) = (k a).val
  rw [hk a, Nat.add_sub_cancel_left, Nat.mul_div_cancel _ (Nat.succ_pos _)]

/-- A pad read past the operand's extent on some axis `a`: the padding value. -/
theorem pad_apply_out (lo hi interior : Fin s.rank → Nat) (x : s.Idx → α) (v : u.Idx → α)
    (h : s.Pads lo hi interior t) (hu : 0 < u.numel) (j : t.Idx) (a : Fin s.rank)
    (ha : s.size a ≤ ((j (a.cast h.1)).val - lo a) / (interior a + 1)) :
    pad t lo hi interior x v h hu j = v (Shape.Idx.first hu) := by
  unfold pad
  rw [dif_neg fun hall => absurd (hall a).2.2 (Nat.not_lt.2 ha)]

/-- A pad read below the low padding on some axis `a`: the padding value. -/
theorem pad_apply_low (lo hi interior : Fin s.rank → Nat) (x : s.Idx → α) (v : u.Idx → α)
    (h : s.Pads lo hi interior t) (hu : 0 < u.numel) (j : t.Idx) (a : Fin s.rank)
    (ha : (j (a.cast h.1)).val < lo a) :
    pad t lo hi interior x v h hu j = v (Shape.Idx.first hu) := by
  unfold pad
  rw [dif_neg fun hall => absurd (hall a).1 (Nat.not_le.2 ha)]

end PadRead

end Cert.KernelIdeal.HostVal

end
-- ==== Proof.HostValOps0A.lean ====
/-
  The stacked weight matrix the dense region multiplies the hidden states by, as a function of the two parametric weight
  matrices and the embedding table: their rows one under the other, padded with zero rows to 256; and the hidden states
  reach that region as launched.
-/
import proofs.«114772_j1760936591416_2_alg».proof.Proof.Gen.KernelIdeal.Regions
import Idealize.ShloMosaic.Lib.StableHlo.Run
import Idealize.ShloMosaic.Lib.ValueIdx
import Idealize.ShloMosaic.Lib.Pipeline.Value
import Idealize.ShloMosaic.PureOps.Ideal.Laws
import proofs.«114772_j1760936591416_2_alg».proof.Proof.Shared

set_option maxRecDepth 1384

noncomputable section

namespace Cert.KernelIdeal.HostVal

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (outs : Gen.Outs (F := Ideal))

/-! ## The dense-heads region's weight operand -/

/-- The weight the dense-heads region multiplies by: the rows of `W_next`, `W_time`, rows 5 … 68 and rows 69 … 100 of
    the embedding table, in that order, then 64 rows of the padding value (the integer 0 as a float). At the extended
    reals the change of float format is the identity. -/
def wcatOf (Wn : S64x1024.Idx → EReal) (Wt : S32x1024.Idx → EReal) (E : S101x1024.Idx → EReal) : S256x1024.Idx → EReal :=
  truncf (F := Ideal) (s := S256x1024) (φ := .f32) .bf16
    (pad S256x1024 ![0, 0] ![64, 0] ![0, 0]
      (concatenate S192x1024 0 [⟨S64x1024, Wn⟩, ⟨S32x1024, Wt⟩,
        ⟨S64x1024, extractStridedSlice S64x1024 ![5, 0] E slices_S101x1024_S64x1024_5_0⟩,
        ⟨S32x1024, extractStridedSlice S32x1024 ![69, 0] E slices_S101x1024_S32x1024_69_0⟩]
        concatenates_S64x1024_S32x1024_S64x1024_S32x1024_S192x1024_d0)
      (sitofp (F := Ideal) (s := S_) .f32 (constantI S_ 32 0#32)) pads_S192x1024_S256x1024_0640_000 h_S_)
    bitsLt_bf16_f32

theorem V1_v2_of (c : Dev nD) :
    (V1 m c main_v2 : S192x1024.Idx → EReal)
      = concatenate S192x1024 0 [⟨S64x1024, (V0 m c (Proc.devRef .tc main_arg3) : S64x1024.Idx → EReal)⟩, ⟨S32x1024, (V0 m c (Proc.devRef .tc main_arg5) : S32x1024.Idx → EReal)⟩,
        ⟨S64x1024, extractStridedSlice S64x1024 ![5, 0] (V0 m c (Proc.devRef .tc main_arg2) : S101x1024.Idx → EReal) slices_S101x1024_S64x1024_5_0⟩,
        ⟨S32x1024, extractStridedSlice S32x1024 ![69, 0] (V0 m c (Proc.devRef .tc main_arg2) : S101x1024.Idx → EReal) slices_S101x1024_S32x1024_69_0⟩]
        concatenates_S64x1024_S32x1024_S64x1024_S32x1024_S192x1024_d0 := by
  show StableHlo.after hostOps0 (V0 m c) (Proc.devRef .tc main_v2) = concatenate S192x1024 0 [⟨S64x1024, (V0 m c (Proc.devRef .tc main_arg3) : S64x1024.Idx → EReal)⟩, ⟨S32x1024, (V0 m c (Proc.devRef .tc main_arg5) : S32x1024.Idx → EReal)⟩,
        ⟨S64x1024, extractStridedSlice S64x1024 ![5, 0] (V0 m c (Proc.devRef .tc main_arg2) : S101x1024.Idx → EReal) slices_S101x1024_S64x1024_5_0⟩,
        ⟨S32x1024, extractStridedSlice S32x1024 ![69, 0] (V0 m c (Proc.devRef .tc main_arg2) : S101x1024.Idx → EReal) slices_S101x1024_S32x1024_69_0⟩]
        concatenates_S64x1024_S32x1024_S64x1024_S32x1024_S192x1024_d0
  generalize V0 m c = W
  after_results
  all_goals rfl
theorem V1_c_of (c : Dev nD) :
    (V1 m c main_c : S_.Idx → BitVec 32)
      = constantI S_ 32 0#32 := by
  show StableHlo.after hostOps0 (V0 m c) (Proc.devRef .tc main_c) = constantI S_ 32 0#32
  generalize V0 m c = W
  after_results
  all_goals rfl
theorem V2_v3_of (c : Dev nD) :
    (V2 m c main_v3 : S256x1024.Idx → EReal)
      = pad S256x1024 ![0, 0] ![64, 0] ![0, 0] (V1 m c (Proc.devRef .tc main_v2) : S192x1024.Idx → EReal)
        (sitofp (F := Ideal) (s := S_) .f32 (V1 m c (Proc.devRef .tc main_c) : S_.Idx → BitVec 32)) pads_S192x1024_S256x1024_0640_000 h_S_ := by
  show StableHlo.after hostOps0_1 (V1 m c) (Proc.devRef .tc main_v3) = pad S256x1024 ![0, 0] ![64, 0] ![0, 0] (V1 m c (Proc.devRef .tc main_v2) : S192x1024.Idx → EReal)
        (sitofp (F := Ideal) (s := S_) .f32 (V1 m c (Proc.devRef .tc main_c) : S_.Idx → BitVec 32)) pads_S192x1024_S256x1024_0640_000 h_S_
  generalize V1 m c = W
  after_results
  all_goals rfl
theorem V3_v4_of (c : Dev nD) :
    (V3 m c main_v4 : S256x1024.Idx → EReal)
      = truncf (F := Ideal) (s := S256x1024) (φ := .f32) .bf16 (V2 m c (Proc.devRef .tc main_v3) : S256x1024.Idx → EReal) bitsLt_bf16_f32 := by
  show StableHlo.after hostOps0_2 (V2 m c) (Proc.devRef .tc main_v4) = truncf (F := Ideal) (s := S256x1024) (φ := .f32) .bf16 (V2 m c (Proc.devRef .tc main_v3) : S256x1024.Idx → EReal) bitsLt_bf16_f32
  generalize V2 m c = W
  after_results
  all_goals rfl

/-- The weight operand at the dense-heads region's entry is `wcatOf` of the three argument arrays. -/
theorem V5_v4 (c : Dev nD) :
    (V5 m c main_v4 : S256x1024.Idx → EReal)
      = wcatOf (m ((c : Thread nD τ).loc main_arg3)) (m ((c : Thread nD τ).loc main_arg5)) (m ((c : Thread nD τ).loc main_arg2)) := by
  rw [(V5_of m c main_v4 (by decide)).trans <| (V4_of m c main_v4 (by decide)), V3_v4_of, V2_v3_of, V1_v2_of, V1_c_of]
  rfl

/-- The hidden states reach the dense-heads region as launched. -/
theorem V5_arg1 (c : Dev nD) : V5 m c main_arg1 = m ((c : Thread nD τ).loc main_arg1) :=
  (V5_of m c main_arg1 (by decide)).trans <| (V4_of m c main_arg1 (by decide)).trans <| (V3_of m c main_arg1 (by decide)).trans <| (V2_of m c main_arg1 (by decide)).trans <| (V1_of m c main_arg1 (by decide)).trans rfl

end Cert.KernelIdeal.HostVal

end
-- ==== Proof.HostValOps0B.lean ====
/-
  The stacked weight matrix read at a row and a column: rows 0 … 63 are W_next, 64 … 95 W_time, 96 … 159 rows 5 … 68 of the
  embedding table, 160 … 191 its rows 69 … 100, and 192 … 255 are zero.
-/
import proofs.«114772_j1760936591416_2_alg».proof.Proof.Gen.KernelIdeal.Regions
import Idealize.ShloMosaic.Lib.StableHlo.Run
import Idealize.ShloMosaic.Lib.ValueIdx
import Idealize.ShloMosaic.Lib.Pipeline.Value
import Idealize.ShloMosaic.PureOps.Ideal.Laws
import proofs.«114772_j1760936591416_2_alg».proof.Proof.Shared
import proofs.«114772_j1760936591416_2_alg».proof.Proof.HostValPad
import proofs.«114772_j1760936591416_2_alg».proof.Proof.HostValOps0A

set_option maxRecDepth 1384

noncomputable section

namespace Cert.KernelIdeal.HostVal

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (outs : Gen.Outs (F := Ideal))

/-! ## The weight operand read at an index -/

/-- Rows below 192 of the padded weight are the concatenation's rows. -/
theorem wcatOf_lt (Wn : S64x1024.Idx → EReal) (Wt : S32x1024.Idx → EReal) (E : S101x1024.Idx → EReal) (j : Fin 256) (d : Fin 1024) (hj : j.val < 192) :
    wcatOf Wn Wt E (ValueIdx.ix2 j d)
      = (concatenate S192x1024 0 [⟨S64x1024, Wn⟩, ⟨S32x1024, Wt⟩,
        ⟨S64x1024, extractStridedSlice S64x1024 ![5, 0] E slices_S101x1024_S64x1024_5_0⟩,
        ⟨S32x1024, extractStridedSlice S32x1024 ![69, 0] E slices_S101x1024_S32x1024_69_0⟩]
        concatenates_S64x1024_S32x1024_S64x1024_S32x1024_S192x1024_d0) (ValueIdx.ix2 ⟨j.val, hj⟩ d) := by
  unfold wcatOf
  rw [ValueIdx.truncf_apply]
  exact pad_apply_in ![0, 0] ![64, 0] ![0, 0] _ _ pads_S192x1024_S256x1024_0640_000 h_S_ (ValueIdx.ix2 j d) (ValueIdx.ix2 ⟨j.val, hj⟩ d)
    (fun a => match a with
      | ⟨0, _⟩ => by show j.val = 0 + j.val * (0 + 1); omega
      | ⟨1, _⟩ => by show d.val = 0 + d.val * (0 + 1); omega)

/-- The integer 0 converted to a float is the extended real 0. -/
theorem sitofp_zero_apply (i : S_.Idx) :
    sitofp (F := Ideal) (s := S_) .f32 (constantI S_ 32 0#32) i = (0 : EReal) := by
  show (((0#32 : BitVec 32).toInt : ℝ) : EReal) = 0
  simp

/-- Rows 192 … 255 of the padded weight are 0. -/
theorem wcatOf_pad (Wn : S64x1024.Idx → EReal) (Wt : S32x1024.Idx → EReal) (E : S101x1024.Idx → EReal) (j : Fin 256) (d : Fin 1024) (hj : 192 ≤ j.val) :
    wcatOf Wn Wt E (ValueIdx.ix2 j d) = (0 : EReal) := by
  unfold wcatOf
  rw [ValueIdx.truncf_apply,
    pad_apply_out ![0, 0] ![64, 0] ![0, 0] _ _ pads_S192x1024_S256x1024_0640_000 h_S_ (ValueIdx.ix2 j d) (⟨0, by decide⟩ : Fin S192x1024.rank)
      (by show 192 ≤ (j.val - 0) / (0 + 1); omega)]
  exact sitofp_zero_apply _

/-- Rows 0 … 63: `W_next`. -/
theorem wcatOf_next (Wn : S64x1024.Idx → EReal) (Wt : S32x1024.Idx → EReal) (E : S101x1024.Idx → EReal) (j : Fin 256) (d : Fin 1024) (hj : j.val < 64) :
    wcatOf Wn Wt E (ValueIdx.ix2 j d) = Wn (ValueIdx.ix2 ⟨j.val, hj⟩ d) := by
  rw [wcatOf_lt Wn Wt E j d (by omega)]
  exact concatenate_apply_piece (0 : Fin S192x1024.rank) [⟨S64x1024, Wn⟩, ⟨S32x1024, Wt⟩,
        ⟨S64x1024, extractStridedSlice S64x1024 ![5, 0] E slices_S101x1024_S64x1024_5_0⟩,
        ⟨S32x1024, extractStridedSlice S32x1024 ![69, 0] E slices_S101x1024_S32x1024_69_0⟩]
    concatenates_S64x1024_S32x1024_S64x1024_S32x1024_S192x1024_d0 (ValueIdx.ix2 ⟨j.val, by omega⟩ d)
    0 (by show 0 < 4; omega) S64x1024 Wn rfl rfl 0 rfl (ValueIdx.ix2 ⟨j.val, hj⟩ d)
    (fun b hb => match b with
      | ⟨0, _⟩ => absurd rfl hb
      | ⟨1, _⟩ => rfl)
    (by show 0 + j.val = j.val; omega)

/-- Rows 64 … 95: `W_time`. -/
theorem wcatOf_time (Wn : S64x1024.Idx → EReal) (Wt : S32x1024.Idx → EReal) (E : S101x1024.Idx → EReal) (j : Fin 256) (d : Fin 1024) (h0 : 64 ≤ j.val) (h1 : j.val < 96) :
    wcatOf Wn Wt E (ValueIdx.ix2 j d) = Wt (ValueIdx.ix2 ⟨j.val - 64, by omega⟩ d) := by
  rw [wcatOf_lt Wn Wt E j d (by omega)]
  exact concatenate_apply_piece (0 : Fin S192x1024.rank) [⟨S64x1024, Wn⟩, ⟨S32x1024, Wt⟩,
        ⟨S64x1024, extractStridedSlice S64x1024 ![5, 0] E slices_S101x1024_S64x1024_5_0⟩,
        ⟨S32x1024, extractStridedSlice S32x1024 ![69, 0] E slices_S101x1024_S32x1024_69_0⟩]
    concatenates_S64x1024_S32x1024_S64x1024_S32x1024_S192x1024_d0 (ValueIdx.ix2 ⟨j.val, by omega⟩ d)
    1 (by show 1 < 4; omega) S32x1024 Wt rfl rfl 64 rfl (ValueIdx.ix2 ⟨j.val - 64, by omega⟩ d)
    (fun b hb => match b with
      | ⟨0, _⟩ => absurd rfl hb
      | ⟨1, _⟩ => rfl)
    (by show 64 + (j.val - 64) = j.val; omega)

/-- Rows 96 … 159: rows 5 … 68 of the embedding table. -/
theorem wcatOf_act (Wn : S64x1024.Idx → EReal) (Wt : S32x1024.Idx → EReal) (E : S101x1024.Idx → EReal) (j : Fin 256) (d : Fin 1024) (h0 : 96 ≤ j.val) (h1 : j.val < 160) :
    wcatOf Wn Wt E (ValueIdx.ix2 j d) = E (ValueIdx.ix2 ⟨5 + (j.val - 96), by omega⟩ d) := by
  rw [wcatOf_lt Wn Wt E j d (by omega)]
  refine (concatenate_apply_piece (0 : Fin S192x1024.rank) [⟨S64x1024, Wn⟩, ⟨S32x1024, Wt⟩,
        ⟨S64x1024, extractStridedSlice S64x1024 ![5, 0] E slices_S101x1024_S64x1024_5_0⟩,
        ⟨S32x1024, extractStridedSlice S32x1024 ![69, 0] E slices_S101x1024_S32x1024_69_0⟩]
    concatenates_S64x1024_S32x1024_S64x1024_S32x1024_S192x1024_d0 (ValueIdx.ix2 ⟨j.val, by omega⟩ d)
    2 (by show 2 < 4; omega) S64x1024 (extractStridedSlice S64x1024 ![5, 0] E slices_S101x1024_S64x1024_5_0) rfl rfl 96 rfl (ValueIdx.ix2 ⟨j.val - 96, by omega⟩ d)
    (fun b hb => match b with
      | ⟨0, _⟩ => absurd rfl hb
      | ⟨1, _⟩ => rfl)
    (by show 96 + (j.val - 96) = j.val; omega)).trans ?_
  exact extractStridedSlice_apply ![5, 0] E slices_S101x1024_S64x1024_5_0 _ _ (fun a => match a with
    | ⟨0, _⟩ => by show 5 + (j.val - 96) = 5 + (j.val - 96); rfl
    | ⟨1, _⟩ => by show d.val = 0 + d.val; omega)

/-- Rows 160 … 191: rows 69 … 100 of the embedding table. -/
theorem wcatOf_tim2 (Wn : S64x1024.Idx → EReal) (Wt : S32x1024.Idx → EReal) (E : S101x1024.Idx → EReal) (j : Fin 256) (d : Fin 1024) (h0 : 160 ≤ j.val) (h1 : j.val < 192) :
    wcatOf Wn Wt E (ValueIdx.ix2 j d) = E (ValueIdx.ix2 ⟨69 + (j.val - 160), by omega⟩ d) := by
  rw [wcatOf_lt Wn Wt E j d (by omega)]
  refine (concatenate_apply_piece (0 : Fin S192x1024.rank) [⟨S64x1024, Wn⟩, ⟨S32x1024, Wt⟩,
        ⟨S64x1024, extractStridedSlice S64x1024 ![5, 0] E slices_S101x1024_S64x1024_5_0⟩,
        ⟨S32x1024, extractStridedSlice S32x1024 ![69, 0] E slices_S101x1024_S32x1024_69_0⟩]
    concatenates_S64x1024_S32x1024_S64x1024_S32x1024_S192x1024_d0 (ValueIdx.ix2 ⟨j.val, by omega⟩ d)
    3 (by show 3 < 4; omega) S32x1024 (extractStridedSlice S32x1024 ![69, 0] E slices_S101x1024_S32x1024_69_0) rfl rfl 160 rfl (ValueIdx.ix2 ⟨j.val - 160, by omega⟩ d)
    (fun b hb => match b with
      | ⟨0, _⟩ => absurd rfl hb
      | ⟨1, _⟩ => rfl)
    (by show 160 + (j.val - 160) = j.val; omega)).trans ?_
  exact extractStridedSlice_apply ![69, 0] E slices_S101x1024_S32x1024_69_0 _ _ (fun a => match a with
    | ⟨0, _⟩ => by show 69 + (j.val - 160) = 69 + (j.val - 160); rfl
    | ⟨1, _⟩ => by show d.val = 0 + d.val; omega)

end Cert.KernelIdeal.HostVal

end
-- ==== Proof.SharedReal.lean ====
/-
  Closure under finiteness: when the hidden states and the scalars are reals, so are the normalized hidden states
  and the softplus values; the one-hot entries are always the reals 0 or 1.
-/
import proofs.«114772_j1760936591416_2_alg».proof.Proof.Shared
import proofs.«114772_j1760936591416_2_alg».proof.Proof.Spec
import Idealize.ShloMosaic.Lib.IdealHost

noncomputable section

namespace Cert.Shared

open Idealize.ShloMosaic Idealize.ShloMosaic.ValueIdx

/-- An extended real that is a real. -/
def IsReal (x : EReal) : Prop := ∃ r : ℝ, x = (r : EReal)

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sum {ι : Type*} (s : Finset ι) (f : ι → EReal) (hf : ∀ i, IsReal (f i)) : IsReal (∑ i ∈ s, f i) := by
  choose g hg using hf
  exact ⟨∑ i ∈ s, g i, by rw [Spec.coe_sum]; exact Finset.sum_congr rfl fun i _ => hg i⟩

theorem coe_max (a b : ℝ) : ((max a b : ℝ) : EReal) = max (a : EReal) (b : EReal) :=
  EReal.coe_strictMono.monotone.map_max

/-! ## One-hot rows -/

theorem ohActOf_real (tokens : Vec Ideal S8x2048 .i32) (i : S8x2048x64.Idx) : IsReal (ohActOf tokens i) := ⟨_, rfl⟩
theorem ohTimeOf_real (tokens : Vec Ideal S8x2048 .i32) (i : S8x2048x32.Idx) : IsReal (ohTimeOf tokens i) := ⟨_, rfl⟩

/-! ## Softplus -/

/-- Softplus of a real is the real `max r 0 + log (1 + exp (-|r|))`. -/
theorem softplusOf_real (x : Vec Ideal S_ .f32) (i : S_.Idx) (hx : IsReal (x i)) : IsReal (softplusOf x i) := by
  obtain ⟨r, hr⟩ := hx
  have hpos : (0 : ℝ) < 1 + Real.exp (-(max (r - 0) (-(r - 0)))) := by positivity
  refine ⟨max r 0 + Real.log (1 + Real.exp (-(max (r - 0) (-(r - 0))))), ?_⟩
  show Scalar.select (Ideal.cmp .une (x i - Ideal.ofBits .f32 0x00000000#32) (x i - Ideal.ofBits .f32 0x00000000#32))
      (x i + Ideal.ofBits .f32 0x00000000#32)
      (max (x i) (Ideal.ofBits .f32 0x00000000#32)
        + Ideal.log1p (Ideal.exp (-(max (x i - Ideal.ofBits .f32 0x00000000#32) (-(x i - Ideal.ofBits .f32 0x00000000#32)))))) = _
  rw [Ideal.ofBits_zero_f32, hr]
  have hc : Ideal.cmp .une ((r : EReal) - 0) ((r : EReal) - 0) = 0#1 := by
    simp [Ideal.cmp]
  rw [hc]
  show max (r : EReal) 0 + Ideal.log1p (Ideal.exp (-(max ((r : EReal) - 0) (-((r : EReal) - 0))))) = _
  have e1 : ((r : EReal) - 0) = ((r - 0 : ℝ) : EReal) := by rw [EReal.coe_sub, EReal.coe_zero]
  have e2 : max ((r - 0 : ℝ) : EReal) (-((r - 0 : ℝ) : EReal)) = ((max (r - 0) (-(r - 0)) : ℝ) : EReal) := by
    rw [← EReal.coe_neg, coe_max]
  rw [e1, e2, ← EReal.coe_neg, Ideal.exp_coe]
  unfold Ideal.log1p
  rw [show (1 : EReal) = ((1 : ℝ) : EReal) from rfl, ← EReal.coe_add, Ideal.log_coe, if_neg (not_le.2 hpos)]
  rw [show (0 : EReal) = ((0 : ℝ) : EReal) from rfl, ← coe_max, ← EReal.coe_add]

/-! ## The normalized hidden states -/

/-- The literal 1e-12, as an f32 word, is a positive real. -/
theorem eps_pos : ∃ e : ℝ, 0 < e ∧ (Ideal.ofBits .f32 0x2B8CBCCC#32 : EReal) = (e : EReal) := by
  have hex : ((0x2B8CBCCC#32 : BitVec 32).extractLsb' 23 8).toNat = 87 := by decide
  have hfr : ((0x2B8CBCCC#32 : BitVec 32).extractLsb' 0 23).toNat = 834764 := by decide
  have hneg : ((0x2B8CBCCC#32 : BitVec 32).extractLsb' (8 + 23) 1 == 1#1) = false := by decide
  refine ⟨(1 : ℝ) * ((2 ^ 23 + 834764 : ℕ) : ℝ) * (2 : ℝ) ^ (((87 : ℕ) : ℤ) - ((2 : ℤ) ^ (8 - 1) - 1) - ((23 : ℕ) : ℤ)), by positivity, ?_⟩
  show Ideal.ieee 8 23 (0x2B8CBCCC#32 : BitVec 32) = _
  unfold Ideal.ieee
  simp only [hex, hfr, hneg]
  norm_num

/-- Rows of reals normalize to rows of reals: the divisor is at least the positive literal. -/
theorem hnOf_real (h : Vec Ideal S8x2048x1024 .f32) (hh : ∀ i, IsReal (h i)) (i : S8x2048x1024.Idx) :
    IsReal (hnOf h i) := by
  choose g hg using hh
  have hsq : ∀ j, ∃ r : ℝ, 0 ≤ r ∧
      Host.reduceAdd (mulf h h) (constant (F := Ideal) S_ .f32 0x00000000#32) red_last h_S_ j = (r : EReal) := by
    intro j
    refine ⟨∑ i ∈ Finset.univ.filter (fun i => red_last.drop i = j), g i * g i,
      Finset.sum_nonneg fun i _ => mul_self_nonneg _, ?_⟩
    show (Ideal.ofBits .f32 0x00000000#32 : EReal) + ∑ i ∈ Finset.univ.filter (fun i => red_last.drop i = j), h i * h i = _
    rw [Ideal.ofBits_zero_f32, zero_add, Spec.coe_sum]
    exact Finset.sum_congr rfl fun i _ => by rw [hg i, EReal.coe_mul]
  obtain ⟨e, he, hε⟩ := eps_pos
  obtain ⟨j, hj⟩ : ∃ j, hnOf h i = Ideal.div (h i)
      (max (Ideal.sqrt (Host.reduceAdd (mulf h h) (constant (F := Ideal) S_ .f32 0x00000000#32) red_last h_S_ j))
        (Ideal.ofBits .f32 0x2B8CBCCC#32)) := ⟨_, rfl⟩
  obtain ⟨r, hr0, hr⟩ := hsq j
  rw [hj, hr, hε, Ideal.sqrt_coe, if_neg (not_lt.2 hr0), ← coe_max,
    Ideal.div_coe (ne_of_gt (lt_max_of_lt_right he))]
  exact IsReal.mul ⟨g i, hg i⟩ ⟨_, rfl⟩

end Cert.Shared

end
-- ==== Proof.Gate01.lean ====
/-
  A truth value converted to a float is the real 1 or 0: the form in which the gate and the key mask enter the
  products.
-/
import proofs.«114772_j1760936591416_2_alg».proof.Proof.SharedReal

noncomputable section

namespace Cert.Shared

open Idealize.ShloMosaic

/-- A one-bit word read as an unsigned integer, as an extended real, is 1 when the bit is set and 0 otherwise. -/
theorem bit_toReal (c : BitVec 1) : (((c.toNat : ℕ) : ℝ) : EReal) = if decide (c = 1#1) = true then (1 : EReal) else 0 := by
  rcases (by decide : ∀ c : BitVec 1, c = 0#1 ∨ c = 1#1) c with rfl | rfl <;> simp

/-- The conversion of a one-bit word to any float format, on the extended reals. -/
theorem uitofp_bit (φ : FTy) (c : BitVec 1) :
    (FloatOps.uitofp (F := Ideal) φ c : Ideal φ) = if decide (c = 1#1) = true then (1 : EReal) else 0 :=
  bit_toReal c

theorem bit_real (φ : FTy) (c : BitVec 1) : IsReal (FloatOps.uitofp (F := Ideal) φ c : Ideal φ) := ⟨_, rfl⟩

end Cert.Shared

end
-- ==== Proof.KernelAlg.lean ====
/-
  The arrangement in which the tiled computation delivers the result — the gate inside the inner product, the key
  mask on the one-hot entry, the mask by position alone, the keys summed tile by tile up to the query's tile, the two
  scalars multiplied once outside, a zero bias added to the tied product — equals the specification's arrangement
  when the normalized states, the one-hot entries and the two scalars are reals.
-/
import proofs.«114772_j1760936591416_2_alg».proof.Proof.Spec
import proofs.«114772_j1760936591416_2_alg».proof.Proof.SharedReal
import proofs.«114772_j1760936591416_2_alg».proof.Proof.Gate01

noncomputable section

namespace Cert.Spec

/-- Key position `512·ki + k'` of tile `ki`. -/
def tk (ki : Fin 4) (k' : Fin 512) : Fin 2048 := ⟨512 * ki.val + k'.val, by have := ki.isLt; have := k'.isLt; omega⟩

/-- A truth value as the real 1 or 0. -/
def bit (x : Bool) : EReal := if x = true then 1 else 0

/-- The delivered arrangement. -/
def Kform {n : ℕ} (h : Fin 8 → Fin 2048 → Fin 1024 → EReal) (W : Fin n → Fin 1024 → EReal) (bias : Fin n → EReal)
    (E : Fin n → Fin 1024 → EReal) (hn : Fin 8 → Fin 2048 → Fin 1024 → EReal) (lab val : Fin 8 → Fin 2048 → Bool)
    (oh : Fin 8 → Fin 2048 → Fin n → EReal) (sTied sScale sTemp : EReal) (b : Fin 8) (q : Fin 2048) (a : Fin n) : EReal :=
  (((∑ d : Fin 1024, h b q d * W a d) + bias a) + sTied * ((∑ d : Fin 1024, h b q d * E a d) + 0))
  + (sScale * sTemp) * (∑ ki : Fin 4, if ki.val ≤ q.val / 512 then ∑ k' : Fin 512,
      (if 512 * ki.val + k'.val < q.val then ∑ d : Fin 1024, (hn b q d * bit (lab b q)) * hn b (tk ki k') d else 0)
        * (oh b (tk ki k') a * bit (val b (tk ki k'))) else 0)

/-! ## Tiles -/

/-- A sum over the 2048 keys is the sum over 4 tiles of the sums over each tile's 512 keys. -/
theorem sum_tiles_fin (f : Fin 2048 → EReal) : ∑ ki : Fin 4, ∑ k' : Fin 512, f (tk ki k') = ∑ k : Fin 2048, f k := by
  rw [← Finset.sum_product', Finset.univ_product_univ]
  refine Fintype.sum_equiv (finProdFinEquiv (m := 4) (n := 512)) _ _ fun p => ?_
  exact congrArg f (Fin.ext (Nat.add_comm _ _))

/-- The same when only the tiles up to the query's tile `q / 512` are added, the summand vanishing on the later ones. -/
theorem sum_tiles_upto_fin (f : Fin 2048 → EReal) (q : Fin 2048)
    (hz : ∀ (ki : Fin 4) (k' : Fin 512), ¬ ki.val ≤ q.val / 512 → f (tk ki k') = 0) :
    ∑ ki : Fin 4, (if ki.val ≤ q.val / 512 then ∑ k' : Fin 512, f (tk ki k') else 0) = ∑ k : Fin 2048, f k := by
  rw [← sum_tiles_fin f]
  refine Finset.sum_congr rfl fun ki _ => ?_
  split_ifs with hle
  · rfl
  · exact (Finset.sum_eq_zero fun k' _ => hz ki k' hle).symm

/-- No key of a tile after the query's tile is strictly before the query. -/
theorem not_past_of_later_tile (q : Fin 2048) (ki : Fin 4) (k' : Fin 512) (hki : ¬ ki.val ≤ q.val / 512) :
    ¬ tk ki k' < q := by
  show ¬ (512 * ki.val + k'.val < q.val)
  omega

/-- The tiled, position-masked sum over the tiles up to the query's is the masked sum over all keys. -/
theorem tiled_masked_sum (g c : Fin 2048 → EReal) (q : Fin 2048) :
    ∑ ki : Fin 4, (if ki.val ≤ q.val / 512 then ∑ k' : Fin 512,
        (if 512 * ki.val + k'.val < q.val then g (tk ki k') else 0) * c (tk ki k') else 0)
      = ∑ k : Fin 2048, (if k < q then g k else 0) * c k :=
  sum_tiles_upto_fin (fun k => (if k < q then g k else 0) * c k) q
    fun ki k' hki => by
      show (if tk ki k' < q then g (tk ki k') else 0) * c (tk ki k') = 0
      rw [if_neg (not_past_of_later_tile q ki k' hki), zero_mul]

/-- The accumulator's nesting: adding the tiles that pass a test one after the other from zero is the sum of the
    tiles that pass it. -/
theorem acc_fold (T : Fin 4 → EReal) (c : Fin 4 → Prop) [DecidablePred c] :
    (fun (ki : Fin 4) (acc : EReal) => if c ki then acc + T ki else acc) 3
      ((fun (ki : Fin 4) (acc : EReal) => if c ki then acc + T ki else acc) 2
        ((fun (ki : Fin 4) (acc : EReal) => if c ki then acc + T ki else acc) 1
          ((fun (ki : Fin 4) (acc : EReal) => if c ki then acc + T ki else acc) 0 0)))
      = ∑ ki : Fin 4, if c ki then T ki else 0 := by
  simp only [Fin.sum_univ_four]
  split_ifs <;> simp only [zero_add, add_zero, add_assoc]

/-! ## The delivered arrangement is the specification -/

theorem Kform_eq_G {n : ℕ} (h : Fin 8 → Fin 2048 → Fin 1024 → EReal) (W : Fin n → Fin 1024 → EReal)
    (bias : Fin n → EReal) (E : Fin n → Fin 1024 → EReal) (hn : Fin 8 → Fin 2048 → Fin 1024 → EReal)
    (lab val : Fin 8 → Fin 2048 → Bool) (oh : Fin 8 → Fin 2048 → Fin n → EReal) (sTied sScale sTemp : EReal)
    (b : Fin 8) (q : Fin 2048) (a : Fin n)
    (hhn : ∀ k d, Shared.IsReal (hn b k d)) (hoh : ∀ k, Shared.IsReal (oh b k a))
    (hs : Shared.IsReal sScale) (ht : Shared.IsReal sTemp) :
    Kform h W bias E hn lab val oh sTied sScale sTemp b q a = G h W bias E hn lab val oh sTied sScale sTemp b q a := by
  unfold Kform G
  rw [add_zero, tiled_masked_sum (fun k => ∑ d : Fin 1024, (hn b q d * bit (lab b q)) * hn b k d)
    (fun k => oh b k a * bit (val b k)) q]
  unfold bit
  rw [copy_law q (lab b q) (val b) (hn b q) (hn b) (fun k => oh b k a) sScale sTemp (hhn q) hhn hoh hs ht]

end Cert.Spec

end
-- ==== Proof.KernelGlue.lean ====
/-
  From what the two tiled regions leave to the specification: the dense region's array holds, per class column, a
  product of the hidden row with a row of the stacked weight matrix plus a stacked bias entry; the retrieval
  region's array holds the tiled, position-masked sums; the stacked rows are the parametric weights, the embedding
  rows and zeros, the gate and the masked one-hot rows are the 0/1 forms. Combined as the host tail combines them,
  this is the delivered arrangement, hence the specification.
-/
import proofs.«114772_j1760936591416_2_alg».proof.Proof.KernelAlg
import proofs.«114772_j1760936591416_2_alg».proof.Proof.Rows

noncomputable section

namespace Cert.KernelIdeal.Glue

open Idealize.ShloMosaic Idealize.ShloMosaic.ValueIdx

/-- The 64-class head: the combination of the two regions' results at (b, q, a) is the specification. -/
theorem act_glue
    (D : (⟨3, ![8, 2048, 256]⟩ : Shape).Idx → EReal) (Rw : (⟨3, ![8, 2048, 128]⟩ : Shape).Idx → EReal) (H : (⟨3, ![8, 2048, 1024]⟩ : Shape).Idx → EReal)
    (Wc : (⟨2, ![256, 1024]⟩ : Shape).Idx → EReal) (Bc : (⟨2, ![1, 256]⟩ : Shape).Idx → EReal) (hn : (⟨3, ![8, 2048, 1024]⟩ : Shape).Idx → EReal)
    (vec : (⟨3, ![8, 2048, 128]⟩ : Shape).Idx → EReal) (gate : (⟨3, ![8, 2048, 1]⟩ : Shape).Idx → EReal)
    (Wn : (⟨2, ![64, 1024]⟩ : Shape).Idx → EReal) (bn : (⟨1, ![64]⟩ : Shape).Idx → EReal) (Et : Vec Ideal Shared.S101x1024 .f32)
    (lab val : Fin 8 → Fin 2048 → Bool) (oh : Fin 8 → Fin 2048 → Fin 64 → EReal) (sTied sScale sTemp : EReal)
    (b : Fin 8) (q : Fin 2048) (a : Fin 64)
    (hD : ∀ (b : Fin 8) (q : Fin 2048) (j : Fin 256),
      D (ix3 b q j) = (∑ d : Fin 1024, H (ix3 b q d) * Wc (ix2 j d)) + Bc (ix2 (0 : Fin 1) j))
    (hR : ∀ (b : Fin 8) (q : Fin 2048) (j : Fin 128),
      Rw (ix3 b q j) = ∑ ki : Fin 4, if ki.val ≤ q.val / 512 then ∑ k' : Fin 512,
        (if 512 * ki.val + k'.val < q.val
          then ∑ d : Fin 1024, (hn (ix3 b q d) * gate (ix3 b q (0 : Fin 1))) * hn (ix3 b (Spec.tk ki k') d) else 0)
          * vec (ix3 b (Spec.tk ki k') j) else 0)
    (hWn : ∀ (a : Fin 64) (d : Fin 1024), Wc (ix2 (⟨a.val, by have := a.isLt; omega⟩ : Fin 256) d) = Wn (ix2 a d))
    (hWe : ∀ (a : Fin 64) (d : Fin 1024), Wc (ix2 (⟨96 + a.val, by have := a.isLt; omega⟩ : Fin 256) d) = Shared.eActOf Et a d)
    (hBn : ∀ a : Fin 64, Bc (ix2 (0 : Fin 1) (⟨a.val, by have := a.isLt; omega⟩ : Fin 256)) = bn (ix1 a))
    (hBe : ∀ a : Fin 64, Bc (ix2 (0 : Fin 1) (⟨96 + a.val, by have := a.isLt; omega⟩ : Fin 256)) = 0)
    (hgate : ∀ (b : Fin 8) (q : Fin 2048), gate (ix3 b q (0 : Fin 1)) = Spec.bit (lab b q))
    (hvec : ∀ (b : Fin 8) (k : Fin 2048) (a : Fin 64),
      vec (ix3 b k (⟨a.val, by have := a.isLt; omega⟩ : Fin 128)) = oh b k a * Spec.bit (val b k))
    (hhn : ∀ (k : Fin 2048) (d : Fin 1024), Shared.IsReal (hn (ix3 b k d))) (hoh : ∀ k : Fin 2048, Shared.IsReal (oh b k a))
    (hs : Shared.IsReal sScale) (ht : Shared.IsReal sTemp) :
    (D (ix3 b q (⟨a.val, by have := a.isLt; omega⟩ : Fin 256))
        + sTied * D (ix3 b q (⟨96 + a.val, by have := a.isLt; omega⟩ : Fin 256)))
      + (sScale * sTemp) * Rw (ix3 b q (⟨a.val, by have := a.isLt; omega⟩ : Fin 128))
      = Spec.Gact (fun b q d => H (ix3 b q d)) (fun a d => Wn (ix2 a d)) (fun a => bn (ix1 a)) (Shared.eActOf Et)
          (fun b q d => hn (ix3 b q d)) lab val oh sTied sScale sTemp b q a := by
  rw [hD b q ⟨a.val, by have := a.isLt; omega⟩, hD b q ⟨96 + a.val, by have := a.isLt; omega⟩,
    hR b q ⟨a.val, by have := a.isLt; omega⟩]
  simp only [hWn, hWe, hBn, hBe, hgate, hvec]
  exact Spec.Kform_eq_G (fun b q d => H (ix3 b q d)) (fun a d => Wn (ix2 a d)) (fun a => bn (ix1 a)) (Shared.eActOf Et)
    (fun b q d => hn (ix3 b q d)) lab val oh sTied sScale sTemp b q a hhn hoh hs ht

/-- The 32-class head: the combination of the two regions' results at (b, q, a) is the specification. -/
theorem time_glue
    (D : (⟨3, ![8, 2048, 256]⟩ : Shape).Idx → EReal) (Rw : (⟨3, ![8, 2048, 128]⟩ : Shape).Idx → EReal) (H : (⟨3, ![8, 2048, 1024]⟩ : Shape).Idx → EReal)
    (Wc : (⟨2, ![256, 1024]⟩ : Shape).Idx → EReal) (Bc : (⟨2, ![1, 256]⟩ : Shape).Idx → EReal) (hn : (⟨3, ![8, 2048, 1024]⟩ : Shape).Idx → EReal)
    (vec : (⟨3, ![8, 2048, 128]⟩ : Shape).Idx → EReal) (gate : (⟨3, ![8, 2048, 1]⟩ : Shape).Idx → EReal)
    (Wn : (⟨2, ![32, 1024]⟩ : Shape).Idx → EReal) (bn : (⟨1, ![32]⟩ : Shape).Idx → EReal) (Et : Vec Ideal Shared.S101x1024 .f32)
    (lab val : Fin 8 → Fin 2048 → Bool) (oh : Fin 8 → Fin 2048 → Fin 32 → EReal) (sTied sScale sTemp : EReal)
    (b : Fin 8) (q : Fin 2048) (a : Fin 32)
    (hD : ∀ (b : Fin 8) (q : Fin 2048) (j : Fin 256),
      D (ix3 b q j) = (∑ d : Fin 1024, H (ix3 b q d) * Wc (ix2 j d)) + Bc (ix2 (0 : Fin 1) j))
    (hR : ∀ (b : Fin 8) (q : Fin 2048) (j : Fin 128),
      Rw (ix3 b q j) = ∑ ki : Fin 4, if ki.val ≤ q.val / 512 then ∑ k' : Fin 512,
        (if 512 * ki.val + k'.val < q.val
          then ∑ d : Fin 1024, (hn (ix3 b q d) * gate (ix3 b q (0 : Fin 1))) * hn (ix3 b (Spec.tk ki k') d) else 0)
          * vec (ix3 b (Spec.tk ki k') j) else 0)
    (hWn : ∀ (a : Fin 32) (d : Fin 1024), Wc (ix2 (⟨64 + a.val, by have := a.isLt; omega⟩ : Fin 256) d) = Wn (ix2 a d))
    (hWe : ∀ (a : Fin 32) (d : Fin 1024), Wc (ix2 (⟨160 + a.val, by have := a.isLt; omega⟩ : Fin 256) d) = Shared.eTimeOf Et a d)
    (hBn : ∀ a : Fin 32, Bc (ix2 (0 : Fin 1) (⟨64 + a.val, by have := a.isLt; omega⟩ : Fin 256)) = bn (ix1 a))
    (hBe : ∀ a : Fin 32, Bc (ix2 (0 : Fin 1) (⟨160 + a.val, by have := a.isLt; omega⟩ : Fin 256)) = 0)
    (hgate : ∀ (b : Fin 8) (q : Fin 2048), gate (ix3 b q (0 : Fin 1)) = Spec.bit (lab b q))
    (hvec : ∀ (b : Fin 8) (k : Fin 2048) (a : Fin 32),
      vec (ix3 b k (⟨64 + a.val, by have := a.isLt; omega⟩ : Fin 128)) = oh b k a * Spec.bit (val b k))
    (hhn : ∀ (k : Fin 2048) (d : Fin 1024), Shared.IsReal (hn (ix3 b k d))) (hoh : ∀ k : Fin 2048, Shared.IsReal (oh b k a))
    (hs : Shared.IsReal sScale) (ht : Shared.IsReal sTemp) :
    (D (ix3 b q (⟨64 + a.val, by have := a.isLt; omega⟩ : Fin 256))
        + sTied * D (ix3 b q (⟨160 + a.val, by have := a.isLt; omega⟩ : Fin 256)))
      + (sScale * sTemp) * Rw (ix3 b q (⟨64 + a.val, by have := a.isLt; omega⟩ : Fin 128))
      = Spec.Gtime (fun b q d => H (ix3 b q d)) (fun a d => Wn (ix2 a d)) (fun a => bn (ix1 a)) (Shared.eTimeOf Et)
          (fun b q d => hn (ix3 b q d)) lab val oh sTied sScale sTemp b q a := by
  rw [hD b q ⟨64 + a.val, by have := a.isLt; omega⟩, hD b q ⟨160 + a.val, by have := a.isLt; omega⟩,
    hR b q ⟨64 + a.val, by have := a.isLt; omega⟩]
  simp only [hWn, hWe, hBn, hBe, hgate, hvec]
  exact Spec.Kform_eq_G (fun b q d => H (ix3 b q d)) (fun a d => Wn (ix2 a d)) (fun a => bn (ix1 a)) (Shared.eTimeOf Et)
    (fun b q d => hn (ix3 b q d)) lab val oh sTied sScale sTemp b q a hhn hoh hs ht

end Cert.KernelIdeal.Glue

end
-- ==== Proof.KernelValCore.lean ====
/-
  The program's two results at an index, from what its two tiled regions leave: the host tail's combination of the
  dense array's columns and the retrieval array's column is the delivered arrangement of the specification.
-/
import proofs.«114772_j1760936591416_2_alg».proof.Proof.HostValTail
import proofs.«114772_j1760936591416_2_alg».proof.Proof.HostValOps0B
import proofs.«114772_j1760936591416_2_alg».proof.Proof.KernelGlue

noncomputable section

namespace Cert.KernelIdeal.KVal

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (outs : Gen.Outs (F := Ideal))

/-- The thirteen arguments as arrays of extended reals and of words. -/
abbrev tokA (c : Dev nD) : S8x2048.Idx → BitVec 32 := m ((c : Thread nD τ).loc main_arg0)
abbrev hA (c : Dev nD) : S8x2048x1024.Idx → EReal := m ((c : Thread nD τ).loc main_arg1)
abbrev eA (c : Dev nD) : S101x1024.Idx → EReal := m ((c : Thread nD τ).loc main_arg2)
abbrev wnA (c : Dev nD) : S64x1024.Idx → EReal := m ((c : Thread nD τ).loc main_arg3)
abbrev bnA (c : Dev nD) : S64.Idx → EReal := m ((c : Thread nD τ).loc main_arg4)
abbrev wtA (c : Dev nD) : S32x1024.Idx → EReal := m ((c : Thread nD τ).loc main_arg5)
abbrev btA (c : Dev nD) : S32.Idx → EReal := m ((c : Thread nD τ).loc main_arg6)
abbrev sA7 (c : Dev nD) : S_.Idx → EReal := m ((c : Thread nD τ).loc main_arg7)
abbrev sA8 (c : Dev nD) : S_.Idx → EReal := m ((c : Thread nD τ).loc main_arg8)
abbrev sA9 (c : Dev nD) : S_.Idx → EReal := m ((c : Thread nD τ).loc main_arg9)
abbrev sA10 (c : Dev nD) : S_.Idx → EReal := m ((c : Thread nD τ).loc main_arg10)
abbrev sA11 (c : Dev nD) : S_.Idx → EReal := m ((c : Thread nD τ).loc main_arg11)
abbrev sA12 (c : Dev nD) : S_.Idx → EReal := m ((c : Thread nD τ).loc main_arg12)

/-- The 64-class result of the program, read at (b, q, a), is the specification — given what the two regions leave
    (the dense array as products with the stacked weights plus a stacked bias, the retrieval array as the tiled masked
    sums over the normalized states), the stacked bias's entries, the 0/1 forms of the gate and of the masked one-hot
    rows, and the finiteness of the hidden states and of the two copy scalars. -/
theorem v72_of (c : Dev nD) (b : Fin 8) (q : Fin 2048) (a : Fin 64)
    (Bc : S1x256.Idx → EReal) (vec : S8x2048x128.Idx → EReal) (gate : S8x2048x1.Idx → EReal)
    (hD : ∀ (b : Fin 8) (q : Fin 2048) (j : Fin 256), HostVal.denseOut outs c (ix3 b q j)
      = (∑ d : Fin 1024, (hA m c) (ix3 b q d)
          * HostVal.wcatOf (wnA m c) (wtA m c) (eA m c) (ix2 j d)) + Bc (ix2 (0 : Fin 1) j))
    (hBn : ∀ a : Fin 64, Bc (ix2 (0 : Fin 1) (⟨a.val, by have := a.isLt; omega⟩ : Fin 256))
      = (bnA m c) (ix1 a))
    (hBe : ∀ a : Fin 64, Bc (ix2 (0 : Fin 1) (⟨96 + a.val, by have := a.isLt; omega⟩ : Fin 256)) = 0)
    (hR : ∀ (b : Fin 8) (q : Fin 2048) (j : Fin 128), HostVal.retrOut outs c (ix3 b q j)
      = ∑ ki : Fin 4, if ki.val ≤ q.val / 512 then ∑ k' : Fin 512,
        (if 512 * ki.val + k'.val < q.val
          then ∑ d : Fin 1024, (Shared.hnOf (hA m c) (ix3 b q d) * gate (ix3 b q (0 : Fin 1)))
            * Shared.hnOf (hA m c) (ix3 b (Spec.tk ki k') d) else 0)
          * vec (ix3 b (Spec.tk ki k') j) else 0)
    (hgate : ∀ (b : Fin 8) (q : Fin 2048),
      gate (ix3 b q (0 : Fin 1)) = Spec.bit (decide (Shared.labOf (tokA m c) (ix2 b q) = 1#1)))
    (hvec : ∀ (b : Fin 8) (k : Fin 2048) (a : Fin 64), vec (ix3 b k (⟨a.val, by have := a.isLt; omega⟩ : Fin 128))
      = Shared.ohActOf (tokA m c) (ix3 b k a) * Spec.bit (decide (Shared.valActOf (tokA m c) (ix2 b k) = 1#1)))
    (hh : ∀ i : S8x2048x1024.Idx, ∃ r : ℝ, (hA m c) i = (r : EReal))
    (hsc : ∃ r : ℝ, (sA9 m c) ix0 = (r : EReal))
    (hte : ∃ r : ℝ, (sA11 m c) ix0 = (r : EReal)) :
    (V31 m outs c main_v72 : S8x2048x64.Idx → EReal) (ix3 b q a)
      = Spec.Gact (fun b q d => (hA m c) (ix3 b q d))
          (fun a d => (wnA m c) (ix2 a d)) (fun a => (bnA m c) (ix1 a))
          (Shared.eActOf (eA m c))
          (fun b q d => Shared.hnOf (hA m c) (ix3 b q d))
          (fun b q => decide (Shared.labOf (tokA m c) (ix2 b q) = 1#1))
          (fun b k => decide (Shared.valActOf (tokA m c) (ix2 b k) = 1#1))
          (fun b k a => Shared.ohActOf (tokA m c) (ix3 b k a))
          (Shared.softplusOf (sA7 m c) ix0) (Shared.softplusOf (sA9 m c) ix0) (Shared.softplusOf (sA11 m c) ix0) b q a := by
  rw [HostVal.v72_apply m outs c b q a]
  exact Glue.act_glue (HostVal.denseOut outs c) (HostVal.retrOut outs c) (hA m c)
    (HostVal.wcatOf (wnA m c) (wtA m c) (eA m c)) Bc (Shared.hnOf (hA m c)) vec gate
    (wnA m c) (bnA m c) (eA m c) _ _ _ _ _ _ b q a hD hR
    (fun a d => HostVal.wcatOf_next _ _ _ ⟨a.val, by have := a.isLt; omega⟩ d a.isLt)
    (fun a d => (HostVal.wcatOf_act _ _ _ ⟨96 + a.val, by have := a.isLt; omega⟩ d (by show 96 ≤ 96 + a.val; omega) (by show 96 + a.val < 160; have := a.isLt; omega)).trans (congrArg (fun j => (eA m c) (ix2 j d)) (Fin.ext (by show 5 + (96 + a.val - 96) = 5 + a.val; omega))))
    hBn hBe hgate hvec
    (fun k d => Shared.hnOf_real _ hh _) (fun k => Shared.ohActOf_real _ _)
    (Shared.softplusOf_real _ _ hsc) (Shared.softplusOf_real _ _ hte)

/-- The 32-class result of the program, read at (b, q, a), is the specification — given what the two regions leave
    (the dense array as products with the stacked weights plus a stacked bias, the retrieval array as the tiled masked
    sums over the normalized states), the stacked bias's entries, the 0/1 forms of the gate and of the masked one-hot
    rows, and the finiteness of the hidden states and of the two copy scalars. -/
theorem v79_of (c : Dev nD) (b : Fin 8) (q : Fin 2048) (a : Fin 32)
    (Bc : S1x256.Idx → EReal) (vec : S8x2048x128.Idx → EReal) (gate : S8x2048x1.Idx → EReal)
    (hD : ∀ (b : Fin 8) (q : Fin 2048) (j : Fin 256), HostVal.denseOut outs c (ix3 b q j)
      = (∑ d : Fin 1024, (hA m c) (ix3 b q d)
          * HostVal.wcatOf (wnA m c) (wtA m c) (eA m c) (ix2 j d)) + Bc (ix2 (0 : Fin 1) j))
    (hBn : ∀ a : Fin 32, Bc (ix2 (0 : Fin 1) (⟨64 + a.val, by have := a.isLt; omega⟩ : Fin 256))
      = (btA m c) (ix1 a))
    (hBe : ∀ a : Fin 32, Bc (ix2 (0 : Fin 1) (⟨160 + a.val, by have := a.isLt; omega⟩ : Fin 256)) = 0)
    (hR : ∀ (b : Fin 8) (q : Fin 2048) (j : Fin 128), HostVal.retrOut outs c (ix3 b q j)
      = ∑ ki : Fin 4, if ki.val ≤ q.val / 512 then ∑ k' : Fin 512,
        (if 512 * ki.val + k'.val < q.val
          then ∑ d : Fin 1024, (Shared.hnOf (hA m c) (ix3 b q d) * gate (ix3 b q (0 : Fin 1)))
            * Shared.hnOf (hA m c) (ix3 b (Spec.tk ki k') d) else 0)
          * vec (ix3 b (Spec.tk ki k') j) else 0)
    (hgate : ∀ (b : Fin 8) (q : Fin 2048),
      gate (ix3 b q (0 : Fin 1)) = Spec.bit (decide (Shared.labOf (tokA m c) (ix2 b q) = 1#1)))
    (hvec : ∀ (b : Fin 8) (k : Fin 2048) (a : Fin 32), vec (ix3 b k (⟨64 + a.val, by have := a.isLt; omega⟩ : Fin 128))
      = Shared.ohTimeOf (tokA m c) (ix3 b k a) * Spec.bit (decide (Shared.valTimeOf (tokA m c) (ix2 b k) = 1#1)))
    (hh : ∀ i : S8x2048x1024.Idx, ∃ r : ℝ, (hA m c) i = (r : EReal))
    (hsc : ∃ r : ℝ, (sA10 m c) ix0 = (r : EReal))
    (hte : ∃ r : ℝ, (sA12 m c) ix0 = (r : EReal)) :
    (V31 m outs c main_v79 : S8x2048x32.Idx → EReal) (ix3 b q a)
      = Spec.Gtime (fun b q d => (hA m c) (ix3 b q d))
          (fun a d => (wtA m c) (ix2 a d)) (fun a => (btA m c) (ix1 a))
          (Shared.eTimeOf (eA m c))
          (fun b q d => Shared.hnOf (hA m c) (ix3 b q d))
          (fun b q => decide (Shared.labOf (tokA m c) (ix2 b q) = 1#1))
          (fun b k => decide (Shared.valTimeOf (tokA m c) (ix2 b k) = 1#1))
          (fun b k a => Shared.ohTimeOf (tokA m c) (ix3 b k a))
          (Shared.softplusOf (sA8 m c) ix0) (Shared.softplusOf (sA10 m c) ix0) (Shared.softplusOf (sA12 m c) ix0) b q a := by
  rw [HostVal.v79_apply m outs c b q a]
  exact Glue.time_glue (HostVal.denseOut outs c) (HostVal.retrOut outs c) (hA m c)
    (HostVal.wcatOf (wnA m c) (wtA m c) (eA m c)) Bc (Shared.hnOf (hA m c)) vec gate
    (wtA m c) (btA m c) (eA m c) _ _ _ _ _ _ b q a hD hR
    (fun a d => (HostVal.wcatOf_time _ _ _ ⟨64 + a.val, by have := a.isLt; omega⟩ d (by show 64 ≤ 64 + a.val; omega) (by show 64 + a.val < 96; have := a.isLt; omega)).trans (congrArg (fun j => (wtA m c) (ix2 j d)) (Fin.ext (by show 64 + a.val - 64 = a.val; omega))))
    (fun a d => (HostVal.wcatOf_tim2 _ _ _ ⟨160 + a.val, by have := a.isLt; omega⟩ d (by show 160 ≤ 160 + a.val; omega) (by show 160 + a.val < 192; have := a.isLt; omega)).trans (congrArg (fun j => (eA m c) (ix2 j d)) (Fin.ext (by show 69 + (160 + a.val - 160) = 69 + a.val; omega))))
    hBn hBe hgate hvec
    (fun k d => Shared.hnOf_real _ hh _) (fun k => Shared.ohTimeOf_real _ _)
    (Shared.softplusOf_real _ _ hsc) (Shared.softplusOf_real _ _ hte)

end Cert.KernelIdeal.KVal

end
-- ==== Proof.Val0Pay.lean ====
/-
  The dense projection of one row block, entry by entry: the block's result at (0, r, j) is the inner product over the
  1024 hidden coordinates of row r of the [1,512,1024] activation block with row j of the [256,1024] weight matrix,
  plus entry j of the [1,256] bias row. On the extended reals the narrowing of the activations is the identity, the
  transposed weight read at (d, j) is the weight at (j, d), and the product into the zero accumulator is the plain sum.
-/
import proofs.«114772_j1760936591416_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Val0

open Cert.KernelIdeal Cert.KernelIdeal.Gen Idealize.ShloMosaic Idealize.ShloMosaic.ValueIdx

/-! The dense projection of one row block, read at an index: entry (0, r, j) of the block's result is the inner
    product of row r of the activation block with row j of the weight matrix, plus entry j of the bias row. -/

/-- The block product's contraction record: its left index at output (r, j) and contraction position q is (r, q). -/
theorem lhs_row (i : S512x256.Idx) (q : dot_S512x1024_S1024x256_S512x256_1_0_0_1_n_n.contr.Idx) :
    (dot_S512x1024_S1024x256_S512x256_1_0_0_1_n_n.lhsIdx i q 0).val = (i 0).val := by
  unfold DotDims.lhsIdx
  rw [dif_neg (show ¬(0 : Fin S512x1024.rank) ∈ dot_S512x1024_S1024x256_S512x256_1_0_0_1_n_n.lhsBatch by decide),
    dif_pos (show (0 : Fin S512x1024.rank) ∈ dot_S512x1024_S1024x256_S512x256_1_0_0_1_n_n.lhsNonContracting by decide)]
  rfl

theorem lhs_contr (i : S512x256.Idx) (q : dot_S512x1024_S1024x256_S512x256_1_0_0_1_n_n.contr.Idx) :
    (dot_S512x1024_S1024x256_S512x256_1_0_0_1_n_n.lhsIdx i q 1).val = (q ⟨0, by decide⟩).val :=
  dot_S512x1024_S1024x256_S512x256_1_0_0_1_n_n.lhsIdx_val_of_single rfl i q

/-- Its right index there is (q, j). -/
theorem rhs_contr (i : S512x256.Idx) (q : dot_S512x1024_S1024x256_S512x256_1_0_0_1_n_n.contr.Idx) :
    (dot_S512x1024_S1024x256_S512x256_1_0_0_1_n_n.rhsIdx i q 0).val = (q ⟨0, by decide⟩).val :=
  dot_S512x1024_S1024x256_S512x256_1_0_0_1_n_n.rhsIdx_val_of_single rfl i q

theorem rhs_col (i : S512x256.Idx) (q : dot_S512x1024_S1024x256_S512x256_1_0_0_1_n_n.contr.Idx) :
    (dot_S512x1024_S1024x256_S512x256_1_0_0_1_n_n.rhsIdx i q 1).val = (i 1).val := by
  unfold DotDims.rhsIdx
  rw [dif_neg (show ¬(1 : Fin S1024x256.rank) ∈ dot_S512x1024_S1024x256_S512x256_1_0_0_1_n_n.rhsBatch by decide),
    dif_pos (show (1 : Fin S1024x256.rank) ∈ dot_S512x1024_S1024x256_S512x256_1_0_0_1_n_n.rhsNonContracting by decide)]
  rfl

/-- The product of a [512,1024] matrix with a [1024,256] one into the zero accumulator, at (r, j): the sum over the
    contraction coordinate. -/
theorem matmul_at (a : FVec Ideal S512x1024 .bf16) (b : FVec Ideal S1024x256 .bf16) (r : Fin 512) (j : Fin 256) :
    matmul dot_S512x1024_S1024x256_S512x256_1_0_0_1_n_n none a b (constant (F := Ideal) S512x256 .f32 0x00000000#32) (ix2 r j)
      = ∑ d : Fin 1024, a (ix2 r d) * b (ix2 d j) := by
  simp only [matmul]
  rw [Ideal.matmul_constant_zero_apply, ← Equiv.sum_comp (contrEquiv1 dot_S512x1024_S1024x256_S512x256_1_0_0_1_n_n 1024 rfl rfl).symm]
  refine Finset.sum_congr rfl fun k _ => ?_
  have hk := contrEquiv1_symm_val dot_S512x1024_S1024x256_S512x256_1_0_0_1_n_n 1024 rfl rfl k
  have el : dot_S512x1024_S1024x256_S512x256_1_0_0_1_n_n.lhsIdx (ix2 r j) ((contrEquiv1 dot_S512x1024_S1024x256_S512x256_1_0_0_1_n_n 1024 rfl rfl).symm k) = ix2 r k :=
    funext fun a => Fin.ext (by
      match a with
      | ⟨0, _⟩ => exact lhs_row _ _
      | ⟨1, _⟩ => exact (lhs_contr _ _).trans hk)
  have er : dot_S512x1024_S1024x256_S512x256_1_0_0_1_n_n.rhsIdx (ix2 r j) ((contrEquiv1 dot_S512x1024_S1024x256_S512x256_1_0_0_1_n_n 1024 rfl rfl).symm k) = ix2 k j :=
    funext fun a => Fin.ext (by
      match a with
      | ⟨0, _⟩ => exact (rhs_contr _ _).trans hk
      | ⟨1, _⟩ => exact rhs_col _ _)
  rw [el, er]

/-- THE PAYLOAD AT AN INDEX. -/
theorem pay_at (x0 : Vec Ideal S1x512x1024 .f32) (x3 : Vec Ideal S256x1024 .bf16) (x7 : Vec Ideal S1x256 .f32)
    (r : Fin 512) (j : Fin 256) :
    k0_pay1 x0 x3 x7 (ix3 (0 : Fin 1) r j)
      = (∑ d : Fin 1024, x0 (ix3 (0 : Fin 1) r d) * x3 (ix2 j d)) + x7 (ix2 (0 : Fin 1) j) := by
  unfold k0_pay1
  rw [shapeCast_apply _ shapeCasts_S512x256_S1x512x256 (ix3 (0 : Fin 1) r j) (ix2 r j)
    (by rw [Shape.rowMajor_val_two, Shape.rowMajor_val_three]; show r.val * 256 + j.val = (0 * 512 + r.val) * 256 + j.val; omega)]
  rw [addf_apply, matmul_at]
  congr 1
  · refine Finset.sum_congr rfl fun d _ => ?_
    rw [truncf_apply]
    rw [shapeCast_apply x0 shapeCasts_S1x512x1024_S512x1024 (ix2 r d) (ix3 (0 : Fin 1) r d)
      (by rw [Shape.rowMajor_val_two, Shape.rowMajor_val_three]; show (0 * 512 + r.val) * 1024 + d.val = r.val * 1024 + d.val; omega)]
    rw [transpose_apply [1, 0] _ transposes_S256x1024_p1_0_S1024x256 (ix2 d j) (ix2 j d) (fun b => by
      match b with
      | ⟨0, _⟩ => rfl
      | ⟨1, _⟩ => rfl)]
    rw [shapeCast_self]
  · rw [broadcastTo_apply _ broadcasts_S1x256_S512x256 (ix2 r j) (ix2 (0 : Fin 1) j) (fun a => by
      match a with
      | ⟨0, _⟩ => show (0 : Nat) = if (1 : Nat) = 1 then 0 else _; rw [if_pos rfl]
      | ⟨1, _⟩ => show j.val = if (256 : Nat) = 1 then 0 else j.val; rw [if_neg (by decide)])]
    rw [shapeCast_self]

end Cert.KernelIdeal.Val0

end
-- ==== Proof.Val0.lean ====
/-
  The dense projection over the whole [8,2048,256] result array: entry (b, s, j) is the inner product of activation
  row (b, s) with weight row j plus bias j. The grid's 32 points each write one [1,512,256] row block, the blocks
  tile the array, and each block is the restriction of this one function to its rows; hence the array after the
  call is that function of the activations, weights and bias as the call found them.
-/
import proofs.«114772_j1760936591416_2_alg».proof.Proof.Region0
import proofs.«114772_j1760936591416_2_alg».proof.Proof.Val0Pay
import Idealize.ShloMosaic.Lib.Pipeline.Value

noncomputable section

namespace Cert.KernelIdeal.Val0

open Cert.KernelIdeal Cert.KernelIdeal.Gen Idealize.ShloMosaic Idealize.ShloMosaic.TcCoe Idealize.SL.Sem
open Idealize.ShloMosaic.ValueIdx
open Idealize.ShloMosaic.Pipeline (Dat)

/-! The dense projection over the whole array: every row (b, s) of the [8,2048,1024] activations against every row j
    of the [256,1024] weight matrix, plus the bias. The 32 row blocks of the grid tile the result, each written
    once, and each block's result is the restriction of this one function. -/

/-- Entry (b, s, j) of the projection: the inner product of activation row (b, s) with weight row j, plus bias j. -/
def denseAt (h : S8x2048x1024.Idx → EReal) (w : S256x1024.Idx → EReal) (bias : S1x256.Idx → EReal) : S8x2048x256.Idx → EReal :=
  fun i => (∑ d : Fin 1024, h (ix3 (n0 := 8) (n1 := 2048) (n2 := 1024) (i 0) (i 1) d) * w (ix2 (n0 := 256) (n1 := 1024) (i 2) d))
    + bias (ix2 (n0 := 1) (n1 := 256) 0 (i 2))

/-- The whole-array function at the index with coordinates (b, s, j). -/
theorem denseAt_ix (H : S8x2048x1024.Idx → EReal) (W : S256x1024.Idx → EReal) (B : S1x256.Idx → EReal)
    (b : Fin 8) (s : Fin 2048) (j : Fin 256) :
    denseAt H W B (ix3 b s j) = (∑ d : Fin 1024, H (ix3 b s d) * W (ix2 j d)) + B (ix2 (0 : Fin 1) j) := rfl

/-- The block's result at (0, r, j) is the whole-array function at (b, s, j'), once the three blocks the body read
    are the corresponding rows of three whole arrays. -/
theorem pay_blk (x0 : Vec Ideal S1x512x1024 .f32) (x3 : Vec Ideal S256x1024 .bf16) (x7 : Vec Ideal S1x256 .f32)
    (H : S8x2048x1024.Idx → EReal) (W : S256x1024.Idx → EReal) (B : S1x256.Idx → EReal)
    (r : Fin 512) (j : Fin 256) (b : Fin 8) (s : Fin 2048) (j' : Fin 256)
    (h0 : ∀ d : Fin 1024, x0 (ix3 (0 : Fin 1) r d) = H (ix3 b s d))
    (h3 : ∀ d : Fin 1024, x3 (ix2 j d) = W (ix2 j' d))
    (h7 : x7 (ix2 (0 : Fin 1) j) = B (ix2 (0 : Fin 1) j')) :
    k0_pay1 x0 x3 x7 (ix3 (0 : Fin 1) r j) = denseAt H W B (ix3 b s j') := by
  rw [pay_at, denseAt_ix, h7]
  congr 1
  exact Finset.sum_congr rfl fun d _ => by rw [h0, h3]

variable (V : (c : Dev nD) → (b : Ref sig .tc) → Buf (Elt Ideal) ((c : Thread nD τ).loc b))

/-- The index maps, decided over the 32 grid points: the activation block moves with the output block along the
    batch and row axes, the weights and bias stay at block 0, and the output's block indices stay in range. -/
theorem idx_facts : ∀ t : Fin cfg0.N,
      win0_0.index t (0 : Fin 3) = win0_3.index t (0 : Fin 3)
    ∧ win0_0.index t (1 : Fin 3) = win0_3.index t (1 : Fin 3)
    ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (2 : Fin 3) = 0
    ∧ win0_3.index t (0 : Fin 3) ≤ 7 ∧ win0_3.index t (1 : Fin 3) ≤ 3 :=
  (by decide +kernel : ∀ t : Fin grid0.N, _)

/-- Every (batch, row-block) pair is some grid point's output block. -/
theorem idx_onto : ∀ (q0 : Fin 8) (q1 : Fin 4), ∃ t : Fin cfg0.N, win0_3.index t = ![q0.val, q1.val, 0] :=
  (by decide +kernel : ∀ (q0 : Fin 8) (q1 : Fin 4), ∃ t : Fin grid0.N, win0_3.index t = ![q0.val, q1.val, 0])

/-- What point t writes back is block t of the whole-array projection of the arrays as the call finds them. -/
theorem flushed_eq (c : Dev nD) (t : Fin cfg0.N) :
    (dat0 (F := Ideal) V c).flushed 3 t
      = ((cfg0.win 3).blk t).view.read (Elt Ideal)
          (denseAt (V c main_arg1 : S8x2048x1024.Idx → EReal) (V c main_v4 : S256x1024.Idx → EReal) (V c main_v8 : S1x256.Idx → EReal)) := by
  show (cfg0.win 3).cut (grid0.coords t) ((dat0 V c).after 3 t) = _
  rw [after0_3]
  obtain ⟨e0, e1, e2, e3, e4, e5, e6, e7, e8, e9⟩ := idx_facts t
  funext y
  obtain ⟨r, j, rfl⟩ : ∃ (r : Fin 512) (j : Fin 256), y = ix3 (0 : Fin 1) r j :=
    ⟨y 1, y 2, by
      funext a
      match a with
      | ⟨0, _⟩ => exact Fin.eq_zero _
      | ⟨1, _⟩ => rfl
      | ⟨2, _⟩ => rfl⟩
  obtain ⟨b, s, j', hi⟩ : ∃ (b : Fin 8) (s : Fin 2048) (j' : Fin 256),
      ((cfg0.win 3).blk t).view.emb (ix3 (0 : Fin 1) r j) = ix3 b s j' := ⟨_, _, _, eq_ix3 _⟩
  have hb : win0_3.index t (0 : Fin 3) * 1 + 1 * 0 = b.val := congrArg Fin.val (congrFun hi 0)
  have hs : win0_3.index t (1 : Fin 3) * 512 + 1 * r.val = s.val := congrArg Fin.val (congrFun hi 1)
  have hj : win0_3.index t (2 : Fin 3) * 256 + 1 * j.val = j'.val := congrArg Fin.val (congrFun hi 2)
  show k0_pay1 (iblk0 V c 0 t) (iblk0 V c 1 t) (iblk0 V c 2 t) (ix3 (0 : Fin 1) r j)
    = denseAt _ _ _ (((cfg0.win 3).blk t).view.emb (ix3 (0 : Fin 1) r j))
  rw [hi]
  refine pay_blk _ _ _ _ _ _ r j b s j' (fun d => ?_) (fun d => ?_) ?_
  · show V c main_arg1 (((cfg0.win 0).blk t).view.emb (ix3 (0 : Fin 1) r d)) = V c main_arg1 (ix3 b s d)
    congr 1
    funext a; apply Fin.ext
    match a with
    | ⟨0, _⟩ => show win0_0.index t (0 : Fin 3) * 1 + 1 * 0 = b.val; omega
    | ⟨1, _⟩ => show win0_0.index t (1 : Fin 3) * 512 + 1 * r.val = s.val; omega
    | ⟨2, _⟩ => show win0_0.index t (2 : Fin 3) * 1024 + 1 * d.val = d.val; omega
  · show V c main_v4 (((cfg0.win 1).blk t).view.emb (ix2 j d)) = V c main_v4 (ix2 j' d)
    congr 1
    funext a; apply Fin.ext
    match a with
    | ⟨0, _⟩ => show win0_1.index t (0 : Fin 2) * 256 + 1 * j.val = j'.val; omega
    | ⟨1, _⟩ => show win0_1.index t (1 : Fin 2) * 1024 + 1 * d.val = d.val; omega
  · show V c main_v8 (((cfg0.win 2).blk t).view.emb (ix2 (0 : Fin 1) j)) = V c main_v8 (ix2 (0 : Fin 1) j')
    congr 1
    funext a; apply Fin.ext
    match a with
    | ⟨0, _⟩ => show win0_2.index t (0 : Fin 2) * 1 + 1 * 0 = 0; omega
    | ⟨1, _⟩ => show win0_2.index t (1 : Fin 2) * 256 + 1 * j.val = j'.val; omega

/-- An index of the result array is in point t's block iff each coordinate is in the block's range on its axis. -/
theorem mem_blk (t : Fin cfg0.N) (i : S8x2048x256.Idx) :
    i ∈ ((cfg0.win 3).blk t).view.set ↔ ∀ a : Fin 3, win0_3.index t a * S1x512x256.size a ≤ (i a).val ∧ (i a).val < win0_3.index t a * S1x512x256.size a + S1x512x256.size a := by
  show i ∈ ((View.whole main_v9).slice (win0_3.rect t)).set ↔ _
  rw [View.set_slice_whole, Rect.mem_set_unit]
  exact Iff.rfl

/-- The blocks tile the result: index (b, s, j) is in the block of the point with batch b and row block s / 512. -/
theorem cover (i : S8x2048x256.Idx) : ∃ t : Fin cfg0.N, (cfg0.win 3).flush t = true ∧ i ∈ ((cfg0.win 3).blk t).view.set := by
  have hi0 : (i 0).val < 8 := (i 0).isLt
  have hi1 : (i 1).val < 2048 := (i 1).isLt
  have hi2 : (i 2).val < 256 := (i 2).isLt
  obtain ⟨t, ht⟩ := idx_onto ⟨(i 0).val, by omega⟩ ⟨(i 1).val / 512, by omega⟩
  have q0 : win0_3.index t (0 : Fin 3) = (i 0).val := congrFun ht 0
  have q1 : win0_3.index t (1 : Fin 3) = (i 1).val / 512 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 256 ≤ (i 2).val ∧ (i 2).val < win0_3.index t (2 : Fin 3) * 256 + 256; omega

/-- THE RESULT ARRAY after the call: the whole-array projection of the arrays as the call finds them. -/
theorem final0 (c : Dev nD) :
    (dat0 (F := Ideal) V c).arrAt 3 cfg0.N
      = denseAt (V c main_arg1 : S8x2048x1024.Idx → EReal) (V c main_v4 : S256x1024.Idx → EReal) (V c main_v8 : S1x256.Idx → EReal) :=
  (dat0 (F := Ideal) V c).arrAt_eq_of_cover 3 _ (fun t _ => flushed_eq V c t) cover

end Cert.KernelIdeal.Val0

end
-- ==== Proof.Val1Pay.lean ====
/-
  The three values the retrieval body stores, entry by entry: the zero fill of the [512,128] accumulator; the
  accumulator's update by one key tile — its previous entry plus the sum over the tile's 512 keys of the masked score
  (the gated query row's inner product with the key row, kept only where the key's position in the sequence is before
  the query's) times the key's value row —; and the copy of the accumulator into the [1,512,128] output block.
  The mask is computed on 32-bit words; tile numbers are below 4 and offsets below 512, so nothing wraps and the
  signed comparison of the words is the comparison of the numbers.
-/
import proofs.«114772_j1760936591416_2_alg».proof.Proof.Gen.KernelIdeal.Skeleton
import Idealize.ShloMosaic.Lib.Pipeline.Value
import Idealize.ShloMosaic.Lib.ValueIdx
import Idealize.ShloMosaic.Lib.Affine
import Idealize.ShloMosaic.PureOps.Ideal.Laws

noncomputable section

namespace Cert.KernelIdeal.Val1

open Cert.KernelIdeal Cert.KernelIdeal.Gen Idealize.ShloMosaic Idealize.ShloMosaic.ValueIdx

/-! The retrieval body's three stored values, each read at an index: the zero fill of the accumulator, the
    accumulator's update by one key tile (masked scores times the key tile's value rows), and the copy of the
    accumulator to the output block. -/

/-- The accumulator's reset stores zero everywhere. -/
theorem pay1_at (r : Fin 512) (j : Fin 128) : (k1_pay1 (F := Ideal)) (ix2 r j) = 0 := by
  unfold k1_pay1
  rw [shapeCast_self]
  show Ideal.ofBits .f32 0x00000000#32 = 0
  exact Ideal.ofBits_zero_f32

/-- The output block is the accumulator with a leading unit axis. -/
theorem pay3_at (v9 : Vec Ideal S512x128 .f32) (r : Fin 512) (j : Fin 128) :
    k1_pay3 v9 (ix3 (0 : Fin 1) r j) = v9 (ix2 r j) := by
  unfold k1_pay3
  exact shapeCast_apply _ shapeCasts_S512x128_S1x512x128 (ix3 (0 : Fin 1) r j) (ix2 r j)
    (by rw [Shape.rowMajor_val_two, Shape.rowMajor_val_three]; show r.val * 128 + j.val = (0 * 512 + r.val) * 128 + j.val; omega)

/-! ## Words: the causal mask -/

/-- A number below 4096 is its own signed reading as a 32-bit word. -/
theorem toInt_ofNat_small (n : ℕ) (h : n < 4096) : (BitVec.ofNat 32 n).toInt = (n : ℤ) := by
  rw [BitVec.toInt_ofNat']
  unfold Int.bmod
  simp only []
  split_ifs <;> omega

/-- Tile number times 512 plus the position inside the tile, computed on 32-bit words, is that number's word
    (tile numbers are below 4, positions below 512: nothing wraps). -/
theorem word_eq (a b : ℕ) (ha : a < 4) (hb : b < 512) :
    IntOp.addi (Scalar.muli (BitVec.ofNat 32 a) 512#32) (BitVec.ofNat 32 b) = BitVec.ofNat 32 (512 * a + b) := by
  apply BitVec.eq_of_toNat_eq
  unfold IntOp.addi Scalar.muli IntOp.muli
  simp only [BitVec.toNat_add, BitVec.toNat_mul, BitVec.toNat_ofNat]
  omega

/-- The signed comparison "key position < query position" on those words is the comparison of the numbers. -/
theorem causal_word (qi ki : ℕ) (hq : qi < 4) (hk : ki < 4) (r k' : Fin 512) :
    IntOp.cmpi .slt (IntOp.addi (Scalar.muli (BitVec.ofNat 32 ki) 512#32) (BitVec.ofNat 32 k'.val))
        (IntOp.addi (Scalar.muli (BitVec.ofNat 32 qi) 512#32) (BitVec.ofNat 32 r.val)) = 1#1
      ↔ 512 * ki + k'.val < 512 * qi + r.val := by
  have hr := r.isLt; have hk' := k'.isLt
  rw [word_eq ki k'.val hk hk', word_eq qi r.val hq hr, IntOp.cmpi_slt,
    toInt_ofNat_small _ (by omega), toInt_ofNat_small _ (by omega)]
  omega

/-- The contraction record of the [512,1024] × [1024,512] product: at output (r, c) and contraction position q its left index
    is (r, q) and its right index (q, c). -/
theorem lhs_row_qk (i : S512x512.Idx) (q : dot_S512x1024_S1024x512_S512x512_1_0_0_1_n_n.contr.Idx) : (dot_S512x1024_S1024x512_S512x512_1_0_0_1_n_n.lhsIdx i q 0).val = (i 0).val := by
  unfold DotDims.lhsIdx
  rw [dif_neg (show ¬(0 : Fin S512x1024.rank) ∈ dot_S512x1024_S1024x512_S512x512_1_0_0_1_n_n.lhsBatch by decide),
    dif_pos (show (0 : Fin S512x1024.rank) ∈ dot_S512x1024_S1024x512_S512x512_1_0_0_1_n_n.lhsNonContracting by decide)]
  rfl
theorem lhs_contr_qk (i : S512x512.Idx) (q : dot_S512x1024_S1024x512_S512x512_1_0_0_1_n_n.contr.Idx) : (dot_S512x1024_S1024x512_S512x512_1_0_0_1_n_n.lhsIdx i q 1).val = (q ⟨0, by decide⟩).val :=
  dot_S512x1024_S1024x512_S512x512_1_0_0_1_n_n.lhsIdx_val_of_single rfl i q
theorem rhs_contr_qk (i : S512x512.Idx) (q : dot_S512x1024_S1024x512_S512x512_1_0_0_1_n_n.contr.Idx) : (dot_S512x1024_S1024x512_S512x512_1_0_0_1_n_n.rhsIdx i q 0).val = (q ⟨0, by decide⟩).val :=
  dot_S512x1024_S1024x512_S512x512_1_0_0_1_n_n.rhsIdx_val_of_single rfl i q
theorem rhs_col_qk (i : S512x512.Idx) (q : dot_S512x1024_S1024x512_S512x512_1_0_0_1_n_n.contr.Idx) : (dot_S512x1024_S1024x512_S512x512_1_0_0_1_n_n.rhsIdx i q 1).val = (i 1).val := by
  unfold DotDims.rhsIdx
  rw [dif_neg (show ¬(1 : Fin S1024x512.rank) ∈ dot_S512x1024_S1024x512_S512x512_1_0_0_1_n_n.rhsBatch by decide),
    dif_pos (show (1 : Fin S1024x512.rank) ∈ dot_S512x1024_S1024x512_S512x512_1_0_0_1_n_n.rhsNonContracting by decide)]
  rfl

/-- That product into the zero accumulator, at (r, c): the sum over the contraction coordinate. -/
theorem matmul_at_qk (a : FVec Ideal S512x1024 .bf16) (b : FVec Ideal S1024x512 .bf16) (r : Fin 512) (c : Fin 512) :
    matmul dot_S512x1024_S1024x512_S512x512_1_0_0_1_n_n none a b (constant (F := Ideal) S512x512 .f32 0x00000000#32) (ix2 r c)
      = ∑ d : Fin 1024, a (ix2 r d) * b (ix2 d c) := by
  simp only [matmul]
  rw [Ideal.matmul_constant_zero_apply, ← Equiv.sum_comp (contrEquiv1 dot_S512x1024_S1024x512_S512x512_1_0_0_1_n_n 1024 rfl rfl).symm]
  refine Finset.sum_congr rfl fun k _ => ?_
  have hk := contrEquiv1_symm_val dot_S512x1024_S1024x512_S512x512_1_0_0_1_n_n 1024 rfl rfl k
  have el : dot_S512x1024_S1024x512_S512x512_1_0_0_1_n_n.lhsIdx (ix2 r c) ((contrEquiv1 dot_S512x1024_S1024x512_S512x512_1_0_0_1_n_n 1024 rfl rfl).symm k) = ix2 r k :=
    funext fun a => Fin.ext (by
      match a with
      | ⟨0, _⟩ => exact lhs_row_qk _ _
      | ⟨1, _⟩ => exact (lhs_contr_qk _ _).trans hk)
  have er : dot_S512x1024_S1024x512_S512x512_1_0_0_1_n_n.rhsIdx (ix2 r c) ((contrEquiv1 dot_S512x1024_S1024x512_S512x512_1_0_0_1_n_n 1024 rfl rfl).symm k) = ix2 k c :=
    funext fun a => Fin.ext (by
      match a with
      | ⟨0, _⟩ => exact (rhs_contr_qk _ _).trans hk
      | ⟨1, _⟩ => exact rhs_col_qk _ _)
  rw [el, er]

/-- The contraction record of the [512,512] × [512,128] product: at output (r, c) and contraction position q its left index
    is (r, q) and its right index (q, c). -/
theorem lhs_row_pv (i : S512x128.Idx) (q : dot_S512x512_S512x128_S512x128_1_0_0_1_n_n.contr.Idx) : (dot_S512x512_S512x128_S512x128_1_0_0_1_n_n.lhsIdx i q 0).val = (i 0).val := by
  unfold DotDims.lhsIdx
  rw [dif_neg (show ¬(0 : Fin S512x512.rank) ∈ dot_S512x512_S512x128_S512x128_1_0_0_1_n_n.lhsBatch by decide),
    dif_pos (show (0 : Fin S512x512.rank) ∈ dot_S512x512_S512x128_S512x128_1_0_0_1_n_n.lhsNonContracting by decide)]
  rfl
theorem lhs_contr_pv (i : S512x128.Idx) (q : dot_S512x512_S512x128_S512x128_1_0_0_1_n_n.contr.Idx) : (dot_S512x512_S512x128_S512x128_1_0_0_1_n_n.lhsIdx i q 1).val = (q ⟨0, by decide⟩).val :=
  dot_S512x512_S512x128_S512x128_1_0_0_1_n_n.lhsIdx_val_of_single rfl i q
theorem rhs_contr_pv (i : S512x128.Idx) (q : dot_S512x512_S512x128_S512x128_1_0_0_1_n_n.contr.Idx) : (dot_S512x512_S512x128_S512x128_1_0_0_1_n_n.rhsIdx i q 0).val = (q ⟨0, by decide⟩).val :=
  dot_S512x512_S512x128_S512x128_1_0_0_1_n_n.rhsIdx_val_of_single rfl i q
theorem rhs_col_pv (i : S512x128.Idx) (q : dot_S512x512_S512x128_S512x128_1_0_0_1_n_n.contr.Idx) : (dot_S512x512_S512x128_S512x128_1_0_0_1_n_n.rhsIdx i q 1).val = (i 1).val := by
  unfold DotDims.rhsIdx
  rw [dif_neg (show ¬(1 : Fin S512x128.rank) ∈ dot_S512x512_S512x128_S512x128_1_0_0_1_n_n.rhsBatch by decide),
    dif_pos (show (1 : Fin S512x128.rank) ∈ dot_S512x512_S512x128_S512x128_1_0_0_1_n_n.rhsNonContracting by decide)]
  rfl

/-- That product into the zero accumulator, at (r, c): the sum over the contraction coordinate. -/
theorem matmul_at_pv (a : FVec Ideal S512x512 .bf16) (b : FVec Ideal S512x128 .bf16) (r : Fin 512) (c : Fin 128) :
    matmul dot_S512x512_S512x128_S512x128_1_0_0_1_n_n none a b (constant (F := Ideal) S512x128 .f32 0x00000000#32) (ix2 r c)
      = ∑ d : Fin 512, a (ix2 r d) * b (ix2 d c) := by
  simp only [matmul]
  rw [Ideal.matmul_constant_zero_apply, ← Equiv.sum_comp (contrEquiv1 dot_S512x512_S512x128_S512x128_1_0_0_1_n_n 512 rfl rfl).symm]
  refine Finset.sum_congr rfl fun k _ => ?_
  have hk := contrEquiv1_symm_val dot_S512x512_S512x128_S512x128_1_0_0_1_n_n 512 rfl rfl k
  have el : dot_S512x512_S512x128_S512x128_1_0_0_1_n_n.lhsIdx (ix2 r c) ((contrEquiv1 dot_S512x512_S512x128_S512x128_1_0_0_1_n_n 512 rfl rfl).symm k) = ix2 r k :=
    funext fun a => Fin.ext (by
      match a with
      | ⟨0, _⟩ => exact lhs_row_pv _ _
      | ⟨1, _⟩ => exact (lhs_contr_pv _ _).trans hk)
  have er : dot_S512x512_S512x128_S512x128_1_0_0_1_n_n.rhsIdx (ix2 r c) ((contrEquiv1 dot_S512x512_S512x128_S512x128_1_0_0_1_n_n 512 rfl rfl).symm k) = ix2 k c :=
    funext fun a => Fin.ext (by
      match a with
      | ⟨0, _⟩ => exact (rhs_contr_pv _ _).trans hk
      | ⟨1, _⟩ => exact rhs_col_pv _ _)
  rw [el, er]

/-! ## The accumulator's update by one key tile -/

/-- The gated query block times the transposed key block, at (r, k'): the inner product over the hidden axis of
    the gated query row r with key row k'. -/
theorem scores_at (v9 v11 : FVec Ideal S1x512x1024 .bf16) (v13 : FVec Ideal S1x512x1 .bf16) (r k' : Fin 512) :
    matmul (φ₁ := .bf16) (φ₂ := .bf16) dot_S512x1024_S1024x512_S512x512_1_0_0_1_n_n none
        (mulf (φ := .bf16) (shapeCast S512x1024 v9 shapeCasts_S1x512x1024_S512x1024)
          (broadcastTo S512x1024 (shapeCast S512x1 v13 shapeCasts_S1x512x1_S512x1) broadcasts_S512x1_S512x1024))
        (transpose S1024x512 [1, 0] (shapeCast S512x1024 v11 shapeCasts_S1x512x1024_S512x1024) transposes_S512x1024_p1_0_S1024x512)
        (constant (F := Ideal) S512x512 .f32 0x00000000#32) (ix2 r k')
      = ∑ d : Fin 1024, (v9 (ix3 (0 : Fin 1) r d) * v13 (ix3 (0 : Fin 1) r (0 : Fin 1))) * v11 (ix3 (0 : Fin 1) k' d) := by
  rw [matmul_at_qk]
  refine Finset.sum_congr rfl fun d _ => ?_
  rw [mulf_apply]
  rw [shapeCast_apply v9 shapeCasts_S1x512x1024_S512x1024 (ix2 r d) (ix3 (0 : Fin 1) r d)
    (by rw [Shape.rowMajor_val_two, Shape.rowMajor_val_three]; show (0 * 512 + r.val) * 1024 + d.val = r.val * 1024 + d.val; omega)]
  rw [broadcastTo_apply _ broadcasts_S512x1_S512x1024 (ix2 r d) (ix2 r (0 : Fin 1)) (fun a => by
      match a with
      | ⟨0, _⟩ => show r.val = if (512 : Nat) = 1 then 0 else r.val; rw [if_neg (by decide)]
      | ⟨1, _⟩ => show (0 : Nat) = if (1 : Nat) = 1 then 0 else _; rw [if_pos rfl])]
  rw [shapeCast_apply v13 shapeCasts_S1x512x1_S512x1 (ix2 r (0 : Fin 1)) (ix3 (0 : Fin 1) r (0 : Fin 1))
    (by rw [Shape.rowMajor_val_two, Shape.rowMajor_val_three]; show (0 * 512 + r.val) * 1 + 0 = r.val * 1 + 0; omega)]
  rw [transpose_apply [1, 0] _ transposes_S512x1024_p1_0_S1024x512 (ix2 d k') (ix2 k' d) (fun b => by
      match b with
      | ⟨0, _⟩ => rfl
      | ⟨1, _⟩ => rfl)]
  rw [shapeCast_apply v11 shapeCasts_S1x512x1024_S512x1024 (ix2 k' d) (ix3 (0 : Fin 1) k' d)
    (by rw [Shape.rowMajor_val_two, Shape.rowMajor_val_three]; show (0 * 512 + k'.val) * 1024 + d.val = k'.val * 1024 + d.val; omega)]

/-- THE UPDATE AT AN INDEX: what the accumulator held, plus the sum over the key tile's positions of the masked score
    times the value row. The mask: the key's position in the sequence is before the query's. -/
theorem pay2_at (i : grid1.Coords) (v9 v11 : Vec Ideal S1x512x1024 .bf16) (v13 : Vec Ideal S1x512x1 .bf16)
    (v31 : Vec Ideal S1x512x128 .bf16) (v33 : Vec Ideal S512x128 .f32) (r : Fin 512) (j : Fin 128) :
    k1_pay2 i v9 v11 v13 v31 v33 (ix2 r j)
      = v33 (ix2 r j) + ∑ k' : Fin 512,
          (if 512 * (i 2).val + k'.val < 512 * (i 1).val + r.val
            then ∑ d : Fin 1024, (v9 (ix3 (0 : Fin 1) r d) * v13 (ix3 (0 : Fin 1) r (0 : Fin 1))) * v11 (ix3 (0 : Fin 1) k' d)
            else 0) * v31 (ix3 (0 : Fin 1) k' j) := by
  have hq : (i 1).val < 4 := (i 1).isLt
  have hk : (i 2).val < 4 := (i 2).isLt
  unfold k1_pay2
  dsimp only
  rw [shapeCast_self, addf_apply, matmul_at_pv]
  congr 1
  refine Finset.sum_congr rfl fun k' _ => ?_
  rw [shapeCast_apply v31 shapeCasts_S1x512x128_S512x128 (ix2 k' j) (ix3 (0 : Fin 1) k' j)
    (by rw [Shape.rowMajor_val_two, Shape.rowMajor_val_three]; show (0 * 512 + k'.val) * 128 + j.val = k'.val * 128 + j.val; omega)]
  congr 1
  rw [truncf_apply, select_apply]
  have hm : cmpi .slt
        (addi (broadcast S512x512 (Scalar.muli (BitVec.ofNat 32 (i 2).val) 512#32)) (iota .tc S512x512 32 [1] iota_S512x512_d1_w32))
        (addi (broadcast S512x512 (Scalar.muli (BitVec.ofNat 32 (i 1).val) 512#32)) (iota .tc S512x512 32 [0] iota_S512x512_d0_w32))
        (ix2 r k')
      = IntOp.cmpi .slt (IntOp.addi (Scalar.muli (BitVec.ofNat 32 (i 2).val) 512#32) (BitVec.ofNat 32 k'.val))
          (IntOp.addi (Scalar.muli (BitVec.ofNat 32 (i 1).val) 512#32) (BitVec.ofNat 32 r.val)) := by
    show IntOp.cmpi .slt (IntOp.addi _ (iota .tc S512x512 32 [1] iota_S512x512_d1_w32 (ix2 r k')))
      (IntOp.addi _ (iota .tc S512x512 32 [0] iota_S512x512_d0_w32 (ix2 r k'))) = _
    rw [iota_single_apply, iota_single_apply]
    rfl
  rw [hm]
  by_cases h : 512 * (i 2).val + k'.val < 512 * (i 1).val + r.val
  · rw [if_pos h, (causal_word _ _ hq hk r k').2 h, select_one, scores_at]
  · rw [if_neg h, eq_zero_of_ne_one (fun e => h ((causal_word _ _ hq hk r k').1 e)), select_zero, broadcast_apply]
    show Ideal.ofBits .f32 0x00000000#32 = 0
    exact Ideal.ofBits_zero_f32

end Cert.KernelIdeal.Val1

end
-- ==== Proof.Val1.lean ====
/-
  What the retrieval call leaves in its result array, over the extended reals: entry (b, q, j) is the sum over the key
  tiles up to the query's tile of the sums over the tile's keys strictly before q of the gated inner product of
  query row q with the key row, times the key's value entry j. Each (batch, query tile) block is written once, after
  its four key-tile steps, and the 32 blocks tile the array.
-/
import proofs.«114772_j1760936591416_2_alg».proof.Proof.Region1
import proofs.«114772_j1760936591416_2_alg».proof.Proof.Val1Pay
import proofs.«114772_j1760936591416_2_alg».proof.Proof.KernelAlg
import Idealize.ShloMosaic.Lib.Pipeline.Value

noncomputable section

namespace Cert.KernelIdeal.Val1

open Cert.KernelIdeal Cert.KernelIdeal.Gen Idealize.ShloMosaic Idealize.ShloMosaic.TcCoe Idealize.SL.Sem
open Idealize.ShloMosaic.ValueIdx
open Idealize.ShloMosaic.Pipeline (Dat)

/-! The causal retrieval over the whole array: for batch b, query position q and column j, the sum over the key tiles
    up to the query's tile of the sums over the tile's keys strictly before q of the gated inner product of the
    query row with the key row, times the key's value entry. The 32 (batch, query tile) blocks tile the result, each
    written once, after its four key-tile steps. -/

/-- Entry (b, q, j) of the retrieval. -/
def retrAt (hn : S8x2048x1024.Idx → EReal) (vec : S8x2048x128.Idx → EReal) (gate : S8x2048x1.Idx → EReal) : S8x2048x128.Idx → EReal :=
  fun i => ∑ ki : Fin 4, if ki.val ≤ (i 1).val / 512 then ∑ k' : Fin 512,
      (if 512 * ki.val + k'.val < (i 1).val
        then ∑ d : Fin 1024, (hn (ix3 (n0 := 8) (n1 := 2048) (n2 := 1024) (i 0) (i 1) d) * gate (ix3 (n0 := 8) (n1 := 2048) (n2 := 1) (i 0) (i 1) (0 : Fin 1)))
          * hn (ix3 (n0 := 8) (n1 := 2048) (n2 := 1024) (i 0) (Cert.Spec.tk ki k') d)
        else 0)
        * vec (ix3 (n0 := 8) (n1 := 2048) (n2 := 128) (i 0) (Cert.Spec.tk ki k') (i 2)) else 0

/-- The whole-array function at the index with coordinates (b, q, j). -/
theorem retrAt_ix (HN : S8x2048x1024.Idx → EReal) (VEC : S8x2048x128.Idx → EReal) (GATE : S8x2048x1.Idx → EReal)
    (b : Fin 8) (q : Fin 2048) (j : Fin 128) :
    retrAt HN VEC GATE (ix3 b q j) = ∑ ki : Fin 4, if ki.val ≤ q.val / 512 then ∑ k' : Fin 512,
      (if 512 * ki.val + k'.val < q.val
        then ∑ d : Fin 1024, (HN (ix3 b q d) * GATE (ix3 b q (0 : Fin 1))) * HN (ix3 b (Cert.Spec.tk ki k') d)
        else 0) * VEC (ix3 b (Cert.Spec.tk ki k') j) else 0 := rfl

/-- One key tile's contribution to entry (b, q, j). -/
def tile (HN : S8x2048x1024.Idx → EReal) (VEC : S8x2048x128.Idx → EReal) (GATE : S8x2048x1.Idx → EReal)
    (b : Fin 8) (q : Fin 2048) (j : Fin 128) (ki : Fin 4) : EReal :=
  ∑ k' : Fin 512,
    (if 512 * ki.val + k'.val < q.val
      then ∑ d : Fin 1024, (HN (ix3 b q d) * GATE (ix3 b q (0 : Fin 1))) * HN (ix3 b (Cert.Spec.tk ki k') d)
      else 0) * VEC (ix3 b (Cert.Spec.tk ki k') j)

theorem retrAt_tile (HN : S8x2048x1024.Idx → EReal) (VEC : S8x2048x128.Idx → EReal) (GATE : S8x2048x1.Idx → EReal)
    (b : Fin 8) (q : Fin 2048) (j : Fin 128) :
    retrAt HN VEC GATE (ix3 b q j) = ∑ ki : Fin 4, if ki.val ≤ q.val / 512 then tile HN VEC GATE b q j ki else 0 := rfl

variable (V : (c : Dev nD) → (b : Ref sig .tc) → Buf (Elt Ideal) ((c : Thread nD τ).loc b))

/-- The index maps and the coordinates, decided over the 128 grid points: with t = (b·4 + qi)·4 + ki, the query,
    gate and output blocks sit at (b, qi), the key and value blocks at (b, ki) wherever ki ≤ qi. -/
theorem idx_facts : ∀ t : Fin cfg1.N,
      win1_0.index t (0 : Fin 3) = t.val / 16 ∧ win1_0.index t (1 : Fin 3) = t.val / 4 % 4 ∧ win1_0.index t (2 : Fin 3) = 0
    ∧ win1_1.index t (0 : Fin 3) = t.val / 16 ∧ (t.val % 4 ≤ t.val / 4 % 4 → win1_1.index t (1 : Fin 3) = t.val % 4) ∧ win1_1.index t (2 : Fin 3) = 0
    ∧ win1_2.index t (0 : Fin 3) = t.val / 16 ∧ (t.val % 4 ≤ t.val / 4 % 4 → win1_2.index t (1 : Fin 3) = t.val % 4) ∧ win1_2.index t (2 : Fin 3) = 0
    ∧ win1_3.index t (0 : Fin 3) = t.val / 16 ∧ win1_3.index t (1 : Fin 3) = t.val / 4 % 4 ∧ win1_3.index t (2 : Fin 3) = 0
    ∧ win1_4.index t (0 : Fin 3) = t.val / 16 ∧ win1_4.index t (1 : Fin 3) = t.val / 4 % 4 ∧ win1_4.index t (2 : Fin 3) = 0
    ∧ (grid1.coords t 1).val = t.val / 4 % 4 ∧ (grid1.coords t 2).val = t.val % 4 :=
  (by decide +kernel : ∀ t : Fin grid1.N, _)

/-- ONE POINT'S EFFECT AT AN ENTRY: at the point with batch b, query tile qi and key tile ki, where ki ≤ qi the
    accumulator's entry (r, j) — zero where ki = 0 — gains tile ki's contribution to entry (b, 512·qi + r, j);
    elsewhere it stays. -/
theorem acc_point (c : Dev nD) (n : ℕ) (hn : n < cfg1.N) (r : Fin 512) (j : Fin 128) (b : Fin 8) (s : Fin 2048) (qi ki : Fin 4)
    (hb : n / 16 = b.val) (hq : n / 4 % 4 = qi.val) (hk : n % 4 = ki.val) (hs : s.val = 512 * qi.val + r.val) :
    acc1 V c (n + 1) (ix2 r j)
      = if ki.val ≤ qi.val then (if ki.val = 0 then 0 else acc1 V c n (ix2 r j)) + tile (V c main_v56 : S8x2048x1024.Idx → EReal) (V c main_v48 : S8x2048x128.Idx → EReal) (V c main_v50 : S8x2048x1.Idx → EReal) b s j ki
        else acc1 V c n (ix2 r j) := by
  obtain ⟨a00, a01, a02, a10, a11, a12, a20, a21, a22, a30, a31, a32, a40, a41, a42, hc1, hc2⟩ := idx_facts ⟨n, hn⟩
  dsimp only at a00 a01 a02 a10 a11 a12 a20 a21 a22 a30 a31 a32 hc1 hc2
  rw [acc1_succ V c ⟨n, hn⟩]
  unfold step1
  dsimp only
  by_cases h1 : n % 4 ≤ n / 4 % 4
  · rw [if_pos h1, if_pos (show ki.val ≤ qi.val by omega), pay2_at]
    congr 1
    · by_cases h0 : n % 4 = 0
      · rw [if_pos h0, if_pos (show ki.val = 0 by omega), pay1_at]
      · rw [if_neg h0, if_neg (show ¬ki.val = 0 by omega)]
    · unfold tile
      refine Finset.sum_congr rfl fun k' _ => ?_
      have e0 : ∀ d : Fin 1024, iblk1 V c 0 ⟨n, hn⟩ (ix3 (0 : Fin 1) r d) = V c main_v56 (ix3 b s d) := fun d => by
        show V c main_v56 (((cfg1.win 0).blk ⟨n, hn⟩).view.emb (ix3 (0 : Fin 1) r d)) = V c main_v56 (ix3 b s d)
        congr 1
        funext a; apply Fin.ext
        match a with
        | ⟨0, _⟩ => show win1_0.index ⟨n, hn⟩ (0 : Fin 3) * 1 + 1 * 0 = b.val; omega
        | ⟨1, _⟩ => show win1_0.index ⟨n, hn⟩ (1 : Fin 3) * 512 + 1 * r.val = s.val; omega
        | ⟨2, _⟩ => show win1_0.index ⟨n, hn⟩ (2 : Fin 3) * 1024 + 1 * d.val = d.val; omega
      have e1 : ∀ d : Fin 1024, iblk1 V c 1 ⟨n, hn⟩ (ix3 (0 : Fin 1) k' d) = V c main_v56 (ix3 b (Cert.Spec.tk ki k') d) := fun d => by
        show V c main_v56 (((cfg1.win 1).blk ⟨n, hn⟩).view.emb (ix3 (0 : Fin 1) k' d)) = V c main_v56 (ix3 b (Cert.Spec.tk ki k') d)
        congr 1
        funext a; apply Fin.ext
        have a11' := a11 h1
        match a with
        | ⟨0, _⟩ => show win1_1.index ⟨n, hn⟩ (0 : Fin 3) * 1 + 1 * 0 = b.val; omega
        | ⟨1, _⟩ => show win1_1.index ⟨n, hn⟩ (1 : Fin 3) * 512 + 1 * k'.val = 512 * ki.val + k'.val; omega
        | ⟨2, _⟩ => show win1_1.index ⟨n, hn⟩ (2 : Fin 3) * 1024 + 1 * d.val = d.val; omega
      have e2 : iblk1 V c 2 ⟨n, hn⟩ (ix3 (0 : Fin 1) k' j) = V c main_v48 (ix3 b (Cert.Spec.tk ki k') j) := by
        show V c main_v48 (((cfg1.win 2).blk ⟨n, hn⟩).view.emb (ix3 (0 : Fin 1) k' j)) = V c main_v48 (ix3 b (Cert.Spec.tk ki k') j)
        congr 1
        funext a; apply Fin.ext
        have a21' := a21 h1
        match a with
        | ⟨0, _⟩ => show win1_2.index ⟨n, hn⟩ (0 : Fin 3) * 1 + 1 * 0 = b.val; omega
        | ⟨1, _⟩ => show win1_2.index ⟨n, hn⟩ (1 : Fin 3) * 512 + 1 * k'.val = 512 * ki.val + k'.val; omega
        | ⟨2, _⟩ => show win1_2.index ⟨n, hn⟩ (2 : Fin 3) * 128 + 1 * j.val = j.val; omega
      have e3 : iblk1 V c 3 ⟨n, hn⟩ (ix3 (0 : Fin 1) r (0 : Fin 1)) = V c main_v50 (ix3 b s (0 : Fin 1)) := by
        show V c main_v50 (((cfg1.win 3).blk ⟨n, hn⟩).view.emb (ix3 (0 : Fin 1) r (0 : Fin 1))) = V c main_v50 (ix3 b s (0 : Fin 1))
        congr 1
        funext a; apply Fin.ext
        match a with
        | ⟨0, _⟩ => show win1_3.index ⟨n, hn⟩ (0 : Fin 3) * 1 + 1 * 0 = b.val; omega
        | ⟨1, _⟩ => show win1_3.index ⟨n, hn⟩ (1 : Fin 3) * 512 + 1 * r.val = s.val; omega
        | ⟨2, _⟩ => show win1_3.index ⟨n, hn⟩ (2 : Fin 3) * 1 + 1 * 0 = 0; omega
      rw [e2, e3]
      simp only [e0, e1]
      rw [hc1, hc2, hq, hk, ← hs]
  · rw [if_neg h1, if_neg (show ¬ki.val ≤ qi.val by omega)]

/-- What a writing point writes back is its block of the whole-array retrieval of the arrays as the call finds them. -/
theorem flushed_eq (c : Dev nD) (t : Fin cfg1.N) (h3 : t.val % 4 = 3) :
    (dat1 (F := Ideal) V c).flushed 4 t
      = ((cfg1.win 4).blk t).view.read (Elt Ideal) (retrAt (V c main_v56 : S8x2048x1024.Idx → EReal) (V c main_v48 : S8x2048x128.Idx → EReal) (V c main_v50 : S8x2048x1.Idx → EReal)) := by
  show (cfg1.win 4).cut (grid1.coords t) ((dat1 V c).after 4 t) = _
  rw [after1_4]
  have hN : t.val < 128 := lt_of_lt_of_eq t.isLt (show cfg1.N = 128 from N_1)
  obtain ⟨-, -, -, -, -, -, -, -, -, -, -, -, a40, a41, a42, -, -⟩ := idx_facts t
  funext y
  obtain ⟨r, j, rfl⟩ : ∃ (r : Fin 512) (j : Fin 128), y = ix3 (0 : Fin 1) r j :=
    ⟨y 1, y 2, by
      funext a
      match a with
      | ⟨0, _⟩ => exact Fin.eq_zero _
      | ⟨1, _⟩ => rfl
      | ⟨2, _⟩ => rfl⟩
  obtain ⟨b, s, j', hi⟩ : ∃ (b : Fin 8) (s : Fin 2048) (j' : Fin 128),
      ((cfg1.win 4).blk t).view.emb (ix3 (0 : Fin 1) r j) = ix3 b s j' := ⟨_, _, _, eq_ix3 _⟩
  have hb : win1_4.index t (0 : Fin 3) * 1 + 1 * 0 = b.val := congrArg Fin.val (congrFun hi 0)
  have hs : win1_4.index t (1 : Fin 3) * 512 + 1 * r.val = s.val := congrArg Fin.val (congrFun hi 1)
  have hj : win1_4.index t (2 : Fin 3) * 128 + 1 * j.val = j'.val := congrArg Fin.val (congrFun hi 2)
  obtain rfl : j = j' := Fin.ext (by omega)
  show k1_pay3 (acc1 V c (t.val + 1)) (ix3 (0 : Fin 1) r j)
    = retrAt _ _ _ (((cfg1.win 4).blk t).view.emb (ix3 (0 : Fin 1) r j))
  rw [hi, pay3_at, retrAt_tile]
  obtain ⟨m, hm⟩ : ∃ m, t.val = m + 3 := ⟨t.val - 3, by omega⟩
  have hcN : cfg1.N = 128 := N_1
  let qi : Fin 4 := ⟨t.val / 4 % 4, Nat.mod_lt _ (by decide)⟩
  have hqi : qi.val = t.val / 4 % 4 := rfl
  have hsq : s.val / 512 = qi.val := by omega
  rw [hsq, hm]
  have A3 := acc_point V c (m + 3) (by omega) r j b s qi (3 : Fin 4) (by omega) (by omega) (by show (m + 3) % 4 = 3; omega) (by omega)
  have A2 := acc_point V c (m + 2) (by omega) r j b s qi (2 : Fin 4) (by omega) (by omega) (by show (m + 2) % 4 = 2; omega) (by omega)
  have A1 := acc_point V c (m + 1) (by omega) r j b s qi (1 : Fin 4) (by omega) (by omega) (by show (m + 1) % 4 = 1; omega) (by omega)
  have A0 := acc_point V c m (by omega) r j b s qi (0 : Fin 4) (by omega) (by omega) (by show m % 4 = 0; omega) (by omega)
  rw [if_pos (c := (0 : Fin 4).val ≤ qi.val) (Nat.zero_le _), if_pos (c := (0 : Fin 4).val = 0) rfl] at A0
  rw [if_neg (c := (1 : Fin 4).val = 0) (by decide)] at A1
  rw [if_neg (c := (2 : Fin 4).val = 0) (by decide)] at A2
  rw [if_neg (c := (3 : Fin 4).val = 0) (by decide)] at A3
  rw [A3, A2, A1, A0]
  rw [Fin.sum_univ_four, if_pos (c := (0 : Fin 4).val ≤ qi.val) (Nat.zero_le _)]
  split_ifs <;> simp only [zero_add, add_zero, add_assoc]

/-- An index of the result array is in point t's block iff each coordinate is in the block's range on its axis. -/
theorem mem_blk (t : Fin cfg1.N) (i : S8x2048x128.Idx) :
    i ∈ ((cfg1.win 4).blk t).view.set ↔ ∀ a : Fin 3, win1_4.index t a * S1x512x128.size a ≤ (i a).val ∧ (i a).val < win1_4.index t a * S1x512x128.size a + S1x512x128.size a := by
  show i ∈ ((View.whole main_v57).slice (win1_4.rect t)).set ↔ _
  rw [View.set_slice_whole, Rect.mem_set_unit]
  exact Iff.rfl

/-- The blocks of the writing points tile the result: index (b, q, j) is in the block of the last key-tile step of
    batch b and query tile q / 512. -/
theorem cover (i : S8x2048x128.Idx) : ∃ t : Fin cfg1.N, (cfg1.win 4).flush t = true ∧ i ∈ ((cfg1.win 4).blk t).view.set := by
  have hi0 : (i 0).val < 8 := (i 0).isLt
  have hi1 : (i 1).val < 2048 := (i 1).isLt
  have hi2 : (i 2).val < 128 := (i 2).isLt
  have hcN : cfg1.N = 128 := N_1
  let t : Fin cfg1.N := ⟨16 * (i 0).val + 4 * ((i 1).val / 512) + 3, by omega⟩
  have htv : t.val = 16 * (i 0).val + 4 * ((i 1).val / 512) + 3 := rfl
  obtain ⟨-, -, -, -, -, -, -, -, -, -, -, -, a40, a41, a42, -, -⟩ := idx_facts t
  refine ⟨t, (flush1_4 t).mpr (by omega), ?_⟩
  rw [mem_blk]
  intro a
  match a with
  | ⟨0, _⟩ => show win1_4.index t (0 : Fin 3) * 1 ≤ (i 0).val ∧ (i 0).val < win1_4.index t (0 : Fin 3) * 1 + 1; omega
  | ⟨1, _⟩ => show win1_4.index t (1 : Fin 3) * 512 ≤ (i 1).val ∧ (i 1).val < win1_4.index t (1 : Fin 3) * 512 + 512; omega
  | ⟨2, _⟩ => show win1_4.index t (2 : Fin 3) * 128 ≤ (i 2).val ∧ (i 2).val < win1_4.index t (2 : Fin 3) * 128 + 128; omega

/-- THE RESULT ARRAY after the call: the whole-array retrieval of the arrays as the call finds them. -/
theorem final1 (c : Dev nD) :
    (dat1 (F := Ideal) V c).arrAt 4 cfg1.N = retrAt (V c main_v56 : S8x2048x1024.Idx → EReal) (V c main_v48 : S8x2048x128.Idx → EReal) (V c main_v50 : S8x2048x1.Idx → EReal) :=
  (dat1 (F := Ideal) V c).arrAt_eq_of_cover 4 _ (fun t hf => flushed_eq V c t ((flush1_4 t).mp hf)) cover

end Cert.KernelIdeal.Val1

end
-- ==== Proof.HostValOps0C.lean ====
/-
  The stacked bias row the dense region adds, as a function of the two bias vectors, read at an entry: entries 0 … 63 are
  b_next, 64 … 95 b_time, 96 … 255 zero.
-/
import proofs.«114772_j1760936591416_2_alg».proof.Proof.Gen.KernelIdeal.Regions
import Idealize.ShloMosaic.Lib.StableHlo.Run
import Idealize.ShloMosaic.Lib.ValueIdx
import Idealize.ShloMosaic.Lib.Pipeline.Value
import Idealize.ShloMosaic.PureOps.Ideal.Laws
import proofs.«114772_j1760936591416_2_alg».proof.Proof.Shared
import proofs.«114772_j1760936591416_2_alg».proof.Proof.HostValPad
import proofs.«114772_j1760936591416_2_alg».proof.Proof.HostValOps0B

set_option maxRecDepth 1384

noncomputable section

namespace Cert.KernelIdeal.HostVal

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (outs : Gen.Outs (F := Ideal))

/-- Each remaining operation's result read at a reference: its function's value at its own result, the earlier contents elsewhere. -/
macro "more_results" : tactic =>
  `(tactic| (repeat (first
     | rw [nullary_result] | rw [unary_result] | rw [binary_result] | rw [ternary_result] | rw [reshape_result] | rw [nary_result]
     | (rw [nullary_result_ne]; rotate_left; decide)
     | (rw [unary_result_ne]; rotate_left; decide)
     | (rw [binary_result_ne]; rotate_left; decide)
     | (rw [ternary_result_ne]; rotate_left; decide)
     | (rw [reshape_result_ne]; rotate_left; decide)
     | (rw [nary_result_ne]; rotate_left; decide))))

/-! ## The dense-heads region's bias operand -/

/-- The bias row the dense-heads region adds: `b_next`, `b_time`, 96 zeros, then 64 entries of the padding value
    (the integer 0 as a float), as one row of 256. -/
def bcatOf (bn : S64.Idx → EReal) (bt : S32.Idx → EReal) : S1x256.Idx → EReal :=
  shapeCast S1x256
    (pad S256 ![0] ![64] ![0] (concatenate S192 0 [⟨S64, bn⟩, ⟨S32, bt⟩,
        ⟨S96, broadcastInDim S96 ![] bcast_S_S96 (constant (F := Ideal) S_ .f32 0x00000000#32)⟩] concatenates_S64_S32_S96_S192_d0)
      (sitofp (F := Ideal) (s := S_) .f32 (constantI S_ 32 0#32)) pads_S192_S256_0640 h_S_)
    shapeCasts_S256_S1x256

theorem V3_v6_of (c : Dev nD) :
    (V3 m c main_v6 : S192.Idx → EReal)
      = concatenate S192 0 [⟨S64, (V2 m c (Proc.devRef .tc main_arg4) : S64.Idx → EReal)⟩, ⟨S32, (V2 m c (Proc.devRef .tc main_arg6) : S32.Idx → EReal)⟩,
        ⟨S96, broadcastInDim S96 ![] bcast_S_S96 (constant (F := Ideal) S_ .f32 0x00000000#32)⟩] concatenates_S64_S32_S96_S192_d0 := by
  show StableHlo.after hostOps0_2 (V2 m c) (Proc.devRef .tc main_v6) = concatenate S192 0 [⟨S64, (V2 m c (Proc.devRef .tc main_arg4) : S64.Idx → EReal)⟩, ⟨S32, (V2 m c (Proc.devRef .tc main_arg6) : S32.Idx → EReal)⟩,
        ⟨S96, broadcastInDim S96 ![] bcast_S_S96 (constant (F := Ideal) S_ .f32 0x00000000#32)⟩] concatenates_S64_S32_S96_S192_d0
  generalize V2 m c = W
  after_results
  simp only [Matrix.cons_val]
  more_results
  all_goals rfl
theorem V3_c_0_of (c : Dev nD) :
    (V3 m c main_c_0 : S_.Idx → BitVec 32)
      = constantI S_ 32 0#32 := by
  show StableHlo.after hostOps0_2 (V2 m c) (Proc.devRef .tc main_c_0) = constantI S_ 32 0#32
  generalize V2 m c = W
  after_results
  all_goals rfl
theorem V4_v7_of (c : Dev nD) :
    (V4 m c main_v7 : S256.Idx → EReal)
      = pad S256 ![0] ![64] ![0] (V3 m c (Proc.devRef .tc main_v6) : S192.Idx → EReal)
        (sitofp (F := Ideal) (s := S_) .f32 (V3 m c (Proc.devRef .tc main_c_0) : S_.Idx → BitVec 32)) pads_S192_S256_0640 h_S_ := by
  show StableHlo.after hostOps0_3 (V3 m c) (Proc.devRef .tc main_v7) = pad S256 ![0] ![64] ![0] (V3 m c (Proc.devRef .tc main_v6) : S192.Idx → EReal)
        (sitofp (F := Ideal) (s := S_) .f32 (V3 m c (Proc.devRef .tc main_c_0) : S_.Idx → BitVec 32)) pads_S192_S256_0640 h_S_
  generalize V3 m c = W
  after_results
  all_goals rfl
theorem V5_v8_of (c : Dev nD) :
    (V5 m c main_v8 : S1x256.Idx → EReal)
      = shapeCast S1x256 (V4 m c (Proc.devRef .tc main_v7) : S256.Idx → EReal) shapeCasts_S256_S1x256 := by
  show StableHlo.after hostOps0_4 (V4 m c) (Proc.devRef .tc main_v8) = shapeCast S1x256 (V4 m c (Proc.devRef .tc main_v7) : S256.Idx → EReal) shapeCasts_S256_S1x256
  generalize V4 m c = W
  after_results
  all_goals rfl

/-- The bias operand at the dense-heads region's entry is `bcatOf` of the two bias arguments. -/
theorem V5_v8 (c : Dev nD) :
    (V5 m c main_v8 : S1x256.Idx → EReal) = bcatOf (m ((c : Thread nD τ).loc main_arg4)) (m ((c : Thread nD τ).loc main_arg6)) := by
  rw [V5_v8_of, V4_v7_of, V3_v6_of, V3_c_0_of, (V2_of m c main_arg4 (by decide)).trans <| (V1_of m c main_arg4 (by decide)), (V2_of m c main_arg6 (by decide)).trans <| (V1_of m c main_arg6 (by decide))]
  rfl

/-! ## The bias operand read at an index -/

/-- Entries below 192 of the padded bias are the concatenation's entries. -/
theorem bcatOf_lt (bn : S64.Idx → EReal) (bt : S32.Idx → EReal) (z : Fin 1) (j : Fin 256) (hj : j.val < 192) :
    bcatOf bn bt (ValueIdx.ix2 z j) = (concatenate S192 0 [⟨S64, bn⟩, ⟨S32, bt⟩,
        ⟨S96, broadcastInDim S96 ![] bcast_S_S96 (constant (F := Ideal) S_ .f32 0x00000000#32)⟩] concatenates_S64_S32_S96_S192_d0) (ValueIdx.ix1 ⟨j.val, hj⟩) := by
  unfold bcatOf
  rw [shapeCast_apply _ shapeCasts_S256_S1x256 (ValueIdx.ix2 z j) (ValueIdx.ix1 j)
    (by rw [Shape.rowMajor_val_two, Shape.rowMajor_val_one]; show j.val = z.val * 256 + j.val; have := z.isLt; omega)]
  exact pad_apply_in ![0] ![64] ![0] _ _ pads_S192_S256_0640 h_S_ (ValueIdx.ix1 j) (ValueIdx.ix1 ⟨j.val, hj⟩)
    (fun a => match a with
      | ⟨0, _⟩ => by show j.val = 0 + j.val * (0 + 1); omega)

/-- Entries 0 … 63: `b_next`. -/
theorem bcatOf_next (bn : S64.Idx → EReal) (bt : S32.Idx → EReal) (z : Fin 1) (j : Fin 256) (hj : j.val < 64) :
    bcatOf bn bt (ValueIdx.ix2 z j) = bn (ValueIdx.ix1 ⟨j.val, hj⟩) := by
  rw [bcatOf_lt bn bt z j (by omega)]
  exact concatenate_apply_piece (0 : Fin S192.rank) [⟨S64, bn⟩, ⟨S32, bt⟩, ⟨S96, broadcastInDim S96 ![] bcast_S_S96 (constant (F := Ideal) S_ .f32 0x00000000#32)⟩] concatenates_S64_S32_S96_S192_d0 (ValueIdx.ix1 ⟨j.val, by omega⟩)
    0 (by show 0 < 3; omega) S64 bn rfl rfl 0 rfl (ValueIdx.ix1 ⟨j.val, hj⟩)
    (fun b hb => match b with
      | ⟨0, _⟩ => absurd rfl hb)
    (by show 0 + j.val = j.val; omega)

/-- Entries 64 … 95: `b_time`. -/
theorem bcatOf_time (bn : S64.Idx → EReal) (bt : S32.Idx → EReal) (z : Fin 1) (j : Fin 256) (h0 : 64 ≤ j.val) (h1 : j.val < 96) :
    bcatOf bn bt (ValueIdx.ix2 z j) = bt (ValueIdx.ix1 ⟨j.val - 64, by omega⟩) := by
  rw [bcatOf_lt bn bt z j (by omega)]
  exact concatenate_apply_piece (0 : Fin S192.rank) [⟨S64, bn⟩, ⟨S32, bt⟩, ⟨S96, broadcastInDim S96 ![] bcast_S_S96 (constant (F := Ideal) S_ .f32 0x00000000#32)⟩] concatenates_S64_S32_S96_S192_d0 (ValueIdx.ix1 ⟨j.val, by omega⟩)
    1 (by show 1 < 3; omega) S32 bt rfl rfl 64 rfl (ValueIdx.ix1 ⟨j.val - 64, by omega⟩)
    (fun b hb => match b with
      | ⟨0, _⟩ => absurd rfl hb)
    (by show 64 + (j.val - 64) = j.val; omega)

/-- Entries 96 … 191: 0. -/
theorem bcatOf_zero (bn : S64.Idx → EReal) (bt : S32.Idx → EReal) (z : Fin 1) (j : Fin 256) (h0 : 96 ≤ j.val) (h1 : j.val < 192) :
    bcatOf bn bt (ValueIdx.ix2 z j) = (0 : EReal) := by
  rw [bcatOf_lt bn bt z j h1]
  refine (concatenate_apply_piece (0 : Fin S192.rank) [⟨S64, bn⟩, ⟨S32, bt⟩, ⟨S96, broadcastInDim S96 ![] bcast_S_S96 (constant (F := Ideal) S_ .f32 0x00000000#32)⟩] concatenates_S64_S32_S96_S192_d0 (ValueIdx.ix1 ⟨j.val, by omega⟩)
    2 (by show 2 < 3; omega) S96 (broadcastInDim S96 ![] bcast_S_S96 (constant (F := Ideal) S_ .f32 0x00000000#32)) rfl rfl 96 rfl (ValueIdx.ix1 ⟨j.val - 96, by omega⟩)
    (fun b hb => match b with
      | ⟨0, _⟩ => absurd rfl hb)
    (by show 96 + (j.val - 96) = j.val; omega)).trans ?_
  rw [broadcastInDim_apply _ bcast_S_S96 (constant (F := Ideal) S_ .f32 0x00000000#32) _ ValueIdx.ix0 (fun d => d.elim0), ValueIdx.constant_apply]
  simp [Ideal.ofBits, Ideal.ieee]

/-- Entries 192 … 255: 0. -/
theorem bcatOf_pad (bn : S64.Idx → EReal) (bt : S32.Idx → EReal) (z : Fin 1) (j : Fin 256) (hj : 192 ≤ j.val) :
    bcatOf bn bt (ValueIdx.ix2 z j) = (0 : EReal) := by
  unfold bcatOf
  rw [shapeCast_apply _ shapeCasts_S256_S1x256 (ValueIdx.ix2 z j) (ValueIdx.ix1 j)
    (by rw [Shape.rowMajor_val_two, Shape.rowMajor_val_one]; show j.val = z.val * 256 + j.val; have := z.isLt; omega),
    pad_apply_out ![0] ![64] ![0] _ _ pads_S192_S256_0640 h_S_ (ValueIdx.ix1 j) (⟨0, by decide⟩ : Fin S192.rank)
      (by show 192 ≤ (j.val - 0) / (0 + 1); omega)]
  exact sitofp_zero_apply _

end Cert.KernelIdeal.HostVal

end
-- ==== Proof.HostValOps1A.lean ====
/-
  The normalized hidden states both hidden-state windows of the retrieval region read: each row of h divided by the
  larger of its Euclidean norm and the literal 1e-12.
-/
import proofs.«114772_j1760936591416_2_alg».proof.Proof.Gen.KernelIdeal.Regions
import Idealize.ShloMosaic.Lib.StableHlo.Run
import Idealize.ShloMosaic.Lib.ValueIdx
import Idealize.ShloMosaic.Lib.Pipeline.Value
import Idealize.ShloMosaic.PureOps.Ideal.Laws
import proofs.«114772_j1760936591416_2_alg».proof.Proof.Shared

set_option maxRecDepth 1384

noncomputable section

namespace Cert.KernelIdeal.HostVal

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (outs : Gen.Outs (F := Ideal))

/-! ## The retrieval region's normalized hidden states -/

theorem V18_v51_of (c : Dev nD) :
    (V18 m outs c main_v51 : S8x2048x1.Idx → EReal)
      = Host.sqrt (F := Ideal) (s := S8x2048x1) (φ := .f32) (broadcastInDim S8x2048x1 ![0, 1] bcast_S8x2048_S8x2048x1_0_1
        (Host.reduceAdd (F := Ideal) (s := S8x2048x1024) (φ := .f32) (mulf (F := Ideal) (s := S8x2048x1024) (φ := .f32) (V17 m outs c (Proc.devRef .tc main_arg1)) (V17 m outs c (Proc.devRef .tc main_arg1)))
          (constant (F := Ideal) S_ .f32 0x00000000#32) reducesTo_S8x2048x1024_S8x2048_d2 h_S_)) := by
  show StableHlo.after hostOps1_11 (V17 m outs c) (Proc.devRef .tc main_v51) = Host.sqrt (F := Ideal) (s := S8x2048x1) (φ := .f32) (broadcastInDim S8x2048x1 ![0, 1] bcast_S8x2048_S8x2048x1_0_1
        (Host.reduceAdd (F := Ideal) (s := S8x2048x1024) (φ := .f32) (mulf (F := Ideal) (s := S8x2048x1024) (φ := .f32) (V17 m outs c (Proc.devRef .tc main_arg1)) (V17 m outs c (Proc.devRef .tc main_arg1)))
          (constant (F := Ideal) S_ .f32 0x00000000#32) reducesTo_S8x2048x1024_S8x2048_d2 h_S_))
  generalize V17 m outs c = W
  after_results
  all_goals rfl
theorem V19_v56_of (c : Dev nD) :
    (V19 m outs c main_v56 : S8x2048x1024.Idx → EReal)
      = truncf (F := Ideal) (s := S8x2048x1024) (φ := .f32) .bf16
        (Host.divf (F := Ideal) (s := S8x2048x1024) (φ := .f32) (V18 m outs c (Proc.devRef .tc main_arg1))
          (broadcastInDim S8x2048x1024 ![0, 1, 2] bcast_S8x2048x1_S8x2048x1024_0_1_2
            (maximumf (F := Ideal) (s := S8x2048x1) (φ := .f32) (V18 m outs c (Proc.devRef .tc main_v51))
              (broadcastInDim S8x2048x1 ![] bcast_S_S8x2048x1 (constant (F := Ideal) S_ .f32 0x2B8CBCCC#32)))))
        bitsLt_bf16_f32 := by
  show StableHlo.after hostOps1_12 (V18 m outs c) (Proc.devRef .tc main_v56) = truncf (F := Ideal) (s := S8x2048x1024) (φ := .f32) .bf16
        (Host.divf (F := Ideal) (s := S8x2048x1024) (φ := .f32) (V18 m outs c (Proc.devRef .tc main_arg1))
          (broadcastInDim S8x2048x1024 ![0, 1, 2] bcast_S8x2048x1_S8x2048x1024_0_1_2
            (maximumf (F := Ideal) (s := S8x2048x1) (φ := .f32) (V18 m outs c (Proc.devRef .tc main_v51))
              (broadcastInDim S8x2048x1 ![] bcast_S_S8x2048x1 (constant (F := Ideal) S_ .f32 0x2B8CBCCC#32)))))
        bitsLt_bf16_f32
  generalize V18 m outs c = W
  after_results
  all_goals rfl

/-- Both of the retrieval region's hidden-state windows read the rows of `h` each divided by the larger of its norm and
    the literal; at the extended reals the change of float format is the identity. -/
theorem V19_v56 (c : Dev nD) :
    (V19 m outs c main_v56 : S8x2048x1024.Idx → EReal) = Cert.Shared.hnOf (m ((c : Thread nD τ).loc main_arg1)) := by
  rw [V19_v56_of, V18_v51_of, (V18_of m outs c main_arg1 (by decide)).trans <| (V17_of m outs c main_arg1 (by decide)).trans <| (V16_of m outs c main_arg1 (by decide)).trans <| (V15_of m outs c main_arg1 (by decide)).trans <| (V14_of m outs c main_arg1 (by decide)).trans <| (V13_of m outs c main_arg1 (by decide)).trans <| (V12_of m outs c main_arg1 (by decide)).trans <| (V11_of m outs c main_arg1 (by decide)).trans <| (V10_of m outs c main_arg1 (by decide)).trans <| (V9_of m outs c main_arg1 (by decide)).trans <| (V8_of m outs c main_arg1 (by decide)).trans <| (V7_of m outs c main_arg1 (by decide)).trans <| (V6_of m outs c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide)), (V17_of m outs c main_arg1 (by decide)).trans <| (V16_of m outs c main_arg1 (by decide)).trans <| (V15_of m outs c main_arg1 (by decide)).trans <| (V14_of m outs c main_arg1 (by decide)).trans <| (V13_of m outs c main_arg1 (by decide)).trans <| (V12_of m outs c main_arg1 (by decide)).trans <| (V11_of m outs c main_arg1 (by decide)).trans <| (V10_of m outs c main_arg1 (by decide)).trans <| (V9_of m outs c main_arg1 (by decide)).trans <| (V8_of m outs c main_arg1 (by decide)).trans <| (V7_of m outs c main_arg1 (by decide)).trans <| (V6_of m outs c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide))]
  rfl

end Cert.KernelIdeal.HostVal

end
-- ==== Proof.HostValMidA.lean ====
/-
  The integer tests on the token ids, each array as a term of the arrays one step earlier: the gate (token = 2), the
  gate with its last position dropped, that array shifted one position later along the sequence with false in front,
  the two key masks (previous token = 2 and the token inside a class range), the token minus 5, and its clipping to
  0 … 63.
-/
import proofs.«114772_j1760936591416_2_alg».proof.Proof.Gen.KernelIdeal.Regions
import Idealize.ShloMosaic.Lib.StableHlo.Run
import Idealize.ShloMosaic.Lib.ValueIdx
import Idealize.ShloMosaic.Lib.Pipeline.Value
import Idealize.ShloMosaic.PureOps.Ideal.Laws
import proofs.«114772_j1760936591416_2_alg».proof.Proof.Shared

set_option maxRecDepth 1384

noncomputable section

namespace Cert.KernelIdeal.HostVal

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (outs : Gen.Outs (F := Ideal))

/-! ## The token tests: the gate, the gate one position earlier, the two class ranges, the clipped class numbers -/

/-- The gate: the token equals 2. -/
theorem V7_v15_of (c : Dev nD) :
    (V7 m outs c main_v15 : S8x2048.Idx → BitVec 1)
      = Cert.Shared.labOf (V6 m outs c (Proc.devRef .tc main_arg0)) := by
  show StableHlo.after hostOps1 (V6 m outs c) (Proc.devRef .tc main_v15) = Cert.Shared.labOf (V6 m outs c (Proc.devRef .tc main_arg0))
  generalize V6 m outs c = W
  after_results
  all_goals rfl
theorem V7_v16_of (c : Dev nD) :
    (V7 m outs c main_v16 : S8x2047.Idx → BitVec 1)
      = extractStridedSlice S8x2047 ![0, 0] (Cert.Shared.labOf (V6 m outs c (Proc.devRef .tc main_arg0))) slices_S8x2048_S8x2047_0_0 := by
  show StableHlo.after hostOps1 (V6 m outs c) (Proc.devRef .tc main_v16) = extractStridedSlice S8x2047 ![0, 0] (Cert.Shared.labOf (V6 m outs c (Proc.devRef .tc main_arg0))) slices_S8x2048_S8x2047_0_0
  generalize V6 m outs c = W
  after_results
  all_goals rfl
theorem V7_c_2_of (c : Dev nD) :
    (V7 m outs c main_c_2 : S_.Idx → BitVec 32)
      = constantI S_ 32 0#32 := by
  show StableHlo.after hostOps1 (V6 m outs c) (Proc.devRef .tc main_c_2) = constantI S_ 32 0#32
  generalize V6 m outs c = W
  after_results
  all_goals rfl
/-- The gate shifted one position later along the sequence. -/
theorem V8_v17_of (c : Dev nD) :
    (V8 m outs c main_v17 : S8x2048.Idx → BitVec 1)
      = pad S8x2048 ![0, 1] ![0, 0] ![0, 0] ((V7 m outs c (Proc.devRef .tc main_v16)) : S8x2047.Idx → BitVec 1)
        (id (cmpi .ne ((V7 m outs c (Proc.devRef .tc main_c_2)) : S_.Idx → BitVec 32) (broadcastInDim S_ ![] bcast_S_S_ (constantI S_ 32 0#32))))
        pads_S8x2047_S8x2048_000_100 h_S_ := by
  show StableHlo.after hostOps1_1 (V7 m outs c) (Proc.devRef .tc main_v17) = pad S8x2048 ![0, 1] ![0, 0] ![0, 0] ((V7 m outs c (Proc.devRef .tc main_v16)) : S8x2047.Idx → BitVec 1)
        (id (cmpi .ne ((V7 m outs c (Proc.devRef .tc main_c_2)) : S_.Idx → BitVec 32) (broadcastInDim S_ ![] bcast_S_S_ (constantI S_ 32 0#32))))
        pads_S8x2047_S8x2048_000_100 h_S_
  generalize V7 m outs c = W
  after_results
  all_goals rfl
/-- Key mask of the 64-class head. -/
theorem V9_v23_of (c : Dev nD) :
    (V9 m outs c main_v23 : S8x2048.Idx → BitVec 1)
      = andi (andi ((V8 m outs c (Proc.devRef .tc main_v17)) : S8x2048.Idx → BitVec 1) (cmpi .sge ((V8 m outs c (Proc.devRef .tc main_arg0)) : S8x2048.Idx → BitVec 32) (broadcastInDim S8x2048 ![] bcast_S_S8x2048 (constantI S_ 32 5#32))))
        (cmpi .slt ((V8 m outs c (Proc.devRef .tc main_arg0)) : S8x2048.Idx → BitVec 32) (broadcastInDim S8x2048 ![] bcast_S_S8x2048 (constantI S_ 32 69#32))) := by
  show StableHlo.after hostOps1_2 (V8 m outs c) (Proc.devRef .tc main_v23) = andi (andi ((V8 m outs c (Proc.devRef .tc main_v17)) : S8x2048.Idx → BitVec 1) (cmpi .sge ((V8 m outs c (Proc.devRef .tc main_arg0)) : S8x2048.Idx → BitVec 32) (broadcastInDim S8x2048 ![] bcast_S_S8x2048 (constantI S_ 32 5#32))))
        (cmpi .slt ((V8 m outs c (Proc.devRef .tc main_arg0)) : S8x2048.Idx → BitVec 32) (broadcastInDim S8x2048 ![] bcast_S_S8x2048 (constantI S_ 32 69#32)))
  generalize V8 m outs c = W
  after_results
  all_goals rfl
/-- Key mask of the 32-class head. -/
theorem V9_v29_of (c : Dev nD) :
    (V9 m outs c main_v29 : S8x2048.Idx → BitVec 1)
      = andi (andi ((V8 m outs c (Proc.devRef .tc main_v17)) : S8x2048.Idx → BitVec 1) (cmpi .sge ((V8 m outs c (Proc.devRef .tc main_arg0)) : S8x2048.Idx → BitVec 32) (broadcastInDim S8x2048 ![] bcast_S_S8x2048 (constantI S_ 32 69#32))))
        (cmpi .slt ((V8 m outs c (Proc.devRef .tc main_arg0)) : S8x2048.Idx → BitVec 32) (broadcastInDim S8x2048 ![] bcast_S_S8x2048 (constantI S_ 32 101#32))) := by
  show StableHlo.after hostOps1_2 (V8 m outs c) (Proc.devRef .tc main_v29) = andi (andi ((V8 m outs c (Proc.devRef .tc main_v17)) : S8x2048.Idx → BitVec 1) (cmpi .sge ((V8 m outs c (Proc.devRef .tc main_arg0)) : S8x2048.Idx → BitVec 32) (broadcastInDim S8x2048 ![] bcast_S_S8x2048 (constantI S_ 32 69#32))))
        (cmpi .slt ((V8 m outs c (Proc.devRef .tc main_arg0)) : S8x2048.Idx → BitVec 32) (broadcastInDim S8x2048 ![] bcast_S_S8x2048 (constantI S_ 32 101#32)))
  generalize V8 m outs c = W
  after_results
  all_goals rfl
theorem V9_v31_of (c : Dev nD) :
    (V9 m outs c main_v31 : S8x2048.Idx → BitVec 32)
      = subi ((V8 m outs c (Proc.devRef .tc main_arg0)) : S8x2048.Idx → BitVec 32) (broadcastInDim S8x2048 ![] bcast_S_S8x2048 (constantI S_ 32 5#32)) := by
  show StableHlo.after hostOps1_2 (V8 m outs c) (Proc.devRef .tc main_v31) = subi ((V8 m outs c (Proc.devRef .tc main_arg0)) : S8x2048.Idx → BitVec 32) (broadcastInDim S8x2048 ![] bcast_S_S8x2048 (constantI S_ 32 5#32))
  generalize V8 m outs c = W
  after_results
  all_goals rfl
theorem V9_c_8_of (c : Dev nD) :
    (V9 m outs c main_c_8 : S_.Idx → BitVec 32)
      = constantI S_ 32 0#32 := by
  show StableHlo.after hostOps1_2 (V8 m outs c) (Proc.devRef .tc main_c_8) = constantI S_ 32 0#32
  generalize V8 m outs c = W
  after_results
  all_goals rfl
theorem V9_c_9_of (c : Dev nD) :
    (V9 m outs c main_c_9 : S_.Idx → BitVec 32)
      = constantI S_ 32 63#32 := by
  show StableHlo.after hostOps1_2 (V8 m outs c) (Proc.devRef .tc main_c_9) = constantI S_ 32 63#32
  generalize V8 m outs c = W
  after_results
  all_goals rfl
/-- The class number of the 64-class head, clipped to its range. -/
theorem V10_v32_of (c : Dev nD) :
    (V10 m outs c main_v32 : S8x2048.Idx → BitVec 32)
      = minsi (broadcastInDim S8x2048 ![] bcast_S_S8x2048 (id ((V9 m outs c (Proc.devRef .tc main_c_9)) : S_.Idx → BitVec 32)))
        (maxsi (broadcastInDim S8x2048 ![] bcast_S_S8x2048 (id ((V9 m outs c (Proc.devRef .tc main_c_8)) : S_.Idx → BitVec 32))) ((V9 m outs c (Proc.devRef .tc main_v31)) : S8x2048.Idx → BitVec 32)) := by
  show StableHlo.after hostOps1_3 (V9 m outs c) (Proc.devRef .tc main_v32) = minsi (broadcastInDim S8x2048 ![] bcast_S_S8x2048 (id ((V9 m outs c (Proc.devRef .tc main_c_9)) : S_.Idx → BitVec 32)))
        (maxsi (broadcastInDim S8x2048 ![] bcast_S_S8x2048 (id ((V9 m outs c (Proc.devRef .tc main_c_8)) : S_.Idx → BitVec 32))) ((V9 m outs c (Proc.devRef .tc main_v31)) : S8x2048.Idx → BitVec 32))
  generalize V9 m outs c = W
  after_results
  all_goals rfl

end Cert.KernelIdeal.HostVal

end
-- ==== Proof.HostValMidB.lean ====
/-
  The second class number (token minus 69, clipped to 0 … 31) and the two one-hot arrays: entry (b, k, a) is 1.0 where
  the clipped class number at (b, k) equals the lane number a, else 0.0 — over 64 lanes for the first head and 32 for
  the second —, each as a term of the arrays one step earlier.
-/
import proofs.«114772_j1760936591416_2_alg».proof.Proof.Gen.KernelIdeal.Regions
import Idealize.ShloMosaic.Lib.StableHlo.Run
import Idealize.ShloMosaic.Lib.ValueIdx
import Idealize.ShloMosaic.Lib.Pipeline.Value
import Idealize.ShloMosaic.PureOps.Ideal.Laws
import proofs.«114772_j1760936591416_2_alg».proof.Proof.Shared

set_option maxRecDepth 1384

noncomputable section

namespace Cert.KernelIdeal.HostVal

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (outs : Gen.Outs (F := Ideal))

/-! ## The second clipped class number, and the two one-hot arrays -/

theorem V11_v34_of (c : Dev nD) :
    (V11 m outs c main_v34 : S8x2048.Idx → BitVec 32)
      = subi ((V10 m outs c (Proc.devRef .tc main_arg0)) : S8x2048.Idx → BitVec 32) (broadcastInDim S8x2048 ![] bcast_S_S8x2048 (constantI S_ 32 69#32)) := by
  show StableHlo.after hostOps1_4 (V10 m outs c) (Proc.devRef .tc main_v34) = subi ((V10 m outs c (Proc.devRef .tc main_arg0)) : S8x2048.Idx → BitVec 32) (broadcastInDim S8x2048 ![] bcast_S_S8x2048 (constantI S_ 32 69#32))
  generalize V10 m outs c = W
  after_results
  all_goals rfl
theorem V11_c_11_of (c : Dev nD) :
    (V11 m outs c main_c_11 : S_.Idx → BitVec 32)
      = constantI S_ 32 0#32 := by
  show StableHlo.after hostOps1_4 (V10 m outs c) (Proc.devRef .tc main_c_11) = constantI S_ 32 0#32
  generalize V10 m outs c = W
  after_results
  all_goals rfl
theorem V11_c_12_of (c : Dev nD) :
    (V11 m outs c main_c_12 : S_.Idx → BitVec 32)
      = constantI S_ 32 31#32 := by
  show StableHlo.after hostOps1_4 (V10 m outs c) (Proc.devRef .tc main_c_12) = constantI S_ 32 31#32
  generalize V10 m outs c = W
  after_results
  all_goals rfl
/-- The class number of the 32-class head, clipped to its range. -/
theorem V12_v35_of (c : Dev nD) :
    (V12 m outs c main_v35 : S8x2048.Idx → BitVec 32)
      = minsi (broadcastInDim S8x2048 ![] bcast_S_S8x2048 (id ((V11 m outs c (Proc.devRef .tc main_c_12)) : S_.Idx → BitVec 32)))
        (maxsi (broadcastInDim S8x2048 ![] bcast_S_S8x2048 (id ((V11 m outs c (Proc.devRef .tc main_c_11)) : S_.Idx → BitVec 32))) ((V11 m outs c (Proc.devRef .tc main_v34)) : S8x2048.Idx → BitVec 32)) := by
  show StableHlo.after hostOps1_5 (V11 m outs c) (Proc.devRef .tc main_v35) = minsi (broadcastInDim S8x2048 ![] bcast_S_S8x2048 (id ((V11 m outs c (Proc.devRef .tc main_c_12)) : S_.Idx → BitVec 32)))
        (maxsi (broadcastInDim S8x2048 ![] bcast_S_S8x2048 (id ((V11 m outs c (Proc.devRef .tc main_c_11)) : S_.Idx → BitVec 32))) ((V11 m outs c (Proc.devRef .tc main_v34)) : S8x2048.Idx → BitVec 32))
  generalize V11 m outs c = W
  after_results
  all_goals rfl
/-- One-hot rows over the 64 classes. -/
theorem V13_v36_of (c : Dev nD) :
    (V13 m outs c main_v36 : S8x2048x64.Idx → EReal)
      = uitofp (F := Ideal) .f32 (cmpi .eq
        (broadcastInDim S8x2048x64 ![0, 1, 2] bcast_S8x2048x1_S8x2048x64_0_1_2 (broadcastInDim S8x2048x1 ![0, 1] bcast_S8x2048_S8x2048x1_0_1 ((V12 m outs c (Proc.devRef .tc main_v32)) : S8x2048.Idx → BitVec 32)))
        (broadcastInDim S8x2048x64 ![0, 1, 2] bcast_S1x1x64_S8x2048x64_0_1_2 (iotaInDim S1x1x64 32 2))) := by
  show StableHlo.after hostOps1_6 (V12 m outs c) (Proc.devRef .tc main_v36) = uitofp (F := Ideal) .f32 (cmpi .eq
        (broadcastInDim S8x2048x64 ![0, 1, 2] bcast_S8x2048x1_S8x2048x64_0_1_2 (broadcastInDim S8x2048x1 ![0, 1] bcast_S8x2048_S8x2048x1_0_1 ((V12 m outs c (Proc.devRef .tc main_v32)) : S8x2048.Idx → BitVec 32)))
        (broadcastInDim S8x2048x64 ![0, 1, 2] bcast_S1x1x64_S8x2048x64_0_1_2 (iotaInDim S1x1x64 32 2)))
  generalize V12 m outs c = W
  after_results
  all_goals rfl
/-- One-hot rows over the 32 classes. -/
theorem V14_v37_of (c : Dev nD) :
    (V14 m outs c main_v37 : S8x2048x32.Idx → EReal)
      = uitofp (F := Ideal) .f32 (cmpi .eq
        (broadcastInDim S8x2048x32 ![0, 1, 2] bcast_S8x2048x1_S8x2048x32_0_1_2 (broadcastInDim S8x2048x1 ![0, 1] bcast_S8x2048_S8x2048x1_0_1 ((V13 m outs c (Proc.devRef .tc main_v35)) : S8x2048.Idx → BitVec 32)))
        (broadcastInDim S8x2048x32 ![0, 1, 2] bcast_S1x1x32_S8x2048x32_0_1_2 (iotaInDim S1x1x32 32 2))) := by
  show StableHlo.after hostOps1_7 (V13 m outs c) (Proc.devRef .tc main_v37) = uitofp (F := Ideal) .f32 (cmpi .eq
        (broadcastInDim S8x2048x32 ![0, 1, 2] bcast_S8x2048x1_S8x2048x32_0_1_2 (broadcastInDim S8x2048x1 ![0, 1] bcast_S8x2048_S8x2048x1_0_1 ((V13 m outs c (Proc.devRef .tc main_v35)) : S8x2048.Idx → BitVec 32)))
        (broadcastInDim S8x2048x32 ![0, 1, 2] bcast_S1x1x32_S8x2048x32_0_1_2 (iotaInDim S1x1x32 32 2)))
  generalize V13 m outs c = W
  after_results
  all_goals rfl

end Cert.KernelIdeal.HostVal

end
-- ==== Proof.HostValMidC.lean ====
/-
  The key vectors and the gate column, each as a term of the arrays one step earlier: each head's one-hot rows times
  its key mask (the mask converted to 0.0 / 1.0 and spread along the lanes), the two heads side by side along the lane
  axis (64 + 32 lanes), zeros appended up to 128 lanes, the narrowing to the 16-bit format; and the gate converted to
  0.0 / 1.0 as a column [8,2048,1].
-/
import proofs.«114772_j1760936591416_2_alg».proof.Proof.Gen.KernelIdeal.Regions
import Idealize.ShloMosaic.Lib.StableHlo.Run
import Idealize.ShloMosaic.Lib.ValueIdx
import Idealize.ShloMosaic.Lib.Pipeline.Value
import Idealize.ShloMosaic.PureOps.Ideal.Laws
import proofs.«114772_j1760936591416_2_alg».proof.Proof.Shared

set_option maxRecDepth 1384

noncomputable section

namespace Cert.KernelIdeal.HostVal

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (outs : Gen.Outs (F := Ideal))

/-! ## The key vectors (masked one-hot rows, the two heads side by side, padded to 128 lanes) and the gate column -/

/-- The two heads' masked one-hot rows side by side. -/
theorem V15_v46_of (c : Dev nD) :
    (V15 m outs c main_v46 : S8x2048x96.Idx → EReal)
      = concatenate S8x2048x96 2
        [⟨S8x2048x64, mulf (F := Ideal) (s := S8x2048x64) (φ := .f32) ((V14 m outs c (Proc.devRef .tc main_v36)) : S8x2048x64.Idx → EReal)
            (broadcastInDim S8x2048x64 ![0, 1, 2] bcast_S8x2048x1_S8x2048x64_0_1_2
              (uitofp (F := Ideal) (s := S8x2048x1) .f32 (broadcastInDim S8x2048x1 ![0, 1] bcast_S8x2048_S8x2048x1_0_1 ((V14 m outs c (Proc.devRef .tc main_v23)) : S8x2048.Idx → BitVec 1))))⟩,
         ⟨S8x2048x32, mulf (F := Ideal) (s := S8x2048x32) (φ := .f32) ((V14 m outs c (Proc.devRef .tc main_v37)) : S8x2048x32.Idx → EReal)
            (broadcastInDim S8x2048x32 ![0, 1, 2] bcast_S8x2048x1_S8x2048x32_0_1_2
              (uitofp (F := Ideal) (s := S8x2048x1) .f32 (broadcastInDim S8x2048x1 ![0, 1] bcast_S8x2048_S8x2048x1_0_1 ((V14 m outs c (Proc.devRef .tc main_v29)) : S8x2048.Idx → BitVec 1))))⟩]
        concatenates_S8x2048x64_S8x2048x32_S8x2048x96_d2 := by
  show StableHlo.after hostOps1_8 (V14 m outs c) (Proc.devRef .tc main_v46) = concatenate S8x2048x96 2
        [⟨S8x2048x64, mulf (F := Ideal) (s := S8x2048x64) (φ := .f32) ((V14 m outs c (Proc.devRef .tc main_v36)) : S8x2048x64.Idx → EReal)
            (broadcastInDim S8x2048x64 ![0, 1, 2] bcast_S8x2048x1_S8x2048x64_0_1_2
              (uitofp (F := Ideal) (s := S8x2048x1) .f32 (broadcastInDim S8x2048x1 ![0, 1] bcast_S8x2048_S8x2048x1_0_1 ((V14 m outs c (Proc.devRef .tc main_v23)) : S8x2048.Idx → BitVec 1))))⟩,
         ⟨S8x2048x32, mulf (F := Ideal) (s := S8x2048x32) (φ := .f32) ((V14 m outs c (Proc.devRef .tc main_v37)) : S8x2048x32.Idx → EReal)
            (broadcastInDim S8x2048x32 ![0, 1, 2] bcast_S8x2048x1_S8x2048x32_0_1_2
              (uitofp (F := Ideal) (s := S8x2048x1) .f32 (broadcastInDim S8x2048x1 ![0, 1] bcast_S8x2048_S8x2048x1_0_1 ((V14 m outs c (Proc.devRef .tc main_v29)) : S8x2048.Idx → BitVec 1))))⟩]
        concatenates_S8x2048x64_S8x2048x32_S8x2048x96_d2
  generalize V14 m outs c = W
  after_results
  all_goals rfl
theorem V15_c_13_of (c : Dev nD) :
    (V15 m outs c main_c_13 : S_.Idx → BitVec 32)
      = constantI S_ 32 0#32 := by
  show StableHlo.after hostOps1_8 (V14 m outs c) (Proc.devRef .tc main_c_13) = constantI S_ 32 0#32
  generalize V14 m outs c = W
  after_results
  all_goals rfl
/-- Padded with zeros to 128 lanes. -/
theorem V16_v47_of (c : Dev nD) :
    (V16 m outs c main_v47 : S8x2048x128.Idx → EReal)
      = pad S8x2048x128 ![0, 0, 0] ![0, 0, 32] ![0, 0, 0] ((V15 m outs c (Proc.devRef .tc main_v46)) : S8x2048x96.Idx → EReal)
        (sitofp (F := Ideal) (s := S_) .f32 ((V15 m outs c (Proc.devRef .tc main_c_13)) : S_.Idx → BitVec 32)) pads_S8x2048x96_S8x2048x128_000_000_0320 h_S_ := by
  show StableHlo.after hostOps1_9 (V15 m outs c) (Proc.devRef .tc main_v47) = pad S8x2048x128 ![0, 0, 0] ![0, 0, 32] ![0, 0, 0] ((V15 m outs c (Proc.devRef .tc main_v46)) : S8x2048x96.Idx → EReal)
        (sitofp (F := Ideal) (s := S_) .f32 ((V15 m outs c (Proc.devRef .tc main_c_13)) : S_.Idx → BitVec 32)) pads_S8x2048x96_S8x2048x128_000_000_0320 h_S_
  generalize V15 m outs c = W
  after_results
  all_goals rfl
theorem V17_v48_of (c : Dev nD) :
    (V17 m outs c main_v48 : S8x2048x128.Idx → EReal)
      = truncf (F := Ideal) (s := S8x2048x128) (φ := .f32) .bf16 ((V16 m outs c (Proc.devRef .tc main_v47)) : S8x2048x128.Idx → EReal) bitsLt_bf16_f32 := by
  show StableHlo.after hostOps1_10 (V16 m outs c) (Proc.devRef .tc main_v48) = truncf (F := Ideal) (s := S8x2048x128) (φ := .f32) .bf16 ((V16 m outs c (Proc.devRef .tc main_v47)) : S8x2048x128.Idx → EReal) bitsLt_bf16_f32
  generalize V16 m outs c = W
  after_results
  all_goals rfl
/-- The gate as a column of floats. -/
theorem V17_v50_of (c : Dev nD) :
    (V17 m outs c main_v50 : S8x2048x1.Idx → EReal)
      = broadcastInDim S8x2048x1 ![0, 1] bcast_S8x2048_S8x2048x1_0_1
        (uitofp (F := Ideal) (s := S8x2048) .bf16 ((V16 m outs c (Proc.devRef .tc main_v15)) : S8x2048.Idx → BitVec 1)) := by
  show StableHlo.after hostOps1_10 (V16 m outs c) (Proc.devRef .tc main_v50) = broadcastInDim S8x2048x1 ![0, 1] bcast_S8x2048_S8x2048x1_0_1
        (uitofp (F := Ideal) (s := S8x2048) .bf16 ((V16 m outs c (Proc.devRef .tc main_v15)) : S8x2048.Idx → BitVec 1))
  generalize V16 m outs c = W
  after_results
  all_goals rfl

end Cert.KernelIdeal.HostVal

end
-- ==== Proof.HostValMid.lean ====
/-
  The gate column and the key vectors that the retrieval computation reads, as functions of the token ids alone.
  The gate column at (b, q, 0) is 1 where token (b, q) is 2 and 0 elsewhere. The key vector at (b, k) holds in lanes
  0 … 63 the 64-class one-hot entry times the first key mask at (b, k), in lanes 64 … 95 the 32-class one-hot entry
  times the second key mask, the masks read as the reals 1 and 0. Along the way: the gate, the shifted gate, the two
  key masks, the two clipped class numbers and the two one-hot arrays are the shared definitions applied to the tokens.
-/
import proofs.«114772_j1760936591416_2_alg».proof.Proof.Gen.KernelIdeal.Regions
import Idealize.ShloMosaic.Lib.StableHlo.Run
import Idealize.ShloMosaic.Lib.ValueIdx
import Idealize.ShloMosaic.Lib.Pipeline.Value
import Idealize.ShloMosaic.PureOps.Ideal.Laws
import proofs.«114772_j1760936591416_2_alg».proof.Proof.Shared
import proofs.«114772_j1760936591416_2_alg».proof.Proof.HostValMidA
import proofs.«114772_j1760936591416_2_alg».proof.Proof.HostValMidB
import proofs.«114772_j1760936591416_2_alg».proof.Proof.HostValMidC
import proofs.«114772_j1760936591416_2_alg».proof.Proof.HostValPad
import proofs.«114772_j1760936591416_2_alg».proof.Proof.KernelAlg

set_option maxRecDepth 1384

noncomputable section

namespace Cert.KernelIdeal.HostVal

open Idealize.ShloMosaic.ValueIdx
open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (outs : Gen.Outs (F := Ideal))

/-! ## The retrieval region's gate column and key vectors, as functions of the token ids -/

/-- The token ids reach every host stage as launched. -/
theorem arg0_at6 (c : Dev nD) : V6 m outs c main_arg0 = m ((c : Thread nD τ).loc main_arg0) :=
  ((V6_of m outs c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide))).trans rfl
theorem arg0_at8 (c : Dev nD) : V8 m outs c main_arg0 = m ((c : Thread nD τ).loc main_arg0) :=
  ((V8_of m outs c main_arg0 (by decide)).trans <| (V7_of m outs c main_arg0 (by decide))).trans (arg0_at6 m outs c)
theorem arg0_at10 (c : Dev nD) : V10 m outs c main_arg0 = m ((c : Thread nD τ).loc main_arg0) :=
  ((V10_of m outs c main_arg0 (by decide)).trans <| (V9_of m outs c main_arg0 (by decide))).trans (arg0_at8 m outs c)

theorem V7_v15 (c : Dev nD) :
    (V7 m outs c main_v15 : S8x2048.Idx → BitVec 1) = Cert.Shared.labOf (m ((c : Thread nD τ).loc main_arg0)) := by
  rw [V7_v15_of, arg0_at6]

theorem V8_v17 (c : Dev nD) :
    (V8 m outs c main_v17 : S8x2048.Idx → BitVec 1) = Cert.Shared.prevLabOf (m ((c : Thread nD τ).loc main_arg0)) := by
  rw [V8_v17_of, V7_v16_of, V7_c_2_of, arg0_at6]
  rfl

theorem V9_v23 (c : Dev nD) :
    (V9 m outs c main_v23 : S8x2048.Idx → BitVec 1) = Cert.Shared.valActOf (m ((c : Thread nD τ).loc main_arg0)) := by
  rw [V9_v23_of, V8_v17, arg0_at8]
  rfl

theorem V9_v29 (c : Dev nD) :
    (V9 m outs c main_v29 : S8x2048.Idx → BitVec 1) = Cert.Shared.valTimeOf (m ((c : Thread nD τ).loc main_arg0)) := by
  rw [V9_v29_of, V8_v17, arg0_at8]
  rfl

theorem V10_v32 (c : Dev nD) :
    (V10 m outs c main_v32 : S8x2048.Idx → BitVec 32) = Cert.Shared.clipOf 5#32 0#32 63#32 (m ((c : Thread nD τ).loc main_arg0)) := by
  rw [V10_v32_of, V9_c_9_of, V9_c_8_of, V9_v31_of, arg0_at8]
  rfl

theorem V12_v35 (c : Dev nD) :
    (V12 m outs c main_v35 : S8x2048.Idx → BitVec 32) = Cert.Shared.clipOf 69#32 0#32 31#32 (m ((c : Thread nD τ).loc main_arg0)) := by
  rw [V12_v35_of, V11_c_12_of, V11_c_11_of, V11_v34_of, arg0_at10]
  rfl

theorem V13_v36 (c : Dev nD) :
    (V13 m outs c main_v36 : S8x2048x64.Idx → EReal) = Cert.Shared.ohActOf (m ((c : Thread nD τ).loc main_arg0)) := by
  rw [V13_v36_of, ((V12_of m outs c main_v32 (by decide)).trans <| (V11_of m outs c main_v32 (by decide))), V10_v32]
  rfl

theorem V14_v37 (c : Dev nD) :
    (V14 m outs c main_v37 : S8x2048x32.Idx → EReal) = Cert.Shared.ohTimeOf (m ((c : Thread nD τ).loc main_arg0)) := by
  rw [V14_v37_of, (V13_of m outs c main_v35 (by decide)), V12_v35]
  rfl

/-- The key vectors: each head's one-hot row times its key mask, the 64-class head in lanes 0 … 63, the 32-class head
    in lanes 64 … 95, zeros in lanes 96 … 127. -/
def keyVecOf (tokens : Vec Ideal S8x2048 .i32) : S8x2048x128.Idx → EReal :=
  truncf (F := Ideal) (s := S8x2048x128) (φ := .f32) .bf16
    (pad S8x2048x128 ![0, 0, 0] ![0, 0, 32] ![0, 0, 0]
      (concatenate S8x2048x96 2
        [⟨S8x2048x64, mulf (F := Ideal) (s := S8x2048x64) (φ := .f32) (Cert.Shared.ohActOf tokens)
            (broadcastInDim S8x2048x64 ![0, 1, 2] bcast_S8x2048x1_S8x2048x64_0_1_2
              (uitofp (F := Ideal) (s := S8x2048x1) .f32 (broadcastInDim S8x2048x1 ![0, 1] bcast_S8x2048_S8x2048x1_0_1 (Cert.Shared.valActOf tokens))))⟩,
         ⟨S8x2048x32, mulf (F := Ideal) (s := S8x2048x32) (φ := .f32) (Cert.Shared.ohTimeOf tokens)
            (broadcastInDim S8x2048x32 ![0, 1, 2] bcast_S8x2048x1_S8x2048x32_0_1_2
              (uitofp (F := Ideal) (s := S8x2048x1) .f32 (broadcastInDim S8x2048x1 ![0, 1] bcast_S8x2048_S8x2048x1_0_1 (Cert.Shared.valTimeOf tokens))))⟩]
        concatenates_S8x2048x64_S8x2048x32_S8x2048x96_d2)
      (sitofp (F := Ideal) (s := S_) .f32 (constantI S_ 32 0#32)) pads_S8x2048x96_S8x2048x128_000_000_0320 h_S_)
    bitsLt_bf16_f32

theorem V19_v48 (c : Dev nD) :
    (V19 m outs c main_v48 : S8x2048x128.Idx → EReal) = keyVecOf (m ((c : Thread nD τ).loc main_arg0)) := by
  rw [((V19_of m outs c main_v48 (by decide)).trans <| (V18_of m outs c main_v48 (by decide))), V17_v48_of, V16_v47_of, V15_v46_of, V15_c_13_of,
    (V14_of m outs c main_v36 (by decide)), V13_v36, V14_v37,
    ((V14_of m outs c main_v23 (by decide)).trans <| (V13_of m outs c main_v23 (by decide)).trans <| (V12_of m outs c main_v23 (by decide)).trans <| (V11_of m outs c main_v23 (by decide)).trans <| (V10_of m outs c main_v23 (by decide))), V9_v23,
    ((V14_of m outs c main_v29 (by decide)).trans <| (V13_of m outs c main_v29 (by decide)).trans <| (V12_of m outs c main_v29 (by decide)).trans <| (V11_of m outs c main_v29 (by decide)).trans <| (V10_of m outs c main_v29 (by decide))), V9_v29]
  rfl

theorem V19_v50 (c : Dev nD) :
    (V19 m outs c main_v50 : S8x2048x1.Idx → EReal)
      = broadcastInDim S8x2048x1 ![0, 1] bcast_S8x2048_S8x2048x1_0_1
          (uitofp (F := Ideal) (s := S8x2048) .bf16 (Cert.Shared.labOf (m ((c : Thread nD τ).loc main_arg0)))) := by
  rw [((V19_of m outs c main_v50 (by decide)).trans <| (V18_of m outs c main_v50 (by decide))), V17_v50_of, ((V16_of m outs c main_v15 (by decide)).trans <| (V15_of m outs c main_v15 (by decide)).trans <| (V14_of m outs c main_v15 (by decide)).trans <| (V13_of m outs c main_v15 (by decide)).trans <| (V12_of m outs c main_v15 (by decide)).trans <| (V11_of m outs c main_v15 (by decide)).trans <| (V10_of m outs c main_v15 (by decide)).trans <| (V9_of m outs c main_v15 (by decide)).trans <| (V8_of m outs c main_v15 (by decide))), V7_v15]

/-! ## Read at an index -/

/-- A column [8,2048,1] made from a [8,2048] array, at (b, q, 0). -/
theorem col_apply {α : Type} (x : S8x2048.Idx → α) (b : Fin 8) (q : Fin 2048) :
    broadcastInDim S8x2048x1 ![0, 1] bcast_S8x2048_S8x2048x1_0_1 x (ix3 b q (0 : Fin 1)) = x (ix2 b q) :=
  broadcastInDim_apply _ bcast_S8x2048_S8x2048x1_0_1 x (ix3 b q (0 : Fin 1)) (ix2 b q) (fun a => by
    match a with
    | ⟨0, _⟩ => show b.val = if (8 : Nat) = 1 then 0 else b.val; rw [if_neg (by decide)]
    | ⟨1, _⟩ => show q.val = if (2048 : Nat) = 1 then 0 else q.val; rw [if_neg (by decide)])

/-- THE GATE COLUMN at (b, q, 0): 1 where the token is 2, else 0. -/
theorem v50_apply (c : Dev nD) (b : Fin 8) (q : Fin 2048) :
    (V19 m outs c main_v50 : S8x2048x1.Idx → EReal) (ix3 b q (0 : Fin 1))
      = Cert.Spec.bit (decide (Cert.Shared.labOf (m ((c : Thread nD τ).loc main_arg0)) (ix2 b q) = 1#1)) := by
  rw [V19_v50, col_apply]
  exact Cert.Shared.uitofp_bit .bf16 _

/-- A key mask as a float, spread along the lanes: at (b, k, a) it is 1 or 0 by the mask at (b, k). -/
theorem mask64_apply (v : S8x2048.Idx → BitVec 1) (b : Fin 8) (k : Fin 2048) (a : Fin 64) :
    broadcastInDim S8x2048x64 ![0, 1, 2] bcast_S8x2048x1_S8x2048x64_0_1_2
        (uitofp (F := Ideal) (s := S8x2048x1) .f32 (broadcastInDim S8x2048x1 ![0, 1] bcast_S8x2048_S8x2048x1_0_1 v)) (ix3 b k a)
      = Cert.Spec.bit (decide (v (ix2 b k) = 1#1)) := by
  rw [broadcastInDim_apply _ bcast_S8x2048x1_S8x2048x64_0_1_2 _ (ix3 b k a) (ix3 b k (0 : Fin 1)) (fun ax => by
    match ax with
    | ⟨0, _⟩ => show b.val = if (8 : Nat) = 1 then 0 else b.val; rw [if_neg (by decide)]
    | ⟨1, _⟩ => show k.val = if (2048 : Nat) = 1 then 0 else k.val; rw [if_neg (by decide)]
    | ⟨2, _⟩ => show (0 : Nat) = if (1 : Nat) = 1 then 0 else _; rw [if_pos rfl])]
  show FloatOps.uitofp (F := Ideal) .f32 (broadcastInDim S8x2048x1 ![0, 1] bcast_S8x2048_S8x2048x1_0_1 v (ix3 b k (0 : Fin 1))) = _
  rw [col_apply]
  exact Cert.Shared.uitofp_bit .f32 _

theorem mask32_apply (v : S8x2048.Idx → BitVec 1) (b : Fin 8) (k : Fin 2048) (e : Fin 32) :
    broadcastInDim S8x2048x32 ![0, 1, 2] bcast_S8x2048x1_S8x2048x32_0_1_2
        (uitofp (F := Ideal) (s := S8x2048x1) .f32 (broadcastInDim S8x2048x1 ![0, 1] bcast_S8x2048_S8x2048x1_0_1 v)) (ix3 b k e)
      = Cert.Spec.bit (decide (v (ix2 b k) = 1#1)) := by
  rw [broadcastInDim_apply _ bcast_S8x2048x1_S8x2048x32_0_1_2 _ (ix3 b k e) (ix3 b k (0 : Fin 1)) (fun ax => by
    match ax with
    | ⟨0, _⟩ => show b.val = if (8 : Nat) = 1 then 0 else b.val; rw [if_neg (by decide)]
    | ⟨1, _⟩ => show k.val = if (2048 : Nat) = 1 then 0 else k.val; rw [if_neg (by decide)]
    | ⟨2, _⟩ => show (0 : Nat) = if (1 : Nat) = 1 then 0 else _; rw [if_pos rfl])]
  show FloatOps.uitofp (F := Ideal) .f32 (broadcastInDim S8x2048x1 ![0, 1] bcast_S8x2048_S8x2048x1_0_1 v (ix3 b k (0 : Fin 1))) = _
  rw [col_apply]
  exact Cert.Shared.uitofp_bit .f32 _

/-- The key vector's lanes 0 … 63: the 64-class one-hot entry times its key mask. -/
theorem keyVec_act (tokens : Vec Ideal S8x2048 .i32) (b : Fin 8) (k : Fin 2048) (a : Fin 64) :
    keyVecOf tokens (ix3 b k (⟨a.val, by have := a.isLt; omega⟩ : Fin 128))
      = Cert.Shared.ohActOf tokens (ix3 b k a) * Cert.Spec.bit (decide (Cert.Shared.valActOf tokens (ix2 b k) = 1#1)) := by
  have ha := a.isLt
  unfold keyVecOf
  rw [truncf_apply]
  rw [pad_apply_in ![0, 0, 0] ![0, 0, 32] ![0, 0, 0] _ _ pads_S8x2048x96_S8x2048x128_000_000_0320 h_S_
    (ix3 b k (⟨a.val, by omega⟩ : Fin 128)) (ix3 b k (⟨a.val, by omega⟩ : Fin 96)) (fun ax => by
      match ax with
      | ⟨0, _⟩ => show b.val = 0 + b.val * (0 + 1); omega
      | ⟨1, _⟩ => show k.val = 0 + k.val * (0 + 1); omega
      | ⟨2, _⟩ => show a.val = 0 + a.val * (0 + 1); omega)]
  rw [concatenate_pair_apply_left 2 _ _ concatenates_S8x2048x64_S8x2048x32_S8x2048x96_d2
    (ix3 b k (⟨a.val, by omega⟩ : Fin 96)) rfl (ix3 b k a) (fun bb => by
      match bb with
      | ⟨0, _⟩ => rfl
      | ⟨1, _⟩ => rfl
      | ⟨2, _⟩ => rfl)]
  rw [mulf_apply, mask64_apply]

/-- The key vector's lanes 64 … 95: the 32-class one-hot entry times its key mask. -/
theorem keyVec_time (tokens : Vec Ideal S8x2048 .i32) (b : Fin 8) (k : Fin 2048) (e : Fin 32) :
    keyVecOf tokens (ix3 b k (⟨64 + e.val, by have := e.isLt; omega⟩ : Fin 128))
      = Cert.Shared.ohTimeOf tokens (ix3 b k e) * Cert.Spec.bit (decide (Cert.Shared.valTimeOf tokens (ix2 b k) = 1#1)) := by
  have he := e.isLt
  unfold keyVecOf
  rw [truncf_apply]
  rw [pad_apply_in ![0, 0, 0] ![0, 0, 32] ![0, 0, 0] _ _ pads_S8x2048x96_S8x2048x128_000_000_0320 h_S_
    (ix3 b k (⟨64 + e.val, by omega⟩ : Fin 128)) (ix3 b k (⟨64 + e.val, by omega⟩ : Fin 96)) (fun ax => by
      match ax with
      | ⟨0, _⟩ => show b.val = 0 + b.val * (0 + 1); omega
      | ⟨1, _⟩ => show k.val = 0 + k.val * (0 + 1); omega
      | ⟨2, _⟩ => show 64 + e.val = 0 + (64 + e.val) * (0 + 1); omega)]
  rw [concatenate_pair_apply_right 2 _ _ concatenates_S8x2048x64_S8x2048x32_S8x2048x96_d2
    (ix3 b k (⟨64 + e.val, by omega⟩ : Fin 96)) rfl rfl (ix3 b k e) (fun bb hb => by
      match bb with
      | ⟨0, _⟩ => rfl
      | ⟨1, _⟩ => rfl
      | ⟨2, _⟩ => exact absurd rfl hb)
    (by show e.val + 64 = 64 + e.val; omega)]
  rw [mulf_apply, mask32_apply]

/-- THE KEY VECTORS the retrieval region reads, lanes 0 … 63. -/
theorem v48_apply_act (c : Dev nD) (b : Fin 8) (k : Fin 2048) (a : Fin 64) :
    (V19 m outs c main_v48 : S8x2048x128.Idx → EReal) (ix3 b k (⟨a.val, by have := a.isLt; omega⟩ : Fin 128))
      = Cert.Shared.ohActOf (m ((c : Thread nD τ).loc main_arg0)) (ix3 b k a)
        * Cert.Spec.bit (decide (Cert.Shared.valActOf (m ((c : Thread nD τ).loc main_arg0)) (ix2 b k) = 1#1)) := by
  rw [V19_v48]
  exact keyVec_act _ b k a

/-- THE KEY VECTORS the retrieval region reads, lanes 64 … 95. -/
theorem v48_apply_time (c : Dev nD) (b : Fin 8) (k : Fin 2048) (e : Fin 32) :
    (V19 m outs c main_v48 : S8x2048x128.Idx → EReal) (ix3 b k (⟨64 + e.val, by have := e.isLt; omega⟩ : Fin 128))
      = Cert.Shared.ohTimeOf (m ((c : Thread nD τ).loc main_arg0)) (ix3 b k e)
        * Cert.Spec.bit (decide (Cert.Shared.valTimeOf (m ((c : Thread nD τ).loc main_arg0)) (ix2 b k) = 1#1)) := by
  rw [V19_v48]
  exact keyVec_time _ b k e

end Cert.KernelIdeal.HostVal

end
-- ==== Proof.Reals.lean ====
/-
  The precondition says, of each float argument, that |x| < +inf at every entry (a conjunction over the array, and
  the conjunction of these over the arguments). On the extended reals an entry whose absolute value is below +inf is
  neither infinity, so it is a real number: every entry of the hidden states, of the three weight matrices and two
  bias vectors, and each of the six scalars, is the image of a real.
-/
import proofs.«114772_j1760936591416_2_alg».proof.Defs
import proofs.«114772_j1760936591416_2_alg».proof.Proof.Gen.Pre_finite_inputs
import Idealize.ShloMosaic.Lib.ReduceAll
import Idealize.ShloMosaic.Lib.ValueIdx

noncomputable section

namespace Cert.Reals

open Idealize.ShloMosaic Idealize.ShloMosaic.ValueIdx Cert.Pre_finite_inputs

/-! The precondition says of every float argument that |x| < +inf at every entry. On the extended reals that is:
    every entry is a real number. -/

instance : Subsingleton Cert.Pre_finite_inputs.S_.Idx := ⟨fun a b => funext fun d => d.elim0⟩

/-- An extended real whose absolute value is below +inf is a real. -/
theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) :
    ∃ r : ℝ, x = (r : EReal) := by
  have htop : Ideal.ofBits .f32 0x7F800000#32 = ⊤ := by simp [Ideal.ofBits, Ideal.ieee]
  have h' : Ideal.cmp .olt (max x (-x)) (Ideal.ofBits .f32 0x7F800000#32) = 1#1 := h
  rw [htop] at h'
  unfold Ideal.cmp at h'
  induction x using EReal.rec with
  | bot => simp at h'
  | coe r => exact ⟨r, rfl⟩
  | top => simp at h'

/-- "All entries of |x| are below +inf", as the conjunction over an array prints, gives: every entry is a real. -/
theorem all_real {s : Shape} {axes : List (Fin s.rank)} (x : FVec Ideal s .f32)
    (bc : S_.BroadcastsInDim s (![] : Fin 0 → Fin s.rank)) (red : s.ReducesTo axes S_) (hu : 0 < S_.numel)
    (e : Host.reduce IntOp.andi
        (cmpf .olt (Host.absf x) (broadcastInDim s ![] bc (constant (F := Ideal) S_ .f32 0x7F800000#32)))
        (constantI S_ 1 1#1) red hu ix0 = 1#1) :
    ∀ i, ∃ r : ℝ, x i = (r : EReal) := fun i =>
  real_of_abs_lt_inf (x i) (Host.reduce_andi_all _ _ red hu ix0 e i)

/-- The same for a scalar argument (no broadcast of the bound, a conjunction over no axis). -/
theorem scalar_real (x : FVec Ideal S_ .f32) (red : S_.ReducesTo [] S_) (hu : 0 < S_.numel)
    (e : Host.reduce IntOp.andi (cmpf .olt (Host.absf x) (constant (F := Ideal) S_ .f32 0x7F800000#32))
        (constantI S_ 1 1#1) red hu ix0 = 1#1) :
    ∃ r : ℝ, x ix0 = (r : EReal) :=
  real_of_abs_lt_inf (x ix0) (Host.reduce_andi_all _ _ red hu ix0 e ix0)

/-- The precondition's conjunction, split: each float argument is real at every entry. -/
theorem fn_parts (a0 : IVec S8x2048 32) (a1 : FVec Ideal S8x2048x1024 .f32) (a2 : FVec Ideal S101x1024 .f32)
    (a3 : FVec Ideal S64x1024 .f32) (a4 : FVec Ideal S64 .f32) (a5 : FVec Ideal S32x1024 .f32) (a6 : FVec Ideal S32 .f32)
    (a7 a8 a9 a10 a11 a12 : FVec Ideal S_ .f32)
    (h : fn (F := Ideal) a0 a1 a2 a3 a4 a5 a6 a7 a8 a9 a10 a11 a12 = fun _ => 1#1) :
    (∀ i, ∃ r : ℝ, a1 i = (r : EReal)) ∧ (∀ i, ∃ r : ℝ, a2 i = (r : EReal)) ∧ (∀ i, ∃ r : ℝ, a3 i = (r : EReal))
    ∧ (∀ i, ∃ r : ℝ, a4 i = (r : EReal)) ∧ (∀ i, ∃ r : ℝ, a5 i = (r : EReal)) ∧ (∀ i, ∃ r : ℝ, a6 i = (r : EReal))
    ∧ (∃ r : ℝ, a7 ix0 = (r : EReal)) ∧ (∃ r : ℝ, a8 ix0 = (r : EReal)) ∧ (∃ r : ℝ, a9 ix0 = (r : EReal))
    ∧ (∃ r : ℝ, a10 ix0 = (r : EReal)) ∧ (∃ r : ℝ, a11 ix0 = (r : EReal)) ∧ (∃ r : ℝ, a12 ix0 = (r : EReal)) := by
  have h0 := congrFun h ix0
  dsimp only [fn, fn_part1, fn_part2, fn_part3, andi] at h0
  obtain ⟨h0, e12⟩ := IntOp.andi_eq_one.1 h0
  obtain ⟨h0, e11⟩ := IntOp.andi_eq_one.1 h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨e1, e2⟩ := IntOp.andi_eq_one.1 h0
  exact ⟨all_real a1 _ _ _ e1, all_real a2 _ _ _ e2, all_real a3 _ _ _ e3, all_real a4 _ _ _ e4, all_real a5 _ _ _ e5,
    all_real a6 _ _ _ e6, scalar_real a7 _ _ e7, scalar_real a8 _ _ e8, scalar_real a9 _ _ e9, scalar_real a10 _ _ e10,
    scalar_real a11 _ _ e11, scalar_real a12 _ _ e12⟩

/-! ## From the precondition of the idealized kernel program -/

section
variable (m : (ℓ : Loc Cert.KernelIdeal.nD Cert.KernelIdeal.τ Cert.KernelIdeal.sig) → Buf (Elt Ideal) ℓ)

theorem pre_h (hpre : Cert.Pre_KernelIdeal m) (c : Dev Cert.KernelIdeal.nD) :
    ∀ i : Cert.KernelIdeal.S8x2048x1024.Idx, ∃ r : ℝ, (m ((c.tc : Thread Cert.KernelIdeal.nD Cert.KernelIdeal.τ).loc Cert.KernelIdeal.main_arg1) : Cert.KernelIdeal.S8x2048x1024.Idx → EReal) i = (r : EReal) :=
  (fn_parts _ _ _ _ _ _ _ _ _ _ _ _ _ (hpre c)).1

theorem pre_arg2 (hpre : Cert.Pre_KernelIdeal m) (c : Dev Cert.KernelIdeal.nD) :
    ∀ i : Cert.KernelIdeal.S101x1024.Idx, ∃ r : ℝ, (m ((c.tc : Thread Cert.KernelIdeal.nD Cert.KernelIdeal.τ).loc Cert.KernelIdeal.main_arg2) : Cert.KernelIdeal.S101x1024.Idx → EReal) i = (r : EReal) :=
  (fn_parts _ _ _ _ _ _ _ _ _ _ _ _ _ (hpre c)).2.1

theorem pre_arg3 (hpre : Cert.Pre_KernelIdeal m) (c : Dev Cert.KernelIdeal.nD) :
    ∀ i : Cert.KernelIdeal.S64x1024.Idx, ∃ r : ℝ, (m ((c.tc : Thread Cert.KernelIdeal.nD Cert.KernelIdeal.τ).loc Cert.KernelIdeal.main_arg3) : Cert.KernelIdeal.S64x1024.Idx → EReal) i = (r : EReal) :=
  (fn_parts _ _ _ _ _ _ _ _ _ _ _ _ _ (hpre c)).2.2.1

theorem pre_arg4 (hpre : Cert.Pre_KernelIdeal m) (c : Dev Cert.KernelIdeal.nD) :
    ∀ i : Cert.KernelIdeal.S64.Idx, ∃ r : ℝ, (m ((c.tc : Thread Cert.KernelIdeal.nD Cert.KernelIdeal.τ).loc Cert.KernelIdeal.main_arg4) : Cert.KernelIdeal.S64.Idx → EReal) i = (r : EReal) :=
  (fn_parts _ _ _ _ _ _ _ _ _ _ _ _ _ (hpre c)).2.2.2.1

theorem pre_arg5 (hpre : Cert.Pre_KernelIdeal m) (c : Dev Cert.KernelIdeal.nD) :
    ∀ i : Cert.KernelIdeal.S32x1024.Idx, ∃ r : ℝ, (m ((c.tc : Thread Cert.KernelIdeal.nD Cert.KernelIdeal.τ).loc Cert.KernelIdeal.main_arg5) : Cert.KernelIdeal.S32x1024.Idx → EReal) i = (r : EReal) :=
  (fn_parts _ _ _ _ _ _ _ _ _ _ _ _ _ (hpre c)).2.2.2.2.1

theorem pre_arg6 (hpre : Cert.Pre_KernelIdeal m) (c : Dev Cert.KernelIdeal.nD) :
    ∀ i : Cert.KernelIdeal.S32.Idx, ∃ r : ℝ, (m ((c.tc : Thread Cert.KernelIdeal.nD Cert.KernelIdeal.τ).loc Cert.KernelIdeal.main_arg6) : Cert.KernelIdeal.S32.Idx → EReal) i = (r : EReal) :=
  (fn_parts _ _ _ _ _ _ _ _ _ _ _ _ _ (hpre c)).2.2.2.2.2.1

theorem pre_arg7 (hpre : Cert.Pre_KernelIdeal m) (c : Dev Cert.KernelIdeal.nD) :
    ∃ r : ℝ, (m ((c.tc : Thread Cert.KernelIdeal.nD Cert.KernelIdeal.τ).loc Cert.KernelIdeal.main_arg7) : Cert.KernelIdeal.S_.Idx → EReal) ix0 = (r : EReal) :=
  (fn_parts _ _ _ _ _ _ _ _ _ _ _ _ _ (hpre c)).2.2.2.2.2.2.1

theorem pre_arg8 (hpre : Cert.Pre_KernelIdeal m) (c : Dev Cert.KernelIdeal.nD) :
    ∃ r : ℝ, (m ((c.tc : Thread Cert.KernelIdeal.nD Cert.KernelIdeal.τ).loc Cert.KernelIdeal.main_arg8) : Cert.KernelIdeal.S_.Idx → EReal) ix0 = (r : EReal) :=
  (fn_parts _ _ _ _ _ _ _ _ _ _ _ _ _ (hpre c)).2.2.2.2.2.2.2.1

theorem pre_arg9 (hpre : Cert.Pre_KernelIdeal m) (c : Dev Cert.KernelIdeal.nD) :
    ∃ r : ℝ, (m ((c.tc : Thread Cert.KernelIdeal.nD Cert.KernelIdeal.τ).loc Cert.KernelIdeal.main_arg9) : Cert.KernelIdeal.S_.Idx → EReal) ix0 = (r : EReal) :=
  (fn_parts _ _ _ _ _ _ _ _ _ _ _ _ _ (hpre c)).2.2.2.2.2.2.2.2.1

theorem pre_arg10 (hpre : Cert.Pre_KernelIdeal m) (c : Dev Cert.KernelIdeal.nD) :
    ∃ r : ℝ, (m ((c.tc : Thread Cert.KernelIdeal.nD Cert.KernelIdeal.τ).loc Cert.KernelIdeal.main_arg10) : Cert.KernelIdeal.S_.Idx → EReal) ix0 = (r : EReal) :=
  (fn_parts _ _ _ _ _ _ _ _ _ _ _ _ _ (hpre c)).2.2.2.2.2.2.2.2.2.1

theorem pre_arg11 (hpre : Cert.Pre_KernelIdeal m) (c : Dev Cert.KernelIdeal.nD) :
    ∃ r : ℝ, (m ((c.tc : Thread Cert.KernelIdeal.nD Cert.KernelIdeal.τ).loc Cert.KernelIdeal.main_arg11) : Cert.KernelIdeal.S_.Idx → EReal) ix0 = (r : EReal) :=
  (fn_parts _ _ _ _ _ _ _ _ _ _ _ _ _ (hpre c)).2.2.2.2.2.2.2.2.2.2.1

theorem pre_arg12 (hpre : Cert.Pre_KernelIdeal m) (c : Dev Cert.KernelIdeal.nD) :
    ∃ r : ℝ, (m ((c.tc : Thread Cert.KernelIdeal.nD Cert.KernelIdeal.τ).loc Cert.KernelIdeal.main_arg12) : Cert.KernelIdeal.S_.Idx → EReal) ix0 = (r : EReal) :=
  (fn_parts _ _ _ _ _ _ _ _ _ _ _ _ _ (hpre c)).2.2.2.2.2.2.2.2.2.2.2

end

end Cert.Reals

end
-- ==== Proof.KernelVal.lean ====
/-
  The program's two results at an index are the specification's functions of its thirteen arguments: the dense
  region leaves the products of the hidden rows with the stacked weights plus the stacked bias; the retrieval region,
  entered with the normalized states, the gate and the masked one-hot rows, leaves the tiled position-masked sums; the
  host tail combines the columns; under the finiteness of the inputs this is the specification.
-/
import proofs.«114772_j1760936591416_2_alg».proof.Proof.KernelValCore
import proofs.«114772_j1760936591416_2_alg».proof.Proof.KOuts
import proofs.«114772_j1760936591416_2_alg».proof.Proof.Val0
import proofs.«114772_j1760936591416_2_alg».proof.Proof.Val1
import proofs.«114772_j1760936591416_2_alg».proof.Proof.HostValOps0C
import proofs.«114772_j1760936591416_2_alg».proof.Proof.HostValOps1A
import proofs.«114772_j1760936591416_2_alg».proof.Proof.HostValMid
import proofs.«114772_j1760936591416_2_alg».proof.Proof.Reals

noncomputable section

namespace Cert.KernelIdeal.KVal

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- What the dense region leaves, at an index: the hidden row against a row of the stacked weights, plus the stacked bias. -/
theorem dense_ix (c : Dev nD) (b : Fin 8) (q : Fin 2048) (j : Fin 256) :
    HostVal.denseOut (Gen.outsF m) c (ix3 b q j)
      = (∑ d : Fin 1024, hA m c (ix3 b q d) * HostVal.wcatOf (wnA m c) (wtA m c) (eA m c) (ix2 j d))
        + HostVal.bcatOf (bnA m c) (btA m c) (ix2 (0 : Fin 1) j) := by
  have e : (HostVal.denseOut (Gen.outsF m) c : S8x2048x256.Idx → EReal)
      = Val0.denseAt (hA m c) (HostVal.wcatOf (wnA m c) (wtA m c) (eA m c)) (HostVal.bcatOf (bnA m c) (btA m c)) := by
    show (Gen.outsF m 6 main_v9 c : S8x2048x256.Idx → EReal) = _
    rw [Gen.outsF_6]
    refine (Gen.exit0_arr (Gen.V5 m) c 3).trans ?_
    rw [Val0.final0 (Gen.atTc (Gen.V5 m)) c]
    show Val0.denseAt (Gen.V5 m c main_arg1 : S8x2048x1024.Idx → EReal) (Gen.V5 m c main_v4 : S256x1024.Idx → EReal)
      (Gen.V5 m c main_v8 : S1x256.Idx → EReal) = _
    rw [HostVal.V5_arg1, HostVal.V5_v4, HostVal.V5_v8]
  rw [e, Val0.denseAt_ix]

/-- What the retrieval region leaves, at an index: the tiled, position-masked sums over the normalized states. -/
theorem retr_ix (c : Dev nD) (b : Fin 8) (q : Fin 2048) (j : Fin 128) :
    HostVal.retrOut (Gen.outsF m) c (ix3 b q j)
      = ∑ ki : Fin 4, if ki.val ≤ q.val / 512 then ∑ k' : Fin 512,
        (if 512 * ki.val + k'.val < q.val
          then ∑ d : Fin 1024, (Shared.hnOf (hA m c) (ix3 b q d)
              * (Gen.V19 m (Gen.outsF m) c main_v50 : S8x2048x1.Idx → EReal) (ix3 b q (0 : Fin 1)))
            * Shared.hnOf (hA m c) (ix3 b (Spec.tk ki k') d) else 0)
          * (Gen.V19 m (Gen.outsF m) c main_v48 : S8x2048x128.Idx → EReal) (ix3 b (Spec.tk ki k') j) else 0 := by
  have e : (HostVal.retrOut (Gen.outsF m) c : S8x2048x128.Idx → EReal)
      = Val1.retrAt (Shared.hnOf (hA m c)) (Gen.V19 m (Gen.outsF m) c main_v48 : S8x2048x128.Idx → EReal)
          (Gen.V19 m (Gen.outsF m) c main_v50 : S8x2048x1.Idx → EReal) := by
    show (Gen.outsF m 20 main_v57 c : S8x2048x128.Idx → EReal) = _
    rw [Gen.outsF_20, Gen.exit1_out, Val1.final1 (Gen.atTc (Gen.V19 m (Gen.outsF m))) c]
    show Val1.retrAt (Gen.V19 m (Gen.outsF m) c main_v56 : S8x2048x1024.Idx → EReal) _ _ = _
    rw [HostVal.V19_v56]
  rw [e]
  exact Val1.retrAt_ix _ _ _ b q j

/-- The program's 64-class result at (b, q, a) is the specification's function of the thirteen arguments. -/
theorem v72_eq (hpre : Cert.Pre_KernelIdeal m) (c : Dev nD) (b : Fin 8) (q : Fin 2048) (a : Fin 64) :
    (Gen.V31 m (Gen.outsF m) c main_v72 : S8x2048x64.Idx → EReal) (ix3 b q a)
      = Spec.Gact (fun b q d => (m ((c : Thread nD τ).loc main_arg1) : S8x2048x1024.Idx → EReal) (ix3 b q d))
          (fun a d => (m ((c : Thread nD τ).loc main_arg3) : S64x1024.Idx → EReal) (ix2 a d)) (fun a => (m ((c : Thread nD τ).loc main_arg4) : S64.Idx → EReal) (ix1 a))
          (Shared.eActOf (m ((c : Thread nD τ).loc main_arg2)))
          (fun b q d => Shared.hnOf (m ((c : Thread nD τ).loc main_arg1)) (ix3 b q d))
          (fun b q => decide (Shared.labOf (m ((c : Thread nD τ).loc main_arg0)) (ix2 b q) = 1#1))
          (fun b k => decide (Shared.valActOf (m ((c : Thread nD τ).loc main_arg0)) (ix2 b k) = 1#1))
          (fun b k a => Shared.ohActOf (m ((c : Thread nD τ).loc main_arg0)) (ix3 b k a))
          (Shared.softplusOf (m ((c : Thread nD τ).loc main_arg7)) ix0) (Shared.softplusOf (m ((c : Thread nD τ).loc main_arg9)) ix0)
          (Shared.softplusOf (m ((c : Thread nD τ).loc main_arg11)) ix0) b q a :=
  v72_of m (Gen.outsF m) c b q a (HostVal.bcatOf (bnA m c) (btA m c))
    (Gen.V19 m (Gen.outsF m) c main_v48 : S8x2048x128.Idx → EReal) (Gen.V19 m (Gen.outsF m) c main_v50 : S8x2048x1.Idx → EReal)
    (dense_ix m c)
    (fun a => HostVal.bcatOf_next _ _ 0 ⟨a.val, by have := a.isLt; omega⟩ a.isLt)
    (fun a => HostVal.bcatOf_zero _ _ 0 ⟨96 + a.val, by have := a.isLt; omega⟩ (by show 96 ≤ 96 + a.val; omega) (by show 96 + a.val < 192; have := a.isLt; omega))
    (retr_ix m c) (HostVal.v50_apply m (Gen.outsF m) c) (HostVal.v48_apply_act m (Gen.outsF m) c)
    (Reals.pre_h m hpre c) (Reals.pre_arg9 m hpre c) (Reals.pre_arg11 m hpre c)

/-- The program's 32-class result at (b, q, a) is the specification's function of the thirteen arguments. -/
theorem v79_eq (hpre : Cert.Pre_KernelIdeal m) (c : Dev nD) (b : Fin 8) (q : Fin 2048) (a : Fin 32) :
    (Gen.V31 m (Gen.outsF m) c main_v79 : S8x2048x32.Idx → EReal) (ix3 b q a)
      = Spec.Gtime (fun b q d => (m ((c : Thread nD τ).loc main_arg1) : S8x2048x1024.Idx → EReal) (ix3 b q d))
          (fun a d => (m ((c : Thread nD τ).loc main_arg5) : S32x1024.Idx → EReal) (ix2 a d)) (fun a => (m ((c : Thread nD τ).loc main_arg6) : S32.Idx → EReal) (ix1 a))
          (Shared.eTimeOf (m ((c : Thread nD τ).loc main_arg2)))
          (fun b q d => Shared.hnOf (m ((c : Thread nD τ).loc main_arg1)) (ix3 b q d))
          (fun b q => decide (Shared.labOf (m ((c : Thread nD τ).loc main_arg0)) (ix2 b q) = 1#1))
          (fun b k => decide (Shared.valTimeOf (m ((c : Thread nD τ).loc main_arg0)) (ix2 b k) = 1#1))
          (fun b k a => Shared.ohTimeOf (m ((c : Thread nD τ).loc main_arg0)) (ix3 b k a))
          (Shared.softplusOf (m ((c : Thread nD τ).loc main_arg8)) ix0) (Shared.softplusOf (m ((c : Thread nD τ).loc main_arg10)) ix0)
          (Shared.softplusOf (m ((c : Thread nD τ).loc main_arg12)) ix0) b q a :=
  v79_of m (Gen.outsF m) c b q a (HostVal.bcatOf (bnA m c) (btA m c))
    (Gen.V19 m (Gen.outsF m) c main_v48 : S8x2048x128.Idx → EReal) (Gen.V19 m (Gen.outsF m) c main_v50 : S8x2048x1.Idx → EReal)
    (dense_ix m c)
    (fun a => (HostVal.bcatOf_time _ _ 0 ⟨64 + a.val, by have := a.isLt; omega⟩ (by show 64 ≤ 64 + a.val; omega) (by show 64 + a.val < 96; have := a.isLt; omega)).trans (congrArg (fun j => btA m c (ix1 j)) (Fin.ext (by show 64 + a.val - 64 = a.val; omega))))
    (fun a => HostVal.bcatOf_zero _ _ 0 ⟨160 + a.val, by have := a.isLt; omega⟩ (by show 96 ≤ 160 + a.val; omega) (by show 160 + a.val < 192; have := a.isLt; omega))
    (retr_ix m c) (HostVal.v50_apply m (Gen.outsF m) c) (HostVal.v48_apply_time m (Gen.outsF m) c)
    (Reals.pre_h m hpre c) (Reals.pre_arg10 m hpre c) (Reals.pre_arg12 m hpre c)

end Cert.KernelIdeal.KVal

end
-- ==== Proof.lean ====
/-
  The retrieval head: dense parametric and weight-tied logits plus a causal cosine-similarity copy head, as one
  pipelined concatenated matrix product and one tiled, accumulated retrieval product, against the plain reference.

  At the extended reals both programs compute, for batch b, position q and class a,

      (∑_d h[b,q,d]·W[a,d] + bias[a]) + softplus(tied)·(∑_d h[b,q,d]·E[a,d])
        + softplus(scale)·∑_k ((if label[b,q] ∧ k < q ∧ valid[b,k] then ∑_d hn[b,q,d]·hn[b,k,d] else 0)·softplus(temp))·onehot[b,k,a],

  hn being h divided by the larger of its row norm and a positive constant. The kernel reaches it differently: the four
  weight matrices are rows of ONE padded matrix and the four heads columns of one product (the tied heads' bias a
  literal zero); the label gate multiplies the query row before the similarity product, the validity mask multiplies
  the one-hot key row, the causal mask is applied tile by tile, and the key axis is summed 512 keys at a time into an
  accumulator, only over the tiles not wholly in the future; the two softplus factors of the copy head are multiplied
  first. The two arrangements agree because every factor is a real number under the precondition (the inputs are
  finite, so the normalized rows, the one-hot rows and the softplus values are real), where multiplication
  distributes over the finite sums; a wholly future tile contributes zeros.

  The frames: each program is a chain of host stretches around its pipelined calls; between two items every
  unscoped buffer is held whole at a named valuation, each call enters from one valuation and leaves the next with
  its result array replaced by the fold of its write-backs, and no item writes an argument. The second call stages one
  array through two windows, each holding half of it; its accumulator is tracked point by point. The reference is a
  straight line of host operations.

  The kernel's idealization rewrote nothing, so that conjunct is trivial.
-/
import proofs.«114772_j1760936591416_2_alg».proof.Defs
import proofs.«114772_j1760936591416_2_alg».proof.Proof.Gen.Kernel
import proofs.«114772_j1760936591416_2_alg».proof.Proof.Gen.KernelIdeal
import proofs.«114772_j1760936591416_2_alg».proof.Proof.Gen.ReferenceIdeal
import proofs.«114772_j1760936591416_2_alg».proof.Proof.Gen.Pre_finite_inputs
import proofs.«114772_j1760936591416_2_alg».proof.Proof.KOuts
import proofs.«114772_j1760936591416_2_alg».proof.Proof.KOutsK
import proofs.«114772_j1760936591416_2_alg».proof.Proof.RunP
import proofs.«114772_j1760936591416_2_alg».proof.Proof.ReadP
import proofs.«114772_j1760936591416_2_alg».proof.Proof.RefAct
import proofs.«114772_j1760936591416_2_alg».proof.Proof.RefTime
import proofs.«114772_j1760936591416_2_alg».proof.Proof.KernelVal
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level program runs and leaves its arguments as launched. -/
theorem frame_K : @Cert.frame_Kernel Cert.Kernel.Gen.facts Cert.Pre_finite_inputs.Gen.facts :=
  fun m ρ _ => Cert.Kernel.Gen.frame_F m ρ

/-- So does its reading at the extended reals. -/
theorem frame_KI : @Cert.frame_KernelIdeal Cert.KernelIdeal.Gen.facts Cert.Pre_finite_inputs.Gen.facts :=
  fun m ρ _ => Cert.KernelIdeal.Gen.frame_F m ρ

/-- The reference is a straight line of host operations: its run, with the results dropped. -/
theorem frame_RI : @Cert.frame_ReferenceIdeal Cert.ReferenceIdeal.Gen.facts Cert.Pre_finite_inputs.Gen.facts :=
  fun m ρ _ => (θ_run Cert.ReferenceIdeal.defs _ _).mono (fun _ h c => (h c).2.2)
    (Cert.ReferenceIdeal.ValueP.run (F := Ideal) m ρ)

/-- Both programs end with the same two arrays: index by index each is the specification's value of the arguments,
    the kernel's by the two calls' values and the algebra of reals, the reference's by reading its operations. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => Cert.KernelIdeal.Gen.V31 m (Cert.KernelIdeal.Gen.outsF m) c Cert.KernelIdeal.main_v72,
    fun c => Cert.KernelIdeal.Gen.V31 m (Cert.KernelIdeal.Gen.outsF m) c Cert.KernelIdeal.main_v79,
    Cert.KernelIdeal.Gen.run_vals m ρ, ?_⟩
  refine (θ_run Cert.ReferenceIdeal.defs _ _).mono (fun _ h c => ⟨(h c).1.trans ?_, (h c).2.1.trans ?_, (h c).2.2⟩)
    (Cert.ReferenceIdeal.ValueP.run (F := Ideal) m' ρ')
  · funext i
    obtain ⟨b, q, a, rfl⟩ : ∃ (b : Fin 8) (q : Fin 2048) (a : Fin 64), i = ix3 b q a := ⟨i 0, i 1, i 2, eq_ix3 i⟩
    rw [Cert.ReferenceIdeal.ReadP.val_main_v77_eq, Cert.ReferenceIdeal.RefValue.result77_eq,
      (hagree c).1, (hagree c).2.1, (hagree c).2.2.1, (hagree c).2.2.2.1, (hagree c).2.2.2.2.1, (hagree c).2.2.2.2.2.2.2.1, (hagree c).2.2.2.2.2.2.2.2.2.1, (hagree c).2.2.2.2.2.2.2.2.2.2.2.1]
    exact (Cert.KernelIdeal.KVal.v72_eq m hpre c b q a).symm
  · funext i
    obtain ⟨b, q, a, rfl⟩ : ∃ (b : Fin 8) (q : Fin 2048) (a : Fin 32), i = ix3 b q a := ⟨i 0, i 1, i 2, eq_ix3 i⟩
    rw [Cert.ReferenceIdeal.ReadP.val_main_v85_eq, Cert.ReferenceIdeal.RefValue.result85_eq,
      (hagree c).1, (hagree c).2.1, (hagree c).2.2.1, (hagree c).2.2.2.2.2.1, (hagree c).2.2.2.2.2.2.1, (hagree c).2.2.2.2.2.2.2.2.1, (hagree c).2.2.2.2.2.2.2.2.2.2.1, (hagree c).2.2.2.2.2.2.2.2.2.2.2.2]
    exact (Cert.KernelIdeal.KVal.v79_eq m hpre c b q a).symm

theorem claim : Cert.Claim := ⟨Cert.Kernel.Gen.facts, Cert.KernelIdeal.Gen.facts, Cert.ReferenceIdeal.Gen.facts, Cert.Pre_finite_inputs.Gen.facts,
  frame_K, frame_KI, frame_RI, trivial, algebraic⟩

end Cert.Proof

end
